-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v341)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v341) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v489) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x64x64 : Shape := ⟨4, ![32, 32, 64, 64]⟩
abbrev S288x64 : Shape := ⟨2, ![288, 64]⟩
abbrev S4096 : Shape := ⟨1, ![4096]⟩
abbrev S16638 : Shape := ⟨1, ![16638]⟩
abbrev S_ : Shape := ⟨0, ![]⟩

class Facts : Prop where
  bcast_S_S32x32x64x64 : S_.BroadcastsInDim S32x32x64x64 (![] : Fin 0 → Fin S32x32x64x64.rank)
  reducesTo_S32x32x64x64_S_d0_1_2_3 : S32x32x64x64.ReducesTo [0, 1, 2, 3] S_
  h_S_ : 0 < S_.numel
  bcast_S_S288x64 : S_.BroadcastsInDim S288x64 (![] : Fin 0 → Fin S288x64.rank)
  reducesTo_S288x64_S_d0_1 : S288x64.ReducesTo [0, 1] S_
  bcast_S_S4096 : S_.BroadcastsInDim S4096 (![] : Fin 0 → Fin S4096.rank)
  reducesTo_S4096_S_d0 : S4096.ReducesTo [0] S_
  bcast_S_S16638 : S_.BroadcastsInDim S16638 (![] : Fin 0 → Fin S16638.rank)
  reducesTo_S16638_S_d0 : S16638.ReducesTo [0] S_

variable [Facts]

def fn_part1 {F : FTy → Type} [FloatOps F] (main_arg4 : FVec F S16638 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16638 .f32 := Host.absf main_arg4
  let main_cst_6 : FVec F S_ .f32 := constant S_ .f32 0x7F800000#32
  let main_v20 : FVec F S16638 .f32 := broadcastInDim S16638 ![] bcast_S_S16638 main_cst_6
  let main_v21 : IVec S16638 1 := cmpf .olt main_v19 main_v20
  let main_c_7 : IVec S_ 1 := constantI S_ 1 1#1
  let main_v22 : IVec S_ 1 := (fun x v => Host.reduce IntOp.andi x v reducesTo_S16638_S_d0 h_S_) main_v21 main_c_7
  let main_v23 : IVec S_ 1 := andi main_v18 main_v22
  main_v23

def fn {F : FTy → Type} [FloatOps F] (main_arg0 : FVec F S32x32x64x64 .f32) (main_arg1 : FVec F S288x64 .f32) (main_arg2 : FVec F S288x64 .f32) (main_arg3 : FVec F S4096 .f32) (main_arg4 : FVec F S16638 .f32) (main_arg5 : IVec S16638 32) (main_arg6 : IVec S16638 32) : IVec S_ 1 :=
  let main_v0 : FVec F S32x32x64x64 .f32 := Host.absf main_arg0
  let main_cst : FVec F S_ .f32 := constant S_ .f32 0x7F800000#32
  let main_v1 : FVec F S32x32x64x64 .f32 := broadcastInDim S32x32x64x64 ![] bcast_S_S32x32x64x64 main_cst
  let main_v2 : IVec S32x32x64x64 1 := cmpf .olt main_v0 main_v1
  let main_c : IVec S_ 1 := constantI S_ 1 1#1
  let main_v3 : IVec S_ 1 := (fun x v => Host.reduce IntOp.andi x v reducesTo_S32x32x64x64_S_d0_1_2_3 h_S_) main_v2 main_c
  let main_v4 : FVec F S288x64 .f32 := Host.absf main_arg1
  let main_cst_0 : FVec F S_ .f32 := constant S_ .f32 0x7F800000#32
  let main_v5 : FVec F S288x64 .f32 := broadcastInDim S288x64 ![] bcast_S_S288x64 main_cst_0
  let main_v6 : IVec S288x64 1 := cmpf .olt main_v4 main_v5
  let main_c_1 : IVec S_ 1 := constantI S_ 1 1#1
  let main_v7 : IVec S_ 1 := (fun x v => Host.reduce IntOp.andi x v reducesTo_S288x64_S_d0_1 h_S_) main_v6 main_c_1
  let main_v8 : IVec S_ 1 := andi main_v3 main_v7
  let main_v9 : FVec F S288x64 .f32 := Host.absf main_arg2
  let main_cst_2 : FVec F S_ .f32 := constant S_ .f32 0x7F800000#32
  let main_v10 : FVec F S288x64 .f32 := broadcastInDim S288x64 ![] bcast_S_S288x64 main_cst_2
  let main_v11 : IVec S288x64 1 := cmpf .olt main_v9 main_v10
  let main_c_3 : IVec S_ 1 := constantI S_ 1 1#1
  let main_v12 : IVec S_ 1 := (fun x v => Host.reduce IntOp.andi x v reducesTo_S288x64_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S32x32x64x64 : Shape := ⟨4, ![32, 32, 64, 64]⟩
abbrev S288x64 : Shape := ⟨2, ![288, 64]⟩
abbrev S4096 : Shape := ⟨1, ![4096]⟩
abbrev S16638 : Shape := ⟨1, ![16638]⟩
abbrev S32x32x4096 : Shape := ⟨3, ![32, 32, 4096]⟩
abbrev S4096x32x32 : Shape := ⟨3, ![4096, 32, 32]⟩
abbrev S4096x1024 : Shape := ⟨2, ![4096, 1024]⟩
abbrev S_ : Shape := ⟨0, ![]⟩
abbrev S4096x4096 : Shape := ⟨2, ![4096, 4096]⟩
abbrev S16638x1 : Shape := ⟨2, ![16638, 1]⟩
abbrev S16638x2 : Shape := ⟨2, ![16638, 2]⟩
abbrev S4096x2048 : Shape := ⟨2, ![4096, 2048]⟩
abbrev S1024x1024 : Shape := ⟨2, ![1024, 1024]⟩
abbrev S1024x2048 : Shape := ⟨2, ![1024, 2048]⟩
abbrev S4096x1 : Shape := ⟨2, ![4096, 1]⟩
abbrev S32x4096x32 : Shape := ⟨3, ![32, 4096, 32]⟩
abbrev S32x4096x1x32 : Shape := ⟨4, ![32, 4096, 1, 32]⟩
abbrev S32x4096x9x32 : Shape := ⟨4, ![32, 4096, 9, 32]⟩
abbrev S131072x288 : Shape := ⟨2, ![131072, 288]⟩
abbrev S131072x576 : Shape := ⟨2, ![131072, 576]⟩
abbrev S576x64 : Shape := ⟨2, ![576, 64]⟩
abbrev S576x128 : Shape := ⟨2, ![576, 128]⟩
abbrev S131072x128 : Shape := ⟨2, ![131072, 128]⟩
abbrev S4096x576 : Shape := ⟨2, ![4096, 576]⟩
abbrev S4096x128 : Shape := ⟨2, ![4096, 128]⟩
abbrev S131072x64 : Shape := ⟨2, ![131072, 64]⟩
abbrev S32x64x64x64 : Shape := ⟨4, ![32, 64, 64, 64]⟩

abbrev nBuf : Space → Nat
  | .hbm => 360
  | .vmem => 62
  | .smem => 0
  | _ => 0

abbrev hbmTy0_0 (i : Nat) : BufTy := match i % 128 with
  | 0 => ⟨S32x32x64x64, .f32⟩
  | 1 => ⟨S288x64, .f32⟩
  | 2 => ⟨S288x64, .f32⟩
  | 3 => ⟨S4096, .f32⟩
  | 4 => ⟨S16638, .f32⟩
  | 5 => ⟨S16638, .i32⟩
  | 6 => ⟨S16638, .i32⟩
  | 7 => ⟨S32x32x4096, .f32⟩
  | 8 => ⟨S4096x32x32, .f32⟩
  | 9 => ⟨S4096x1024, .f32⟩
  | 10 => ⟨S4096, .f32⟩
  | 11 => ⟨S_, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S_, .f32⟩
  | 19 => ⟨S4096x4096, .f32⟩
  | 20 => ⟨S_, .i32⟩
  | 21 => ⟨S16638, .i32⟩
  | 22 => ⟨S16638, .i1⟩
  | 23 => ⟨S_, .i32⟩
  | 24 => ⟨S16638, .i32⟩
  | 25 => ⟨S16638, .i32⟩
  | 26 => ⟨S16638, .i32⟩
  | 27 => ⟨S_, .i32⟩
  | 28 => ⟨S16638, .i32⟩
  | 29 => ⟨S16638, .i1⟩
  | 30 => ⟨S_, .i32⟩
  | 31 => ⟨S16638, .i32⟩
  | 32 => ⟨S16638, .i32⟩
  | 33 => ⟨S16638, .i32⟩
  | 34 => ⟨S16638x1, .i32⟩
  | 35 => ⟨S16638x1, .i32⟩
  | 36 => ⟨S16638x2, .i32⟩
  | 37 => ⟨S4096x4096, .f32⟩
  | 38 => ⟨S4096x4096, .bf16⟩
  | 39 => ⟨S_, .f32⟩
  | 40 => ⟨S4096x1024, .f32⟩
  | 41 => ⟨S4096x2048, .f32⟩
  | 42 => ⟨S4096x2048, .bf16⟩
  | 43 => ⟨S4096x2048, .f32⟩
  | 44 => ⟨S4096x1024, .f32⟩
  | 45 => ⟨S4096x1024, .f32⟩
  | 46 => ⟨S4096x1, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1, .f32⟩
  | 59 => ⟨S4096x1024, .f32⟩
  | 60 => ⟨S4096x1024, .f32⟩
  | 61 => ⟨S4096x1, .f32⟩
  | 62 => ⟨S4096x1024, .f32⟩
  | 63 => ⟨S4096x1024, .f32⟩
  | 64 => ⟨S4096x1024, .f32⟩
  | 65 => ⟨S4096x1, .f32⟩
  | 66 => ⟨S4096x1024, .f32⟩
  | 67 => ⟨S4096x1024, .f32⟩
  | 68 => ⟨S4096x1, .f32⟩
  | 69 => ⟨S4096x1024, .f32⟩
  | 70 => ⟨S4096x1024, .f32⟩
  | 71 => ⟨S4096x1024, .f32⟩
  | 72 => ⟨S4096x2048, .f32⟩
  | 73 => ⟨S4096x2048, .bf16⟩
  | 74 => ⟨S4096x2048, .f32⟩
  | 75 => ⟨S4096x1024, .f32⟩
  | 76 => ⟨S4096x1024, .f32⟩
  | 77 => ⟨S4096x1, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1, .f32⟩
  | 90 => ⟨S4096x1024, .f32⟩
  | 91 => ⟨S4096x1024, .f32⟩
  | 92 => ⟨S4096x1, .f32⟩
  | 93 => ⟨S4096x1024, .f32⟩
  | 94 => ⟨S4096x1024, .f32⟩
  | 95 => ⟨S4096x1024, .f32⟩
  | 96 => ⟨S4096x1, .f32⟩
  | 97 => ⟨S4096x1024, .f32⟩
  | 98 => ⟨S4096x1024, .f32⟩
  | 99 => ⟨S4096x1, .f32⟩
  | 100 => ⟨S4096x1024, .f32⟩
  | 101 => ⟨S4096x1024, .f32⟩
  | 102 => ⟨S4096x1024, .f32⟩
  | 103 => ⟨S4096x2048, .f32⟩
  | 104 => ⟨S4096x2048, .bf16⟩
  | 105 => ⟨S4096x2048, .f32⟩
  | 106 => ⟨S4096x1024, .f32⟩
  | 107 => ⟨S4096x1024, .f32⟩
  | 108 => ⟨S4096x1, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1, .f32⟩
  | 121 => ⟨S4096x1024, .f32⟩
  | 122 => ⟨S4096x1024, .f32⟩
  | 123 => ⟨S4096x1, .f32⟩
  | 124 => ⟨S4096x1024, .f32⟩
  | 125 => ⟨S4096x1024, .f32⟩
  | 126 => ⟨S4096x1024, .f32⟩
  | 127 => ⟨S4096x1, .f32⟩
  | _ => ⟨S32x32x64x64, .f32⟩

abbrev hbmTy0_1 (i : Nat) : BufTy := match i % 128 with
  | 0 => ⟨S4096x1024, .f32⟩
  | 1 => ⟨S4096x1024, .f32⟩
  | 2 => ⟨S4096x1, .f32⟩
  | 3 => ⟨S4096x1024, .f32⟩
  | 4 => ⟨S4096x1024, .f32⟩
  | 5 => ⟨S4096x1024, .f32⟩
  | 6 => ⟨S4096x2048, .f32⟩
  | 7 => ⟨S4096x2048, .bf16⟩
  | 8 => ⟨S4096x2048, .f32⟩
  | 9 => ⟨S4096x1024, .f32⟩
  | 10 => ⟨S4096x1024, .f32⟩
  | 11 => ⟨S4096x1, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1, .f32⟩
  | 24 => ⟨S4096x1024, .f32⟩
  | 25 => ⟨S4096x1024, .f32⟩
  | 26 => ⟨S4096x1, .f32⟩
  | 27 => ⟨S4096x1024, .f32⟩
  | 28 => ⟨S4096x1024, .f32⟩
  | 29 => ⟨S4096x1024, .f32⟩
  | 30 => ⟨S4096x1, .f32⟩
  | 31 => ⟨S4096x1024, .f32⟩
  | 32 => ⟨S4096x1024, .f32⟩
  | 33 => ⟨S4096x1, .f32⟩
  | 34 => ⟨S4096x1024, .f32⟩
  | 35 => ⟨S4096x1024, .f32⟩
  | 36 => ⟨S4096x1024, .f32⟩
  | 37 => ⟨S4096x2048, .f32⟩
  | 38 => ⟨S4096x2048, .bf16⟩
  | 39 => ⟨S4096x2048, .f32⟩
  | 40 => ⟨S4096x1024, .f32⟩
  | 41 => ⟨S4096x1024, .f32⟩
  | 42 => ⟨S4096x1, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1, .f32⟩
  | 55 => ⟨S4096x1024, .f32⟩
  | 56 => ⟨S4096x1024, .f32⟩
  | 57 => ⟨S4096x1, .f32⟩
  | 58 => ⟨S4096x1024, .f32⟩
  | 59 => ⟨S4096x1024, .f32⟩
  | 60 => ⟨S4096x1024, .f32⟩
  | 61 => ⟨S4096x1, .f32⟩
  | 62 => ⟨S4096x1024, .f32⟩
  | 63 => ⟨S4096x1024, .f32⟩
  | 64 => ⟨S4096x1, .f32⟩
  | 65 => ⟨S4096x1024, .f32⟩
  | 66 => ⟨S4096x1024, .f32⟩
  | 67 => ⟨S4096x1024, .f32⟩
  | 68 => ⟨S4096x2048, .f32⟩
  | 69 => ⟨S4096x2048, .bf16⟩
  | 70 => ⟨S4096x2048, .f32⟩
  | 71 => ⟨S4096x1024, .f32⟩
  | 72 => ⟨S4096x1024, .f32⟩
  | 73 => ⟨S4096x1, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1, .f32⟩
  | 86 => ⟨S4096x1024, .f32⟩
  | 87 => ⟨S4096x1024, .f32⟩
  | 88 => ⟨S4096x1, .f32⟩
  | 89 => ⟨S4096x1024, .f32⟩
  | 90 => ⟨S4096x1024, .f32⟩
  | 91 => ⟨S4096x1024, .f32⟩
  | 92 => ⟨S4096x1, .f32⟩
  | 93 => ⟨S4096x1024, .f32⟩
  | 94 => ⟨S4096x1024, .f32⟩
  | 95 => ⟨S4096x1, .f32⟩
  | 96 => ⟨S4096x1024, .f32⟩
  | 97 => ⟨S4096x1024, .f32⟩
  | 98 => ⟨S4096x1024, .f32⟩
  | 99 => ⟨S4096x2048, .f32⟩
  | 100 => ⟨S4096x2048, .bf16⟩
  | 101 => ⟨S4096x2048, .f32⟩
  | 102 => ⟨S4096x1024, .f32⟩
  | 103 => ⟨S4096x1024, .f32⟩
  | 104 => ⟨S4096x1, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1, .f32⟩
  | 117 => ⟨S4096x1024, .f32⟩
  | 118 => ⟨S4096x1024, .f32⟩
  | 119 => ⟨S4096x1, .f32⟩
  | 120 => ⟨S4096x1024, .f32⟩
  | 121 => ⟨S4096x1024, .f32⟩
  | 122 => ⟨S4096x1024, .f32⟩
  | 123 => ⟨S4096x1, .f32⟩
  | 124 => ⟨S4096x1024, .f32⟩
  | 125 => ⟨S4096x1024, .f32⟩
  | 126 => ⟨S4096x1, .f32⟩
  | 127 => ⟨S4096x1024, .f32⟩
  | _ => ⟨S32x32x64x64, .f32⟩

abbrev hbmTy0_2 (i : Nat) : BufTy := match i % 128 with
  | 0 => ⟨S4096x1024, .f32⟩
  | 1 => ⟨S4096x1024, .f32⟩
  | 2 => ⟨S4096x2048, .f32⟩
  | 3 => ⟨S4096x2048, .bf16⟩
  | 4 => ⟨S4096x2048, .f32⟩
  | 5 => ⟨S4096x1024, .f32⟩
  | 6 => ⟨S4096x1024, .f32⟩
  | 7 => ⟨S4096x1, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1, .f32⟩
  | 20 => ⟨S4096x1024, .f32⟩
  | 21 => ⟨S4096x1024, .f32⟩
  | 22 => ⟨S4096x1, .f32⟩
  | 23 => ⟨S4096x1024, .f32⟩
  | 24 => ⟨S4096x1024, .f32⟩
  | 25 => ⟨S4096x1024, .f32⟩
  | 26 => ⟨S4096x1, .f32⟩
  | 27 => ⟨S4096x1024, .f32⟩
  | 28 => ⟨S4096x1024, .f32⟩
  | 29 => ⟨S4096x1, .f32⟩
  | 30 => ⟨S4096x1024, .f32⟩
  | 31 => ⟨S4096x1024, .f32⟩
  | 32 => ⟨S4096x1024, .f32⟩
  | 33 => ⟨S4096x32x32, .f32⟩
  | 34 => ⟨S32x4096x32, .f32⟩
  | 35 => ⟨S4096x32x32, .f32⟩
  | 36 => ⟨S32x4096x32, .f32⟩
  | 37 => ⟨S4096x32x32, .f32⟩
  | 38 => ⟨S32x4096x32, .f32⟩
  | 39 => ⟨S4096x32x32, .f32⟩
  | 40 => ⟨S32x4096x32, .f32⟩
  | 41 => ⟨S4096x32x32, .f32⟩
  | 42 => ⟨S32x4096x32, .f32⟩
  | 43 => ⟨S4096x32x32, .f32⟩
  | 44 => ⟨S32x4096x32, .f32⟩
  | 45 => ⟨S4096x32x32, .f32⟩
  | 46 => ⟨S32x4096x32, .f32⟩
  | 47 => ⟨S4096x32x32, .f32⟩
  | 48 => ⟨S32x4096x32, .f32⟩
  | 49 => ⟨S4096x32x32, .f32⟩
  | 50 => ⟨S32x4096x32, .f32⟩
  | 51 => ⟨S32x4096x1x32, .f32⟩
  | 52 => ⟨S32x4096x1x32, .f32⟩
  | 53 => ⟨S32x4096x1x32, .f32⟩
  | 54 => ⟨S32x4096x1x32, .f32⟩
  | 55 => ⟨S32x4096x1x32, .f32⟩
  | 56 => ⟨S32x4096x1x32, .f32⟩
  | 57 => ⟨S32x4096x1x32, .f32⟩
  | 58 => ⟨S32x4096x1x32, .f32⟩
  | 59 => ⟨S32x4096x1x32, .f32⟩
  | 60 => ⟨S32x4096x9x32, .f32⟩
  | 61 => ⟨S131072x288, .f32⟩
  | 62 => ⟨S4096x32x32, .f32⟩
  | 63 => ⟨S32x4096x32, .f32⟩
  | 64 => ⟨S4096x32x32, .f32⟩
  | 65 => ⟨S32x4096x32, .f32⟩
  | 66 => ⟨S4096x32x32, .f32⟩
  | 67 => ⟨S32x4096x32, .f32⟩
  | 68 => ⟨S4096x32x32, .f32⟩
  | 69 => ⟨S32x4096x32, .f32⟩
  | 70 => ⟨S4096x32x32, .f32⟩
  | 71 => ⟨S32x4096x32, .f32⟩
  | 72 => ⟨S4096x32x32, .f32⟩
  | 73 => ⟨S32x4096x32, .f32⟩
  | 74 => ⟨S4096x32x32, .f32⟩
  | 75 => ⟨S32x4096x32, .f32⟩
  | 76 => ⟨S4096x32x32, .f32⟩
  | 77 => ⟨S32x4096x32, .f32⟩
  | 78 => ⟨S4096x32x32, .f32⟩
  | 79 => ⟨S32x4096x32, .f32⟩
  | 80 => ⟨S32x4096x1x32, .f32⟩
  | 81 => ⟨S32x4096x1x32, .f32⟩
  | 82 => ⟨S32x4096x1x32, .f32⟩
  | 83 => ⟨S32x4096x1x32, .f32⟩
  | 84 => ⟨S32x4096x1x32, .f32⟩
  | 85 => ⟨S32x4096x1x32, .f32⟩
  | 86 => ⟨S32x4096x1x32, .f32⟩
  | 87 => ⟨S32x4096x1x32, .f32⟩
  | 88 => ⟨S32x4096x1x32, .f32⟩
  | 89 => ⟨S32x4096x9x32, .f32⟩
  | 90 => ⟨S131072x288, .f32⟩
  | 91 => ⟨S131072x576, .f32⟩
  | 92 => ⟨S131072x576, .bf16⟩
  | 93 => ⟨S576x64, .f32⟩
  | 94 => ⟨S_, .i32⟩
  | 95 => ⟨S_, .f32⟩
  | 96 => ⟨S576x128, .f32⟩
  | 97 => ⟨S576x128, .bf16⟩
  | 98 => ⟨S131072x128, .f32⟩
  | 99 => ⟨S131072x64, .f32⟩
  | 100 => ⟨S_, .f32⟩
  | 101 => ⟨S131072x64, .f32⟩
  | 102 => ⟨S131072x64, .f32⟩
  | 103 => ⟨S32x64x64x64, .f32⟩
  | _ => ⟨S32x32x64x64, .f32⟩

abbrev hbmTy (i : Nat) : BufTy := match i / 128 with
  | 0 => hbmTy0_0 i
  | 1 => hbmTy0_1 i
  | 2 => hbmTy0_2 i
  | _ => ⟨S32x32x64x64, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | .local _ .vmem, ⟨14, _⟩ => ⟨S1024x1024, .bf16⟩
  | .local _ .vmem, ⟨15, _⟩ => ⟨S1024x1024, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .f32⟩
  | .local _ .vmem, ⟨19, _⟩ => ⟨S1024x2048, .f32⟩
  | .local _ .vmem, ⟨20, _⟩ => ⟨S1024x2048, .f32⟩
  | .local _ .vmem, ⟨21, _⟩ => ⟨S1024x1024, .bf16⟩
  | .local _ .vmem, ⟨22, _⟩ => ⟨S1024x1024, .bf16⟩
  | .local _ .vmem, ⟨23, _⟩ => ⟨S1024x2048, .bf16⟩
  | .local _ .vmem, ⟨24, _⟩ => ⟨S1024x2048, .bf16⟩
  | .local _ .vmem, ⟨25, _⟩ => ⟨S1024x2048, .f32⟩
  | .local _ .vmem, ⟨26, _⟩ => ⟨S1024x2048, .f32⟩
  | .local _ .vmem, ⟨27, _⟩ => ⟨S1024x2048, .f32⟩
  | .local _ .vmem, ⟨28, _⟩ => ⟨S1024x1024, .bf16⟩
  | .local _ .vmem, ⟨29, _⟩ => ⟨S1024x1024, .bf16⟩
  | .local _ .vmem, ⟨30, _⟩ => ⟨S1024x2048, .bf16⟩
  | .local _ .vmem, ⟨31, _⟩ => ⟨S1024x2048, .bf16⟩
  | .local _ .vmem, ⟨32, _⟩ => ⟨S1024x2048, .f32⟩
  | .local _ .vmem, ⟨33, _⟩ => ⟨S1024x2048, .f32⟩
  | .local _ .vmem, ⟨34, _⟩ => ⟨S1024x2048, .f32⟩
  | .local _ .vmem, ⟨35, _⟩ => ⟨S1024x1024, .bf16⟩
  | .local _ .vmem, ⟨36, _⟩ => ⟨S1024x1024, .bf16⟩
  | .local _ .vmem, ⟨37, _⟩ => ⟨S1024x2048, .bf16⟩
  | .local _ .vmem, ⟨38, _⟩ => ⟨S1024x2048, .bf16⟩
  | .local _ .vmem, ⟨39, _⟩ => ⟨S1024x2048, .f32⟩
  | .local _ .vmem, ⟨40, _⟩ => ⟨S1024x2048, .f32⟩
  | .local _ .vmem, ⟨41, _⟩ => ⟨S1024x2048, .f32⟩
  | .local _ .vmem, ⟨42, _⟩ => ⟨S1024x1024, .bf16⟩
  | .local _ .vmem, ⟨43, _⟩ => ⟨S1024x1024, .bf16⟩
  | .local _ .vmem, ⟨44, _⟩ => ⟨S1024x2048, .bf16⟩
  | .local _ .vmem, ⟨45, _⟩ => ⟨S1024x2048, .bf16⟩
  | .local _ .vmem, ⟨46, _⟩ => ⟨S1024x2048, .f32⟩
  | .local _ .vmem, ⟨47, _⟩ => ⟨S1024x2048, .f32⟩
  | .local _ .vmem, ⟨48, _⟩ => ⟨S1024x2048, .f32⟩
  | .local _ .vmem, ⟨49, _⟩ => ⟨S1024x1024, .bf16⟩
  | .local _ .vmem, ⟨50, _⟩ => ⟨S1024x1024, .bf16⟩
  | .local _ .vmem, ⟨51, _⟩ => ⟨S1024x2048, .bf16⟩
  | .local _ .vmem, ⟨52, _⟩ => ⟨S1024x2048, .bf16⟩
  | .local _ .vmem, ⟨53, _⟩ => ⟨S1024x2048, .f32⟩
  | .local _ .vmem, ⟨54, _⟩ => ⟨S1024x2048, .f32⟩
  | .local _ .vmem, ⟨55, _⟩ => ⟨S1024x2048, .f32⟩
  | .local _ .vmem, ⟨56, _⟩ => ⟨S4096x576, .bf16⟩
  | .local _ .vmem, ⟨57, _⟩ => ⟨S4096x576, .bf16⟩
  | .local _ .vmem, ⟨58, _⟩ => ⟨S576x128, .bf16⟩
  | .local _ .vmem, ⟨59, _⟩ => ⟨S4096x128, .f32⟩
  | .local _ .vmem, ⟨60, _⟩ => ⟨S4096x128, .f32⟩
  | .local _ .vmem, ⟨61, _⟩ => ⟨S4096x128, .f32⟩
  | _, _ => ⟨S32x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_v280 : Ref sig .tc := ⟨.hbm, 295, rfl⟩
abbrev main_v281 : Ref sig .tc := ⟨.hbm, 296, rfl⟩
abbrev main_v282 : Ref sig .tc := ⟨.hbm, 297, rfl⟩
abbrev main_v283 : Ref sig .tc := ⟨.hbm, 298, rfl⟩
abbrev main_v284 : Ref sig .tc := ⟨.hbm, 299, rfl⟩
abbrev main_v285 : Ref sig .tc := ⟨.hbm, 300, rfl⟩
abbrev main_v286 : Ref sig .tc := ⟨.hbm, 301, rfl⟩
abbrev main_v287 : Ref sig .tc := ⟨.hbm, 302, rfl⟩
abbrev main_v288 : Ref sig .tc := ⟨.hbm, 303, rfl⟩
abbrev main_v289 : Ref sig .tc := ⟨.hbm, 304, rfl⟩
abbrev main_v290 : Ref sig .tc := ⟨.hbm, 305, rfl⟩
abbrev main_v291 : Ref sig .tc := ⟨.hbm, 306, rfl⟩
abbrev main_v292 : Ref sig .tc := ⟨.hbm, 307, rfl⟩
abbrev main_v293 : Ref sig .tc := ⟨.hbm, 308, rfl⟩
abbrev main_v294 : Ref sig .tc := ⟨.hbm, 309, rfl⟩
abbrev main_v295 : Ref sig .tc := ⟨.hbm, 310, rfl⟩
abbrev main_v296 : Ref sig .tc := ⟨.hbm, 311, rfl⟩
abbrev main_v297 : Ref sig .tc := ⟨.hbm, 312, rfl⟩
abbrev main_v298 : Ref sig .tc := ⟨.hbm, 313, rfl⟩
abbrev main_v299 : Ref sig .tc := ⟨.hbm, 314, rfl⟩
abbrev main_v300 : Ref sig .tc := ⟨.hbm, 315, rfl⟩
abbrev main_v301 : Ref sig .tc := ⟨.hbm, 316, rfl⟩
abbrev main_v302 : Ref sig .tc := ⟨.hbm, 317, rfl⟩
abbrev main_v303 : Ref sig .tc := ⟨.hbm, 318, rfl⟩
abbrev main_v304 : Ref sig .tc := ⟨.hbm, 319, rfl⟩
abbrev main_v305 : Ref sig .tc := ⟨.hbm, 320, rfl⟩
abbrev main_v306 : Ref sig .tc := ⟨.hbm, 321, rfl⟩
abbrev main_v307 : Ref sig .tc := ⟨.hbm, 322, rfl⟩
abbrev main_v308 : Ref sig .tc := ⟨.hbm, 323, rfl⟩
abbrev main_v309 : Ref sig .tc := ⟨.hbm, 324, rfl⟩
abbrev main_v310 : Ref sig .tc := ⟨.hbm, 325, rfl⟩
abbrev main_v311 : Ref sig .tc := ⟨.hbm, 326, rfl⟩
abbrev main_v312 : Ref sig .tc := ⟨.hbm, 327, rfl⟩
abbrev main_v313 : Ref sig .tc := ⟨.hbm, 328, rfl⟩
abbrev main_v314 : Ref sig .tc := ⟨.hbm, 329, rfl⟩
abbrev main_v315 : Ref sig .tc := ⟨.hbm, 330, rfl⟩
abbrev main_v316 : Ref sig .tc := ⟨.hbm, 331, rfl⟩
abbrev main_v317 : Ref sig .tc := ⟨.hbm, 332, rfl⟩
abbrev main_v318 : Ref sig .tc := ⟨.hbm, 333, rfl⟩
abbrev main_v319 : Ref sig .tc := ⟨.hbm, 334, rfl⟩
abbrev main_v320 : Ref sig .tc := ⟨.hbm, 335, rfl⟩
abbrev main_v321 : Ref sig .tc := ⟨.hbm, 336, rfl⟩
abbrev main_v322 : Ref sig .tc := ⟨.hbm, 337, rfl⟩
abbrev main_v323 : Ref sig .tc := ⟨.hbm, 338, rfl⟩
abbrev main_v324 : Ref sig .tc := ⟨.hbm, 339, rfl⟩
abbrev main_v325 : Ref sig .tc := ⟨.hbm, 340, rfl⟩
abbrev main_v326 : Ref sig .tc := ⟨.hbm, 341, rfl⟩
abbrev main_v327 : Ref sig .tc := ⟨.hbm, 342, rfl⟩
abbrev main_v328 : Ref sig .tc := ⟨.hbm, 343, rfl⟩
abbrev main_v329 : Ref sig .tc := ⟨.hbm, 344, rfl⟩
abbrev main_v330 : Ref sig .tc := ⟨.hbm, 345, rfl⟩
abbrev main_v331 : Ref sig .tc := ⟨.hbm, 346, rfl⟩
abbrev main_v332 : Ref sig .tc := ⟨.hbm, 347, rfl⟩
abbrev main_v333 : Ref sig .tc := ⟨.hbm, 348, rfl⟩
abbrev main_v334 : Ref sig .tc := ⟨.hbm, 349, rfl⟩
abbrev main_c_6 : Ref sig .tc := ⟨.hbm, 350, rfl⟩
abbrev main_call0_v0 : Ref sig .tc := ⟨.hbm, 351, rfl⟩
abbrev main_v335 : Ref sig .tc := ⟨.hbm, 352, rfl⟩
abbrev main_v336 : Ref sig .tc := ⟨.hbm, 353, rfl⟩
abbrev main_v337 : Ref sig .tc := ⟨.hbm, 354, rfl⟩
abbrev main_v338 : Ref sig .tc := ⟨.hbm, 355, rfl⟩
abbrev main_cst_7 : Ref sig .tc := ⟨.hbm, 356, rfl⟩
abbrev main_v339 : Ref sig .tc := ⟨.hbm, 357, rfl⟩
abbrev main_v340 : Ref sig .tc := ⟨.hbm, 358, rfl⟩
abbrev main_v341 : Ref sig .tc := ⟨.hbm, 359, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_scratch0 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_scratch0 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_scratch0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 4], ![false, false, false]⟩

def k5_cond2 (i : grid5.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 4], ![false, false, false]⟩

def k6_cond2 (i : grid6.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 1, 4], ![false, false, false]⟩

def k7_cond2 (i : grid7.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![32, 1, 1], ![false, false, false]⟩

def k8_cond2 (i : grid8.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x576 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S576x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S4096x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

class Facts₀ : Prop where
  shapeCasts_S32x32x64x64_S32x32x4096 : S32x32x64x64.ShapeCasts S32x32x4096
  transposes_S32x32x4096_S4096x32x32_2_0_1 : S32x32x4096.Transposes [2, 0, 1] S4096x32x32
  shapeCasts_S4096x32x32_S4096x1024 : S4096x32x32.ShapeCasts S4096x1024
  bcast_S_S4096 : S_.BroadcastsInDim S4096 (![] : Fin 0 → Fin S4096.rank)
  bcast_S_S4096x4096 : S_.BroadcastsInDim S4096x4096 (![] : Fin 0 → Fin S4096x4096.rank)
  bcast_S_S16638 : S_.BroadcastsInDim S16638 (![] : Fin 0 → Fin S16638.rank)
  bcast_S16638_S16638x1_0 : S16638.BroadcastsInDim S16638x1 (![0] : Fin 1 → Fin S16638x1.rank)
  concatenates_S16638x1_S16638x1_S16638x2_d1 : Shape.Concatenates [S16638x1, S16638x1] S16638x2 1
  bitsLt_bf16_f32 : FTy.bits .bf16 < FTy.bits .f32
  bcast_S_S4096x1024 : S_.BroadcastsInDim S4096x1024 (![] : Fin 0 → Fin S4096x1024.rank)
  concatenates_S4096x1024_S4096x1024_S4096x2048_d1 : Shape.Concatenates [S4096x1024, S4096x1024] S4096x2048 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S4096x2048_S4096x1024_0_0 : S4096x2048.Slices ![0, 0] S4096x1024
  slices_S4096x2048_S4096x1024_0_1024 : S4096x2048.Slices ![0, 1024] S4096x1024
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  shapeCasts_S4096x1024_S4096x32x32 : S4096x1024.ShapeCasts S4096x32x32
  transposes_S4096x32x32_S32x4096x32_1_0_2 : S4096x32x32.Transposes [1, 0, 2] S32x4096x32
  bcast_S32x4096x32_S32x4096x1x32_0_1_3 : S32x4096x32.BroadcastsInDim S32x4096x1x32 (![0, 1, 3] : Fin 3 → Fin S32x4096x1x32.rank)
  concatenates_S32x4096x1x32_S32x4096x1x32_S32x4096x1x32_S32x4096x1x32_S32x4096x1x32_S32x4096x1x32_S32x4096x1x32_S32x4096x1x32_S32x4096x1x32_S32x4096x9x32_d2 : Shape.Concatenates [S32x4096x1x32, S32x4096x1x32, S32x4096x1x32, S32x4096x1x32, S32x4096x1x32, S32x4096x1x32, S32x4096x1x32, S32x4096x1x32, S32x4096x1x32] S32x4096x9x32 2
  shapeCasts_S32x4096x9x32_S131072x288 : S32x4096x9x32.ShapeCasts S131072x288
  concatenates_S131072x288_S131072x288_S131072x576_d1 : Shape.Concatenates [S131072x288, S131072x288] S131072x576 1
  concatenates_S288x64_S288x64_S576x64_d0 : Shape.Concatenates [S288x64, S288x64] S576x64 0
  pads_S576x64_S576x128_000_0640 : S576x64.Pads (![0, 0] : Fin 2 → Nat) ![0, 64] ![0, 0] S576x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x576_S4096x576_0_0 : ∀ a, (![0, 0] : Fin 2 → Nat) a + S4096x576.size a ≤ S4096x576.size a
  h_S4096x576 : 0 < S4096x576.numel
  shapeCasts_S4096x576_S4096x576 : S4096x576.ShapeCasts S4096x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  slices_S131072x128_S131072x64_0_0 : S131072x128.Slices ![0, 0] S131072x64
  bcast_S_S131072x64 : S_.BroadcastsInDim S131072x64 (![] : Fin 0 → Fin S131072x64.rank)
  shapeCasts_S131072x64_S32x64x64x64 : S131072x64.ShapeCasts S32x64x64x64
  scatter_S4096x4096_S16638x2_S16638_n_01_01_1_wf : ScatterDims.WF S4096x4096 S16638x2 S16638 [] [0, 1] [0, 1] 1
  dot_S1024x1024_S1024x2048_S1024x2048_1_0_0_1_n_n_wf : DotDims.WF S1024x1024 S1024x2048 S1024x2048 [1] [0] [0] [1] [] []
  dot_S4096x576_S576x128_S4096x128_1_0_0_1_n_n_wf : DotDims.WF S4096x576 S576x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x2048.size a
  hwx0_2 : ∀ i : grid0.Coords, EltTy.bits .f32 = 32 ∨ (Rect.block (s := S4096x2048) S1024x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x2048.size a
  hwx1_1 : ∀ i : grid1.Coords, EltTy.bits .bf16 = 32 ∨ (Rect.block (s := S4096x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S4096x2048.size a
  hwx1_2 : ∀ i : grid1.Coords, EltTy.bits .f32 = 32 ∨ (Rect.block (s := S4096x2048) S1024x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x2048.size a
  hwx2_1 : ∀ i : grid2.Coords, EltTy.bits .bf16 = 32 ∨ (Rect.block (s := S4096x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S4096x2048.size a
  hwx2_2 : ∀ i : grid2.Coords, EltTy.bits .f32 = 32 ∨ (Rect.block (s := S4096x2048) S1024x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .bf16 = 32 ∨ (Rect.block (s := S4096x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S4096x2048.size a
  hwx3_1 : ∀ i : grid3.Coords, EltTy.bits .bf16 = 32 ∨ (Rect.block (s := S4096x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S4096x2048.size a
  hwx3_2 : ∀ i : grid3.Coords, EltTy.bits .f32 = 32 ∨ (Rect.block (s := S4096x2048) S1024x2048.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S4096x2048.size a
  hwx4_1 : ∀ i : grid4.Coords, EltTy.bits .bf16 = 32 ∨ (Rect.block (s := S4096x2048) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x2048.size a ≤ S4096x2048.size a
  hwx4_2 : ∀ i : grid4.Coords, EltTy.bits .f32 = 32 ∨ (Rect.block (s := S4096x2048) S1024x2048.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .bf16 = 32 ∨ (Rect.block (s := S4096x4096) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x2048.size a ≤ S4096x2048.size a
  hwx5_1 : ∀ i : grid5.Coords, EltTy.bits .bf16 = 32 ∨ (Rect.block (s := S4096x2048) S1024x2048.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x2048.size a ≤ S4096x2048.size a
  hwx5_2 : ∀ i : grid5.Coords, EltTy.bits .f32 = 32 ∨ (Rect.block (s := S4096x2048) S1024x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S4096x4096.size a
  hwx6_0 : ∀ i : grid6.Coords, EltTy.bits .bf16 = 32 ∨ (Rect.block (s := S4096x4096) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x2048.size a ≤ S4096x2048.size a
  hwx6_1 : ∀ i : grid6.Coords, EltTy.bits .bf16 = 32 ∨ (Rect.block (s := S4096x2048) S1024x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x2048.size a ≤ S4096x2048.size a
  hwx6_2 : ∀ i : grid6.Coords, EltTy.bits .f32 = 32 ∨ (Rect.block (s := S4096x2048) S1024x2048.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S4096x4096.size a
  hwx7_0 : ∀ i : grid7.Coords, EltTy.bits .bf16 = 32 ∨ (Rect.block (s := S4096x4096) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x2048.size a ≤ S4096x2048.size a
  hwx7_1 : ∀ i : grid7.Coords, EltTy.bits .bf16 = 32 ∨ (Rect.block (s := S4096x2048) S1024x2048.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x2048.size a ≤ S4096x2048.size a
  hwx7_2 : ∀ i : grid7.Coords, EltTy.bits .f32 = 32 ∨ (Rect.block (s := S4096x2048) S1024x2048.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x576.size a ≤ S131072x576.size a
  hwx8_0 : ∀ i : grid8.Coords, EltTy.bits .bf16 = 32 ∨ (Rect.block (s := S131072x576) S4096x576.size (cc8_transform_0 i) (hinb8_0 i)).WholeWords (EltTy.packing .bf16)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S576x128.size a ≤ S576x128.size a
  hwx8_1 : ∀ i : grid8.Coords, EltTy.bits .bf16 = 32 ∨ (Rect.block (s := S576x128) S576x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4096x128.size a ≤ S131072x128.size a
  hwx8_2 : ∀ i : grid8.Coords, EltTy.bits .f32 = 32 ∨ (Rect.block (s := S131072x128) S4096x128.size (cc8_transform_2 i) (hinb8_2 i)).WholeWords (EltTy.packing .f32)

variable [Facts₀]

def scatter_S4096x4096_S16638x2_S16638_n_01_01_1 : ScatterDims S4096x4096 S16638x2 S16638 where
  updateWindowDims := []
  insertedWindowDims := [0, 1]
  scatterDimsToOperandDims := [0, 1]
  indexVectorDim := 1
  wf := scatter_S4096x4096_S16638x2_S16638_n_01_01_1_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S4096x576_S576x128_S4096x128_1_0_0_1_n_n : DotDims S4096x576 S576x128 S4096x128 where
  lhsContracting := [1]
  rhsContracting := [0]
  lhsNonContracting := [0]
  rhsNonContracting := [1]
  lhsBatch := []
  rhsBatch := []
  wf := dot_S4096x576_S576x128_S4096x128_1_0_0_1_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v24) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v24) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v24) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v120) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v121) S1024x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v24) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v151) S1024x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v152) S1024x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v24) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v182) S1024x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v183) S1024x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v24) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v213) S1024x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v214) S1024x2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v24) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v244) S1024x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v245) S1024x2048.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v333) S4096x576.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v336) S576x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v337) S4096x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S32x32x64x64 : Shape := ⟨4, ![32, 32, 64, 64]⟩
abbrev S288x64 : Shape := ⟨2, ![288, 64]⟩
abbrev S4096 : Shape := ⟨1, ![4096]⟩
abbrev S16638 : Shape := ⟨1, ![16638]⟩
abbrev S32x32x4096 : Shape := ⟨3, ![32, 32, 4096]⟩
abbrev S4096x32x32 : Shape := ⟨3, ![4096, 32, 32]⟩
abbrev S4096x1024 : Shape := ⟨2, ![4096, 1024]⟩
abbrev S_ : Shape := ⟨0, ![]⟩
abbrev S32x4096x32 : Shape := ⟨3, ![32, 4096, 32]⟩
abbrev S16638x1 : Shape := ⟨2, ![16638, 1]⟩
abbrev S16638x1024 : Shape := ⟨2, ![16638, 1024]⟩
abbrev S4096x1 : Shape := ⟨2, ![4096, 1]⟩
abbrev S32x4096x1x32 : Shape := ⟨4, ![32, 4096, 1, 32]⟩
abbrev S32x4096x9x32 : Shape := ⟨4, ![32, 4096, 9, 32]⟩
abbrev S131072x288 : Shape := ⟨2, ![131072, 288]⟩
abbrev S131072x64 : Shape := ⟨2, ![131072, 64]⟩
abbrev S32x64x64x64 : Shape := ⟨4, ![32, 64, 64, 64]⟩

abbrev nBuf : Space → Nat
  | .hbm => 549
  | .vmem => 0
  | .smem => 0
  | _ => 0

abbrev hbmTy0_0 (i : Nat) : BufTy := match i % 128 with
  | 0 => ⟨S32x32x64x64, .f32⟩
  | 1 => ⟨S288x64, .f32⟩
  | 2 => ⟨S288x64, .f32⟩
  | 3 => ⟨S4096, .f32⟩
  | 4 => ⟨S16638, .f32⟩
  | 5 => ⟨S16638, .i32⟩
  | 6 => ⟨S16638, .i32⟩
  | 7 => ⟨S32x32x4096, .f32⟩
  | 8 => ⟨S4096x32x32, .f32⟩
  | 9 => ⟨S4096x1024, .f32⟩
  | 10 => ⟨S4096, .f32⟩
  | 11 => ⟨S_, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S_, .f32⟩
  | 19 => ⟨S4096x1024, .f32⟩
  | 20 => ⟨S4096x32x32, .f32⟩
  | 21 => ⟨S32x4096x32, .f32⟩
  | 22 => ⟨S4096x32x32, .f32⟩
  | 23 => ⟨S32x4096x32, .f32⟩
  | 24 => ⟨S16638x1, .f32⟩
  | 25 => ⟨S_, .i32⟩
  | 26 => ⟨S16638, .i32⟩
  | 27 => ⟨S16638, .i1⟩
  | 28 => ⟨S_, .i32⟩
  | 29 => ⟨S16638, .i32⟩
  | 30 => ⟨S16638, .i32⟩
  | 31 => ⟨S16638, .i32⟩
  | 32 => ⟨S16638x1, .i32⟩
  | 33 => ⟨S16638x1024, .f32⟩
  | 34 => ⟨S16638x1024, .f32⟩
  | 35 => ⟨S16638x1024, .f32⟩
  | 36 => ⟨S_, .f32⟩
  | 37 => ⟨S4096x1024, .f32⟩
  | 38 => ⟨S16638x1, .i32⟩
  | 39 => ⟨S4096x1024, .f32⟩
  | 40 => ⟨S16638x1, .f32⟩
  | 41 => ⟨S_, .i32⟩
  | 42 => ⟨S16638, .i32⟩
  | 43 => ⟨S16638, .i1⟩
  | 44 => ⟨S_, .i32⟩
  | 45 => ⟨S16638, .i32⟩
  | 46 => ⟨S16638, .i32⟩
  | 47 => ⟨S16638, .i32⟩
  | 48 => ⟨S16638x1, .i32⟩
  | 49 => ⟨S16638x1024, .f32⟩
  | 50 => ⟨S16638x1024, .f32⟩
  | 51 => ⟨S16638x1024, .f32⟩
  | 52 => ⟨S_, .f32⟩
  | 53 => ⟨S4096x1024, .f32⟩
  | 54 => ⟨S16638x1, .i32⟩
  | 55 => ⟨S4096x1024, .f32⟩
  | 56 => ⟨S4096x1, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1, .f32⟩
  | 69 => ⟨S4096x1024, .f32⟩
  | 70 => ⟨S4096x1024, .f32⟩
  | 71 => ⟨S4096x1, .f32⟩
  | 72 => ⟨S4096x1024, .f32⟩
  | 73 => ⟨S4096x1024, .f32⟩
  | 74 => ⟨S4096x1024, .f32⟩
  | 75 => ⟨S4096x1, .f32⟩
  | 76 => ⟨S4096x1024, .f32⟩
  | 77 => ⟨S4096x1024, .f32⟩
  | 78 => ⟨S4096x1, .f32⟩
  | 79 => ⟨S4096x1024, .f32⟩
  | 80 => ⟨S4096x1024, .f32⟩
  | 81 => ⟨S4096x1024, .f32⟩
  | 82 => ⟨S4096x32x32, .f32⟩
  | 83 => ⟨S32x4096x32, .f32⟩
  | 84 => ⟨S4096x32x32, .f32⟩
  | 85 => ⟨S32x4096x32, .f32⟩
  | 86 => ⟨S16638x1, .f32⟩
  | 87 => ⟨S_, .i32⟩
  | 88 => ⟨S16638, .i32⟩
  | 89 => ⟨S16638, .i1⟩
  | 90 => ⟨S_, .i32⟩
  | 91 => ⟨S16638, .i32⟩
  | 92 => ⟨S16638, .i32⟩
  | 93 => ⟨S16638, .i32⟩
  | 94 => ⟨S16638x1, .i32⟩
  | 95 => ⟨S16638x1024, .f32⟩
  | 96 => ⟨S16638x1024, .f32⟩
  | 97 => ⟨S16638x1024, .f32⟩
  | 98 => ⟨S_, .f32⟩
  | 99 => ⟨S4096x1024, .f32⟩
  | 100 => ⟨S16638x1, .i32⟩
  | 101 => ⟨S4096x1024, .f32⟩
  | 102 => ⟨S16638x1, .f32⟩
  | 103 => ⟨S_, .i32⟩
  | 104 => ⟨S16638, .i32⟩
  | 105 => ⟨S16638, .i1⟩
  | 106 => ⟨S_, .i32⟩
  | 107 => ⟨S16638, .i32⟩
  | 108 => ⟨S16638, .i32⟩
  | 109 => ⟨S16638, .i32⟩
  | 110 => ⟨S16638x1, .i32⟩
  | 111 => ⟨S16638x1024, .f32⟩
  | 112 => ⟨S16638x1024, .f32⟩
  | 113 => ⟨S16638x1024, .f32⟩
  | 114 => ⟨S_, .f32⟩
  | 115 => ⟨S4096x1024, .f32⟩
  | 116 => ⟨S16638x1, .i32⟩
  | 117 => ⟨S4096x1024, .f32⟩
  | 118 => ⟨S4096x1, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1, .f32⟩
  | 125 => ⟨S4096x1024, .f32⟩
  | 126 => ⟨S4096x1024, .f32⟩
  | 127 => ⟨S4096x1024, .f32⟩
  | _ => ⟨S32x32x64x64, .f32⟩

abbrev hbmTy0_1 (i : Nat) : BufTy := match i % 128 with
  | 0 => ⟨S4096x1024, .f32⟩
  | 1 => ⟨S4096x1024, .f32⟩
  | 2 => ⟨S4096x1, .f32⟩
  | 3 => ⟨S4096x1024, .f32⟩
  | 4 => ⟨S4096x1024, .f32⟩
  | 5 => ⟨S4096x1, .f32⟩
  | 6 => ⟨S4096x1024, .f32⟩
  | 7 => ⟨S4096x1024, .f32⟩
  | 8 => ⟨S4096x1024, .f32⟩
  | 9 => ⟨S4096x1, .f32⟩
  | 10 => ⟨S4096x1024, .f32⟩
  | 11 => ⟨S4096x1024, .f32⟩
  | 12 => ⟨S4096x1, .f32⟩
  | 13 => ⟨S4096x1024, .f32⟩
  | 14 => ⟨S4096x1024, .f32⟩
  | 15 => ⟨S4096x1024, .f32⟩
  | 16 => ⟨S4096x32x32, .f32⟩
  | 17 => ⟨S32x4096x32, .f32⟩
  | 18 => ⟨S4096x32x32, .f32⟩
  | 19 => ⟨S32x4096x32, .f32⟩
  | 20 => ⟨S16638x1, .f32⟩
  | 21 => ⟨S_, .i32⟩
  | 22 => ⟨S16638, .i32⟩
  | 23 => ⟨S16638, .i1⟩
  | 24 => ⟨S_, .i32⟩
  | 25 => ⟨S16638, .i32⟩
  | 26 => ⟨S16638, .i32⟩
  | 27 => ⟨S16638, .i32⟩
  | 28 => ⟨S16638x1, .i32⟩
  | 29 => ⟨S16638x1024, .f32⟩
  | 30 => ⟨S16638x1024, .f32⟩
  | 31 => ⟨S16638x1024, .f32⟩
  | 32 => ⟨S_, .f32⟩
  | 33 => ⟨S4096x1024, .f32⟩
  | 34 => ⟨S16638x1, .i32⟩
  | 35 => ⟨S4096x1024, .f32⟩
  | 36 => ⟨S16638x1, .f32⟩
  | 37 => ⟨S_, .i32⟩
  | 38 => ⟨S16638, .i32⟩
  | 39 => ⟨S16638, .i1⟩
  | 40 => ⟨S_, .i32⟩
  | 41 => ⟨S16638, .i32⟩
  | 42 => ⟨S16638, .i32⟩
  | 43 => ⟨S16638, .i32⟩
  | 44 => ⟨S16638x1, .i32⟩
  | 45 => ⟨S16638x1024, .f32⟩
  | 46 => ⟨S16638x1024, .f32⟩
  | 47 => ⟨S16638x1024, .f32⟩
  | 48 => ⟨S_, .f32⟩
  | 49 => ⟨S4096x1024, .f32⟩
  | 50 => ⟨S16638x1, .i32⟩
  | 51 => ⟨S4096x1024, .f32⟩
  | 52 => ⟨S4096x1, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1, .f32⟩
  | 65 => ⟨S4096x1024, .f32⟩
  | 66 => ⟨S4096x1024, .f32⟩
  | 67 => ⟨S4096x1, .f32⟩
  | 68 => ⟨S4096x1024, .f32⟩
  | 69 => ⟨S4096x1024, .f32⟩
  | 70 => ⟨S4096x1024, .f32⟩
  | 71 => ⟨S4096x1, .f32⟩
  | 72 => ⟨S4096x1024, .f32⟩
  | 73 => ⟨S4096x1024, .f32⟩
  | 74 => ⟨S4096x1, .f32⟩
  | 75 => ⟨S4096x1024, .f32⟩
  | 76 => ⟨S4096x1024, .f32⟩
  | 77 => ⟨S4096x1024, .f32⟩
  | 78 => ⟨S4096x32x32, .f32⟩
  | 79 => ⟨S32x4096x32, .f32⟩
  | 80 => ⟨S4096x32x32, .f32⟩
  | 81 => ⟨S32x4096x32, .f32⟩
  | 82 => ⟨S16638x1, .f32⟩
  | 83 => ⟨S_, .i32⟩
  | 84 => ⟨S16638, .i32⟩
  | 85 => ⟨S16638, .i1⟩
  | 86 => ⟨S_, .i32⟩
  | 87 => ⟨S16638, .i32⟩
  | 88 => ⟨S16638, .i32⟩
  | 89 => ⟨S16638, .i32⟩
  | 90 => ⟨S16638x1, .i32⟩
  | 91 => ⟨S16638x1024, .f32⟩
  | 92 => ⟨S16638x1024, .f32⟩
  | 93 => ⟨S16638x1024, .f32⟩
  | 94 => ⟨S_, .f32⟩
  | 95 => ⟨S4096x1024, .f32⟩
  | 96 => ⟨S16638x1, .i32⟩
  | 97 => ⟨S4096x1024, .f32⟩
  | 98 => ⟨S16638x1, .f32⟩
  | 99 => ⟨S_, .i32⟩
  | 100 => ⟨S16638, .i32⟩
  | 101 => ⟨S16638, .i1⟩
  | 102 => ⟨S_, .i32⟩
  | 103 => ⟨S16638, .i32⟩
  | 104 => ⟨S16638, .i32⟩
  | 105 => ⟨S16638, .i32⟩
  | 106 => ⟨S16638x1, .i32⟩
  | 107 => ⟨S16638x1024, .f32⟩
  | 108 => ⟨S16638x1024, .f32⟩
  | 109 => ⟨S16638x1024, .f32⟩
  | 110 => ⟨S_, .f32⟩
  | 111 => ⟨S4096x1024, .f32⟩
  | 112 => ⟨S16638x1, .i32⟩
  | 113 => ⟨S4096x1024, .f32⟩
  | 114 => ⟨S4096x1, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1, .f32⟩
  | 127 => ⟨S4096x1024, .f32⟩
  | _ => ⟨S32x32x64x64, .f32⟩

abbrev hbmTy0_2 (i : Nat) : BufTy := match i % 128 with
  | 0 => ⟨S4096x1024, .f32⟩
  | 1 => ⟨S4096x1, .f32⟩
  | 2 => ⟨S4096x1024, .f32⟩
  | 3 => ⟨S4096x1024, .f32⟩
  | 4 => ⟨S4096x1024, .f32⟩
  | 5 => ⟨S4096x1, .f32⟩
  | 6 => ⟨S4096x1024, .f32⟩
  | 7 => ⟨S4096x1024, .f32⟩
  | 8 => ⟨S4096x1, .f32⟩
  | 9 => ⟨S4096x1024, .f32⟩
  | 10 => ⟨S4096x1024, .f32⟩
  | 11 => ⟨S4096x1024, .f32⟩
  | 12 => ⟨S4096x32x32, .f32⟩
  | 13 => ⟨S32x4096x32, .f32⟩
  | 14 => ⟨S4096x32x32, .f32⟩
  | 15 => ⟨S32x4096x32, .f32⟩
  | 16 => ⟨S16638x1, .f32⟩
  | 17 => ⟨S_, .i32⟩
  | 18 => ⟨S16638, .i32⟩
  | 19 => ⟨S16638, .i1⟩
  | 20 => ⟨S_, .i32⟩
  | 21 => ⟨S16638, .i32⟩
  | 22 => ⟨S16638, .i32⟩
  | 23 => ⟨S16638, .i32⟩
  | 24 => ⟨S16638x1, .i32⟩
  | 25 => ⟨S16638x1024, .f32⟩
  | 26 => ⟨S16638x1024, .f32⟩
  | 27 => ⟨S16638x1024, .f32⟩
  | 28 => ⟨S_, .f32⟩
  | 29 => ⟨S4096x1024, .f32⟩
  | 30 => ⟨S16638x1, .i32⟩
  | 31 => ⟨S4096x1024, .f32⟩
  | 32 => ⟨S16638x1, .f32⟩
  | 33 => ⟨S_, .i32⟩
  | 34 => ⟨S16638, .i32⟩
  | 35 => ⟨S16638, .i1⟩
  | 36 => ⟨S_, .i32⟩
  | 37 => ⟨S16638, .i32⟩
  | 38 => ⟨S16638, .i32⟩
  | 39 => ⟨S16638, .i32⟩
  | 40 => ⟨S16638x1, .i32⟩
  | 41 => ⟨S16638x1024, .f32⟩
  | 42 => ⟨S16638x1024, .f32⟩
  | 43 => ⟨S16638x1024, .f32⟩
  | 44 => ⟨S_, .f32⟩
  | 45 => ⟨S4096x1024, .f32⟩
  | 46 => ⟨S16638x1, .i32⟩
  | 47 => ⟨S4096x1024, .f32⟩
  | 48 => ⟨S4096x1, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1, .f32⟩
  | 61 => ⟨S4096x1024, .f32⟩
  | 62 => ⟨S4096x1024, .f32⟩
  | 63 => ⟨S4096x1, .f32⟩
  | 64 => ⟨S4096x1024, .f32⟩
  | 65 => ⟨S4096x1024, .f32⟩
  | 66 => ⟨S4096x1024, .f32⟩
  | 67 => ⟨S4096x1, .f32⟩
  | 68 => ⟨S4096x1024, .f32⟩
  | 69 => ⟨S4096x1024, .f32⟩
  | 70 => ⟨S4096x1, .f32⟩
  | 71 => ⟨S4096x1024, .f32⟩
  | 72 => ⟨S4096x1024, .f32⟩
  | 73 => ⟨S4096x1024, .f32⟩
  | 74 => ⟨S4096x32x32, .f32⟩
  | 75 => ⟨S32x4096x32, .f32⟩
  | 76 => ⟨S4096x32x32, .f32⟩
  | 77 => ⟨S32x4096x32, .f32⟩
  | 78 => ⟨S16638x1, .f32⟩
  | 79 => ⟨S_, .i32⟩
  | 80 => ⟨S16638, .i32⟩
  | 81 => ⟨S16638, .i1⟩
  | 82 => ⟨S_, .i32⟩
  | 83 => ⟨S16638, .i32⟩
  | 84 => ⟨S16638, .i32⟩
  | 85 => ⟨S16638, .i32⟩
  | 86 => ⟨S16638x1, .i32⟩
  | 87 => ⟨S16638x1024, .f32⟩
  | 88 => ⟨S16638x1024, .f32⟩
  | 89 => ⟨S16638x1024, .f32⟩
  | 90 => ⟨S_, .f32⟩
  | 91 => ⟨S4096x1024, .f32⟩
  | 92 => ⟨S16638x1, .i32⟩
  | 93 => ⟨S4096x1024, .f32⟩
  | 94 => ⟨S16638x1, .f32⟩
  | 95 => ⟨S_, .i32⟩
  | 96 => ⟨S16638, .i32⟩
  | 97 => ⟨S16638, .i1⟩
  | 98 => ⟨S_, .i32⟩
  | 99 => ⟨S16638, .i32⟩
  | 100 => ⟨S16638, .i32⟩
  | 101 => ⟨S16638, .i32⟩
  | 102 => ⟨S16638x1, .i32⟩
  | 103 => ⟨S16638x1024, .f32⟩
  | 104 => ⟨S16638x1024, .f32⟩
  | 105 => ⟨S16638x1024, .f32⟩
  | 106 => ⟨S_, .f32⟩
  | 107 => ⟨S4096x1024, .f32⟩
  | 108 => ⟨S16638x1, .i32⟩
  | 109 => ⟨S4096x1024, .f32⟩
  | 110 => ⟨S4096x1, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1, .f32⟩
  | 123 => ⟨S4096x1024, .f32⟩
  | 124 => ⟨S4096x1024, .f32⟩
  | 125 => ⟨S4096x1, .f32⟩
  | 126 => ⟨S4096x1024, .f32⟩
  | 127 => ⟨S4096x1024, .f32⟩
  | _ => ⟨S32x32x64x64, .f32⟩

abbrev hbmTy0_3 (i : Nat) : BufTy := match i % 128 with
  | 0 => ⟨S4096x1024, .f32⟩
  | 1 => ⟨S4096x1, .f32⟩
  | 2 => ⟨S4096x1024, .f32⟩
  | 3 => ⟨S4096x1024, .f32⟩
  | 4 => ⟨S4096x1, .f32⟩
  | 5 => ⟨S4096x1024, .f32⟩
  | 6 => ⟨S4096x1024, .f32⟩
  | 7 => ⟨S4096x1024, .f32⟩
  | 8 => ⟨S4096x32x32, .f32⟩
  | 9 => ⟨S32x4096x32, .f32⟩
  | 10 => ⟨S4096x32x32, .f32⟩
  | 11 => ⟨S32x4096x32, .f32⟩
  | 12 => ⟨S16638x1, .f32⟩
  | 13 => ⟨S_, .i32⟩
  | 14 => ⟨S16638, .i32⟩
  | 15 => ⟨S16638, .i1⟩
  | 16 => ⟨S_, .i32⟩
  | 17 => ⟨S16638, .i32⟩
  | 18 => ⟨S16638, .i32⟩
  | 19 => ⟨S16638, .i32⟩
  | 20 => ⟨S16638x1, .i32⟩
  | 21 => ⟨S16638x1024, .f32⟩
  | 22 => ⟨S16638x1024, .f32⟩
  | 23 => ⟨S16638x1024, .f32⟩
  | 24 => ⟨S_, .f32⟩
  | 25 => ⟨S4096x1024, .f32⟩
  | 26 => ⟨S16638x1, .i32⟩
  | 27 => ⟨S4096x1024, .f32⟩
  | 28 => ⟨S16638x1, .f32⟩
  | 29 => ⟨S_, .i32⟩
  | 30 => ⟨S16638, .i32⟩
  | 31 => ⟨S16638, .i1⟩
  | 32 => ⟨S_, .i32⟩
  | 33 => ⟨S16638, .i32⟩
  | 34 => ⟨S16638, .i32⟩
  | 35 => ⟨S16638, .i32⟩
  | 36 => ⟨S16638x1, .i32⟩
  | 37 => ⟨S16638x1024, .f32⟩
  | 38 => ⟨S16638x1024, .f32⟩
  | 39 => ⟨S16638x1024, .f32⟩
  | 40 => ⟨S_, .f32⟩
  | 41 => ⟨S4096x1024, .f32⟩
  | 42 => ⟨S16638x1, .i32⟩
  | 43 => ⟨S4096x1024, .f32⟩
  | 44 => ⟨S4096x1, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1, .f32⟩
  | 57 => ⟨S4096x1024, .f32⟩
  | 58 => ⟨S4096x1024, .f32⟩
  | 59 => ⟨S4096x1, .f32⟩
  | 60 => ⟨S4096x1024, .f32⟩
  | 61 => ⟨S4096x1024, .f32⟩
  | 62 => ⟨S4096x1024, .f32⟩
  | 63 => ⟨S4096x1, .f32⟩
  | 64 => ⟨S4096x1024, .f32⟩
  | 65 => ⟨S4096x1024, .f32⟩
  | 66 => ⟨S4096x1, .f32⟩
  | 67 => ⟨S4096x1024, .f32⟩
  | 68 => ⟨S4096x1024, .f32⟩
  | 69 => ⟨S4096x1024, .f32⟩
  | 70 => ⟨S4096x32x32, .f32⟩
  | 71 => ⟨S32x4096x32, .f32⟩
  | 72 => ⟨S4096x32x32, .f32⟩
  | 73 => ⟨S32x4096x32, .f32⟩
  | 74 => ⟨S16638x1, .f32⟩
  | 75 => ⟨S_, .i32⟩
  | 76 => ⟨S16638, .i32⟩
  | 77 => ⟨S16638, .i1⟩
  | 78 => ⟨S_, .i32⟩
  | 79 => ⟨S16638, .i32⟩
  | 80 => ⟨S16638, .i32⟩
  | 81 => ⟨S16638, .i32⟩
  | 82 => ⟨S16638x1, .i32⟩
  | 83 => ⟨S16638x1024, .f32⟩
  | 84 => ⟨S16638x1024, .f32⟩
  | 85 => ⟨S16638x1024, .f32⟩
  | 86 => ⟨S_, .f32⟩
  | 87 => ⟨S4096x1024, .f32⟩
  | 88 => ⟨S16638x1, .i32⟩
  | 89 => ⟨S4096x1024, .f32⟩
  | 90 => ⟨S16638x1, .f32⟩
  | 91 => ⟨S_, .i32⟩
  | 92 => ⟨S16638, .i32⟩
  | 93 => ⟨S16638, .i1⟩
  | 94 => ⟨S_, .i32⟩
  | 95 => ⟨S16638, .i32⟩
  | 96 => ⟨S16638, .i32⟩
  | 97 => ⟨S16638, .i32⟩
  | 98 => ⟨S16638x1, .i32⟩
  | 99 => ⟨S16638x1024, .f32⟩
  | 100 => ⟨S16638x1024, .f32⟩
  | 101 => ⟨S16638x1024, .f32⟩
  | 102 => ⟨S_, .f32⟩
  | 103 => ⟨S4096x1024, .f32⟩
  | 104 => ⟨S16638x1, .i32⟩
  | 105 => ⟨S4096x1024, .f32⟩
  | 106 => ⟨S4096x1, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1, .f32⟩
  | 119 => ⟨S4096x1024, .f32⟩
  | 120 => ⟨S4096x1024, .f32⟩
  | 121 => ⟨S4096x1, .f32⟩
  | 122 => ⟨S4096x1024, .f32⟩
  | 123 => ⟨S4096x1024, .f32⟩
  | 124 => ⟨S4096x1024, .f32⟩
  | 125 => ⟨S4096x1, .f32⟩
  | 126 => ⟨S4096x1024, .f32⟩
  | 127 => ⟨S4096x1024, .f32⟩
  | _ => ⟨S32x32x64x64, .f32⟩

abbrev hbmTy0_4 (i : Nat) : BufTy := match i % 128 with
  | 0 => ⟨S4096x1, .f32⟩
  | 1 => ⟨S4096x1024, .f32⟩
  | 2 => ⟨S4096x1024, .f32⟩
  | 3 => ⟨S4096x1024, .f32⟩
  | 4 => ⟨S4096x32x32, .f32⟩
  | 5 => ⟨S32x4096x32, .f32⟩
  | 6 => ⟨S4096x32x32, .f32⟩
  | 7 => ⟨S32x4096x32, .f32⟩
  | 8 => ⟨S32x4096x1x32, .f32⟩
  | 9 => ⟨S32x4096x1x32, .f32⟩
  | 10 => ⟨S32x4096x1x32, .f32⟩
  | 11 => ⟨S32x4096x1x32, .f32⟩
  | 12 => ⟨S32x4096x1x32, .f32⟩
  | 13 => ⟨S32x4096x1x32, .f32⟩
  | 14 => ⟨S32x4096x1x32, .f32⟩
  | 15 => ⟨S32x4096x1x32, .f32⟩
  | 16 => ⟨S32x4096x1x32, .f32⟩
  | 17 => ⟨S32x4096x9x32, .f32⟩
  | 18 => ⟨S131072x288, .f32⟩
  | 19 => ⟨S32x4096x1x32, .f32⟩
  | 20 => ⟨S32x4096x1x32, .f32⟩
  | 21 => ⟨S32x4096x1x32, .f32⟩
  | 22 => ⟨S32x4096x1x32, .f32⟩
  | 23 => ⟨S32x4096x1x32, .f32⟩
  | 24 => ⟨S32x4096x1x32, .f32⟩
  | 25 => ⟨S32x4096x1x32, .f32⟩
  | 26 => ⟨S32x4096x1x32, .f32⟩
  | 27 => ⟨S32x4096x1x32, .f32⟩
  | 28 => ⟨S32x4096x9x32, .f32⟩
  | 29 => ⟨S131072x288, .f32⟩
  | 30 => ⟨S131072x64, .f32⟩
  | 31 => ⟨S131072x64, .f32⟩
  | 32 => ⟨S131072x64, .f32⟩
  | 33 => ⟨S_, .f32⟩
  | 34 => ⟨S131072x64, .f32⟩
  | 35 => ⟨S131072x64, .f32⟩
  | 36 => ⟨S32x64x64x64, .f32⟩
  | _ => ⟨S32x32x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x32x64x64, .f32⟩

abbrev bufTy : (tb : Table) → Fin (tcTables nBuf tb) → BufTy
  | .hbm, ⟨i, _⟩ => hbmTy i
  | _, _ => ⟨S32x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_7 : Ref sig .tc := ⟨.hbm, 87, rfl⟩
abbrev main_v71 : Ref sig .tc := ⟨.hbm, 88, rfl⟩
abbrev main_v72 : Ref sig .tc := ⟨.hbm, 89, rfl⟩
abbrev main_c_8 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_c_10 : Ref sig .tc := ⟨.hbm, 103, rfl⟩
abbrev main_v84 : Ref sig .tc := ⟨.hbm, 104, rfl⟩
abbrev main_v85 : Ref sig .tc := ⟨.hbm, 105, rfl⟩
abbrev main_c_11 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_12 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_c_13 : Ref sig .tc := ⟨.hbm, 149, rfl⟩
abbrev main_v127 : Ref sig .tc := ⟨.hbm, 150, rfl⟩
abbrev main_v128 : Ref sig .tc := ⟨.hbm, 151, rfl⟩
abbrev main_c_14 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_15 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_c_16 : Ref sig .tc := ⟨.hbm, 165, rfl⟩
abbrev main_v140 : Ref sig .tc := ⟨.hbm, 166, rfl⟩
abbrev main_v141 : Ref sig .tc := ⟨.hbm, 167, rfl⟩
abbrev main_c_17 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_18 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_c_19 : Ref sig .tc := ⟨.hbm, 211, rfl⟩
abbrev main_v183 : Ref sig .tc := ⟨.hbm, 212, rfl⟩
abbrev main_v184 : Ref sig .tc := ⟨.hbm, 213, rfl⟩
abbrev main_c_20 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_cst_21 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_c_22 : Ref sig .tc := ⟨.hbm, 227, rfl⟩
abbrev main_v196 : Ref sig .tc := ⟨.hbm, 228, rfl⟩
abbrev main_v197 : Ref sig .tc := ⟨.hbm, 229, rfl⟩
abbrev main_c_23 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_cst_24 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_c_25 : Ref sig .tc := ⟨.hbm, 273, rfl⟩
abbrev main_v239 : Ref sig .tc := ⟨.hbm, 274, rfl⟩
abbrev main_v240 : Ref sig .tc := ⟨.hbm, 275, rfl⟩
abbrev main_c_26 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_cst_27 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_c_28 : Ref sig .tc := ⟨.hbm, 289, rfl⟩
abbrev main_v252 : Ref sig .tc := ⟨.hbm, 290, rfl⟩
abbrev main_v253 : Ref sig .tc := ⟨.hbm, 291, rfl⟩
abbrev main_c_29 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_cst_30 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_c_31 : Ref sig .tc := ⟨.hbm, 335, rfl⟩
abbrev main_v295 : Ref sig .tc := ⟨.hbm, 336, rfl⟩
abbrev main_v296 : Ref sig .tc := ⟨.hbm, 337, rfl⟩
abbrev main_c_32 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_v303 : Ref sig .tc := ⟨.hbm, 345, rfl⟩
abbrev main_cst_33 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_c_34 : Ref sig .tc := ⟨.hbm, 351, rfl⟩
abbrev main_v308 : Ref sig .tc := ⟨.hbm, 352, rfl⟩
abbrev main_v309 : Ref sig .tc := ⟨.hbm, 353, rfl⟩
abbrev main_c_35 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_cst_36 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_c_37 : Ref sig .tc := ⟨.hbm, 397, rfl⟩
abbrev main_v351 : Ref sig .tc := ⟨.hbm, 398, rfl⟩
abbrev main_v352 : Ref sig .tc := ⟨.hbm, 399, rfl⟩
abbrev main_c_38 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_v357 : Ref sig .tc := ⟨.hbm, 405, rfl⟩
abbrev main_v358 : Ref sig .tc := ⟨.hbm, 406, rfl⟩
abbrev main_v359 : Ref sig .tc := ⟨.hbm, 407, rfl⟩
abbrev main_cst_39 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_c_40 : Ref sig .tc := ⟨.hbm, 413, rfl⟩
abbrev main_v364 : Ref sig .tc := ⟨.hbm, 414, rfl⟩
abbrev main_v365 : Ref sig .tc := ⟨.hbm, 415, rfl⟩
abbrev main_c_41 : Ref sig .tc := ⟨.hbm, 416, rfl⟩
abbrev main_v366 : Ref sig .tc := ⟨.hbm, 417, rfl⟩
abbrev main_v367 : Ref sig .tc := ⟨.hbm, 418, rfl⟩
abbrev main_v368 : Ref sig .tc := ⟨.hbm, 419, rfl⟩
abbrev main_v369 : Ref sig .tc := ⟨.hbm, 420, rfl⟩
abbrev main_v370 : Ref sig .tc := ⟨.hbm, 421, rfl⟩
abbrev main_v371 : Ref sig .tc := ⟨.hbm, 422, rfl⟩
abbrev main_v372 : Ref sig .tc := ⟨.hbm, 423, rfl⟩
abbrev main_cst_42 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_v376 : Ref sig .tc := ⟨.hbm, 428, rfl⟩
abbrev main_v377 : Ref sig .tc := ⟨.hbm, 429, rfl⟩
abbrev main_v378 : Ref sig .tc := ⟨.hbm, 430, rfl⟩
abbrev main_v379 : Ref sig .tc := ⟨.hbm, 431, rfl⟩
abbrev main_v380 : Ref sig .tc := ⟨.hbm, 432, rfl⟩
abbrev main_v381 : Ref sig .tc := ⟨.hbm, 433, rfl⟩
abbrev main_v382 : Ref sig .tc := ⟨.hbm, 434, rfl⟩
abbrev main_v383 : Ref sig .tc := ⟨.hbm, 435, rfl⟩
abbrev main_v384 : Ref sig .tc := ⟨.hbm, 436, rfl⟩
abbrev main_v385 : Ref sig .tc := ⟨.hbm, 437, rfl⟩
abbrev main_v386 : Ref sig .tc := ⟨.hbm, 438, rfl⟩
abbrev main_v387 : Ref sig .tc := ⟨.hbm, 439, rfl⟩
abbrev main_v388 : Ref sig .tc := ⟨.hbm, 440, rfl⟩
abbrev main_v389 : Ref sig .tc := ⟨.hbm, 441, rfl⟩
abbrev main_v390 : Ref sig .tc := ⟨.hbm, 442, rfl⟩
abbrev main_v391 : Ref sig .tc := ⟨.hbm, 443, rfl⟩
abbrev main_v392 : Ref sig .tc := ⟨.hbm, 444, rfl⟩
abbrev main_v393 : Ref sig .tc := ⟨.hbm, 445, rfl⟩
abbrev main_v394 : Ref sig .tc := ⟨.hbm, 446, rfl⟩
abbrev main_v395 : Ref sig .tc := ⟨.hbm, 447, rfl⟩
abbrev main_v396 : Ref sig .tc := ⟨.hbm, 448, rfl⟩
abbrev main_v397 : Ref sig .tc := ⟨.hbm, 449, rfl⟩
abbrev main_v398 : Ref sig .tc := ⟨.hbm, 450, rfl⟩
abbrev main_v399 : Ref sig .tc := ⟨.hbm, 451, rfl⟩
abbrev main_v400 : Ref sig .tc := ⟨.hbm, 452, rfl⟩
abbrev main_v401 : Ref sig .tc := ⟨.hbm, 453, rfl⟩
abbrev main_v402 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_v406 : Ref sig .tc := ⟨.hbm, 458, rfl⟩
abbrev main_c_43 : Ref sig .tc := ⟨.hbm, 459, rfl⟩
abbrev main_v407 : Ref sig .tc := ⟨.hbm, 460, rfl⟩
abbrev main_v408 : Ref sig .tc := ⟨.hbm, 461, rfl⟩
abbrev main_c_44 : Ref sig .tc := ⟨.hbm, 462, rfl⟩
abbrev main_v409 : Ref sig .tc := ⟨.hbm, 463, rfl⟩
abbrev main_v410 : Ref sig .tc := ⟨.hbm, 464, rfl⟩
abbrev main_v411 : Ref sig .tc := ⟨.hbm, 465, rfl⟩
abbrev main_v412 : Ref sig .tc := ⟨.hbm, 466, rfl⟩
abbrev main_v413 : Ref sig .tc := ⟨.hbm, 467, rfl⟩
abbrev main_v414 : Ref sig .tc := ⟨.hbm, 468, rfl⟩
abbrev main_v415 : Ref sig .tc := ⟨.hbm, 469, rfl⟩
abbrev main_cst_45 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_c_46 : Ref sig .tc := ⟨.hbm, 475, rfl⟩
abbrev main_v420 : Ref sig .tc := ⟨.hbm, 476, rfl⟩
abbrev main_v421 : Ref sig .tc := ⟨.hbm, 477, rfl⟩
abbrev main_c_47 : Ref sig .tc := ⟨.hbm, 478, rfl⟩
abbrev main_v422 : Ref sig .tc := ⟨.hbm, 479, rfl⟩
abbrev main_v423 : Ref sig .tc := ⟨.hbm, 480, rfl⟩
abbrev main_v424 : Ref sig .tc := ⟨.hbm, 481, rfl⟩
abbrev main_v425 : Ref sig .tc := ⟨.hbm, 482, rfl⟩
abbrev main_v426 : Ref sig .tc := ⟨.hbm, 483, rfl⟩
abbrev main_v427 : Ref sig .tc := ⟨.hbm, 484, rfl⟩
abbrev main_v428 : Ref sig .tc := ⟨.hbm, 485, rfl⟩
abbrev main_cst_48 : Ref sig .tc := ⟨.hbm, 486, rfl⟩
abbrev main_v429 : Ref sig .tc := ⟨.hbm, 487, rfl⟩
abbrev main_v430 : Ref sig .tc := ⟨.hbm, 488, rfl⟩
abbrev main_v431 : Ref sig .tc := ⟨.hbm, 489, rfl⟩
abbrev main_v432 : Ref sig .tc := ⟨.hbm, 490, rfl⟩
abbrev main_v433 : Ref sig .tc := ⟨.hbm, 491, rfl⟩
abbrev main_v434 : Ref sig .tc := ⟨.hbm, 492, rfl⟩
abbrev main_v435 : Ref sig .tc := ⟨.hbm, 493, rfl⟩
abbrev main_v436 : Ref sig .tc := ⟨.hbm, 494, rfl⟩
abbrev main_v437 : Ref sig .tc := ⟨.hbm, 495, rfl⟩
abbrev main_v438 : Ref sig .tc := ⟨.hbm, 496, rfl⟩
abbrev main_v439 : Ref sig .tc := ⟨.hbm, 497, rfl⟩
abbrev main_v440 : Ref sig .tc := ⟨.hbm, 498, rfl⟩
abbrev main_v441 : Ref sig .tc := ⟨.hbm, 499, rfl⟩
abbrev main_v442 : Ref sig .tc := ⟨.hbm, 500, rfl⟩
abbrev main_v443 : Ref sig .tc := ⟨.hbm, 501, rfl⟩
abbrev main_v444 : Ref sig .tc := ⟨.hbm, 502, rfl⟩
abbrev main_v445 : Ref sig .tc := ⟨.hbm, 503, rfl⟩
abbrev main_v446 : Ref sig .tc := ⟨.hbm, 504, rfl⟩
abbrev main_v447 : Ref sig .tc := ⟨.hbm, 505, rfl⟩
abbrev main_v448 : Ref sig .tc := ⟨.hbm, 506, rfl⟩
abbrev main_v449 : Ref sig .tc := ⟨.hbm, 507, rfl⟩
abbrev main_v450 : Ref sig .tc := ⟨.hbm, 508, rfl⟩
abbrev main_v451 : Ref sig .tc := ⟨.hbm, 509, rfl⟩
abbrev main_v452 : Ref sig .tc := ⟨.hbm, 510, rfl⟩
abbrev main_v453 : Ref sig .tc := ⟨.hbm, 511, rfl⟩
abbrev main_v454 : Ref sig .tc := ⟨.hbm, 512, rfl⟩
abbrev main_v455 : Ref sig .tc := ⟨.hbm, 513, rfl⟩
abbrev main_v456 : Ref sig .tc := ⟨.hbm, 514, rfl⟩
abbrev main_v457 : Ref sig .tc := ⟨.hbm, 515, rfl⟩
abbrev main_v458 : Ref sig .tc := ⟨.hbm, 516, rfl⟩
abbrev main_v459 : Ref sig .tc := ⟨.hbm, 517, rfl⟩
abbrev main_v460 : Ref sig .tc := ⟨.hbm, 518, rfl⟩
abbrev main_v461 : Ref sig .tc := ⟨.hbm, 519, rfl⟩
abbrev main_v462 : Ref sig .tc := ⟨.hbm, 520, rfl⟩
abbrev main_v463 : Ref sig .tc := ⟨.hbm, 521, rfl⟩
abbrev main_v464 : Ref sig .tc := ⟨.hbm, 522, rfl⟩
abbrev main_v465 : Ref sig .tc := ⟨.hbm, 523, rfl⟩
abbrev main_v466 : Ref sig .tc := ⟨.hbm, 524, rfl⟩
abbrev main_v467 : Ref sig .tc := ⟨.hbm, 525, rfl⟩
abbrev main_v468 : Ref sig .tc := ⟨.hbm, 526, rfl⟩
abbrev main_v469 : Ref sig .tc := ⟨.hbm, 527, rfl⟩
abbrev main_v470 : Ref sig .tc := ⟨.hbm, 528, rfl⟩
abbrev main_v471 : Ref sig .tc := ⟨.hbm, 529, rfl⟩
abbrev main_v472 : Ref sig .tc := ⟨.hbm, 530, rfl⟩
abbrev main_v473 : Ref sig .tc := ⟨.hbm, 531, rfl⟩
abbrev main_v474 : Ref sig .tc := ⟨.hbm, 532, rfl⟩
abbrev main_v475 : Ref sig .tc := ⟨.hbm, 533, rfl⟩
abbrev main_v476 : Ref sig .tc := ⟨.hbm, 534, rfl⟩
abbrev main_v477 : Ref sig .tc := ⟨.hbm, 535, rfl⟩
abbrev main_v478 : Ref sig .tc := ⟨.hbm, 536, rfl⟩
abbrev main_v479 : Ref sig .tc := ⟨.hbm, 537, rfl⟩
abbrev main_v480 : Ref sig .tc := ⟨.hbm, 538, rfl⟩
abbrev main_v481 : Ref sig .tc := ⟨.hbm, 539, rfl⟩
abbrev main_v482 : Ref sig .tc := ⟨.hbm, 540, rfl⟩
abbrev main_v483 : Ref sig .tc := ⟨.hbm, 541, rfl⟩
abbrev main_v484 : Ref sig .tc := ⟨.hbm, 542, rfl⟩
abbrev main_v485 : Ref sig .tc := ⟨.hbm, 543, rfl⟩
abbrev main_v486 : Ref sig .tc := ⟨.hbm, 544, rfl⟩
abbrev main_cst_49 : Ref sig .tc := ⟨.hbm, 545, rfl⟩
abbrev main_v487 : Ref sig .tc := ⟨.hbm, 546, rfl⟩
abbrev main_v488 : Ref sig .tc := ⟨.hbm, 547, rfl⟩
abbrev main_v489 : Ref sig .tc := ⟨.hbm, 548, rfl⟩

abbrev nD : Nat := 1
abbrev τ : Topo := Topo.v7x

variable {F : FTy → Type} [FloatOps F]

class Facts₀ : Prop where
  shapeCasts_S32x32x64x64_S32x32x4096 : S32x32x64x64.ShapeCasts S32x32x4096
  transposes_S32x32x4096_S4096x32x32_2_0_1 : S32x32x4096.Transposes [2, 0, 1] S4096x32x32
  shapeCasts_S4096x32x32_S4096x1024 : S4096x32x32.ShapeCasts S4096x1024
  bcast_S_S4096 : S_.BroadcastsInDim S4096 (![] : Fin 0 → Fin S4096.rank)
  bcast_S_S4096x1024 : S_.BroadcastsInDim S4096x1024 (![] : Fin 0 → Fin S4096x1024.rank)
  shapeCasts_S4096x1024_S4096x32x32 : S4096x1024.ShapeCasts S4096x32x32
  transposes_S4096x32x32_S32x4096x32_1_0_2 : S4096x32x32.Transposes [1, 0, 2] S32x4096x32
  bcast_S16638_S16638x1_0 : S16638.BroadcastsInDim S16638x1 (![0] : Fin 1 → Fin S16638x1.rank)
  bcast_S_S16638 : S_.BroadcastsInDim S16638 (![] : Fin 0 → Fin S16638.rank)
  bcast_S16638x1_S16638x1024_0_1 : S16638x1.BroadcastsInDim S16638x1024 (![0, 1] : Fin 2 → Fin S16638x1024.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S32x4096x32_S32x4096x1x32_0_1_3 : S32x4096x32.BroadcastsInDim S32x4096x1x32 (![0, 1, 3] : Fin 3 → Fin S32x4096x1x32.rank)
  concatenates_S32x4096x1x32_S32x4096x1x32_S32x4096x1x32_S32x4096x1x32_S32x4096x1x32_S32x4096x1x32_S32x4096x1x32_S32x4096x1x32_S32x4096x1x32_S32x4096x9x32_d2 : Shape.Concatenates [S32x4096x1x32, S32x4096x1x32, S32x4096x1x32, S32x4096x1x32, S32x4096x1x32, S32x4096x1x32, S32x4096x1x32, S32x4096x1x32, S32x4096x1x32] S32x4096x9x32 2
  shapeCasts_S32x4096x9x32_S131072x288 : S32x4096x9x32.ShapeCasts S131072x288
  bcast_S_S131072x64 : S_.BroadcastsInDim S131072x64 (![] : Fin 0 → Fin S131072x64.rank)
  shapeCasts_S131072x64_S32x64x64x64 : S131072x64.ShapeCasts S32x64x64x64
  gather_S4096x1024_S16638x1_S16638x1024_1_0_n_n_0_1_11024_wf : GatherDims.WF S4096x1024 S16638x1 S16638x1024 [1] [0] [] [0] [] 1 ![1, 1024]
  scatter_S4096x1024_S16638x1_S16638x1024_1_0_0_1_wf : ScatterDims.WF S4096x1024 S16638x1 S16638x1024 [1] [0] [0] 1
  dot_S131072x288_S288x64_S131072x64_1_0_0_1_n_n_wf : DotDims.WF S131072x288 S288x64 S131072x64 [1] [0] [0] [1] [] []

variable [Facts₀]

def gather_S4096x1024_S16638x1_S16638x1024_1_0_n_n_0_1_11024 : GatherDims S4096x1024 S16638x1 S16638x1024 where
  offsetDims := [1]
  collapsedSliceDims := [0]
  operandBatchingDims := []
  startIndicesBatchingDims := []
  startIndexMap := [0]
  indexVectorDim := 1
  sliceSizes := ![1, 1024]
  wf := gather_S4096x1024_S16638x1_S16638x1024_1_0_n_n_0_1_11024_wf
def scatter_S4096x1024_S16638x1_S16638x1024_1_0_0_1 : ScatterDims S4096x1024 S16638x1 S16638x1024 where
  updateWindowDims := [1]
  insertedWindowDims := [0]
  scatterDimsToOperandDims := [0]
  indexVectorDim := 1
  wf := scatter_S4096x1024_S16638x1_S16638x1024_1_0_0_1_wf
def dot_S131072x288_S288x64_S131072x64_1_0_0_1_n_n : DotDims S131072x288 S288x64 S131072x64 where
  lhsContracting := [1]
  rhsContracting := [0]
  lhsNonContracting := [0]
  rhsNonContracting := [1]
  lhsBatch := []
  rhsBatch := []
  wf := dot_S131072x288_S288x64_S131072x64_1_0_0_1_n_n_wf

class Facts : Prop extends Facts₀ where

variable [Facts]
-- ==== Proof.Common.lean ====
/-
  Facts shared by the hand modules of both printed programs.
-/
import Idealize.ShloMosaic.Lib.Pipeline.Value

namespace Cert.Common

/-- The offsets of an access to a whole two-axis block are zero on both axes. -/
theorem hz : (![0, 0] : Fin 2 → Nat) = fun _ => 0 := funext fun a => by fin_cases a <;> rfl

end Cert.Common
-- ==== Proof.K.Body0.lean ====
/-
  The body of custom_call 0 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 0: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond0_0 (i : grid0.Coords) : Prop := (Scalar.cmpi .ne (Scalar.extui (Scalar.cmpi .eq (BitVec.ofNat 32 (i 2).val) 0#32)) 0#32) = 1#1
/-- The second branch is taken exactly when the last grid coordinate is the last of its axis. -/
abbrev cond0_1 (i : grid0.Coords) : Prop := k0_cond2 i = 1#1

set_option maxHeartbeats 1000000 in
/-- `k = 0`, not the last: the scratch, whatever it held, ends at `0 + a · b`; the output's buffer is untouched. -/
theorem body0_first (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond0_0 i) (hc1 : ¬cond0_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body0_mid (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond0_0 i) (hc1 : ¬cond0_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body0_last (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond0_0 i) (hc1 : cond0_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay2 xs x0 x1)
            ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region0.lean ====
/-
  Region 0 of @main (custom_call 0) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body0

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: custom_call 0 at the buffer contents `V` it is entered from -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid: point `t` is `(i, 0, k)` with `k = t mod 4` -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The operands are staged at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output is stored, and written back, only where `k = 3`. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The accumulator point by point -/

/-- What the scratch holds after the body at position `n`: restarted from zero where `k = 0`, else the value the
    point before left plus this point's product of blocks. -/
def acc0 (c : Dev nD) : (n : ℕ) → n < cfg0.N → Vec F S1024x2048 .f32
  | 0, hn => k0_pay2 (k0_pay1 (F := F)) (iblk0 V c 0 ⟨0, hn⟩) (iblk0 V c 1 ⟨0, hn⟩)
  | n + 1, hn =>
    if (n + 1) % 4 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact (if_pos h0).trans rfl

theorem acc0_next (c : Dev nD) (t : Fin cfg0.N) (h0 : ¬t.val % 4 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM0 : Memref sig .tc .vmem S1024x2048 .f32 := Memref.whole cc0_scratch0

/-- What the launch hands the region, with the scratch split off the other scoped buffers. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before position `n`: at the start what the launch hands over; afterwards the scratch at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each operand's buffer at its block and the output's at the
    accumulator; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  by_cases h1 : t.val % 4 = 3
  · have h0 : ¬t.val % 4 = 0 := by omega
    have hz : t.val ≠ 0 := fun e => by rw [e] at h1; exact absurd h1 (by decide)
    rw [show (dat0 V c).leavesExact 2 t = owns (c : Thread nD τ) (st0_2 t) fullShare ((dat0 V c).after 2 t) from by
      unfold Dat.leavesExact; rw [liveAt0_2 t ((hcond0_1 t).mpr h1)], after0_2]
    rw [acc0_next V c t h0, PhiS0_castSucc V c t, PhiS0_pos V c _ _ hz]
    iintro ⟨⟨⟨HS, Hrest⟩, Hg⟩, Ho, ⟨%d0, H0⟩, ⟨%d1, H1⟩, ⟨%d2, H2⟩⟩
    iapply (body0_last c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 4 = 0
    · rw [acc0_first V c t h0]
      have hS : (dat0 V c).Φ t.castSucc ⊢ iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
        rw [PhiS0_castSucc V c t]
        by_cases hz : t.val = 0
        · rw [PhiS0_zero V c _ _ hz, PhiA0_eq]
        · rw [PhiS0_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body0_first c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc0_next V c t h0, PhiS0_castSucc V c t, PhiS0_pos V c _ _ hz]
      iintro ⟨⟨⟨HS, Hrest⟩, Hg⟩, Ho, ⟨%d0, H0⟩, ⟨%d1, H1⟩, ⟨%d2, H2⟩⟩
      iapply (body0_mid c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: what the scratch holds is forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by rw [show cfg0.N = 16 from N_0]; decide), PhiA0_eq]
  iintro ⟨⟨HS, Hrest⟩, Hg⟩
  isplitl [HS Hrest]
  · isplitl [HS]; · iexists _; iexact HS
    iexact Hrest
  iexact Hg

end Region0

end Cert.Kernel.Hand

end
-- ==== Proof.K.Body1.lean ====
/-
  The body of custom_call 1 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 1: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond1_0 (i : grid1.Coords) : Prop := (Scalar.cmpi .ne (Scalar.extui (Scalar.cmpi .eq (BitVec.ofNat 32 (i 2).val) 0#32)) 0#32) = 1#1
/-- The second branch is taken exactly when the last grid coordinate is the last of its axis. -/
abbrev cond1_1 (i : grid1.Coords) : Prop := k1_cond2 i = 1#1

set_option maxHeartbeats 1000000 in
/-- `k = 0`, not the last: the scratch, whatever it held, ends at `0 + a · b`; the output's buffer is untouched. -/
theorem body1_first (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond1_0 i) (hc1 : ¬cond1_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body1_mid (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k1_pay2 xs x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body1_last (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : cond1_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 xs x0 x1)
            ∗ owns (c : Thread nD τ) arg6 fullShare (k1_pay2 xs x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region1.lean ====
/-
  Region 1 of @main (custom_call 1) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body1

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: custom_call 1 at the buffer contents `V` it is entered from -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid: point `t` is `(i, 0, k)` with `k = t mod 4` -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- The operands are staged at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output is stored, and written back, only where `k = 3`. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The accumulator point by point -/

/-- What the scratch holds after the body at position `n`: restarted from zero where `k = 0`, else the value the
    point before left plus this point's product of blocks. -/
def acc1 (c : Dev nD) : (n : ℕ) → n < cfg1.N → Vec F S1024x2048 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rfl
  | succ n => exact (if_pos h0).trans rfl

theorem acc1_next (c : Dev nD) (t : Fin cfg1.N) (h0 : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM1 : Memref sig .tc .vmem S1024x2048 .f32 := Memref.whole cc1_scratch0

/-- What the launch hands the region, with the scratch split off the other scoped buffers. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Before position `n`: at the start what the launch hands over; afterwards the scratch at what the point before left. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each operand's buffer at its block and the output's at the
    accumulator; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 4 = 3
  · have h0 : ¬t.val % 4 = 0 := by omega
    have hz : t.val ≠ 0 := fun e => by rw [e] at h1; exact absurd h1 (by decide)
    rw [show (dat1 V c).leavesExact 2 t = owns (c : Thread nD τ) (st1_2 t) fullShare ((dat1 V c).after 2 t) from by
      unfold Dat.leavesExact; rw [liveAt1_2 t ((hcond1_1 t).mpr h1)], after1_2]
    rw [acc1_next V c t h0, PhiS1_castSucc V c t, PhiS1_pos V c _ _ hz]
    iintro ⟨⟨⟨HS, Hrest⟩, Hg⟩, Ho, ⟨%d0, H0⟩, ⟨%d1, H1⟩, ⟨%d2, H2⟩⟩
    iapply (body1_last c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [acc1_first V c t h0]
      have hS : (dat1 V c).Φ t.castSucc ⊢ iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
        rw [PhiS1_castSucc V c t]
        by_cases hz : t.val = 0
        · rw [PhiS1_zero V c _ _ hz, PhiA1_eq]
        · rw [PhiS1_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc1_next V c t h0, PhiS1_castSucc V c t, PhiS1_pos V c _ _ hz]
      iintro ⟨⟨⟨HS, Hrest⟩, Hg⟩, Ho, ⟨%d0, H0⟩, ⟨%d1, H1⟩, ⟨%d2, H2⟩⟩
      iapply (body1_mid c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: what the scratch holds is forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by rw [show cfg1.N = 16 from N_1]; decide), PhiA1_eq]
  iintro ⟨⟨HS, Hrest⟩, Hg⟩
  isplitl [HS Hrest]
  · isplitl [HS]; · iexists _; iexact HS
    iexact Hrest
  iexact Hg

end Region1

end Cert.Kernel.Hand

end
-- ==== Proof.K.Body2.lean ====
/-
  The body of custom_call 2 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 2: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond2_0 (i : grid2.Coords) : Prop := (Scalar.cmpi .ne (Scalar.extui (Scalar.cmpi .eq (BitVec.ofNat 32 (i 2).val) 0#32)) 0#32) = 1#1
/-- The second branch is taken exactly when the last grid coordinate is the last of its axis. -/
abbrev cond2_1 (i : grid2.Coords) : Prop := k2_cond2 i = 1#1

set_option maxHeartbeats 1000000 in
/-- `k = 0`, not the last: the scratch, whatever it held, ends at `0 + a · b`; the output's buffer is untouched. -/
theorem body2_first (c : Dev nD) (i : grid2.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond2_0 i) (hc1 : ¬cond2_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k2_pay2 (k2_pay1 (F := F)) x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body2_mid (c : Dev nD) (i : grid2.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond2_0 i) (hc1 : ¬cond2_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k2_pay2 xs x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body2_last (c : Dev nD) (i : grid2.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond2_0 i) (hc1 : cond2_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k2_pay2 xs x0 x1)
            ∗ owns (c : Thread nD τ) arg6 fullShare (k2_pay2 xs x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region2.lean ====
/-
  Region 2 of @main (custom_call 2) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body2

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: custom_call 2 at the buffer contents `V` it is entered from -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions over the grid: point `t` is `(i, 0, k)` with `k = t mod 4` -/

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)
/-- The operands are staged at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- The output is stored, and written back, only where `k = 3`. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The accumulator point by point -/

/-- What the scratch holds after the body at position `n`: restarted from zero where `k = 0`, else the value the
    point before left plus this point's product of blocks. -/
def acc2 (c : Dev nD) : (n : ℕ) → n < cfg2.N → Vec F S1024x2048 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_first (c : Dev nD) (t : Fin cfg2.N) (h0 : t.val % 4 = 0) :
    acc2 V c t.val t.isLt = k2_pay2 (k2_pay1 (F := F)) (iblk2 V c 0 t) (iblk2 V c 1 t) := by
  obtain ⟨n, hn⟩ := t
  cases n with
  | zero => rfl
  | succ n => exact (if_pos h0).trans rfl

theorem acc2_next (c : Dev nD) (t : Fin cfg2.N) (h0 : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM2 : Memref sig .tc .vmem S1024x2048 .f32 := Memref.whole cc2_scratch0

/-- What the launch hands the region, with the scratch split off the other scoped buffers. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before position `n`: at the start what the launch hands over; afterwards the scratch at what the point before left. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each operand's buffer at its block and the output's at the
    accumulator; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  by_cases h1 : t.val % 4 = 3
  · have h0 : ¬t.val % 4 = 0 := by omega
    have hz : t.val ≠ 0 := fun e => by rw [e] at h1; exact absurd h1 (by decide)
    rw [show (dat2 V c).leavesExact 2 t = owns (c : Thread nD τ) (st2_2 t) fullShare ((dat2 V c).after 2 t) from by
      unfold Dat.leavesExact; rw [liveAt2_2 t ((hcond2_1 t).mpr h1)], after2_2]
    rw [acc2_next V c t h0, PhiS2_castSucc V c t, PhiS2_pos V c _ _ hz]
    iintro ⟨⟨⟨HS, Hrest⟩, Hg⟩, Ho, ⟨%d0, H0⟩, ⟨%d1, H1⟩, ⟨%d2, H2⟩⟩
    iapply (body2_last c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 4 = 0
    · rw [acc2_first V c t h0]
      have hS : (dat2 V c).Φ t.castSucc ⊢ iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
        rw [PhiS2_castSucc V c t]
        by_cases hz : t.val = 0
        · rw [PhiS2_zero V c _ _ hz, PhiA2_eq]
        · rw [PhiS2_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body2_first c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc2_next V c t h0, PhiS2_castSucc V c t, PhiS2_pos V c _ _ hz]
      iintro ⟨⟨⟨HS, Hrest⟩, Hg⟩, Ho, ⟨%d0, H0⟩, ⟨%d1, H1⟩, ⟨%d2, H2⟩⟩
      iapply (body2_mid c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives it back: what the scratch holds is forgotten. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by rw [show cfg2.N = 16 from N_2]; decide), PhiA2_eq]
  iintro ⟨⟨HS, Hrest⟩, Hg⟩
  isplitl [HS Hrest]
  · isplitl [HS]; · iexists _; iexact HS
    iexact Hrest
  iexact Hg

end Region2

end Cert.Kernel.Hand

end
-- ==== Proof.K.Body3.lean ====
/-
  The body of custom_call 3 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 3: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond3_0 (i : grid3.Coords) : Prop := (Scalar.cmpi .ne (Scalar.extui (Scalar.cmpi .eq (BitVec.ofNat 32 (i 2).val) 0#32)) 0#32) = 1#1
/-- The second branch is taken exactly when the last grid coordinate is the last of its axis. -/
abbrev cond3_1 (i : grid3.Coords) : Prop := k3_cond2 i = 1#1

set_option maxHeartbeats 1000000 in
/-- `k = 0`, not the last: the scratch, whatever it held, ends at `0 + a · b`; the output's buffer is untouched. -/
theorem body3_first (c : Dev nD) (i : grid3.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond3_0 i) (hc1 : ¬cond3_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k3_pay2 (k3_pay1 (F := F)) x0 x1)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body3_mid (c : Dev nD) (i : grid3.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond3_0 i) (hc1 : ¬cond3_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k3_pay2 xs x0 x1)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body3_last (c : Dev nD) (i : grid3.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond3_0 i) (hc1 : cond3_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k3_pay2 xs x0 x1)
            ∗ owns (c : Thread nD τ) arg6 fullShare (k3_pay2 xs x0 x1)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region3.lean ====
/-
  Region 3 of @main (custom_call 3) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body3

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: custom_call 3 at the buffer contents `V` it is entered from -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right operand's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The branch conditions over the grid: point `t` is `(i, 0, k)` with `k = t mod 4` -/

theorem hcond3_0 : ∀ t : Fin cfg3.N, cond3_0 (grid3.coords t) ↔ t.val % 4 = 0 :=
  (by decide +kernel : ∀ t : Fin grid3.N, cond3_0 (grid3.coords t) ↔ t.val % 4 = 0)
theorem hcond3_1 : ∀ t : Fin cfg3.N, cond3_1 (grid3.coords t) ↔ t.val % 4 = 3 :=
  (by decide +kernel : ∀ t : Fin grid3.N, cond3_1 (grid3.coords t) ↔ t.val % 4 = 3)
/-- The operands are staged at every point. -/
theorem liveAt3_0 : ∀ t : Fin cfg3.N, cfg3.idle 0 (grid3.coords t) = false := by decide +kernel
theorem liveAt3_1 : ∀ t : Fin cfg3.N, cfg3.idle 1 (grid3.coords t) = false := by decide +kernel
/-- The output is stored, and written back, only where `k = 3`. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The accumulator point by point -/

/-- What the scratch holds after the body at position `n`: restarted from zero where `k = 0`, else the value the
    point before left plus this point's product of blocks. -/
def acc3 (c : Dev nD) : (n : ℕ) → n < cfg3.N → Vec F S1024x2048 .f32
  | 0, hn => k3_pay2 (k3_pay1 (F := F)) (iblk3 V c 0 ⟨0, hn⟩) (iblk3 V c 1 ⟨0, hn⟩)
  | n + 1, hn =>
    if (n + 1) % 4 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

theorem acc3_first (c : Dev nD) (t : Fin cfg3.N) (h0 : t.val % 4 = 0) :
    acc3 V c t.val t.isLt = k3_pay2 (k3_pay1 (F := F)) (iblk3 V c 0 t) (iblk3 V c 1 t) := by
  obtain ⟨n, hn⟩ := t
  cases n with
  | zero => rfl
  | succ n => exact (if_pos h0).trans rfl

theorem acc3_next (c : Dev nD) (t : Fin cfg3.N) (h0 : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM3 : Memref sig .tc .vmem S1024x2048 .f32 := Memref.whole cc3_scratch0

/-- What the launch hands the region, with the scratch split off the other scoped buffers. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before position `n`: at the start what the launch hands over; afterwards the scratch at what the point before left. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each operand's buffer at its block and the output's at the
    accumulator; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  by_cases h1 : t.val % 4 = 3
  · have h0 : ¬t.val % 4 = 0 := by omega
    have hz : t.val ≠ 0 := fun e => by rw [e] at h1; exact absurd h1 (by decide)
    rw [show (dat3 V c).leavesExact 2 t = owns (c : Thread nD τ) (st3_2 t) fullShare ((dat3 V c).after 2 t) from by
      unfold Dat.leavesExact; rw [liveAt3_2 t ((hcond3_1 t).mpr h1)], after3_2]
    rw [acc3_next V c t h0, PhiS3_castSucc V c t, PhiS3_pos V c _ _ hz]
    iintro ⟨⟨⟨HS, Hrest⟩, Hg⟩, Ho, ⟨%d0, H0⟩, ⟨%d1, H1⟩, ⟨%d2, H2⟩⟩
    iapply (body3_last c (grid3.coords t) _ _ _ _ _ _ _ _ (fun h => h0 ((hcond3_0 t).mp h)) ((hcond3_1 t).mpr h1) (iblk3 V c 0 t) (iblk3 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat3 V c) 2 t (idleAt3_2 t (fun h => h1 ((hcond3_1 t).mp h))) (noFlush3_2 t (fun h => h1 ((hcond3_1 t).mp h)))]
    by_cases h0 : t.val % 4 = 0
    · rw [acc3_first V c t h0]
      have hS : (dat3 V c).Φ t.castSucc ⊢ iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
        rw [PhiS3_castSucc V c t]
        by_cases hz : t.val = 0
        · rw [PhiS3_zero V c _ _ hz, PhiA3_eq]
        · rw [PhiS3_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body3_first c (grid3.coords t) _ _ _ _ _ _ _ _ ((hcond3_0 t).mpr h0) (fun h => h1 ((hcond3_1 t).mp h)) (iblk3 V c 0 t) (iblk3 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc3_next V c t h0, PhiS3_castSucc V c t, PhiS3_pos V c _ _ hz]
      iintro ⟨⟨⟨HS, Hrest⟩, Hg⟩, Ho, ⟨%d0, H0⟩, ⟨%d1, H1⟩, ⟨%d2, H2⟩⟩
      iapply (body3_mid c (grid3.coords t) _ _ _ _ _ _ _ _ (fun h => h0 ((hcond3_0 t).mp h)) (fun h => h1 ((hcond3_1 t).mp h)) (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives it back: what the scratch holds is forgotten. -/
theorem hout3 (c : Dev nD) : (dat3 V c).Φ (Fin.last cfg3.N) ⊢ Pipeline.ΦA spec3 c := by
  rw [show (dat3 V c).Φ (Fin.last cfg3.N) = PhiS3 V c cfg3.N (Nat.le_refl _) from rfl,
    PhiS3_pos V c _ _ (by rw [show cfg3.N = 16 from N_3]; decide), PhiA3_eq]
  iintro ⟨⟨HS, Hrest⟩, Hg⟩
  isplitl [HS Hrest]
  · isplitl [HS]; · iexists _; iexact HS
    iexact Hrest
  iexact Hg

end Region3

end Cert.Kernel.Hand

end
-- ==== Proof.K.Body4.lean ====
/-
  The body of custom_call 4 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 4: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond4_0 (i : grid4.Coords) : Prop := (Scalar.cmpi .ne (Scalar.extui (Scalar.cmpi .eq (BitVec.ofNat 32 (i 2).val) 0#32)) 0#32) = 1#1
/-- The second branch is taken exactly when the last grid coordinate is the last of its axis. -/
abbrev cond4_1 (i : grid4.Coords) : Prop := k4_cond2 i = 1#1

set_option maxHeartbeats 1000000 in
/-- `k = 0`, not the last: the scratch, whatever it held, ends at `0 + a · b`; the output's buffer is untouched. -/
theorem body4_first (c : Dev nD) (i : grid4.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond4_0 i) (hc1 : ¬cond4_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k4_pay2 (k4_pay1 (F := F)) x0 x1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body4_mid (c : Dev nD) (i : grid4.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond4_0 i) (hc1 : ¬cond4_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k4_pay2 xs x0 x1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body4_last (c : Dev nD) (i : grid4.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond4_0 i) (hc1 : cond4_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k4_pay2 xs x0 x1)
            ∗ owns (c : Thread nD τ) arg6 fullShare (k4_pay2 xs x0 x1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region4.lean ====
/-
  Region 4 of @main (custom_call 4) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body4

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: custom_call 4 at the buffer contents `V` it is entered from -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The right operand's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The branch conditions over the grid: point `t` is `(i, 0, k)` with `k = t mod 4` -/

theorem hcond4_0 : ∀ t : Fin cfg4.N, cond4_0 (grid4.coords t) ↔ t.val % 4 = 0 :=
  (by decide +kernel : ∀ t : Fin grid4.N, cond4_0 (grid4.coords t) ↔ t.val % 4 = 0)
theorem hcond4_1 : ∀ t : Fin cfg4.N, cond4_1 (grid4.coords t) ↔ t.val % 4 = 3 :=
  (by decide +kernel : ∀ t : Fin grid4.N, cond4_1 (grid4.coords t) ↔ t.val % 4 = 3)
/-- The operands are staged at every point. -/
theorem liveAt4_0 : ∀ t : Fin cfg4.N, cfg4.idle 0 (grid4.coords t) = false := by decide +kernel
theorem liveAt4_1 : ∀ t : Fin cfg4.N, cfg4.idle 1 (grid4.coords t) = false := by decide +kernel
/-- The output is stored, and written back, only where `k = 3`. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The accumulator point by point -/

/-- What the scratch holds after the body at position `n`: restarted from zero where `k = 0`, else the value the
    point before left plus this point's product of blocks. -/
def acc4 (c : Dev nD) : (n : ℕ) → n < cfg4.N → Vec F S1024x2048 .f32
  | 0, hn => k4_pay2 (k4_pay1 (F := F)) (iblk4 V c 0 ⟨0, hn⟩) (iblk4 V c 1 ⟨0, hn⟩)
  | n + 1, hn =>
    if (n + 1) % 4 = 0 then k4_pay2 (k4_pay1 (F := F)) (iblk4 V c 0 ⟨n + 1, hn⟩) (iblk4 V c 1 ⟨n + 1, hn⟩)
    else k4_pay2 (acc4 c n (Nat.lt_of_succ_lt hn)) (iblk4 V c 0 ⟨n + 1, hn⟩) (iblk4 V c 1 ⟨n + 1, hn⟩)

theorem acc4_first (c : Dev nD) (t : Fin cfg4.N) (h0 : t.val % 4 = 0) :
    acc4 V c t.val t.isLt = k4_pay2 (k4_pay1 (F := F)) (iblk4 V c 0 t) (iblk4 V c 1 t) := by
  obtain ⟨n, hn⟩ := t
  cases n with
  | zero => rfl
  | succ n => exact (if_pos h0).trans rfl

theorem acc4_next (c : Dev nD) (t : Fin cfg4.N) (h0 : ¬t.val % 4 = 0) :
    acc4 V c t.val t.isLt = k4_pay2 (acc4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM4 : Memref sig .tc .vmem S1024x2048 .f32 := Memref.whole cc4_scratch0

/-- What the launch hands the region, with the scratch split off the other scoped buffers. -/
theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- Before position `n`: at the start what the launch hands over; afterwards the scratch at what the point before left. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body each operand's buffer at its block and the output's at the
    accumulator; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h1 : t.val % 4 = 3
  · have h0 : ¬t.val % 4 = 0 := by omega
    have hz : t.val ≠ 0 := fun e => by rw [e] at h1; exact absurd h1 (by decide)
    rw [show (dat4 V c).leavesExact 2 t = owns (c : Thread nD τ) (st4_2 t) fullShare ((dat4 V c).after 2 t) from by
      unfold Dat.leavesExact; rw [liveAt4_2 t ((hcond4_1 t).mpr h1)], after4_2]
    rw [acc4_next V c t h0, PhiS4_castSucc V c t, PhiS4_pos V c _ _ hz]
    iintro ⟨⟨⟨HS, Hrest⟩, Hg⟩, Ho, ⟨%d0, H0⟩, ⟨%d1, H1⟩, ⟨%d2, H2⟩⟩
    iapply (body4_last c (grid4.coords t) _ _ _ _ _ _ _ _ (fun h => h0 ((hcond4_0 t).mp h)) ((hcond4_1 t).mpr h1) (iblk4 V c 0 t) (iblk4 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat4 V c) 2 t (idleAt4_2 t (fun h => h1 ((hcond4_1 t).mp h))) (noFlush4_2 t (fun h => h1 ((hcond4_1 t).mp h)))]
    by_cases h0 : t.val % 4 = 0
    · rw [acc4_first V c t h0]
      have hS : (dat4 V c).Φ t.castSucc ⊢ iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
        rw [PhiS4_castSucc V c t]
        by_cases hz : t.val = 0
        · rw [PhiS4_zero V c _ _ hz, PhiA4_eq]
        · rw [PhiS4_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body4_first c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc4_next V c t h0, PhiS4_castSucc V c t, PhiS4_pos V c _ _ hz]
      iintro ⟨⟨⟨HS, Hrest⟩, Hg⟩, Ho, ⟨%d0, H0⟩, ⟨%d1, H1⟩, ⟨%d2, H2⟩⟩
      iapply (body4_mid c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]

/-- After the last point the invariant gives it back: what the scratch holds is forgotten. -/
theorem hout4 (c : Dev nD) : (dat4 V c).Φ (Fin.last cfg4.N) ⊢ Pipeline.ΦA spec4 c := by
  rw [show (dat4 V c).Φ (Fin.last cfg4.N) = PhiS4 V c cfg4.N (Nat.le_refl _) from rfl,
    PhiS4_pos V c _ _ (by rw [show cfg4.N = 16 from N_4]; decide), PhiA4_eq]
  iintro ⟨⟨HS, Hrest⟩, Hg⟩
  isplitl [HS Hrest]
  · isplitl [HS]; · iexists _; iexact HS
    iexact Hrest
  iexact Hg

end Region4

end Cert.Kernel.Hand

end
-- ==== Proof.K.Body5.lean ====
/-
  The body of custom_call 5 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 5: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond5_0 (i : grid5.Coords) : Prop := (Scalar.cmpi .ne (Scalar.extui (Scalar.cmpi .eq (BitVec.ofNat 32 (i 2).val) 0#32)) 0#32) = 1#1
/-- The second branch is taken exactly when the last grid coordinate is the last of its axis. -/
abbrev cond5_1 (i : grid5.Coords) : Prop := k5_cond2 i = 1#1

set_option maxHeartbeats 1000000 in
/-- `k = 0`, not the last: the scratch, whatever it held, ends at `0 + a · b`; the output's buffer is untouched. -/
theorem body5_first (c : Dev nD) (i : grid5.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond5_0 i) (hc1 : ¬cond5_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k5_pay2 (k5_pay1 (F := F)) x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body5_mid (c : Dev nD) (i : grid5.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond5_0 i) (hc1 : ¬cond5_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k5_pay2 xs x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body5_last (c : Dev nD) (i : grid5.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond5_0 i) (hc1 : cond5_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k5_pay2 xs x0 x1)
            ∗ owns (c : Thread nD τ) arg6 fullShare (k5_pay2 xs x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region5.lean ====
/-
  Region 5 of @main (custom_call 5) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body5

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: custom_call 5 at the buffer contents `V` it is entered from -/

section Region5
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left operand's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The right operand's staging buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The branch conditions over the grid: point `t` is `(i, 0, k)` with `k = t mod 4` -/

theorem hcond5_0 : ∀ t : Fin cfg5.N, cond5_0 (grid5.coords t) ↔ t.val % 4 = 0 :=
  (by decide +kernel : ∀ t : Fin grid5.N, cond5_0 (grid5.coords t) ↔ t.val % 4 = 0)
theorem hcond5_1 : ∀ t : Fin cfg5.N, cond5_1 (grid5.coords t) ↔ t.val % 4 = 3 :=
  (by decide +kernel : ∀ t : Fin grid5.N, cond5_1 (grid5.coords t) ↔ t.val % 4 = 3)
/-- The operands are staged at every point. -/
theorem liveAt5_0 : ∀ t : Fin cfg5.N, cfg5.idle 0 (grid5.coords t) = false := by decide +kernel
theorem liveAt5_1 : ∀ t : Fin cfg5.N, cfg5.idle 1 (grid5.coords t) = false := by decide +kernel
/-- The output is stored, and written back, only where `k = 3`. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

/-! ## The accumulator point by point -/

/-- What the scratch holds after the body at position `n`: restarted from zero where `k = 0`, else the value the
    point before left plus this point's product of blocks. -/
def acc5 (c : Dev nD) : (n : ℕ) → n < cfg5.N → Vec F S1024x2048 .f32
  | 0, hn => k5_pay2 (k5_pay1 (F := F)) (iblk5 V c 0 ⟨0, hn⟩) (iblk5 V c 1 ⟨0, hn⟩)
  | n + 1, hn =>
    if (n + 1) % 4 = 0 then k5_pay2 (k5_pay1 (F := F)) (iblk5 V c 0 ⟨n + 1, hn⟩) (iblk5 V c 1 ⟨n + 1, hn⟩)
    else k5_pay2 (acc5 c n (Nat.lt_of_succ_lt hn)) (iblk5 V c 0 ⟨n + 1, hn⟩) (iblk5 V c 1 ⟨n + 1, hn⟩)

theorem acc5_first (c : Dev nD) (t : Fin cfg5.N) (h0 : t.val % 4 = 0) :
    acc5 V c t.val t.isLt = k5_pay2 (k5_pay1 (F := F)) (iblk5 V c 0 t) (iblk5 V c 1 t) := by
  obtain ⟨n, hn⟩ := t
  cases n with
  | zero => rfl
  | succ n => exact (if_pos h0).trans rfl

theorem acc5_next (c : Dev nD) (t : Fin cfg5.N) (h0 : ¬t.val % 4 = 0) :
    acc5 V c t.val t.isLt = k5_pay2 (acc5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM5 : Memref sig .tc .vmem S1024x2048 .f32 := Memref.whole cc5_scratch0

/-- What the launch hands the region, with the scratch split off the other scoped buffers. -/
theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- Before position `n`: at the start what the launch hands over; afterwards the scratch at what the point before left. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5 fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The arrays as the region finds them; after the body each operand's buffer at its block and the output's at the
    accumulator; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  by_cases h1 : t.val % 4 = 3
  · have h0 : ¬t.val % 4 = 0 := by omega
    have hz : t.val ≠ 0 := fun e => by rw [e] at h1; exact absurd h1 (by decide)
    rw [show (dat5 V c).leavesExact 2 t = owns (c : Thread nD τ) (st5_2 t) fullShare ((dat5 V c).after 2 t) from by
      unfold Dat.leavesExact; rw [liveAt5_2 t ((hcond5_1 t).mpr h1)], after5_2]
    rw [acc5_next V c t h0, PhiS5_castSucc V c t, PhiS5_pos V c _ _ hz]
    iintro ⟨⟨⟨HS, Hrest⟩, Hg⟩, Ho, ⟨%d0, H0⟩, ⟨%d1, H1⟩, ⟨%d2, H2⟩⟩
    iapply (body5_last c (grid5.coords t) _ _ _ _ _ _ _ _ (fun h => h0 ((hcond5_0 t).mp h)) ((hcond5_1 t).mpr h1) (iblk5 V c 0 t) (iblk5 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat5 V c) 2 t (idleAt5_2 t (fun h => h1 ((hcond5_1 t).mp h))) (noFlush5_2 t (fun h => h1 ((hcond5_1 t).mp h)))]
    by_cases h0 : t.val % 4 = 0
    · rw [acc5_first V c t h0]
      have hS : (dat5 V c).Φ t.castSucc ⊢ iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
        rw [PhiS5_castSucc V c t]
        by_cases hz : t.val = 0
        · rw [PhiS5_zero V c _ _ hz, PhiA5_eq]
        · rw [PhiS5_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body5_first c (grid5.coords t) _ _ _ _ _ _ _ _ ((hcond5_0 t).mpr h0) (fun h => h1 ((hcond5_1 t).mp h)) (iblk5 V c 0 t) (iblk5 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc5_next V c t h0, PhiS5_castSucc V c t, PhiS5_pos V c _ _ hz]
      iintro ⟨⟨⟨HS, Hrest⟩, Hg⟩, Ho, ⟨%d0, H0⟩, ⟨%d1, H1⟩, ⟨%d2, H2⟩⟩
      iapply (body5_mid c (grid5.coords t) _ _ _ _ _ _ _ _ (fun h => h0 ((hcond5_0 t).mp h)) (fun h => h1 ((hcond5_1 t).mp h)) (iblk5 V c 0 t) (iblk5 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]

/-- After the last point the invariant gives it back: what the scratch holds is forgotten. -/
theorem hout5 (c : Dev nD) : (dat5 V c).Φ (Fin.last cfg5.N) ⊢ Pipeline.ΦA spec5 c := by
  rw [show (dat5 V c).Φ (Fin.last cfg5.N) = PhiS5 V c cfg5.N (Nat.le_refl _) from rfl,
    PhiS5_pos V c _ _ (by rw [show cfg5.N = 16 from N_5]; decide), PhiA5_eq]
  iintro ⟨⟨HS, Hrest⟩, Hg⟩
  isplitl [HS Hrest]
  · isplitl [HS]; · iexists _; iexact HS
    iexact Hrest
  iexact Hg

end Region5

end Cert.Kernel.Hand

end
-- ==== Proof.K.Body6.lean ====
/-
  The body of custom_call 6 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 6: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond6_0 (i : grid6.Coords) : Prop := (Scalar.cmpi .ne (Scalar.extui (Scalar.cmpi .eq (BitVec.ofNat 32 (i 2).val) 0#32)) 0#32) = 1#1
/-- The second branch is taken exactly when the last grid coordinate is the last of its axis. -/
abbrev cond6_1 (i : grid6.Coords) : Prop := k6_cond2 i = 1#1

set_option maxHeartbeats 1000000 in
/-- `k = 0`, not the last: the scratch, whatever it held, ends at `0 + a · b`; the output's buffer is untouched. -/
theorem body6_first (c : Dev nD) (i : grid6.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond6_0 i) (hc1 : ¬cond6_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k6_pay2 (k6_pay1 (F := F)) x0 x1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body6_mid (c : Dev nD) (i : grid6.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond6_0 i) (hc1 : ¬cond6_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k6_pay2 xs x0 x1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body6_last (c : Dev nD) (i : grid6.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond6_0 i) (hc1 : cond6_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k6_pay2 xs x0 x1)
            ∗ owns (c : Thread nD τ) arg6 fullShare (k6_pay2 xs x0 x1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region6.lean ====
/-
  Region 6 of @main (custom_call 6) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body6

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: custom_call 6 at the buffer contents `V` it is entered from -/

section Region6
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left operand's staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The right operand's staging buffer holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The branch conditions over the grid: point `t` is `(i, 0, k)` with `k = t mod 4` -/

theorem hcond6_0 : ∀ t : Fin cfg6.N, cond6_0 (grid6.coords t) ↔ t.val % 4 = 0 :=
  (by decide +kernel : ∀ t : Fin grid6.N, cond6_0 (grid6.coords t) ↔ t.val % 4 = 0)
theorem hcond6_1 : ∀ t : Fin cfg6.N, cond6_1 (grid6.coords t) ↔ t.val % 4 = 3 :=
  (by decide +kernel : ∀ t : Fin grid6.N, cond6_1 (grid6.coords t) ↔ t.val % 4 = 3)
/-- The operands are staged at every point. -/
theorem liveAt6_0 : ∀ t : Fin cfg6.N, cfg6.idle 0 (grid6.coords t) = false := by decide +kernel
theorem liveAt6_1 : ∀ t : Fin cfg6.N, cfg6.idle 1 (grid6.coords t) = false := by decide +kernel
/-- The output is stored, and written back, only where `k = 3`. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

/-! ## The accumulator point by point -/

/-- What the scratch holds after the body at position `n`: restarted from zero where `k = 0`, else the value the
    point before left plus this point's product of blocks. -/
def acc6 (c : Dev nD) : (n : ℕ) → n < cfg6.N → Vec F S1024x2048 .f32
  | 0, hn => k6_pay2 (k6_pay1 (F := F)) (iblk6 V c 0 ⟨0, hn⟩) (iblk6 V c 1 ⟨0, hn⟩)
  | n + 1, hn =>
    if (n + 1) % 4 = 0 then k6_pay2 (k6_pay1 (F := F)) (iblk6 V c 0 ⟨n + 1, hn⟩) (iblk6 V c 1 ⟨n + 1, hn⟩)
    else k6_pay2 (acc6 c n (Nat.lt_of_succ_lt hn)) (iblk6 V c 0 ⟨n + 1, hn⟩) (iblk6 V c 1 ⟨n + 1, hn⟩)

theorem acc6_first (c : Dev nD) (t : Fin cfg6.N) (h0 : t.val % 4 = 0) :
    acc6 V c t.val t.isLt = k6_pay2 (k6_pay1 (F := F)) (iblk6 V c 0 t) (iblk6 V c 1 t) := by
  obtain ⟨n, hn⟩ := t
  cases n with
  | zero => rfl
  | succ n => exact (if_pos h0).trans rfl

theorem acc6_next (c : Dev nD) (t : Fin cfg6.N) (h0 : ¬t.val % 4 = 0) :
    acc6 V c t.val t.isLt = k6_pay2 (acc6 V c (t.val - 1) (Nat.lt_of_le_of_lt (Nat.sub_le _ _) t.isLt)) (iblk6 V c 0 t) (iblk6 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM6 : Memref sig .tc .vmem S1024x2048 .f32 := Memref.whole cc6_scratch0

/-- What the launch hands the region, with the scratch split off the other scoped buffers. -/
theorem PhiA6_eq (c : Dev nD) :
    (Pipeline.ΦA spec6 c : sProp 𝕄)
      = iprop(iprop(iprop((∃ d, owns (c : Thread nD τ) scM6 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- Before position `n`: at the start what the launch hands over; afterwards the scratch at what the point before left. -/
def PhiS6 (c : Dev nD) : (n : ℕ) → n ≤ cfg6.N → sProp 𝕄
  | 0, _ => Pipeline.ΦA spec6 c
  | n + 1, hn => iprop(iprop(owns (c : Thread nD τ) scM6 fullShare (acc6 V c n hn) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6 fullShare (acc6 V c n hn) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6 fullShare (acc6 V c (n - 1) (by omega)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The arrays as the region finds them; after the body each operand's buffer at its block and the output's at the
    accumulator; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  by_cases h1 : t.val % 4 = 3
  · have h0 : ¬t.val % 4 = 0 := by omega
    have hz : t.val ≠ 0 := fun e => by rw [e] at h1; exact absurd h1 (by decide)
    rw [show (dat6 V c).leavesExact 2 t = owns (c : Thread nD τ) (st6_2 t) fullShare ((dat6 V c).after 2 t) from by
      unfold Dat.leavesExact; rw [liveAt6_2 t ((hcond6_1 t).mpr h1)], after6_2]
    rw [acc6_next V c t h0, PhiS6_castSucc V c t, PhiS6_pos V c _ _ hz]
    iintro ⟨⟨⟨HS, Hrest⟩, Hg⟩, Ho, ⟨%d0, H0⟩, ⟨%d1, H1⟩, ⟨%d2, H2⟩⟩
    iapply (body6_last c (grid6.coords t) _ _ _ _ _ _ _ _ (fun h => h0 ((hcond6_0 t).mp h)) ((hcond6_1 t).mpr h1) (iblk6 V c 0 t) (iblk6 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat6 V c) 2 t (idleAt6_2 t (fun h => h1 ((hcond6_1 t).mp h))) (noFlush6_2 t (fun h => h1 ((hcond6_1 t).mp h)))]
    by_cases h0 : t.val % 4 = 0
    · rw [acc6_first V c t h0]
      have hS : (dat6 V c).Φ t.castSucc ⊢ iprop(iprop(iprop((∃ d, owns (c : Thread nD τ) scM6 fullShare d)) ∗ Pipeline.scopedRestBut (Ix := Unit) (Name := ℕ) (U := UR sig nD τ) (Lvl := ℕ) (Val := Elt F) spec6 c [cc6_scratch0]) ∗ (∃ r, prngReg c r)) := by
        rw [PhiS6_castSucc V c t]
        by_cases hz : t.val = 0
        · rw [PhiS6_zero V c _ _ hz, PhiA6_eq]
        · rw [PhiS6_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body6_first c (grid6.coords t) _ _ _ _ _ _ _ _ ((hcond6_0 t).mpr h0) (fun h => h1 ((hcond6_1 t).mp h)) (iblk6 V c 0 t) (iblk6 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc6_next V c t h0, PhiS6_castSucc V c t, PhiS6_pos V c _ _ hz]
      iintro ⟨⟨⟨HS, Hrest⟩, Hg⟩, Ho, ⟨%d0, H0⟩, ⟨%d1, H1⟩, ⟨%d2, H2⟩⟩
      iapply (body6_mid c (grid6.coords t) _ _ _ _ _ _ _ _ (fun h => h0 ((hcond6_0 t).mp h)) (fun h => h1 ((hcond6_1 t).mp h)) (iblk6 V c 0 t) (iblk6 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]

/-- After the last point the invariant gives it back: what the scratch holds is forgotten. -/
theorem hout6 (c : Dev nD) : (dat6 V c).Φ (Fin.last cfg6.N) ⊢ Pipeline.ΦA spec6 c := by
  rw [show (dat6 V c).Φ (Fin.last cfg6.N) = PhiS6 V c cfg6.N (Nat.le_refl _) from rfl,
    PhiS6_pos V c _ _ (by rw [show cfg6.N = 16 from N_6]; decide), PhiA6_eq]
  iintro ⟨⟨HS, Hrest⟩, Hg⟩
  isplitl [HS Hrest]
  · isplitl [HS]; · iexists _; iexact HS
    iexact Hrest
  iexact Hg

end Region6

end Cert.Kernel.Hand

end
-- ==== Proof.K.Body7.lean ====
/-
  The body of custom_call 7 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 7: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond7_0 (i : grid7.Coords) : Prop := (Scalar.cmpi .ne (Scalar.extui (Scalar.cmpi .eq (BitVec.ofNat 32 (i 2).val) 0#32)) 0#32) = 1#1
/-- The second branch is taken exactly when the last grid coordinate is the last of its axis. -/
abbrev cond7_1 (i : grid7.Coords) : Prop := k7_cond2 i = 1#1

set_option maxHeartbeats 1000000 in
/-- `k = 0`, not the last: the scratch, whatever it held, ends at `0 + a · b`; the output's buffer is untouched. -/
theorem body7_first (c : Dev nD) (i : grid7.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond7_0 i) (hc1 : ¬cond7_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k7_pay2 (k7_pay1 (F := F)) x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body7_mid (c : Dev nD) (i : grid7.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond7_0 i) (hc1 : ¬cond7_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k7_pay2 xs x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body7_last (c : Dev nD) (i : grid7.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond7_0 i) (hc1 : cond7_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k7_pay2 xs x0 x1)
            ∗ owns (c : Thread nD τ) arg6 fullShare (k7_pay2 xs x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.Kernel.Hand

end
-- ==== Proof.K.Region7.lean ====
/-
  Region 7 of @main (custom_call 7) at any buffer contents `V` it is entered from: the blocks the pipeline
  stages at each grid point, the accumulator the body carries in its scratch from point to point, the region's
  invariant and proof data, and the body obligation at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body7

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: custom_call 7 at the buffer contents `V` it is entered from -/

section Region7
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The left operand's staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The right operand's staging buffer holds its block at every point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The branch conditions over the grid: point `t` is `(i, 0, k)` with `k = t mod 4` -/

theorem hcond7_0 : ∀ t : Fin cfg7.N, cond7_0 (grid7.coords t) ↔ t.val % 4 = 0 :=
  (by decide +kernel : ∀ t : Fin grid7.N, cond7_0 (grid7.coords t) ↔ t.val % 4 = 0)
theorem hcond7_1 : ∀ t : Fin cfg7.N, cond7_1 (grid7.coords t) ↔ t.val % 4 = 3 :=
  (by decide +kernel : ∀ t : Fin grid7.N, cond7_1 (grid7.coords t) ↔ t.val % 4 = 3)
/-- The operands are staged at every point. -/
theorem liveAt7_0 : ∀ t : Fin cfg7.N, cfg7.idle 0 (grid7.coords t) = false := by decide +kernel
theorem liveAt7_1 : ∀ t : Fin cfg7.N, cfg7.idle 1 (grid7.coords t) = false := by decide +kernel
/-- The output is stored, and written back, only where `k = 3`. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-! ## The accumulator point by point -/

/-- What the scratch holds after the body at position `n`: restarted from zero where `k = 0`, else the value the
    point before left plus this point's product of blocks. -/
def acc7 (c : Dev nD) : (n : ℕ) → n < cfg7.N → Vec F S1024x2048 .f32
  | 0, hn => k7_pay2 (k7_pay1 (F := F)) (iblk7 V c 0 ⟨0, hn⟩) (iblk7 V c 1 ⟨0, hn⟩)
  | n + 1, hn =>
    if (n + 1) % 4 = 0 then k7_pay2 (k7_pay1 (F := F)) (iblk7 V c 0 ⟨n + 1, hn⟩) (iblk7 V c 1 ⟨n + 1, hn⟩)
    else k7_pay2 (acc7 c n (Nat.lt_of_succ_lt hn)) (iblk7 V c 0 ⟨n + 1, hn⟩) (iblk7 V c 1 ⟨n + 1, hn⟩)

theorem acc7_first (c : Dev nD) (t : Fin cfg7.N) (h0 : t.val % 4 = 0) :
    acc7 V c t.val t.isLt = k7_pay2 (k7_pay1 (F := F)) (iblk7 V c 0 t) (iblk7 V c 1 t) := by
  obtain ⟨n, hn⟩ := t
  cases n with
  | zero => rfl
  | succ n => exact (if_pos h0).trans rfl

theorem acc7_next (c : Dev nD) (t : Fin cfg7.N) (h0 : ¬t.val % 4 = 0) :
    acc7 V c t.val t.isLt = k7_pay2 (acc7 V c (t.val - 1) (Nat.lt_of_le_of_lt (Nat.sub_le _ _) t.isLt)) (iblk7 V c 0 t) (iblk7 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM7 : Memref sig .tc .vmem S1024x2048 .f32 := Memref.whole cc7_scratch0

/-- What the launch hands the region, with the scratch split off the other scoped buffers. -/
theorem PhiA7_eq (c : Dev nD) :
    (Pipeline.ΦA spec7 c : sProp 𝕄)
      = iprop(iprop(iprop((∃ d, owns (c : Thread nD τ) scM7 fullShare d)) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- Before position `n`: at the start what the launch hands over; afterwards the scratch at what the point before left. -/
def PhiS7 (c : Dev nD) : (n : ℕ) → n ≤ cfg7.N → sProp 𝕄
  | 0, _ => Pipeline.ΦA spec7 c
  | n + 1, hn => iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r)) := rfl
theorem PhiS7_pos (c : Dev nD) (n : ℕ) (h : n ≤ cfg7.N) (hz : n ≠ 0) :
    PhiS7 V c n h = iprop(iprop(owns (c : Thread nD τ) scM7 fullShare (acc7 V c (n - 1) (by omega)) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The arrays as the region finds them; after the body each operand's buffer at its block and the output's at the
    accumulator; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  by_cases h1 : t.val % 4 = 3
  · have h0 : ¬t.val % 4 = 0 := by omega
    have hz : t.val ≠ 0 := fun e => by rw [e] at h1; exact absurd h1 (by decide)
    rw [show (dat7 V c).leavesExact 2 t = owns (c : Thread nD τ) (st7_2 t) fullShare ((dat7 V c).after 2 t) from by
      unfold Dat.leavesExact; rw [liveAt7_2 t ((hcond7_1 t).mpr h1)], after7_2]
    rw [acc7_next V c t h0, PhiS7_castSucc V c t, PhiS7_pos V c _ _ hz]
    iintro ⟨⟨⟨HS, Hrest⟩, Hg⟩, Ho, ⟨%d0, H0⟩, ⟨%d1, H1⟩, ⟨%d2, H2⟩⟩
    iapply (body7_last c (grid7.coords t) _ _ _ _ _ _ _ _ (fun h => h0 ((hcond7_0 t).mp h)) ((hcond7_1 t).mpr h1) (iblk7 V c 0 t) (iblk7 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat7 V c) 2 t (idleAt7_2 t (fun h => h1 ((hcond7_1 t).mp h))) (noFlush7_2 t (fun h => h1 ((hcond7_1 t).mp h)))]
    by_cases h0 : t.val % 4 = 0
    · rw [acc7_first V c t h0]
      have hS : (dat7 V c).Φ t.castSucc ⊢ iprop(iprop(iprop((∃ d, owns (c : Thread nD τ) scM7 fullShare d)) ∗ Pipeline.scopedRestBut (Ix := Unit) (Name := ℕ) (U := UR sig nD τ) (Lvl := ℕ) (Val := Elt F) spec7 c [cc7_scratch0]) ∗ (∃ r, prngReg c r)) := by
        rw [PhiS7_castSucc V c t]
        by_cases hz : t.val = 0
        · rw [PhiS7_zero V c _ _ hz, PhiA7_eq]
        · rw [PhiS7_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body7_first c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc7_next V c t h0, PhiS7_castSucc V c t, PhiS7_pos V c _ _ hz]
      iintro ⟨⟨⟨HS, Hrest⟩, Hg⟩, Ho, ⟨%d0, H0⟩, ⟨%d1, H1⟩, ⟨%d2, H2⟩⟩
      iapply (body7_mid c (grid7.coords t) _ _ _ _ _ _ _ _ (fun h => h0 ((hcond7_0 t).mp h)) (fun h => h1 ((hcond7_1 t).mp h)) (iblk7 V c 0 t) (iblk7 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]

/-- After the last point the invariant gives it back: what the scratch holds is forgotten. -/
theorem hout7 (c : Dev nD) : (dat7 V c).Φ (Fin.last cfg7.N) ⊢ Pipeline.ΦA spec7 c := by
  rw [show (dat7 V c).Φ (Fin.last cfg7.N) = PhiS7 V c cfg7.N (Nat.le_refl _) from rfl,
    PhiS7_pos V c _ _ (by rw [show cfg7.N = 16 from N_7]; decide), PhiA7_eq]
  iintro ⟨⟨HS, Hrest⟩, Hg⟩
  isplitl [HS Hrest]
  · isplitl [HS]; · iexists _; iexact HS
    iexact Hrest
  iexact Hg

end Region7

end Cert.Kernel.Hand

end
-- ==== Proof.K.Body8.lean ====
/-
  The body of custom_call 8 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 8: a whole matrix product of one block-row

The grid is (32, 1, 1): the last axis has one point, so at every grid point the scratch is reset to zero,
receives `0 + a(i) · b`, and is copied to the output block. -/

/-- The first branch is taken exactly when the last grid coordinate is `0`. -/
abbrev cond8_0 (i : grid8.Coords) : Prop := (Scalar.cmpi .ne (Scalar.extui (Scalar.cmpi .eq (BitVec.ofNat 32 (i 2).val) 0#32)) 0#32) = 1#1
/-- The second branch is taken exactly when the last grid coordinate is the last of its axis. -/
abbrev cond8_1 (i : grid8.Coords) : Prop := k8_cond2 i = 1#1

set_option maxHeartbeats 1000000 in
/-- Every point: the scratch, whatever it held, ends at `0 + a · b`, and so does the output's buffer. -/
theorem body8_only (c : Dev nD) (i : grid8.Coords) (arg3 : Memref sig .tc .vmem S4096x576 .bf16) (harg3 : arg3.IsWhole) (arg4 : Memref sig .tc .vmem S576x128 .bf16) (harg4 : arg4.IsWhole) (arg5 : Memref sig .tc .vmem S4096x128 .f32) (harg5 : arg5.IsWhole) (arg6 : Memref sig .tc .vmem S4096x128 .f32) (harg6 : arg6.IsWhole)
    (hc0 : cond8_0 i) (hc1 : cond8_1 i)
    (x0 : Vec F S4096x576 .bf16) (x1 : Vec F S576x128 .bf16) (E : Set ℕ) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ owns (c : Thread nD τ) arg5 fullShare (k8_pay2 (k8_pay1 (F := F)) x0 x1)
            ∗ owns (c : Thread nD τ) arg6 fullShare (k8_pay2 (k8_pay1 (F := F)) x0 x1)) -∗ K ⟨⟩))
      ⊢ wp frame (wpE (defs₀ (F := F)) Variants.none c none) E (cc8__matmul_kernel i arg3 harg3 arg4 harg4 arg5 harg5 arg6 harg6) K := by
  simp only [cc8__matmul_kernel_eq_skeleton]; unfold cc8__matmul_kernel_skel
  unfold owns
  iintro ⟨⟨%f0, %hf0, H0⟩, ⟨%f1, %hf1, H1⟩, ⟨%d2, %f2, -, H2⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S4096x128_S4096x128_0_0 y⟩), View.canon_cons_unit_zero hz]
    (try rw [View.readCov_unit_zero (S := S4096x128) _ hz])
    (try rw [View.readCov_eq_canon_ld _ _ _ (fun y => ⟨_, List.mem_cons_self, View.mem_set_unit_zero hz inb_S4096x128_S4096x128_0_0 y⟩), View.canon_cons_unit_zero hz])
    simp only [View.readAt_eq_ld, harg3.read_unread, harg4.read_unread, View.ld_unit_zero (S := S4096x128) hz, View.ld_unit_zero (S := S4096x576) hz, View.ld_unit_zero (S := S576x128) hz]
  iexists _; isplitr
  swap; · iexact HS
  ipureintro
  (try sl_unfold_run_names)
  rw [View.read_writes_eq_canon _ _ _ (fun y => ⟨_, List.mem_cons_self, View.mem_set_unit_zero hz inb_S4096x128_S4096x128_0_0 y⟩), View.canon_cons_unit_zero hz]
  (try rw [View.readCov_unit_zero (S := S4096x128) _ hz])
  (try rw [View.readCov_eq_canon_ld _ _ _ (fun y => ⟨_, List.mem_cons_self, View.mem_set_unit_zero hz inb_S4096x128_S4096x128_0_0 y⟩), View.canon_cons_unit_zero hz])
  simp only [View.readAt_eq_ld, harg3.read_unread, harg4.read_unread, View.ld_unit_zero (S := S4096x128) hz, View.ld_unit_zero (S := S4096x576) hz, View.ld_unit_zero (S := S576x128) hz]

end Cert.Kernel.Hand

end
-- ==== Proof.K.Region8.lean ====
/-
  Region 8 of @main (custom_call 8) at any buffer contents `V` it is entered from: the blocks the pipeline stages
  at each grid point, what the body leaves in the output block, the region's proof data, and the body obligation
  at every point. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.K.Body8

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: custom_call 8 at the buffer contents `V` it is entered from -/

section Region8
variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The left operand's staging buffer holds its block-row at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The right operand's staging buffer holds the whole right matrix at every point (fetched once, never moved). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## Both branches are taken at every point: the last grid axis has the one coordinate 0 -/

theorem hcond8_0 : ∀ t : Fin cfg8.N, cond8_0 (grid8.coords t) :=
  (by decide +kernel : ∀ t : Fin grid8.N, cond8_0 (grid8.coords t))
theorem hcond8_1 : ∀ t : Fin cfg8.N, cond8_1 (grid8.coords t) :=
  (by decide +kernel : ∀ t : Fin grid8.N, cond8_1 (grid8.coords t))
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel

/-- What the output block (and the scratch) holds after the body at point `t`: zero plus the product of the point's
    block-row with the right matrix. -/
def acc8 (c : Dev nD) (t : Fin cfg8.N) : Vec F S4096x128 .f32 :=
  k8_pay2 (k8_pay1 (F := F)) (iblk8 V c 0 t) (iblk8 V c 1 t)

/-- The call's scratch operand as a whole memref. -/
abbrev scM8 : Memref sig .tc .vmem S4096x128 .f32 := Memref.whole cc8_scratch0

/-- What the launch hands the region, with the scratch split off the other scoped buffers. -/
theorem PhiA8_eq (c : Dev nD) :
    (Pipeline.ΦA spec8 c : sProp 𝕄)
      = iprop(iprop(iprop((∃ d, owns (c : Thread nD τ) scM8 fullShare d)) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- The arrays as the region finds them; after the body each operand's buffer at its block and the output's at
    `acc8`; the invariant what the launch hands over (the scratch is reset at every point, so nothing is carried);
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the operands' buffers hold their blocks; the invariant lends the scratch at anything and
    takes it back at anything. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Pipeline.ΦA spec8 c from rfl, show (dat8 V c).Φ t.castSucc = Pipeline.ΦA spec8 c from rfl, PhiA8_eq]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  rw [show (dat8 V c).leavesExact 2 t = owns (c : Thread nD τ) (st8_2 t) fullShare ((dat8 V c).after 2 t) from by
    unfold Dat.leavesExact; rw [liveAt8_2 t], after8_2]
  unfold acc8
  iintro ⟨⟨⟨HS, Hrest⟩, Hg⟩, Ho, ⟨%d0, H0⟩, ⟨%d1, H1⟩, ⟨%d2, H2⟩⟩
  iapply (body8_only c (grid8.coords t) _ _ _ _ _ _ _ _ (hcond8_0 t) (hcond8_1 t) (iblk8 V c 0 t) (iblk8 V c 1 t) Set.univ _)
  isplitl [H0]; · iexact H0
  isplitl [H1]; · iexact H1
  isplitl [H2]; · iexists _; iexact H2
  isplitl [HS]; · iexact HS
  iintro ⟨H0, H1, H2, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Pipeline.ΦA spec8 c from rfl]
theorem hout8 (c : Dev nD) : (dat8 V c).Φ (Fin.last cfg8.N) ⊢ Pipeline.ΦA spec8 c := by
  rw [show (dat8 V c).Φ (Fin.last cfg8.N) = Pipeline.ΦA spec8 c from rfl]

end Region8

end Cert.Kernel.Hand

end
-- ==== Proof.K.Fold.lean ====
/-
  The buffer contents at every boundary between two segments of @main — a fold from the launch memory through the
  host stretches and the nine regions — and the fact that every argument's buffer holds its launch contents at
  every boundary. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import Idealize.ShloMosaic.Lib.Pipeline.RegionsLoop
import proofs.«156564_j46222438039786_1_alg».proof.Proof.K.Region0
import proofs.«156564_j46222438039786_1_alg».proof.Proof.K.Region1
import proofs.«156564_j46222438039786_1_alg».proof.Proof.K.Region2
import proofs.«156564_j46222438039786_1_alg».proof.Proof.K.Region3
import proofs.«156564_j46222438039786_1_alg».proof.Proof.K.Region4
import proofs.«156564_j46222438039786_1_alg».proof.Proof.K.Region5
import proofs.«156564_j46222438039786_1_alg».proof.Proof.K.Region6
import proofs.«156564_j46222438039786_1_alg».proof.Proof.K.Region7
import proofs.«156564_j46222438039786_1_alg».proof.Proof.K.Region8

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at every boundary between two segments of @main

`B0` is the launch memory; a stretch of host operations takes a boundary to `StableHlo.after` of it; a region
takes it to the same contents with the region's three arrays at what its write-backs leave. -/

/-- Core `c`'s buffers at launch. -/
abbrev B0 : Dev nD → Valuation τ sig (Elt F) := fun c b => (s₀ m ρ).mem ((c : Dev nD), b)
/-- After `hostOps0`. -/
abbrev B1 : Dev nD → Valuation τ sig (Elt F) := fun c => StableHlo.after hostOps0 (B0 m ρ c)
/-- Region 0's entry contents read at the TensorCore's references. -/
abbrev VB1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (VB1 m ρ) c).arrAt w cfg0.N
theorem B2_arr (c : Dev nD) (w : Fin cfg0.W) :
    B2 m ρ c (Proc.devRef .tc (Pipeline.arrRef spec0 w)) = (dat0 (VB1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev VB2 : (c : Dev nD) → (b : Ref sig .tc) → Buf (Elt F) ((c : Thread nD τ).loc b) := fun c b => B2 m ρ c b
theorem hF0 (c : Dev nD) (w : Fin cfg0.W) : (dat0 (VB1 m ρ) c).arrAt w cfg0.N = VB2 m ρ c (Pipeline.arrRef spec0 w) :=
  (B2_arr m ρ c w).symm
theorem hrest0 (c : Dev nD) : ∀ b, b ∉ Finset.univ.image (Pipeline.arrRef spec0) → VB2 m ρ c b = VB1 m ρ c b :=
  fun b hb => B2_of_ne m ρ c b fun w e => hb (Finset.mem_image.mpr ⟨w, Finset.mem_univ _, e⟩)
/-- After `hostOps1`. -/
abbrev B3 : Dev nD → Valuation τ sig (Elt F) := fun c => StableHlo.after hostOps1 (B2 m ρ c)
/-- Region 1's entry contents read at the TensorCore's references. -/
abbrev VB3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (VB3 m ρ) c).arrAt w cfg1.N
theorem B4_arr (c : Dev nD) (w : Fin cfg1.W) :
    B4 m ρ c (Proc.devRef .tc (Pipeline.arrRef spec1 w)) = (dat1 (VB3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev VB4 : (c : Dev nD) → (b : Ref sig .tc) → Buf (Elt F) ((c : Thread nD τ).loc b) := fun c b => B4 m ρ c b
theorem hF1 (c : Dev nD) (w : Fin cfg1.W) : (dat1 (VB3 m ρ) c).arrAt w cfg1.N = VB4 m ρ c (Pipeline.arrRef spec1 w) :=
  (B4_arr m ρ c w).symm
theorem hrest1 (c : Dev nD) : ∀ b, b ∉ Finset.univ.image (Pipeline.arrRef spec1) → VB4 m ρ c b = VB3 m ρ c b :=
  fun b hb => B4_of_ne m ρ c b fun w e => hb (Finset.mem_image.mpr ⟨w, Finset.mem_univ _, e⟩)
/-- After `hostOps2`. -/
abbrev B5 : Dev nD → Valuation τ sig (Elt F) := fun c => StableHlo.after hostOps2 (B4 m ρ c)
/-- Region 2's entry contents read at the TensorCore's references. -/
abbrev VB5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (VB5 m ρ) c).arrAt w cfg2.N
theorem B6_arr (c : Dev nD) (w : Fin cfg2.W) :
    B6 m ρ c (Proc.devRef .tc (Pipeline.arrRef spec2 w)) = (dat2 (VB5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev VB6 : (c : Dev nD) → (b : Ref sig .tc) → Buf (Elt F) ((c : Thread nD τ).loc b) := fun c b => B6 m ρ c b
theorem hF2 (c : Dev nD) (w : Fin cfg2.W) : (dat2 (VB5 m ρ) c).arrAt w cfg2.N = VB6 m ρ c (Pipeline.arrRef spec2 w) :=
  (B6_arr m ρ c w).symm
theorem hrest2 (c : Dev nD) : ∀ b, b ∉ Finset.univ.image (Pipeline.arrRef spec2) → VB6 m ρ c b = VB5 m ρ c b :=
  fun b hb => B6_of_ne m ρ c b fun w e => hb (Finset.mem_image.mpr ⟨w, Finset.mem_univ _, e⟩)
/-- After `hostOps3`. -/
abbrev B7 : Dev nD → Valuation τ sig (Elt F) := fun c => StableHlo.after hostOps3 (B6 m ρ c)
/-- Region 3's entry contents read at the TensorCore's references. -/
abbrev VB7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (VB7 m ρ) c).arrAt w cfg3.N
theorem B8_arr (c : Dev nD) (w : Fin cfg3.W) :
    B8 m ρ c (Proc.devRef .tc (Pipeline.arrRef spec3 w)) = (dat3 (VB7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev VB8 : (c : Dev nD) → (b : Ref sig .tc) → Buf (Elt F) ((c : Thread nD τ).loc b) := fun c b => B8 m ρ c b
theorem hF3 (c : Dev nD) (w : Fin cfg3.W) : (dat3 (VB7 m ρ) c).arrAt w cfg3.N = VB8 m ρ c (Pipeline.arrRef spec3 w) :=
  (B8_arr m ρ c w).symm
theorem hrest3 (c : Dev nD) : ∀ b, b ∉ Finset.univ.image (Pipeline.arrRef spec3) → VB8 m ρ c b = VB7 m ρ c b :=
  fun b hb => B8_of_ne m ρ c b fun w e => hb (Finset.mem_image.mpr ⟨w, Finset.mem_univ _, e⟩)
/-- After `hostOps4`. -/
abbrev B9 : Dev nD → Valuation τ sig (Elt F) := fun c => StableHlo.after hostOps4 (B8 m ρ c)
/-- Region 4's entry contents read at the TensorCore's references. -/
abbrev VB9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (VB9 m ρ) c).arrAt w cfg4.N
theorem B10_arr (c : Dev nD) (w : Fin cfg4.W) :
    B10 m ρ c (Proc.devRef .tc (Pipeline.arrRef spec4 w)) = (dat4 (VB9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev VB10 : (c : Dev nD) → (b : Ref sig .tc) → Buf (Elt F) ((c : Thread nD τ).loc b) := fun c b => B10 m ρ c b
theorem hF4 (c : Dev nD) (w : Fin cfg4.W) : (dat4 (VB9 m ρ) c).arrAt w cfg4.N = VB10 m ρ c (Pipeline.arrRef spec4 w) :=
  (B10_arr m ρ c w).symm
theorem hrest4 (c : Dev nD) : ∀ b, b ∉ Finset.univ.image (Pipeline.arrRef spec4) → VB10 m ρ c b = VB9 m ρ c b :=
  fun b hb => B10_of_ne m ρ c b fun w e => hb (Finset.mem_image.mpr ⟨w, Finset.mem_univ _, e⟩)
/-- After `hostOps5`. -/
abbrev B11 : Dev nD → Valuation τ sig (Elt F) := fun c => StableHlo.after hostOps5 (B10 m ρ c)
/-- Region 5's entry contents read at the TensorCore's references. -/
abbrev VB11 : (c : Dev nD) → (b : Ref sig .tc) → Buf (Elt F) ((c : Thread nD τ).loc b) := fun c b => B11 m ρ c b
/-- At region 5's exit: its arrays at what the pipeline leaves, every other buffer as entered. -/
def B12 (c : Dev nD) : Valuation τ sig (Elt F) :=
  Pipeline.withArrays spec5 c (B11 m ρ c) fun w => (dat5 (VB11 m ρ) c).arrAt w cfg5.N
theorem B12_arr (c : Dev nD) (w : Fin cfg5.W) :
    B12 m ρ c (Proc.devRef .tc (Pipeline.arrRef spec5 w)) = (dat5 (VB11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev VB12 : (c : Dev nD) → (b : Ref sig .tc) → Buf (Elt F) ((c : Thread nD τ).loc b) := fun c b => B12 m ρ c b
theorem hF5 (c : Dev nD) (w : Fin cfg5.W) : (dat5 (VB11 m ρ) c).arrAt w cfg5.N = VB12 m ρ c (Pipeline.arrRef spec5 w) :=
  (B12_arr m ρ c w).symm
theorem hrest5 (c : Dev nD) : ∀ b, b ∉ Finset.univ.image (Pipeline.arrRef spec5) → VB12 m ρ c b = VB11 m ρ c b :=
  fun b hb => B12_of_ne m ρ c b fun w e => hb (Finset.mem_image.mpr ⟨w, Finset.mem_univ _, e⟩)
/-- After `hostOps6`. -/
abbrev B13 : Dev nD → Valuation τ sig (Elt F) := fun c => StableHlo.after hostOps6 (B12 m ρ c)
/-- Region 6's entry contents read at the TensorCore's references. -/
abbrev VB13 : (c : Dev nD) → (b : Ref sig .tc) → Buf (Elt F) ((c : Thread nD τ).loc b) := fun c b => B13 m ρ c b
/-- At region 6's exit: its arrays at what the pipeline leaves, every other buffer as entered. -/
def B14 (c : Dev nD) : Valuation τ sig (Elt F) :=
  Pipeline.withArrays spec6 c (B13 m ρ c) fun w => (dat6 (VB13 m ρ) c).arrAt w cfg6.N
theorem B14_arr (c : Dev nD) (w : Fin cfg6.W) :
    B14 m ρ c (Proc.devRef .tc (Pipeline.arrRef spec6 w)) = (dat6 (VB13 m ρ) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb
abbrev VB14 : (c : Dev nD) → (b : Ref sig .tc) → Buf (Elt F) ((c : Thread nD τ).loc b) := fun c b => B14 m ρ c b
theorem hF6 (c : Dev nD) (w : Fin cfg6.W) : (dat6 (VB13 m ρ) c).arrAt w cfg6.N = VB14 m ρ c (Pipeline.arrRef spec6 w) :=
  (B14_arr m ρ c w).symm
theorem hrest6 (c : Dev nD) : ∀ b, b ∉ Finset.univ.image (Pipeline.arrRef spec6) → VB14 m ρ c b = VB13 m ρ c b :=
  fun b hb => B14_of_ne m ρ c b fun w e => hb (Finset.mem_image.mpr ⟨w, Finset.mem_univ _, e⟩)
/-- After `hostOps7`. -/
abbrev B15 : Dev nD → Valuation τ sig (Elt F) := fun c => StableHlo.after hostOps7 (B14 m ρ c)
/-- Region 7's entry contents read at the TensorCore's references. -/
abbrev VB15 : (c : Dev nD) → (b : Ref sig .tc) → Buf (Elt F) ((c : Thread nD τ).loc b) := fun c b => B15 m ρ c b
/-- At region 7's exit: its arrays at what the pipeline leaves, every other buffer as entered. -/
def B16 (c : Dev nD) : Valuation τ sig (Elt F) :=
  Pipeline.withArrays spec7 c (B15 m ρ c) fun w => (dat7 (VB15 m ρ) c).arrAt w cfg7.N
theorem B16_arr (c : Dev nD) (w : Fin cfg7.W) :
    B16 m ρ c (Proc.devRef .tc (Pipeline.arrRef spec7 w)) = (dat7 (VB15 m ρ) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb
abbrev VB16 : (c : Dev nD) → (b : Ref sig .tc) → Buf (Elt F) ((c : Thread nD τ).loc b) := fun c b => B16 m ρ c b
theorem hF7 (c : Dev nD) (w : Fin cfg7.W) : (dat7 (VB15 m ρ) c).arrAt w cfg7.N = VB16 m ρ c (Pipeline.arrRef spec7 w) :=
  (B16_arr m ρ c w).symm
theorem hrest7 (c : Dev nD) : ∀ b, b ∉ Finset.univ.image (Pipeline.arrRef spec7) → VB16 m ρ c b = VB15 m ρ c b :=
  fun b hb => B16_of_ne m ρ c b fun w e => hb (Finset.mem_image.mpr ⟨w, Finset.mem_univ _, e⟩)
/-- After `hostOps8`. -/
abbrev B17 : Dev nD → Valuation τ sig (Elt F) := fun c => StableHlo.after hostOps8 (B16 m ρ c)
/-- After `hostOps8_1`. -/
abbrev B18 : Dev nD → Valuation τ sig (Elt F) := fun c => StableHlo.after hostOps8_1 (B17 m ρ c)
/-- After `hostOps8_2`. -/
abbrev B19 : Dev nD → Valuation τ sig (Elt F) := fun c => StableHlo.after hostOps8_2 (B18 m ρ c)
/-- Region 8's entry contents read at the TensorCore's references. -/
abbrev VB19 : (c : Dev nD) → (b : Ref sig .tc) → Buf (Elt F) ((c : Thread nD τ).loc b) := fun c b => B19 m ρ c b
/-- At region 8's exit: its arrays at what the pipeline leaves, every other buffer as entered. -/
def B20 (c : Dev nD) : Valuation τ sig (Elt F) :=
  Pipeline.withArrays spec8 c (B19 m ρ c) fun w => (dat8 (VB19 m ρ) c).arrAt w cfg8.N
theorem B20_arr (c : Dev nD) (w : Fin cfg8.W) :
    B20 m ρ c (Proc.devRef .tc (Pipeline.arrRef spec8 w)) = (dat8 (VB19 m ρ) c).arrAt w cfg8.N := by
  unfold B20; exact Pipeline.withArrays_arr spec8 launch8.win.arr_inj c _ _ w
theorem B20_of_ne (c : Dev nD) (b : Ref sig .tc) (hb : ∀ w, Pipeline.arrRef spec8 w ≠ b) :
    B20 m ρ c (Proc.devRef .tc b) = B19 m ρ c (Proc.devRef .tc b) := by
  unfold B20; exact Pipeline.withArrays_of_ne spec8 c _ _ b hb
abbrev VB20 : (c : Dev nD) → (b : Ref sig .tc) → Buf (Elt F) ((c : Thread nD τ).loc b) := fun c b => B20 m ρ c b
theorem hF8 (c : Dev nD) (w : Fin cfg8.W) : (dat8 (VB19 m ρ) c).arrAt w cfg8.N = VB20 m ρ c (Pipeline.arrRef spec8 w) :=
  (B20_arr m ρ c w).symm
theorem hrest8 (c : Dev nD) : ∀ b, b ∉ Finset.univ.image (Pipeline.arrRef spec8) → VB20 m ρ c b = VB19 m ρ c b :=
  fun b hb => B20_of_ne m ρ c b fun w e => hb (Finset.mem_image.mpr ⟨w, Finset.mem_univ _, e⟩)
/-- After `hostOps9`. -/
abbrev B21 : Dev nD → Valuation τ sig (Elt F) := fun c => StableHlo.after hostOps9 (B20 m ρ c)

/-! ## The arguments end as launched: no host operation writes one, and no region stages one as an output -/

/-- The seven argument buffers. -/
abbrev argRefs : List (Ref sig .tc) := [main_arg0, main_arg1, main_arg2, main_arg3, main_arg4, main_arg5, main_arg6]

theorem keep_hostOps0 (V : Valuation τ sig (Elt F)) (b : Ref sig .tc) (hb : b ∈ argRefs) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr0 (b : Ref sig .tc) (hb : b ∈ argRefs) : ∀ w, Pipeline.arrRef spec0 w ≠ b :=
  fun w e => (by decide : ∀ w, Pipeline.arrRef spec0 w ∉ argRefs) w (by rw [e]; exact hb)

theorem keep_hostOps1 (V : Valuation τ sig (Elt F)) (b : Ref sig .tc) (hb : b ∈ argRefs) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr1 (b : Ref sig .tc) (hb : b ∈ argRefs) : ∀ w, Pipeline.arrRef spec1 w ≠ b :=
  fun w e => (by decide : ∀ w, Pipeline.arrRef spec1 w ∉ argRefs) w (by rw [e]; exact hb)

theorem keep_hostOps2 (V : Valuation τ sig (Elt F)) (b : Ref sig .tc) (hb : b ∈ argRefs) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr2 (b : Ref sig .tc) (hb : b ∈ argRefs) : ∀ w, Pipeline.arrRef spec2 w ≠ b :=
  fun w e => (by decide : ∀ w, Pipeline.arrRef spec2 w ∉ argRefs) w (by rw [e]; exact hb)

theorem keep_hostOps3 (V : Valuation τ sig (Elt F)) (b : Ref sig .tc) (hb : b ∈ argRefs) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr3 (b : Ref sig .tc) (hb : b ∈ argRefs) : ∀ w, Pipeline.arrRef spec3 w ≠ b :=
  fun w e => (by decide : ∀ w, Pipeline.arrRef spec3 w ∉ argRefs) w (by rw [e]; exact hb)

theorem keep_hostOps4 (V : Valuation τ sig (Elt F)) (b : Ref sig .tc) (hb : b ∈ argRefs) :
    StableHlo.after hostOps4 V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr4 (b : Ref sig .tc) (hb : b ∈ argRefs) : ∀ w, Pipeline.arrRef spec4 w ≠ b :=
  fun w e => (by decide : ∀ w, Pipeline.arrRef spec4 w ∉ argRefs) w (by rw [e]; exact hb)

theorem keep_hostOps5 (V : Valuation τ sig (Elt F)) (b : Ref sig .tc) (hb : b ∈ argRefs) :
    StableHlo.after hostOps5 V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr5 (b : Ref sig .tc) (hb : b ∈ argRefs) : ∀ w, Pipeline.arrRef spec5 w ≠ b :=
  fun w e => (by decide : ∀ w, Pipeline.arrRef spec5 w ∉ argRefs) w (by rw [e]; exact hb)

theorem keep_hostOps6 (V : Valuation τ sig (Elt F)) (b : Ref sig .tc) (hb : b ∈ argRefs) :
    StableHlo.after hostOps6 V (Proc.devRef .tc b) = V (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr6 (b : Ref sig .tc) (hb : b ∈ argRefs) : ∀ w, Pipeline.arrRef spec6 w ≠ b :=
  fun w e => (by decide : ∀ w, Pipeline.arrRef spec6 w ∉ argRefs) w (by rw [e]; exact hb)

theorem keep_hostOps7 (V : Valuation τ sig (Elt F)) (b : Ref sig .tc) (hb : b ∈ argRefs) :
    StableHlo.after hostOps7 V (Proc.devRef .tc b) = V (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr7 (b : Ref sig .tc) (hb : b ∈ argRefs) : ∀ w, Pipeline.arrRef spec7 w ≠ b :=
  fun w e => (by decide : ∀ w, Pipeline.arrRef spec7 w ∉ argRefs) w (by rw [e]; exact hb)

theorem keep_hostOps8 (V : Valuation τ sig (Elt F)) (b : Ref sig .tc) (hb : b ∈ argRefs) :
    StableHlo.after hostOps8 V (Proc.devRef .tc b) = V (Proc.devRef .tc b) :=
  StableHlo.after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem keep_hostOps8_1 (V : Valuation τ sig (Elt F)) (b : Ref sig .tc) (hb : b ∈ argRefs) :
    StableHlo.after hostOps8_1 V (Proc.devRef .tc b) = V (Proc.devRef .tc b) :=
  StableHlo.after_of_forall_not_mem (b := Proc.devRef .tc b) _ _ (List.forall_iff_forall_mem.mp (by
    simp only [hostOps8_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem keep_hostOps8_2 (V : Valuation τ sig (Elt F)) (b : Ref sig .tc) (hb : b ∈ argRefs) :
    StableHlo.after hostOps8_2 V (Proc.devRef .tc b) = V (Proc.devRef .tc b) :=
  StableHlo.after_of_forall_not_mem (b := Proc.devRef .tc b) _ _ (List.forall_iff_forall_mem.mp (by
    simp only [hostOps8_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr8 (b : Ref sig .tc) (hb : b ∈ argRefs) : ∀ w, Pipeline.arrRef spec8 w ≠ b :=
  fun w e => (by decide : ∀ w, Pipeline.arrRef spec8 w ∉ argRefs) w (by rw [e]; exact hb)

theorem keep_hostOps9 (V : Valuation τ sig (Elt F)) (b : Ref sig .tc) (hb : b ∈ argRefs) :
    StableHlo.after hostOps9 V (Proc.devRef .tc b) = V (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

/-- An argument's buffer at the last boundary holds the launch contents. -/
theorem B21_arg (c : Dev nD) (b : Ref sig .tc) (hb : b ∈ argRefs) :
    B21 m ρ c (Proc.devRef .tc b) = m ((c : Thread nD τ).loc b) :=
  (keep_hostOps9 (B20 m ρ c) b hb).trans ((B20_of_ne m ρ c b (ne_arr8 b hb)).trans ((keep_hostOps8_2 (B18 m ρ c) b hb).trans ((keep_hostOps8_1 (B17 m ρ c) b hb).trans ((keep_hostOps8 (B16 m ρ c) b hb).trans ((B16_of_ne m ρ c b (ne_arr7 b hb)).trans ((keep_hostOps7 (B14 m ρ c) b hb).trans ((B14_of_ne m ρ c b (ne_arr6 b hb)).trans ((keep_hostOps6 (B12 m ρ c) b hb).trans ((B12_of_ne m ρ c b (ne_arr5 b hb)).trans ((keep_hostOps5 (B10 m ρ c) b hb).trans ((B10_of_ne m ρ c b (ne_arr4 b hb)).trans ((keep_hostOps4 (B8 m ρ c) b hb).trans ((B8_of_ne m ρ c b (ne_arr3 b hb)).trans ((keep_hostOps3 (B6 m ρ c) b hb).trans ((B6_of_ne m ρ c b (ne_arr2 b hb)).trans ((keep_hostOps2 (B4 m ρ c) b hb).trans ((B4_of_ne m ρ c b (ne_arr1 b hb)).trans ((keep_hostOps1 (B2 m ρ c) b hb).trans ((B2_of_ne m ρ c b (ne_arr0 b hb)).trans ((keep_hostOps0 (B0 m ρ c) b hb).trans (rfl)))))))))))))))))))))

end Cert.Kernel.Hand

end
-- ==== Proof.K.Run.lean ====
/-
  The run of @main: each stretch of host operations and each of the nine regions as a segment over the thread
  state "every unscoped buffer at the boundary's contents, the generator register at some state, nothing owed",
  the launch over the segments, and the frame read off the last boundary. Stated at any float instance.
-/
import proofs.«156564_j46222438039786_1_alg».proof.Proof.Gen.Kernel.Launch
import proofs.«156564_j46222438039786_1_alg».proof.Proof.Gen.Kernel.Skeleton
import proofs.«156564_j46222438039786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import Idealize.ShloMosaic.Lib.Pipeline.RegionsLoop
import proofs.«156564_j46222438039786_1_alg».proof.Proof.K.Fold

set_option maxRecDepth 16384

noncomputable section

namespace Cert.Kernel.Hand

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (VB1 m ρ) c
  | ⟨1, _⟩ => fun c => dat1 (VB3 m ρ) c
  | ⟨2, _⟩ => fun c => dat2 (VB5 m ρ) c
  | ⟨3, _⟩ => fun c => dat3 (VB7 m ρ) c
  | ⟨4, _⟩ => fun c => dat4 (VB9 m ρ) c
  | ⟨5, _⟩ => fun c => dat5 (VB11 m ρ) c
  | ⟨6, _⟩ => fun c => dat6 (VB13 m ρ) c
  | ⟨7, _⟩ => fun c => dat7 (VB15 m ρ) c
  | ⟨8, _⟩ => fun c => dat8 (VB19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- No operation of `hostOps6` allocates a buffer. -/
theorem hostOps6_fresh : (hostOps6 : List (HloOp τ sig (Elt F))).Forall fun op => op.fresh = ∅ := by
  simp only [List.Forall]; repeat' constructor
/-- No operation of `hostOps7` allocates a buffer. -/
theorem hostOps7_fresh : (hostOps7 : List (HloOp τ sig (Elt F))).Forall fun op => op.fresh = ∅ := by
  simp only [List.Forall]; repeat' constructor
/-- No operation of `hostOps8` allocates a buffer. -/
theorem hostOps8_fresh : (hostOps8 : List (HloOp τ sig (Elt F))).Forall fun op => op.fresh = ∅ := by
  simp only [List.Forall]; repeat' constructor
/-- No operation of `hostOps8_1` allocates a buffer. -/
theorem hostOps8_1_fresh : (hostOps8_1 : List (HloOp τ sig (Elt F))).Forall fun op => op.fresh = ∅ := by
  simp only [List.Forall]; repeat' constructor
/-- No operation of `hostOps8_2` allocates a buffer. -/
theorem hostOps8_2_fresh : (hostOps8_2 : List (HloOp τ sig (Elt F))).Forall fun op => op.fresh = ∅ := by
  simp only [List.Forall]; repeat' constructor
/-- No operation of `hostOps9` allocates a buffer. -/
theorem hostOps9_fresh : (hostOps9 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B21 m ρ c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state: entered from every unscoped buffer at `B1`, left at `B2`. Its three arrays
    are split out of the unscoped buffers and put back at the exit contents; the generator register and the scoped
    buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VB1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (VB1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VB1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (VB1 m ρ) c).Φ 0 from rfl]
    iintro ⟨Hp, -, Hr⟩
    iapply (hin0 (VB1 m ρ) c)
    unfold Pipeline.ΦA
    isplitl [Hr]; · iexact Hr
    iexact Hp
  hout c := by
    rw [Pipeline.ownSems0_none, show (pdats m ρ 0 c).Φ (Fin.last _) = (dat0 (VB1 m ρ) c).Φ (Fin.last cfg0.N) from rfl]
    iintro H
    ihave H' := (hout0 (VB1 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VB1 m ρ c) (VB2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered from every unscoped buffer at `B3`, left at `B4`. Its three arrays
    are split out of the unscoped buffers and put back at the exit contents; the generator register and the scoped
    buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (VB3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (VB3 m ρ) c).Φ 0 from rfl]
    iintro ⟨Hp, -, Hr⟩
    iapply (hin1 (VB3 m ρ) c)
    unfold Pipeline.ΦA
    isplitl [Hr]; · iexact Hr
    iexact Hp
  hout c := by
    rw [Pipeline.ownSems0_none, show (pdats m ρ 1 c).Φ (Fin.last _) = (dat1 (VB3 m ρ) c).Φ (Fin.last cfg1.N) from rfl]
    iintro H
    ihave H' := (hout1 (VB3 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB3 m ρ c) (VB4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered from every unscoped buffer at `B5`, left at `B6`. Its three arrays
    are split out of the unscoped buffers and put back at the exit contents; the generator register and the scoped
    buffers go into the region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VB5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (VB5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VB5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (VB5 m ρ) c).Φ 0 from rfl]
    iintro ⟨Hp, -, Hr⟩
    iapply (hin2 (VB5 m ρ) c)
    unfold Pipeline.ΦA
    isplitl [Hr]; · iexact Hr
    iexact Hp
  hout c := by
    rw [Pipeline.ownSems0_none, show (pdats m ρ 2 c).Φ (Fin.last _) = (dat2 (VB5 m ρ) c).Φ (Fin.last cfg2.N) from rfl]
    iintro H
    ihave H' := (hout2 (VB5 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VB5 m ρ c) (VB6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 3 over the thread state: entered from every unscoped buffer at `B7`, left at `B8`. Its three arrays
    are split out of the unscoped buffers and put back at the exit contents; the generator register and the scoped
    buffers go into the region's invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VB7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (VB7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VB7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (VB7 m ρ) c).Φ 0 from rfl]
    iintro ⟨Hp, -, Hr⟩
    iapply (hin3 (VB7 m ρ) c)
    unfold Pipeline.ΦA
    isplitl [Hr]; · iexact Hr
    iexact Hp
  hout c := by
    rw [Pipeline.ownSems0_none, show (pdats m ρ 3 c).Φ (Fin.last _) = (dat3 (VB7 m ρ) c).Φ (Fin.last cfg3.N) from rfl]
    iintro H
    ihave H' := (hout3 (VB7 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VB7 m ρ c) (VB8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 4 over the thread state: entered from every unscoped buffer at `B9`, left at `B10`. Its three arrays
    are split out of the unscoped buffers and put back at the exit contents; the generator register and the scoped
    buffers go into the region's invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VB9 m ρ) c).loose
  hwaits := Pipeline.hwaits_of_owed_zero _ _ _ _ L lv 4 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec4 c (VB9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VB9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (VB9 m ρ) c).Φ 0 from rfl]
    iintro ⟨Hp, -, Hr⟩
    iapply (hin4 (VB9 m ρ) c)
    unfold Pipeline.ΦA
    isplitl [Hr]; · iexact Hr
    iexact Hp
  hout c := by
    rw [Pipeline.ownSems0_none, show (pdats m ρ 4 c).Φ (Fin.last _) = (dat4 (VB9 m ρ) c).Φ (Fin.last cfg4.N) from rfl]
    iintro H
    ihave H' := (hout4 (VB9 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (VB9 m ρ c) (VB10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 5 over the thread state: entered from every unscoped buffer at `B11`, left at `B12`. Its three arrays
    are split out of the unscoped buffers and put back at the exit contents; the generator register and the scoped
    buffers go into the region's invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VB11 m ρ) c).loose
  hwaits := Pipeline.hwaits_of_owed_zero _ _ _ _ L lv 5 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec5 c (VB11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (VB11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (VB11 m ρ) c).Φ 0 from rfl]
    iintro ⟨Hp, -, Hr⟩
    iapply (hin5 (VB11 m ρ) c)
    unfold Pipeline.ΦA
    isplitl [Hr]; · iexact Hr
    iexact Hp
  hout c := by
    rw [Pipeline.ownSems0_none, show (pdats m ρ 5 c).Φ (Fin.last _) = (dat5 (VB11 m ρ) c).Φ (Fin.last cfg5.N) from rfl]
    iintro H
    ihave H' := (hout5 (VB11 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (VB11 m ρ c) (VB12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 6 over the thread state: entered from every unscoped buffer at `B13`, left at `B14`. Its three arrays
    are split out of the unscoped buffers and put back at the exit contents; the generator register and the scoped
    buffers go into the region's invariant and come back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VB13 m ρ) c).loose
  hwaits := Pipeline.hwaits_of_owed_zero _ _ _ _ L lv 6 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec6 c (VB13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (VB13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (VB13 m ρ) c).Φ 0 from rfl]
    iintro ⟨Hp, -, Hr⟩
    iapply (hin6 (VB13 m ρ) c)
    unfold Pipeline.ΦA
    isplitl [Hr]; · iexact Hr
    iexact Hp
  hout c := by
    rw [Pipeline.ownSems0_none, show (pdats m ρ 6 c).Φ (Fin.last _) = (dat6 (VB13 m ρ) c).Φ (Fin.last cfg6.N) from rfl]
    iintro H
    ihave H' := (hout6 (VB13 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (VB13 m ρ c) (VB14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 7 over the thread state: entered from every unscoped buffer at `B15`, left at `B16`. Its three arrays
    are split out of the unscoped buffers and put back at the exit contents; the generator register and the scoped
    buffers go into the region's invariant and come back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VB15 m ρ) c).loose
  hwaits := Pipeline.hwaits_of_owed_zero _ _ _ _ L lv 7 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec7 c (VB15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (VB15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (VB15 m ρ) c).Φ 0 from rfl]
    iintro ⟨Hp, -, Hr⟩
    iapply (hin7 (VB15 m ρ) c)
    unfold Pipeline.ΦA
    isplitl [Hr]; · iexact Hr
    iexact Hp
  hout c := by
    rw [Pipeline.ownSems0_none, show (pdats m ρ 7 c).Φ (Fin.last _) = (dat7 (VB15 m ρ) c).Φ (Fin.last cfg7.N) from rfl]
    iintro H
    ihave H' := (hout7 (VB15 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (VB15 m ρ c) (VB16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 8 over the thread state: entered from every unscoped buffer at `B19`, left at `B20`. Its three arrays
    are split out of the unscoped buffers and put back at the exit contents; the generator register and the scoped
    buffers go into the region's invariant and come back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VB19 m ρ) c).loose
  hwaits := Pipeline.hwaits_of_owed_zero _ _ _ _ L lv 8 fun _ _ => rfl
  pre c := iprop(StableHlo.held (c : Thread nD τ) (Pipeline.ucRefs τ sig) (B19 m ρ c) ∗ R c)
  post c := iprop(StableHlo.held (c : Thread nD τ) (Pipeline.ucRefs τ sig) (B20 m ρ c) ∗ R c)
  X c := iprop(∃ r, prngReg c r)
  Y c := iprop(∃ r, prngReg c r)
  Z c := Pipeline.unscopedRest (Ix := Unit) (Name := ℕ) (U := UR sig nD τ) (Lvl := ℕ) spec8 c (VB19 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (VB19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (VB19 m ρ) c).Φ 0 from rfl]
    iintro ⟨Hp, -, Hr⟩
    iapply (hin8 (VB19 m ρ) c)
    unfold Pipeline.ΦA
    isplitl [Hr]; · iexact Hr
    iexact Hp
  hout c := by
    rw [Pipeline.ownSems0_none, show (pdats m ρ 8 c).Φ (Fin.last _) = (dat8 (VB19 m ρ) c).Φ (Fin.last cfg8.N) from rfl]
    iintro H
    ihave H' := (hout8 (VB19 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (VB19 m ρ c) (VB20 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 21 segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .region (reg7 m ρ),
    .host (hseg hostOps8 hostOps8_sub hostOps8_fresh (B16 m ρ)),
    .host (hseg hostOps8_1 hostOps8_1_sub hostOps8_1_fresh (B17 m ρ)),
    .host (hseg hostOps8_2 hostOps8_2_sub hostOps8_2_fresh (B18 m ρ)),
    .region (reg8 m ρ),
    .host (hseg hostOps9 hostOps9_sub hostOps9_fresh (B20 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer of each core holds the last boundary's contents `B21`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B21 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B21 m ρ c b)
    (hfin := fun c s' => by
      iintro ⟨⟨Hh, -⟩, HSI⟩
      unfold StableHlo.held
      imodintro
      iapply (pointsTo_read_all (Pipeline.ucRefs τ sig) (fun b => (((c : Thread nD τ)).1, b)) (B21 m ρ c) s')
      isplitl [Hh] <;> iassumption)
    (hQ := fun s h => h)

/-- THE FRAME, at any float instance: the run, read at the seven argument buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B21_arg m ρ c main_arg0 (by decide)),
     (h c _ (mem_uc main_arg1 (by decide))).trans (B21_arg m ρ c main_arg1 (by decide)),
     (h c _ (mem_uc main_arg2 (by decide))).trans (B21_arg m ρ c main_arg2 (by decide)),
     (h c _ (mem_uc main_arg3 (by decide))).trans (B21_arg m ρ c main_arg3 (by decide)),
     (h c _ (mem_uc main_arg4 (by decide))).trans (B21_arg m ρ c main_arg4 (by decide)),
     (h c _ (mem_uc main_arg5 (by decide))).trans (B21_arg m ρ c main_arg5 (by decide)),
     (h c _ (mem_uc main_arg6 (by decide))).trans (B21_arg m ρ c main_arg6 (by decide))⟩) (run_main m ρ)

end Cert.Kernel.Hand

end
-- ==== Proof.KI.Body0.lean ====
/-
  The body of custom_call 0 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 0: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond0_0 (i : grid0.Coords) : Prop := (Scalar.cmpi .ne (Scalar.extui (Scalar.cmpi .eq (BitVec.ofNat 32 (i 2).val) 0#32)) 0#32) = 1#1
/-- The second branch is taken exactly when the last grid coordinate is the last of its axis. -/
abbrev cond0_1 (i : grid0.Coords) : Prop := k0_cond2 i = 1#1

set_option maxHeartbeats 1000000 in
/-- `k = 0`, not the last: the scratch, whatever it held, ends at `0 + a · b`; the output's buffer is untouched. -/
theorem body0_first (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond0_0 i) (hc1 : ¬cond0_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body0_mid (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond0_0 i) (hc1 : ¬cond0_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body0_last (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond0_0 i) (hc1 : cond0_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay2 xs x0 x1)
            ∗ owns (c : Thread nD τ) arg6 fullShare (k0_pay2 xs x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region0.lean ====
/-
  Region 0 of @main (custom_call 0) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body0

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: custom_call 0 at the buffer contents `V` it is entered from -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid: point `t` is `(i, 0, k)` with `k = t mod 4` -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The operands are staged at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output is stored, and written back, only where `k = 3`. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The accumulator point by point -/

/-- What the scratch holds after the body at position `n`: restarted from zero where `k = 0`, else the value the
    point before left plus this point's product of blocks. -/
def acc0 (c : Dev nD) : (n : ℕ) → n < cfg0.N → Vec F S1024x2048 .f32
  | 0, hn => k0_pay2 (k0_pay1 (F := F)) (iblk0 V c 0 ⟨0, hn⟩) (iblk0 V c 1 ⟨0, hn⟩)
  | n + 1, hn =>
    if (n + 1) % 4 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact (if_pos h0).trans rfl

theorem acc0_next (c : Dev nD) (t : Fin cfg0.N) (h0 : ¬t.val % 4 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM0 : Memref sig .tc .vmem S1024x2048 .f32 := Memref.whole cc0_scratch0

/-- What the launch hands the region, with the scratch split off the other scoped buffers. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before position `n`: at the start what the launch hands over; afterwards the scratch at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each operand's buffer at its block and the output's at the
    accumulator; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  by_cases h1 : t.val % 4 = 3
  · have h0 : ¬t.val % 4 = 0 := by omega
    have hz : t.val ≠ 0 := fun e => by rw [e] at h1; exact absurd h1 (by decide)
    rw [show (dat0 V c).leavesExact 2 t = owns (c : Thread nD τ) (st0_2 t) fullShare ((dat0 V c).after 2 t) from by
      unfold Dat.leavesExact; rw [liveAt0_2 t ((hcond0_1 t).mpr h1)], after0_2]
    rw [acc0_next V c t h0, PhiS0_castSucc V c t, PhiS0_pos V c _ _ hz]
    iintro ⟨⟨⟨HS, Hrest⟩, Hg⟩, Ho, ⟨%d0, H0⟩, ⟨%d1, H1⟩, ⟨%d2, H2⟩⟩
    iapply (body0_last c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 4 = 0
    · rw [acc0_first V c t h0]
      have hS : (dat0 V c).Φ t.castSucc ⊢ iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
        rw [PhiS0_castSucc V c t]
        by_cases hz : t.val = 0
        · rw [PhiS0_zero V c _ _ hz, PhiA0_eq]
        · rw [PhiS0_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body0_first c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc0_next V c t h0, PhiS0_castSucc V c t, PhiS0_pos V c _ _ hz]
      iintro ⟨⟨⟨HS, Hrest⟩, Hg⟩, Ho, ⟨%d0, H0⟩, ⟨%d1, H1⟩, ⟨%d2, H2⟩⟩
      iapply (body0_mid c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: what the scratch holds is forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by rw [show cfg0.N = 16 from N_0]; decide), PhiA0_eq]
  iintro ⟨⟨HS, Hrest⟩, Hg⟩
  isplitl [HS Hrest]
  · isplitl [HS]; · iexists _; iexact HS
    iexact Hrest
  iexact Hg

end Region0

end Cert.KernelIdeal.Hand

end
-- ==== Proof.KI.Body1.lean ====
/-
  The body of custom_call 1 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 1: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond1_0 (i : grid1.Coords) : Prop := (Scalar.cmpi .ne (Scalar.extui (Scalar.cmpi .eq (BitVec.ofNat 32 (i 2).val) 0#32)) 0#32) = 1#1
/-- The second branch is taken exactly when the last grid coordinate is the last of its axis. -/
abbrev cond1_1 (i : grid1.Coords) : Prop := k1_cond2 i = 1#1

set_option maxHeartbeats 1000000 in
/-- `k = 0`, not the last: the scratch, whatever it held, ends at `0 + a · b`; the output's buffer is untouched. -/
theorem body1_first (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond1_0 i) (hc1 : ¬cond1_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body1_mid (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k1_pay2 xs x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body1_last (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : cond1_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 xs x0 x1)
            ∗ owns (c : Thread nD τ) arg6 fullShare (k1_pay2 xs x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region1.lean ====
/-
  Region 1 of @main (custom_call 1) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body1

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: custom_call 1 at the buffer contents `V` it is entered from -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid: point `t` is `(i, 0, k)` with `k = t mod 4` -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- The operands are staged at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output is stored, and written back, only where `k = 3`. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The accumulator point by point -/

/-- What the scratch holds after the body at position `n`: restarted from zero where `k = 0`, else the value the
    point before left plus this point's product of blocks. -/
def acc1 (c : Dev nD) : (n : ℕ) → n < cfg1.N → Vec F S1024x2048 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rfl
  | succ n => exact (if_pos h0).trans rfl

theorem acc1_next (c : Dev nD) (t : Fin cfg1.N) (h0 : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM1 : Memref sig .tc .vmem S1024x2048 .f32 := Memref.whole cc1_scratch0

/-- What the launch hands the region, with the scratch split off the other scoped buffers. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Before position `n`: at the start what the launch hands over; afterwards the scratch at what the point before left. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each operand's buffer at its block and the output's at the
    accumulator; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 4 = 3
  · have h0 : ¬t.val % 4 = 0 := by omega
    have hz : t.val ≠ 0 := fun e => by rw [e] at h1; exact absurd h1 (by decide)
    rw [show (dat1 V c).leavesExact 2 t = owns (c : Thread nD τ) (st1_2 t) fullShare ((dat1 V c).after 2 t) from by
      unfold Dat.leavesExact; rw [liveAt1_2 t ((hcond1_1 t).mpr h1)], after1_2]
    rw [acc1_next V c t h0, PhiS1_castSucc V c t, PhiS1_pos V c _ _ hz]
    iintro ⟨⟨⟨HS, Hrest⟩, Hg⟩, Ho, ⟨%d0, H0⟩, ⟨%d1, H1⟩, ⟨%d2, H2⟩⟩
    iapply (body1_last c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [acc1_first V c t h0]
      have hS : (dat1 V c).Φ t.castSucc ⊢ iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
        rw [PhiS1_castSucc V c t]
        by_cases hz : t.val = 0
        · rw [PhiS1_zero V c _ _ hz, PhiA1_eq]
        · rw [PhiS1_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc1_next V c t h0, PhiS1_castSucc V c t, PhiS1_pos V c _ _ hz]
      iintro ⟨⟨⟨HS, Hrest⟩, Hg⟩, Ho, ⟨%d0, H0⟩, ⟨%d1, H1⟩, ⟨%d2, H2⟩⟩
      iapply (body1_mid c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: what the scratch holds is forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by rw [show cfg1.N = 16 from N_1]; decide), PhiA1_eq]
  iintro ⟨⟨HS, Hrest⟩, Hg⟩
  isplitl [HS Hrest]
  · isplitl [HS]; · iexists _; iexact HS
    iexact Hrest
  iexact Hg

end Region1

end Cert.KernelIdeal.Hand

end
-- ==== Proof.KI.Body2.lean ====
/-
  The body of custom_call 2 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 2: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond2_0 (i : grid2.Coords) : Prop := (Scalar.cmpi .ne (Scalar.extui (Scalar.cmpi .eq (BitVec.ofNat 32 (i 2).val) 0#32)) 0#32) = 1#1
/-- The second branch is taken exactly when the last grid coordinate is the last of its axis. -/
abbrev cond2_1 (i : grid2.Coords) : Prop := k2_cond2 i = 1#1

set_option maxHeartbeats 1000000 in
/-- `k = 0`, not the last: the scratch, whatever it held, ends at `0 + a · b`; the output's buffer is untouched. -/
theorem body2_first (c : Dev nD) (i : grid2.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond2_0 i) (hc1 : ¬cond2_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k2_pay2 (k2_pay1 (F := F)) x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body2_mid (c : Dev nD) (i : grid2.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond2_0 i) (hc1 : ¬cond2_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k2_pay2 xs x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body2_last (c : Dev nD) (i : grid2.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond2_0 i) (hc1 : cond2_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k2_pay2 xs x0 x1)
            ∗ owns (c : Thread nD τ) arg6 fullShare (k2_pay2 xs x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region2.lean ====
/-
  Region 2 of @main (custom_call 2) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body2

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: custom_call 2 at the buffer contents `V` it is entered from -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions over the grid: point `t` is `(i, 0, k)` with `k = t mod 4` -/

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)
/-- The operands are staged at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- The output is stored, and written back, only where `k = 3`. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The accumulator point by point -/

/-- What the scratch holds after the body at position `n`: restarted from zero where `k = 0`, else the value the
    point before left plus this point's product of blocks. -/
def acc2 (c : Dev nD) : (n : ℕ) → n < cfg2.N → Vec F S1024x2048 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_first (c : Dev nD) (t : Fin cfg2.N) (h0 : t.val % 4 = 0) :
    acc2 V c t.val t.isLt = k2_pay2 (k2_pay1 (F := F)) (iblk2 V c 0 t) (iblk2 V c 1 t) := by
  obtain ⟨n, hn⟩ := t
  cases n with
  | zero => rfl
  | succ n => exact (if_pos h0).trans rfl

theorem acc2_next (c : Dev nD) (t : Fin cfg2.N) (h0 : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM2 : Memref sig .tc .vmem S1024x2048 .f32 := Memref.whole cc2_scratch0

/-- What the launch hands the region, with the scratch split off the other scoped buffers. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before position `n`: at the start what the launch hands over; afterwards the scratch at what the point before left. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each operand's buffer at its block and the output's at the
    accumulator; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  by_cases h1 : t.val % 4 = 3
  · have h0 : ¬t.val % 4 = 0 := by omega
    have hz : t.val ≠ 0 := fun e => by rw [e] at h1; exact absurd h1 (by decide)
    rw [show (dat2 V c).leavesExact 2 t = owns (c : Thread nD τ) (st2_2 t) fullShare ((dat2 V c).after 2 t) from by
      unfold Dat.leavesExact; rw [liveAt2_2 t ((hcond2_1 t).mpr h1)], after2_2]
    rw [acc2_next V c t h0, PhiS2_castSucc V c t, PhiS2_pos V c _ _ hz]
    iintro ⟨⟨⟨HS, Hrest⟩, Hg⟩, Ho, ⟨%d0, H0⟩, ⟨%d1, H1⟩, ⟨%d2, H2⟩⟩
    iapply (body2_last c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 4 = 0
    · rw [acc2_first V c t h0]
      have hS : (dat2 V c).Φ t.castSucc ⊢ iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
        rw [PhiS2_castSucc V c t]
        by_cases hz : t.val = 0
        · rw [PhiS2_zero V c _ _ hz, PhiA2_eq]
        · rw [PhiS2_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body2_first c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc2_next V c t h0, PhiS2_castSucc V c t, PhiS2_pos V c _ _ hz]
      iintro ⟨⟨⟨HS, Hrest⟩, Hg⟩, Ho, ⟨%d0, H0⟩, ⟨%d1, H1⟩, ⟨%d2, H2⟩⟩
      iapply (body2_mid c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives it back: what the scratch holds is forgotten. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by rw [show cfg2.N = 16 from N_2]; decide), PhiA2_eq]
  iintro ⟨⟨HS, Hrest⟩, Hg⟩
  isplitl [HS Hrest]
  · isplitl [HS]; · iexists _; iexact HS
    iexact Hrest
  iexact Hg

end Region2

end Cert.KernelIdeal.Hand

end
-- ==== Proof.KI.Body3.lean ====
/-
  The body of custom_call 3 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 3: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond3_0 (i : grid3.Coords) : Prop := (Scalar.cmpi .ne (Scalar.extui (Scalar.cmpi .eq (BitVec.ofNat 32 (i 2).val) 0#32)) 0#32) = 1#1
/-- The second branch is taken exactly when the last grid coordinate is the last of its axis. -/
abbrev cond3_1 (i : grid3.Coords) : Prop := k3_cond2 i = 1#1

set_option maxHeartbeats 1000000 in
/-- `k = 0`, not the last: the scratch, whatever it held, ends at `0 + a · b`; the output's buffer is untouched. -/
theorem body3_first (c : Dev nD) (i : grid3.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond3_0 i) (hc1 : ¬cond3_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k3_pay2 (k3_pay1 (F := F)) x0 x1)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body3_mid (c : Dev nD) (i : grid3.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond3_0 i) (hc1 : ¬cond3_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k3_pay2 xs x0 x1)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body3_last (c : Dev nD) (i : grid3.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond3_0 i) (hc1 : cond3_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k3_pay2 xs x0 x1)
            ∗ owns (c : Thread nD τ) arg6 fullShare (k3_pay2 xs x0 x1)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region3.lean ====
/-
  Region 3 of @main (custom_call 3) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body3

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: custom_call 3 at the buffer contents `V` it is entered from -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right operand's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The branch conditions over the grid: point `t` is `(i, 0, k)` with `k = t mod 4` -/

theorem hcond3_0 : ∀ t : Fin cfg3.N, cond3_0 (grid3.coords t) ↔ t.val % 4 = 0 :=
  (by decide +kernel : ∀ t : Fin grid3.N, cond3_0 (grid3.coords t) ↔ t.val % 4 = 0)
theorem hcond3_1 : ∀ t : Fin cfg3.N, cond3_1 (grid3.coords t) ↔ t.val % 4 = 3 :=
  (by decide +kernel : ∀ t : Fin grid3.N, cond3_1 (grid3.coords t) ↔ t.val % 4 = 3)
/-- The operands are staged at every point. -/
theorem liveAt3_0 : ∀ t : Fin cfg3.N, cfg3.idle 0 (grid3.coords t) = false := by decide +kernel
theorem liveAt3_1 : ∀ t : Fin cfg3.N, cfg3.idle 1 (grid3.coords t) = false := by decide +kernel
/-- The output is stored, and written back, only where `k = 3`. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The accumulator point by point -/

/-- What the scratch holds after the body at position `n`: restarted from zero where `k = 0`, else the value the
    point before left plus this point's product of blocks. -/
def acc3 (c : Dev nD) : (n : ℕ) → n < cfg3.N → Vec F S1024x2048 .f32
  | 0, hn => k3_pay2 (k3_pay1 (F := F)) (iblk3 V c 0 ⟨0, hn⟩) (iblk3 V c 1 ⟨0, hn⟩)
  | n + 1, hn =>
    if (n + 1) % 4 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

theorem acc3_first (c : Dev nD) (t : Fin cfg3.N) (h0 : t.val % 4 = 0) :
    acc3 V c t.val t.isLt = k3_pay2 (k3_pay1 (F := F)) (iblk3 V c 0 t) (iblk3 V c 1 t) := by
  obtain ⟨n, hn⟩ := t
  cases n with
  | zero => rfl
  | succ n => exact (if_pos h0).trans rfl

theorem acc3_next (c : Dev nD) (t : Fin cfg3.N) (h0 : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM3 : Memref sig .tc .vmem S1024x2048 .f32 := Memref.whole cc3_scratch0

/-- What the launch hands the region, with the scratch split off the other scoped buffers. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before position `n`: at the start what the launch hands over; afterwards the scratch at what the point before left. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each operand's buffer at its block and the output's at the
    accumulator; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  by_cases h1 : t.val % 4 = 3
  · have h0 : ¬t.val % 4 = 0 := by omega
    have hz : t.val ≠ 0 := fun e => by rw [e] at h1; exact absurd h1 (by decide)
    rw [show (dat3 V c).leavesExact 2 t = owns (c : Thread nD τ) (st3_2 t) fullShare ((dat3 V c).after 2 t) from by
      unfold Dat.leavesExact; rw [liveAt3_2 t ((hcond3_1 t).mpr h1)], after3_2]
    rw [acc3_next V c t h0, PhiS3_castSucc V c t, PhiS3_pos V c _ _ hz]
    iintro ⟨⟨⟨HS, Hrest⟩, Hg⟩, Ho, ⟨%d0, H0⟩, ⟨%d1, H1⟩, ⟨%d2, H2⟩⟩
    iapply (body3_last c (grid3.coords t) _ _ _ _ _ _ _ _ (fun h => h0 ((hcond3_0 t).mp h)) ((hcond3_1 t).mpr h1) (iblk3 V c 0 t) (iblk3 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat3 V c) 2 t (idleAt3_2 t (fun h => h1 ((hcond3_1 t).mp h))) (noFlush3_2 t (fun h => h1 ((hcond3_1 t).mp h)))]
    by_cases h0 : t.val % 4 = 0
    · rw [acc3_first V c t h0]
      have hS : (dat3 V c).Φ t.castSucc ⊢ iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
        rw [PhiS3_castSucc V c t]
        by_cases hz : t.val = 0
        · rw [PhiS3_zero V c _ _ hz, PhiA3_eq]
        · rw [PhiS3_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body3_first c (grid3.coords t) _ _ _ _ _ _ _ _ ((hcond3_0 t).mpr h0) (fun h => h1 ((hcond3_1 t).mp h)) (iblk3 V c 0 t) (iblk3 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc3_next V c t h0, PhiS3_castSucc V c t, PhiS3_pos V c _ _ hz]
      iintro ⟨⟨⟨HS, Hrest⟩, Hg⟩, Ho, ⟨%d0, H0⟩, ⟨%d1, H1⟩, ⟨%d2, H2⟩⟩
      iapply (body3_mid c (grid3.coords t) _ _ _ _ _ _ _ _ (fun h => h0 ((hcond3_0 t).mp h)) (fun h => h1 ((hcond3_1 t).mp h)) (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives it back: what the scratch holds is forgotten. -/
theorem hout3 (c : Dev nD) : (dat3 V c).Φ (Fin.last cfg3.N) ⊢ Pipeline.ΦA spec3 c := by
  rw [show (dat3 V c).Φ (Fin.last cfg3.N) = PhiS3 V c cfg3.N (Nat.le_refl _) from rfl,
    PhiS3_pos V c _ _ (by rw [show cfg3.N = 16 from N_3]; decide), PhiA3_eq]
  iintro ⟨⟨HS, Hrest⟩, Hg⟩
  isplitl [HS Hrest]
  · isplitl [HS]; · iexists _; iexact HS
    iexact Hrest
  iexact Hg

end Region3

end Cert.KernelIdeal.Hand

end
-- ==== Proof.KI.Body4.lean ====
/-
  The body of custom_call 4 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 4: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond4_0 (i : grid4.Coords) : Prop := (Scalar.cmpi .ne (Scalar.extui (Scalar.cmpi .eq (BitVec.ofNat 32 (i 2).val) 0#32)) 0#32) = 1#1
/-- The second branch is taken exactly when the last grid coordinate is the last of its axis. -/
abbrev cond4_1 (i : grid4.Coords) : Prop := k4_cond2 i = 1#1

set_option maxHeartbeats 1000000 in
/-- `k = 0`, not the last: the scratch, whatever it held, ends at `0 + a · b`; the output's buffer is untouched. -/
theorem body4_first (c : Dev nD) (i : grid4.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond4_0 i) (hc1 : ¬cond4_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k4_pay2 (k4_pay1 (F := F)) x0 x1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body4_mid (c : Dev nD) (i : grid4.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond4_0 i) (hc1 : ¬cond4_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k4_pay2 xs x0 x1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body4_last (c : Dev nD) (i : grid4.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond4_0 i) (hc1 : cond4_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k4_pay2 xs x0 x1)
            ∗ owns (c : Thread nD τ) arg6 fullShare (k4_pay2 xs x0 x1)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region4.lean ====
/-
  Region 4 of @main (custom_call 4) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body4

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: custom_call 4 at the buffer contents `V` it is entered from -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The right operand's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The branch conditions over the grid: point `t` is `(i, 0, k)` with `k = t mod 4` -/

theorem hcond4_0 : ∀ t : Fin cfg4.N, cond4_0 (grid4.coords t) ↔ t.val % 4 = 0 :=
  (by decide +kernel : ∀ t : Fin grid4.N, cond4_0 (grid4.coords t) ↔ t.val % 4 = 0)
theorem hcond4_1 : ∀ t : Fin cfg4.N, cond4_1 (grid4.coords t) ↔ t.val % 4 = 3 :=
  (by decide +kernel : ∀ t : Fin grid4.N, cond4_1 (grid4.coords t) ↔ t.val % 4 = 3)
/-- The operands are staged at every point. -/
theorem liveAt4_0 : ∀ t : Fin cfg4.N, cfg4.idle 0 (grid4.coords t) = false := by decide +kernel
theorem liveAt4_1 : ∀ t : Fin cfg4.N, cfg4.idle 1 (grid4.coords t) = false := by decide +kernel
/-- The output is stored, and written back, only where `k = 3`. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The accumulator point by point -/

/-- What the scratch holds after the body at position `n`: restarted from zero where `k = 0`, else the value the
    point before left plus this point's product of blocks. -/
def acc4 (c : Dev nD) : (n : ℕ) → n < cfg4.N → Vec F S1024x2048 .f32
  | 0, hn => k4_pay2 (k4_pay1 (F := F)) (iblk4 V c 0 ⟨0, hn⟩) (iblk4 V c 1 ⟨0, hn⟩)
  | n + 1, hn =>
    if (n + 1) % 4 = 0 then k4_pay2 (k4_pay1 (F := F)) (iblk4 V c 0 ⟨n + 1, hn⟩) (iblk4 V c 1 ⟨n + 1, hn⟩)
    else k4_pay2 (acc4 c n (Nat.lt_of_succ_lt hn)) (iblk4 V c 0 ⟨n + 1, hn⟩) (iblk4 V c 1 ⟨n + 1, hn⟩)

theorem acc4_first (c : Dev nD) (t : Fin cfg4.N) (h0 : t.val % 4 = 0) :
    acc4 V c t.val t.isLt = k4_pay2 (k4_pay1 (F := F)) (iblk4 V c 0 t) (iblk4 V c 1 t) := by
  obtain ⟨n, hn⟩ := t
  cases n with
  | zero => rfl
  | succ n => exact (if_pos h0).trans rfl

theorem acc4_next (c : Dev nD) (t : Fin cfg4.N) (h0 : ¬t.val % 4 = 0) :
    acc4 V c t.val t.isLt = k4_pay2 (acc4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM4 : Memref sig .tc .vmem S1024x2048 .f32 := Memref.whole cc4_scratch0

/-- What the launch hands the region, with the scratch split off the other scoped buffers. -/
theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- Before position `n`: at the start what the launch hands over; afterwards the scratch at what the point before left. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body each operand's buffer at its block and the output's at the
    accumulator; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h1 : t.val % 4 = 3
  · have h0 : ¬t.val % 4 = 0 := by omega
    have hz : t.val ≠ 0 := fun e => by rw [e] at h1; exact absurd h1 (by decide)
    rw [show (dat4 V c).leavesExact 2 t = owns (c : Thread nD τ) (st4_2 t) fullShare ((dat4 V c).after 2 t) from by
      unfold Dat.leavesExact; rw [liveAt4_2 t ((hcond4_1 t).mpr h1)], after4_2]
    rw [acc4_next V c t h0, PhiS4_castSucc V c t, PhiS4_pos V c _ _ hz]
    iintro ⟨⟨⟨HS, Hrest⟩, Hg⟩, Ho, ⟨%d0, H0⟩, ⟨%d1, H1⟩, ⟨%d2, H2⟩⟩
    iapply (body4_last c (grid4.coords t) _ _ _ _ _ _ _ _ (fun h => h0 ((hcond4_0 t).mp h)) ((hcond4_1 t).mpr h1) (iblk4 V c 0 t) (iblk4 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat4 V c) 2 t (idleAt4_2 t (fun h => h1 ((hcond4_1 t).mp h))) (noFlush4_2 t (fun h => h1 ((hcond4_1 t).mp h)))]
    by_cases h0 : t.val % 4 = 0
    · rw [acc4_first V c t h0]
      have hS : (dat4 V c).Φ t.castSucc ⊢ iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
        rw [PhiS4_castSucc V c t]
        by_cases hz : t.val = 0
        · rw [PhiS4_zero V c _ _ hz, PhiA4_eq]
        · rw [PhiS4_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body4_first c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc4_next V c t h0, PhiS4_castSucc V c t, PhiS4_pos V c _ _ hz]
      iintro ⟨⟨⟨HS, Hrest⟩, Hg⟩, Ho, ⟨%d0, H0⟩, ⟨%d1, H1⟩, ⟨%d2, H2⟩⟩
      iapply (body4_mid c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]

/-- After the last point the invariant gives it back: what the scratch holds is forgotten. -/
theorem hout4 (c : Dev nD) : (dat4 V c).Φ (Fin.last cfg4.N) ⊢ Pipeline.ΦA spec4 c := by
  rw [show (dat4 V c).Φ (Fin.last cfg4.N) = PhiS4 V c cfg4.N (Nat.le_refl _) from rfl,
    PhiS4_pos V c _ _ (by rw [show cfg4.N = 16 from N_4]; decide), PhiA4_eq]
  iintro ⟨⟨HS, Hrest⟩, Hg⟩
  isplitl [HS Hrest]
  · isplitl [HS]; · iexists _; iexact HS
    iexact Hrest
  iexact Hg

end Region4

end Cert.KernelIdeal.Hand

end
-- ==== Proof.KI.Body5.lean ====
/-
  The body of custom_call 5 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 5: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond5_0 (i : grid5.Coords) : Prop := (Scalar.cmpi .ne (Scalar.extui (Scalar.cmpi .eq (BitVec.ofNat 32 (i 2).val) 0#32)) 0#32) = 1#1
/-- The second branch is taken exactly when the last grid coordinate is the last of its axis. -/
abbrev cond5_1 (i : grid5.Coords) : Prop := k5_cond2 i = 1#1

set_option maxHeartbeats 1000000 in
/-- `k = 0`, not the last: the scratch, whatever it held, ends at `0 + a · b`; the output's buffer is untouched. -/
theorem body5_first (c : Dev nD) (i : grid5.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond5_0 i) (hc1 : ¬cond5_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k5_pay2 (k5_pay1 (F := F)) x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body5_mid (c : Dev nD) (i : grid5.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond5_0 i) (hc1 : ¬cond5_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k5_pay2 xs x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body5_last (c : Dev nD) (i : grid5.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond5_0 i) (hc1 : cond5_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k5_pay2 xs x0 x1)
            ∗ owns (c : Thread nD τ) arg6 fullShare (k5_pay2 xs x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region5.lean ====
/-
  Region 5 of @main (custom_call 5) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body5

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: custom_call 5 at the buffer contents `V` it is entered from -/

section Region5
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left operand's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The right operand's staging buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The branch conditions over the grid: point `t` is `(i, 0, k)` with `k = t mod 4` -/

theorem hcond5_0 : ∀ t : Fin cfg5.N, cond5_0 (grid5.coords t) ↔ t.val % 4 = 0 :=
  (by decide +kernel : ∀ t : Fin grid5.N, cond5_0 (grid5.coords t) ↔ t.val % 4 = 0)
theorem hcond5_1 : ∀ t : Fin cfg5.N, cond5_1 (grid5.coords t) ↔ t.val % 4 = 3 :=
  (by decide +kernel : ∀ t : Fin grid5.N, cond5_1 (grid5.coords t) ↔ t.val % 4 = 3)
/-- The operands are staged at every point. -/
theorem liveAt5_0 : ∀ t : Fin cfg5.N, cfg5.idle 0 (grid5.coords t) = false := by decide +kernel
theorem liveAt5_1 : ∀ t : Fin cfg5.N, cfg5.idle 1 (grid5.coords t) = false := by decide +kernel
/-- The output is stored, and written back, only where `k = 3`. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

/-! ## The accumulator point by point -/

/-- What the scratch holds after the body at position `n`: restarted from zero where `k = 0`, else the value the
    point before left plus this point's product of blocks. -/
def acc5 (c : Dev nD) : (n : ℕ) → n < cfg5.N → Vec F S1024x2048 .f32
  | 0, hn => k5_pay2 (k5_pay1 (F := F)) (iblk5 V c 0 ⟨0, hn⟩) (iblk5 V c 1 ⟨0, hn⟩)
  | n + 1, hn =>
    if (n + 1) % 4 = 0 then k5_pay2 (k5_pay1 (F := F)) (iblk5 V c 0 ⟨n + 1, hn⟩) (iblk5 V c 1 ⟨n + 1, hn⟩)
    else k5_pay2 (acc5 c n (Nat.lt_of_succ_lt hn)) (iblk5 V c 0 ⟨n + 1, hn⟩) (iblk5 V c 1 ⟨n + 1, hn⟩)

theorem acc5_first (c : Dev nD) (t : Fin cfg5.N) (h0 : t.val % 4 = 0) :
    acc5 V c t.val t.isLt = k5_pay2 (k5_pay1 (F := F)) (iblk5 V c 0 t) (iblk5 V c 1 t) := by
  obtain ⟨n, hn⟩ := t
  cases n with
  | zero => rfl
  | succ n => exact (if_pos h0).trans rfl

theorem acc5_next (c : Dev nD) (t : Fin cfg5.N) (h0 : ¬t.val % 4 = 0) :
    acc5 V c t.val t.isLt = k5_pay2 (acc5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM5 : Memref sig .tc .vmem S1024x2048 .f32 := Memref.whole cc5_scratch0

/-- What the launch hands the region, with the scratch split off the other scoped buffers. -/
theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- Before position `n`: at the start what the launch hands over; afterwards the scratch at what the point before left. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5 fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The arrays as the region finds them; after the body each operand's buffer at its block and the output's at the
    accumulator; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  by_cases h1 : t.val % 4 = 3
  · have h0 : ¬t.val % 4 = 0 := by omega
    have hz : t.val ≠ 0 := fun e => by rw [e] at h1; exact absurd h1 (by decide)
    rw [show (dat5 V c).leavesExact 2 t = owns (c : Thread nD τ) (st5_2 t) fullShare ((dat5 V c).after 2 t) from by
      unfold Dat.leavesExact; rw [liveAt5_2 t ((hcond5_1 t).mpr h1)], after5_2]
    rw [acc5_next V c t h0, PhiS5_castSucc V c t, PhiS5_pos V c _ _ hz]
    iintro ⟨⟨⟨HS, Hrest⟩, Hg⟩, Ho, ⟨%d0, H0⟩, ⟨%d1, H1⟩, ⟨%d2, H2⟩⟩
    iapply (body5_last c (grid5.coords t) _ _ _ _ _ _ _ _ (fun h => h0 ((hcond5_0 t).mp h)) ((hcond5_1 t).mpr h1) (iblk5 V c 0 t) (iblk5 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat5 V c) 2 t (idleAt5_2 t (fun h => h1 ((hcond5_1 t).mp h))) (noFlush5_2 t (fun h => h1 ((hcond5_1 t).mp h)))]
    by_cases h0 : t.val % 4 = 0
    · rw [acc5_first V c t h0]
      have hS : (dat5 V c).Φ t.castSucc ⊢ iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
        rw [PhiS5_castSucc V c t]
        by_cases hz : t.val = 0
        · rw [PhiS5_zero V c _ _ hz, PhiA5_eq]
        · rw [PhiS5_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body5_first c (grid5.coords t) _ _ _ _ _ _ _ _ ((hcond5_0 t).mpr h0) (fun h => h1 ((hcond5_1 t).mp h)) (iblk5 V c 0 t) (iblk5 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc5_next V c t h0, PhiS5_castSucc V c t, PhiS5_pos V c _ _ hz]
      iintro ⟨⟨⟨HS, Hrest⟩, Hg⟩, Ho, ⟨%d0, H0⟩, ⟨%d1, H1⟩, ⟨%d2, H2⟩⟩
      iapply (body5_mid c (grid5.coords t) _ _ _ _ _ _ _ _ (fun h => h0 ((hcond5_0 t).mp h)) (fun h => h1 ((hcond5_1 t).mp h)) (iblk5 V c 0 t) (iblk5 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]

/-- After the last point the invariant gives it back: what the scratch holds is forgotten. -/
theorem hout5 (c : Dev nD) : (dat5 V c).Φ (Fin.last cfg5.N) ⊢ Pipeline.ΦA spec5 c := by
  rw [show (dat5 V c).Φ (Fin.last cfg5.N) = PhiS5 V c cfg5.N (Nat.le_refl _) from rfl,
    PhiS5_pos V c _ _ (by rw [show cfg5.N = 16 from N_5]; decide), PhiA5_eq]
  iintro ⟨⟨HS, Hrest⟩, Hg⟩
  isplitl [HS Hrest]
  · isplitl [HS]; · iexists _; iexact HS
    iexact Hrest
  iexact Hg

end Region5

end Cert.KernelIdeal.Hand

end
-- ==== Proof.KI.Body6.lean ====
/-
  The body of custom_call 6 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 6: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond6_0 (i : grid6.Coords) : Prop := (Scalar.cmpi .ne (Scalar.extui (Scalar.cmpi .eq (BitVec.ofNat 32 (i 2).val) 0#32)) 0#32) = 1#1
/-- The second branch is taken exactly when the last grid coordinate is the last of its axis. -/
abbrev cond6_1 (i : grid6.Coords) : Prop := k6_cond2 i = 1#1

set_option maxHeartbeats 1000000 in
/-- `k = 0`, not the last: the scratch, whatever it held, ends at `0 + a · b`; the output's buffer is untouched. -/
theorem body6_first (c : Dev nD) (i : grid6.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond6_0 i) (hc1 : ¬cond6_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k6_pay2 (k6_pay1 (F := F)) x0 x1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body6_mid (c : Dev nD) (i : grid6.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond6_0 i) (hc1 : ¬cond6_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k6_pay2 xs x0 x1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body6_last (c : Dev nD) (i : grid6.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond6_0 i) (hc1 : cond6_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k6_pay2 xs x0 x1)
            ∗ owns (c : Thread nD τ) arg6 fullShare (k6_pay2 xs x0 x1)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region6.lean ====
/-
  Region 6 of @main (custom_call 6) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body6

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: custom_call 6 at the buffer contents `V` it is entered from -/

section Region6
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left operand's staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The right operand's staging buffer holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The branch conditions over the grid: point `t` is `(i, 0, k)` with `k = t mod 4` -/

theorem hcond6_0 : ∀ t : Fin cfg6.N, cond6_0 (grid6.coords t) ↔ t.val % 4 = 0 :=
  (by decide +kernel : ∀ t : Fin grid6.N, cond6_0 (grid6.coords t) ↔ t.val % 4 = 0)
theorem hcond6_1 : ∀ t : Fin cfg6.N, cond6_1 (grid6.coords t) ↔ t.val % 4 = 3 :=
  (by decide +kernel : ∀ t : Fin grid6.N, cond6_1 (grid6.coords t) ↔ t.val % 4 = 3)
/-- The operands are staged at every point. -/
theorem liveAt6_0 : ∀ t : Fin cfg6.N, cfg6.idle 0 (grid6.coords t) = false := by decide +kernel
theorem liveAt6_1 : ∀ t : Fin cfg6.N, cfg6.idle 1 (grid6.coords t) = false := by decide +kernel
/-- The output is stored, and written back, only where `k = 3`. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

/-! ## The accumulator point by point -/

/-- What the scratch holds after the body at position `n`: restarted from zero where `k = 0`, else the value the
    point before left plus this point's product of blocks. -/
def acc6 (c : Dev nD) : (n : ℕ) → n < cfg6.N → Vec F S1024x2048 .f32
  | 0, hn => k6_pay2 (k6_pay1 (F := F)) (iblk6 V c 0 ⟨0, hn⟩) (iblk6 V c 1 ⟨0, hn⟩)
  | n + 1, hn =>
    if (n + 1) % 4 = 0 then k6_pay2 (k6_pay1 (F := F)) (iblk6 V c 0 ⟨n + 1, hn⟩) (iblk6 V c 1 ⟨n + 1, hn⟩)
    else k6_pay2 (acc6 c n (Nat.lt_of_succ_lt hn)) (iblk6 V c 0 ⟨n + 1, hn⟩) (iblk6 V c 1 ⟨n + 1, hn⟩)

theorem acc6_first (c : Dev nD) (t : Fin cfg6.N) (h0 : t.val % 4 = 0) :
    acc6 V c t.val t.isLt = k6_pay2 (k6_pay1 (F := F)) (iblk6 V c 0 t) (iblk6 V c 1 t) := by
  obtain ⟨n, hn⟩ := t
  cases n with
  | zero => rfl
  | succ n => exact (if_pos h0).trans rfl

theorem acc6_next (c : Dev nD) (t : Fin cfg6.N) (h0 : ¬t.val % 4 = 0) :
    acc6 V c t.val t.isLt = k6_pay2 (acc6 V c (t.val - 1) (Nat.lt_of_le_of_lt (Nat.sub_le _ _) t.isLt)) (iblk6 V c 0 t) (iblk6 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM6 : Memref sig .tc .vmem S1024x2048 .f32 := Memref.whole cc6_scratch0

/-- What the launch hands the region, with the scratch split off the other scoped buffers. -/
theorem PhiA6_eq (c : Dev nD) :
    (Pipeline.ΦA spec6 c : sProp 𝕄)
      = iprop(iprop(iprop((∃ d, owns (c : Thread nD τ) scM6 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- Before position `n`: at the start what the launch hands over; afterwards the scratch at what the point before left. -/
def PhiS6 (c : Dev nD) : (n : ℕ) → n ≤ cfg6.N → sProp 𝕄
  | 0, _ => Pipeline.ΦA spec6 c
  | n + 1, hn => iprop(iprop(owns (c : Thread nD τ) scM6 fullShare (acc6 V c n hn) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6 fullShare (acc6 V c n hn) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6 fullShare (acc6 V c (n - 1) (by omega)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The arrays as the region finds them; after the body each operand's buffer at its block and the output's at the
    accumulator; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  by_cases h1 : t.val % 4 = 3
  · have h0 : ¬t.val % 4 = 0 := by omega
    have hz : t.val ≠ 0 := fun e => by rw [e] at h1; exact absurd h1 (by decide)
    rw [show (dat6 V c).leavesExact 2 t = owns (c : Thread nD τ) (st6_2 t) fullShare ((dat6 V c).after 2 t) from by
      unfold Dat.leavesExact; rw [liveAt6_2 t ((hcond6_1 t).mpr h1)], after6_2]
    rw [acc6_next V c t h0, PhiS6_castSucc V c t, PhiS6_pos V c _ _ hz]
    iintro ⟨⟨⟨HS, Hrest⟩, Hg⟩, Ho, ⟨%d0, H0⟩, ⟨%d1, H1⟩, ⟨%d2, H2⟩⟩
    iapply (body6_last c (grid6.coords t) _ _ _ _ _ _ _ _ (fun h => h0 ((hcond6_0 t).mp h)) ((hcond6_1 t).mpr h1) (iblk6 V c 0 t) (iblk6 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat6 V c) 2 t (idleAt6_2 t (fun h => h1 ((hcond6_1 t).mp h))) (noFlush6_2 t (fun h => h1 ((hcond6_1 t).mp h)))]
    by_cases h0 : t.val % 4 = 0
    · rw [acc6_first V c t h0]
      have hS : (dat6 V c).Φ t.castSucc ⊢ iprop(iprop(iprop((∃ d, owns (c : Thread nD τ) scM6 fullShare d)) ∗ Pipeline.scopedRestBut (Ix := Unit) (Name := ℕ) (U := UR sig nD τ) (Lvl := ℕ) (Val := Elt F) spec6 c [cc6_scratch0]) ∗ (∃ r, prngReg c r)) := by
        rw [PhiS6_castSucc V c t]
        by_cases hz : t.val = 0
        · rw [PhiS6_zero V c _ _ hz, PhiA6_eq]
        · rw [PhiS6_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body6_first c (grid6.coords t) _ _ _ _ _ _ _ _ ((hcond6_0 t).mpr h0) (fun h => h1 ((hcond6_1 t).mp h)) (iblk6 V c 0 t) (iblk6 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc6_next V c t h0, PhiS6_castSucc V c t, PhiS6_pos V c _ _ hz]
      iintro ⟨⟨⟨HS, Hrest⟩, Hg⟩, Ho, ⟨%d0, H0⟩, ⟨%d1, H1⟩, ⟨%d2, H2⟩⟩
      iapply (body6_mid c (grid6.coords t) _ _ _ _ _ _ _ _ (fun h => h0 ((hcond6_0 t).mp h)) (fun h => h1 ((hcond6_1 t).mp h)) (iblk6 V c 0 t) (iblk6 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]

/-- After the last point the invariant gives it back: what the scratch holds is forgotten. -/
theorem hout6 (c : Dev nD) : (dat6 V c).Φ (Fin.last cfg6.N) ⊢ Pipeline.ΦA spec6 c := by
  rw [show (dat6 V c).Φ (Fin.last cfg6.N) = PhiS6 V c cfg6.N (Nat.le_refl _) from rfl,
    PhiS6_pos V c _ _ (by rw [show cfg6.N = 16 from N_6]; decide), PhiA6_eq]
  iintro ⟨⟨HS, Hrest⟩, Hg⟩
  isplitl [HS Hrest]
  · isplitl [HS]; · iexists _; iexact HS
    iexact Hrest
  iexact Hg

end Region6

end Cert.KernelIdeal.Hand

end
-- ==== Proof.KI.Body7.lean ====
/-
  The body of custom_call 7 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 7: one step of a matrix product accumulated over the grid's last axis

The grid is (4, 1, 4): for each block-row `i` of the left operand the last axis `k` runs over the four
block-columns. At `k = 0` the scratch is reset to zero, at every `k` it receives
`scratch + a(i,k) · b(k)`, and at `k = 3` it is copied to the output block. The output's buffer is left
untouched at the other points. -/

/-- The first branch is taken exactly when the last grid coordinate is `0`. -/
abbrev cond7_0 (i : grid7.Coords) : Prop := (Scalar.cmpi .ne (Scalar.extui (Scalar.cmpi .eq (BitVec.ofNat 32 (i 2).val) 0#32)) 0#32) = 1#1
/-- The second branch is taken exactly when the last grid coordinate is the last of its axis. -/
abbrev cond7_1 (i : grid7.Coords) : Prop := k7_cond2 i = 1#1

set_option maxHeartbeats 1000000 in
/-- `k = 0`, not the last: the scratch, whatever it held, ends at `0 + a · b`; the output's buffer is untouched. -/
theorem body7_first (c : Dev nD) (i : grid7.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : cond7_0 i) (hc1 : ¬cond7_1 i)
    (x0 : Vec F S1024x1024 .bf16) (x1 : Vec F S1024x2048 .bf16) (xi2 : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare (xi2)
            ∗ owns (c : Thread nD τ) arg6 fullShare (k7_pay2 (k7_pay1 (F := F)) x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg3.read_unread, harg4.read_unread, View.ld_unit_zero (S := S1024x2048) hz, View.ld_unit_zero (S := S1024x1024) hz]

set_option maxHeartbeats 1000000 in
/-- `0 < k < 3`: the scratch at `s` ends at `s + a · b`; the output's buffer is untouched. -/
theorem body7_mid (c : Dev nD) (i : grid7.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond7_0 i) (hc1 : ¬cond7_1 i)
    (x0 : Vec F S1024x1024 .bf16) (x1 : Vec F S1024x2048 .bf16) (xi2 : Vec F S1024x2048 .f32) (xs : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare (xi2)
            ∗ owns (c : Thread nD τ) arg6 fullShare (k7_pay2 xs x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

set_option maxHeartbeats 1000000 in
/-- `k = 3`: the scratch at `s` ends at `s + a · b`, and so does the output's buffer, whatever it held. -/
theorem body7_last (c : Dev nD) (i : grid7.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole)
    (hc0 : ¬cond7_0 i) (hc1 : cond7_1 i)
    (x0 : Vec F S1024x1024 .bf16) (x1 : Vec F S1024x2048 .bf16) (xs : Vec F S1024x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k7_pay2 xs x0 x1)
            ∗ owns (c : Thread nD τ) arg6 fullShare (k7_pay2 xs x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S1024x2048_S1024x2048_0_0 y⟩), View.canon_cons_unit_zero hz]
    (try rw [View.readCov_unit_zero (S := S1024x2048) _ hz])
    (try rw [View.readCov_eq_canon_ld _ _ _ (fun y => ⟨_, List.mem_cons_self, View.mem_set_unit_zero hz inb_S1024x2048_S1024x2048_0_0 y⟩), View.canon_cons_unit_zero hz])
    simp only [View.readAt_eq_ld, harg6.read_unread, harg3.read_unread, harg4.read_unread, View.ld_unit_zero (S := S1024x2048) hz, View.ld_unit_zero (S := S1024x1024) hz]
  iexists _; isplitr
  swap; · iexact HS
  ipureintro
  (try sl_unfold_run_names)
  rw [View.read_writes_eq_canon _ _ _ (fun y => ⟨_, List.mem_cons_self, View.mem_set_unit_zero hz inb_S1024x2048_S1024x2048_0_0 y⟩), View.canon_cons_unit_zero hz]
  (try rw [View.readCov_unit_zero (S := S1024x2048) _ hz])
  (try rw [View.readCov_eq_canon_ld _ _ _ (fun y => ⟨_, List.mem_cons_self, View.mem_set_unit_zero hz inb_S1024x2048_S1024x2048_0_0 y⟩), View.canon_cons_unit_zero hz])
  simp only [View.readAt_eq_ld, harg6.read_unread, harg3.read_unread, harg4.read_unread, View.ld_unit_zero (S := S1024x2048) hz, View.ld_unit_zero (S := S1024x1024) hz]

end Cert.KernelIdeal.Hand

end
-- ==== Proof.KI.Region7.lean ====
/-
  Region 7 of @main (custom_call 7) at any buffer contents `V` it is entered from: the blocks the pipeline
  stages at each grid point, the accumulator the body carries in its scratch from point to point, the region's
  invariant and proof data, and the body obligation at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body7

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: custom_call 7 at the buffer contents `V` it is entered from -/

section Region7
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The left operand's staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The right operand's staging buffer holds its block at every point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The branch conditions over the grid: point `t` is `(i, 0, k)` with `k = t mod 4` -/

theorem hcond7_0 : ∀ t : Fin cfg7.N, cond7_0 (grid7.coords t) ↔ t.val % 4 = 0 :=
  (by decide +kernel : ∀ t : Fin grid7.N, cond7_0 (grid7.coords t) ↔ t.val % 4 = 0)
theorem hcond7_1 : ∀ t : Fin cfg7.N, cond7_1 (grid7.coords t) ↔ t.val % 4 = 3 :=
  (by decide +kernel : ∀ t : Fin grid7.N, cond7_1 (grid7.coords t) ↔ t.val % 4 = 3)
/-- The operands are staged at every point. -/
theorem liveAt7_0 : ∀ t : Fin cfg7.N, cfg7.idle 0 (grid7.coords t) = false := by decide +kernel
theorem liveAt7_1 : ∀ t : Fin cfg7.N, cfg7.idle 1 (grid7.coords t) = false := by decide +kernel
/-- The output is stored, and written back, only where `k = 3`. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-! ## The accumulator point by point -/

/-- What the scratch holds after the body at position `n`: restarted from zero where `k = 0`, else the value the
    point before left plus this point's product of blocks. -/
def acc7 (c : Dev nD) : (n : ℕ) → n < cfg7.N → Vec F S1024x2048 .f32
  | 0, hn => k7_pay2 (k7_pay1 (F := F)) (iblk7 V c 0 ⟨0, hn⟩) (iblk7 V c 1 ⟨0, hn⟩)
  | n + 1, hn =>
    if (n + 1) % 4 = 0 then k7_pay2 (k7_pay1 (F := F)) (iblk7 V c 0 ⟨n + 1, hn⟩) (iblk7 V c 1 ⟨n + 1, hn⟩)
    else k7_pay2 (acc7 c n (Nat.lt_of_succ_lt hn)) (iblk7 V c 0 ⟨n + 1, hn⟩) (iblk7 V c 1 ⟨n + 1, hn⟩)

theorem acc7_first (c : Dev nD) (t : Fin cfg7.N) (h0 : t.val % 4 = 0) :
    acc7 V c t.val t.isLt = k7_pay2 (k7_pay1 (F := F)) (iblk7 V c 0 t) (iblk7 V c 1 t) := by
  obtain ⟨n, hn⟩ := t
  cases n with
  | zero => rfl
  | succ n => exact (if_pos h0).trans rfl

theorem acc7_next (c : Dev nD) (t : Fin cfg7.N) (h0 : ¬t.val % 4 = 0) :
    acc7 V c t.val t.isLt = k7_pay2 (acc7 V c (t.val - 1) (Nat.lt_of_le_of_lt (Nat.sub_le _ _) t.isLt)) (iblk7 V c 0 t) (iblk7 V c 1 t) := by
  obtain ⟨n, hn⟩ := t
  cases n with
  | zero => exact absurd (Nat.zero_mod _) h0
  | succ n => exact (if_neg h0).trans rfl

/-! ## The region's invariant: the scratch at the accumulator, every other scoped buffer and the generator register untouched -/

/-- The call's scratch operand as a whole memref. -/
abbrev scM7 : Memref sig .tc .vmem S1024x2048 .f32 := Memref.whole cc7_scratch0

/-- What the launch hands the region, with the scratch split off the other scoped buffers. -/
theorem PhiA7_eq (c : Dev nD) :
    (Pipeline.ΦA spec7 c : sProp 𝕄)
      = iprop(iprop(iprop((∃ d, owns (c : Thread nD τ) scM7 fullShare d)) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- Before position `n`: at the start what the launch hands over; afterwards the scratch at what the point before left. -/
def PhiS7 (c : Dev nD) : (n : ℕ) → n ≤ cfg7.N → sProp 𝕄
  | 0, _ => Pipeline.ΦA spec7 c
  | n + 1, hn => iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r)) := rfl
theorem PhiS7_pos (c : Dev nD) (n : ℕ) (h : n ≤ cfg7.N) (hz : n ≠ 0) :
    PhiS7 V c n h = iprop(iprop(owns (c : Thread nD τ) scM7 fullShare (acc7 V c (n - 1) (by omega)) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The arrays as the region finds them; after the body each operand's buffer at its block and the output's at the
    accumulator; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the operands' buffers hold their blocks; the point's `k` decides the case; the invariant
    hands over the scratch at what the point before left (at anything at the very first point) and takes it back at
    this point's accumulator; where `k < 3` the output's buffer goes back as it came. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  by_cases h1 : t.val % 4 = 3
  · have h0 : ¬t.val % 4 = 0 := by omega
    have hz : t.val ≠ 0 := fun e => by rw [e] at h1; exact absurd h1 (by decide)
    rw [show (dat7 V c).leavesExact 2 t = owns (c : Thread nD τ) (st7_2 t) fullShare ((dat7 V c).after 2 t) from by
      unfold Dat.leavesExact; rw [liveAt7_2 t ((hcond7_1 t).mpr h1)], after7_2]
    rw [acc7_next V c t h0, PhiS7_castSucc V c t, PhiS7_pos V c _ _ hz]
    iintro ⟨⟨⟨HS, Hrest⟩, Hg⟩, Ho, ⟨%d0, H0⟩, ⟨%d1, H1⟩, ⟨%d2, H2⟩⟩
    iapply (body7_last c (grid7.coords t) _ _ _ _ _ _ _ _ (fun h => h0 ((hcond7_0 t).mp h)) ((hcond7_1 t).mpr h1) (iblk7 V c 0 t) (iblk7 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat7 V c) 2 t (idleAt7_2 t (fun h => h1 ((hcond7_1 t).mp h))) (noFlush7_2 t (fun h => h1 ((hcond7_1 t).mp h)))]
    by_cases h0 : t.val % 4 = 0
    · rw [acc7_first V c t h0]
      have hS : (dat7 V c).Φ t.castSucc ⊢ iprop(iprop(iprop((∃ d, owns (c : Thread nD τ) scM7 fullShare d)) ∗ Pipeline.scopedRestBut (Ix := Unit) (Name := ℕ) (U := UR sig nD τ) (Lvl := ℕ) (Val := Elt F) spec7 c [cc7_scratch0]) ∗ (∃ r, prngReg c r)) := by
        rw [PhiS7_castSucc V c t]
        by_cases hz : t.val = 0
        · rw [PhiS7_zero V c _ _ hz, PhiA7_eq]
        · rw [PhiS7_pos V c _ _ hz]
          iintro ⟨⟨HS, Hrest⟩, Hg⟩
          isplitl [HS Hrest]
          · isplitl [HS]; · iexists _; iexact HS
            iexact Hrest
          iexact Hg
      iintro ⟨HΦ, Ho, ⟨%d0, H0⟩, ⟨%d1, H1⟩, ⟨%d2, H2⟩⟩
      ihave HΦ' := hS $$ HΦ
      icases HΦ' with ⟨⟨HS, Hrest⟩, Hg⟩
      iapply (body7_first c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · have hz : t.val ≠ 0 := fun e => h0 (by rw [e])
      rw [acc7_next V c t h0, PhiS7_castSucc V c t, PhiS7_pos V c _ _ hz]
      iintro ⟨⟨⟨HS, Hrest⟩, Hg⟩, Ho, ⟨%d0, H0⟩, ⟨%d1, H1⟩, ⟨%d2, H2⟩⟩
      iapply (body7_mid c (grid7.coords t) _ _ _ _ _ _ _ _ (fun h => h0 ((hcond7_0 t).mp h)) (fun h => h1 ((hcond7_1 t).mp h)) (iblk7 V c 0 t) (iblk7 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]

/-- After the last point the invariant gives it back: what the scratch holds is forgotten. -/
theorem hout7 (c : Dev nD) : (dat7 V c).Φ (Fin.last cfg7.N) ⊢ Pipeline.ΦA spec7 c := by
  rw [show (dat7 V c).Φ (Fin.last cfg7.N) = PhiS7 V c cfg7.N (Nat.le_refl _) from rfl,
    PhiS7_pos V c _ _ (by rw [show cfg7.N = 16 from N_7]; decide), PhiA7_eq]
  iintro ⟨⟨HS, Hrest⟩, Hg⟩
  isplitl [HS Hrest]
  · isplitl [HS]; · iexists _; iexact HS
    iexact Hrest
  iexact Hg

end Region7

end Cert.KernelIdeal.Hand

end
-- ==== Proof.KI.Body8.lean ====
/-
  The body of custom_call 8 of the printed program, run on whole staging memrefs at any contents, in each
  case its two branches allow on its grid: the accumulator `scratch` ends at `scratch + a · b` (restarted
  from zero where the last grid coordinate is 0) and the output block receives it where that coordinate is the
  last of its axis. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of custom_call 8: a whole matrix product of one block-row

The grid is (32, 1, 1): the last axis has one point, so at every grid point the scratch is reset to zero,
receives `0 + a(i) · b`, and is copied to the output block. -/

/-- The first branch is taken exactly when the last grid coordinate is `0`. -/
abbrev cond8_0 (i : grid8.Coords) : Prop := (Scalar.cmpi .ne (Scalar.extui (Scalar.cmpi .eq (BitVec.ofNat 32 (i 2).val) 0#32)) 0#32) = 1#1
/-- The second branch is taken exactly when the last grid coordinate is the last of its axis. -/
abbrev cond8_1 (i : grid8.Coords) : Prop := k8_cond2 i = 1#1

set_option maxHeartbeats 1000000 in
/-- Every point: the scratch, whatever it held, ends at `0 + a · b`, and so does the output's buffer. -/
theorem body8_only (c : Dev nD) (i : grid8.Coords) (arg3 : Memref sig .tc .vmem S4096x576 .bf16) (harg3 : arg3.IsWhole) (arg4 : Memref sig .tc .vmem S576x128 .bf16) (harg4 : arg4.IsWhole) (arg5 : Memref sig .tc .vmem S4096x128 .f32) (harg5 : arg5.IsWhole) (arg6 : Memref sig .tc .vmem S4096x128 .f32) (harg6 : arg6.IsWhole)
    (hc0 : cond8_0 i) (hc1 : cond8_1 i)
    (x0 : Vec F S4096x576 .bf16) (x1 : Vec F S576x128 .bf16) (E : Set ℕ) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ owns (c : Thread nD τ) arg5 fullShare (k8_pay2 (k8_pay1 (F := F)) x0 x1)
            ∗ owns (c : Thread nD τ) arg6 fullShare (k8_pay2 (k8_pay1 (F := F)) x0 x1)) -∗ K ⟨⟩))
      ⊢ wp frame (wpE (defs₀ (F := F)) Variants.none c none) E (cc8__matmul_kernel i arg3 harg3 arg4 harg4 arg5 harg5 arg6 harg6) K := by
  simp only [cc8__matmul_kernel_eq_skeleton]; unfold cc8__matmul_kernel_skel
  unfold owns
  iintro ⟨⟨%f0, %hf0, H0⟩, ⟨%f1, %hf1, H1⟩, ⟨%d2, %f2, -, H2⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    (try sl_unfold_run_names)
    rw [View.read_writes_eq_canon _ _ _ (fun y => ⟨_, List.mem_cons_self, View.mem_set_unit_zero hz inb_S4096x128_S4096x128_0_0 y⟩), View.canon_cons_unit_zero hz]
    (try rw [View.readCov_unit_zero (S := S4096x128) _ hz])
    (try rw [View.readCov_eq_canon_ld _ _ _ (fun y => ⟨_, List.mem_cons_self, View.mem_set_unit_zero hz inb_S4096x128_S4096x128_0_0 y⟩), View.canon_cons_unit_zero hz])
    simp only [View.readAt_eq_ld, harg3.read_unread, harg4.read_unread, View.ld_unit_zero (S := S4096x128) hz, View.ld_unit_zero (S := S4096x576) hz, View.ld_unit_zero (S := S576x128) hz]
  iexists _; isplitr
  swap; · iexact HS
  ipureintro
  (try sl_unfold_run_names)
  rw [View.read_writes_eq_canon _ _ _ (fun y => ⟨_, List.mem_cons_self, View.mem_set_unit_zero hz inb_S4096x128_S4096x128_0_0 y⟩), View.canon_cons_unit_zero hz]
  (try rw [View.readCov_unit_zero (S := S4096x128) _ hz])
  (try rw [View.readCov_eq_canon_ld _ _ _ (fun y => ⟨_, List.mem_cons_self, View.mem_set_unit_zero hz inb_S4096x128_S4096x128_0_0 y⟩), View.canon_cons_unit_zero hz])
  simp only [View.readAt_eq_ld, harg3.read_unread, harg4.read_unread, View.ld_unit_zero (S := S4096x128) hz, View.ld_unit_zero (S := S4096x576) hz, View.ld_unit_zero (S := S576x128) hz]

end Cert.KernelIdeal.Hand

end
-- ==== Proof.KI.Region8.lean ====
/-
  Region 8 of @main (custom_call 8) at any buffer contents `V` it is entered from: the blocks the pipeline stages
  at each grid point, what the body leaves in the output block, the region's proof data, and the body obligation
  at every point. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import proofs.«156564_j46222438039786_1_alg».proof.Proof.KI.Body8

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: custom_call 8 at the buffer contents `V` it is entered from -/

section Region8
variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The left operand's staging buffer holds its block-row at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The right operand's staging buffer holds the whole right matrix at every point (fetched once, never moved). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## Both branches are taken at every point: the last grid axis has the one coordinate 0 -/

theorem hcond8_0 : ∀ t : Fin cfg8.N, cond8_0 (grid8.coords t) :=
  (by decide +kernel : ∀ t : Fin grid8.N, cond8_0 (grid8.coords t))
theorem hcond8_1 : ∀ t : Fin cfg8.N, cond8_1 (grid8.coords t) :=
  (by decide +kernel : ∀ t : Fin grid8.N, cond8_1 (grid8.coords t))
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel

/-- What the output block (and the scratch) holds after the body at point `t`: zero plus the product of the point's
    block-row with the right matrix. -/
def acc8 (c : Dev nD) (t : Fin cfg8.N) : Vec F S4096x128 .f32 :=
  k8_pay2 (k8_pay1 (F := F)) (iblk8 V c 0 t) (iblk8 V c 1 t)

/-- The call's scratch operand as a whole memref. -/
abbrev scM8 : Memref sig .tc .vmem S4096x128 .f32 := Memref.whole cc8_scratch0

/-- What the launch hands the region, with the scratch split off the other scoped buffers. -/
theorem PhiA8_eq (c : Dev nD) :
    (Pipeline.ΦA spec8 c : sProp 𝕄)
      = iprop(iprop(iprop((∃ d, owns (c : Thread nD τ) scM8 fullShare d)) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- The arrays as the region finds them; after the body each operand's buffer at its block and the output's at
    `acc8`; the invariant what the launch hands over (the scratch is reset at every point, so nothing is carried);
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the operands' buffers hold their blocks; the invariant lends the scratch at anything and
    takes it back at anything. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Pipeline.ΦA spec8 c from rfl, show (dat8 V c).Φ t.castSucc = Pipeline.ΦA spec8 c from rfl, PhiA8_eq]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  rw [show (dat8 V c).leavesExact 2 t = owns (c : Thread nD τ) (st8_2 t) fullShare ((dat8 V c).after 2 t) from by
    unfold Dat.leavesExact; rw [liveAt8_2 t], after8_2]
  unfold acc8
  iintro ⟨⟨⟨HS, Hrest⟩, Hg⟩, Ho, ⟨%d0, H0⟩, ⟨%d1, H1⟩, ⟨%d2, H2⟩⟩
  iapply (body8_only c (grid8.coords t) _ _ _ _ _ _ _ _ (hcond8_0 t) (hcond8_1 t) (iblk8 V c 0 t) (iblk8 V c 1 t) Set.univ _)
  isplitl [H0]; · iexact H0
  isplitl [H1]; · iexact H1
  isplitl [H2]; · iexists _; iexact H2
  isplitl [HS]; · iexact HS
  iintro ⟨H0, H1, H2, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Pipeline.ΦA spec8 c from rfl]
theorem hout8 (c : Dev nD) : (dat8 V c).Φ (Fin.last cfg8.N) ⊢ Pipeline.ΦA spec8 c := by
  rw [show (dat8 V c).Φ (Fin.last cfg8.N) = Pipeline.ΦA spec8 c from rfl]

end Region8

end Cert.KernelIdeal.Hand

end
-- ==== Proof.KI.Fold.lean ====
/-
  The buffer contents at every boundary between two segments of @main — a fold from the launch memory through the
  host stretches and the nine regions — and the fact that every argument's buffer holds its launch contents at
  every boundary. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import Idealize.ShloMosaic.Lib.Pipeline.RegionsLoop
import proofs.«156564_j46222438039786_1_alg».proof.Proof.KI.Region0
import proofs.«156564_j46222438039786_1_alg».proof.Proof.KI.Region1
import proofs.«156564_j46222438039786_1_alg».proof.Proof.KI.Region2
import proofs.«156564_j46222438039786_1_alg».proof.Proof.KI.Region3
import proofs.«156564_j46222438039786_1_alg».proof.Proof.KI.Region4
import proofs.«156564_j46222438039786_1_alg».proof.Proof.KI.Region5
import proofs.«156564_j46222438039786_1_alg».proof.Proof.KI.Region6
import proofs.«156564_j46222438039786_1_alg».proof.Proof.KI.Region7
import proofs.«156564_j46222438039786_1_alg».proof.Proof.KI.Region8

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at every boundary between two segments of @main

`B0` is the launch memory; a stretch of host operations takes a boundary to `StableHlo.after` of it; a region
takes it to the same contents with the region's three arrays at what its write-backs leave. -/

/-- Core `c`'s buffers at launch. -/
abbrev B0 : Dev nD → Valuation τ sig (Elt F) := fun c b => (s₀ m ρ).mem ((c : Dev nD), b)
/-- After `hostOps0`. -/
abbrev B1 : Dev nD → Valuation τ sig (Elt F) := fun c => StableHlo.after hostOps0 (B0 m ρ c)
/-- Region 0's entry contents read at the TensorCore's references. -/
abbrev VB1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (VB1 m ρ) c).arrAt w cfg0.N
theorem B2_arr (c : Dev nD) (w : Fin cfg0.W) :
    B2 m ρ c (Proc.devRef .tc (Pipeline.arrRef spec0 w)) = (dat0 (VB1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev VB2 : (c : Dev nD) → (b : Ref sig .tc) → Buf (Elt F) ((c : Thread nD τ).loc b) := fun c b => B2 m ρ c b
theorem hF0 (c : Dev nD) (w : Fin cfg0.W) : (dat0 (VB1 m ρ) c).arrAt w cfg0.N = VB2 m ρ c (Pipeline.arrRef spec0 w) :=
  (B2_arr m ρ c w).symm
theorem hrest0 (c : Dev nD) : ∀ b, b ∉ Finset.univ.image (Pipeline.arrRef spec0) → VB2 m ρ c b = VB1 m ρ c b :=
  fun b hb => B2_of_ne m ρ c b fun w e => hb (Finset.mem_image.mpr ⟨w, Finset.mem_univ _, e⟩)
/-- After `hostOps1`. -/
abbrev B3 : Dev nD → Valuation τ sig (Elt F) := fun c => StableHlo.after hostOps1 (B2 m ρ c)
/-- Region 1's entry contents read at the TensorCore's references. -/
abbrev VB3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (VB3 m ρ) c).arrAt w cfg1.N
theorem B4_arr (c : Dev nD) (w : Fin cfg1.W) :
    B4 m ρ c (Proc.devRef .tc (Pipeline.arrRef spec1 w)) = (dat1 (VB3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev VB4 : (c : Dev nD) → (b : Ref sig .tc) → Buf (Elt F) ((c : Thread nD τ).loc b) := fun c b => B4 m ρ c b
theorem hF1 (c : Dev nD) (w : Fin cfg1.W) : (dat1 (VB3 m ρ) c).arrAt w cfg1.N = VB4 m ρ c (Pipeline.arrRef spec1 w) :=
  (B4_arr m ρ c w).symm
theorem hrest1 (c : Dev nD) : ∀ b, b ∉ Finset.univ.image (Pipeline.arrRef spec1) → VB4 m ρ c b = VB3 m ρ c b :=
  fun b hb => B4_of_ne m ρ c b fun w e => hb (Finset.mem_image.mpr ⟨w, Finset.mem_univ _, e⟩)
/-- After `hostOps2`. -/
abbrev B5 : Dev nD → Valuation τ sig (Elt F) := fun c => StableHlo.after hostOps2 (B4 m ρ c)
/-- Region 2's entry contents read at the TensorCore's references. -/
abbrev VB5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (VB5 m ρ) c).arrAt w cfg2.N
theorem B6_arr (c : Dev nD) (w : Fin cfg2.W) :
    B6 m ρ c (Proc.devRef .tc (Pipeline.arrRef spec2 w)) = (dat2 (VB5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev VB6 : (c : Dev nD) → (b : Ref sig .tc) → Buf (Elt F) ((c : Thread nD τ).loc b) := fun c b => B6 m ρ c b
theorem hF2 (c : Dev nD) (w : Fin cfg2.W) : (dat2 (VB5 m ρ) c).arrAt w cfg2.N = VB6 m ρ c (Pipeline.arrRef spec2 w) :=
  (B6_arr m ρ c w).symm
theorem hrest2 (c : Dev nD) : ∀ b, b ∉ Finset.univ.image (Pipeline.arrRef spec2) → VB6 m ρ c b = VB5 m ρ c b :=
  fun b hb => B6_of_ne m ρ c b fun w e => hb (Finset.mem_image.mpr ⟨w, Finset.mem_univ _, e⟩)
/-- After `hostOps3`. -/
abbrev B7 : Dev nD → Valuation τ sig (Elt F) := fun c => StableHlo.after hostOps3 (B6 m ρ c)
/-- Region 3's entry contents read at the TensorCore's references. -/
abbrev VB7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (VB7 m ρ) c).arrAt w cfg3.N
theorem B8_arr (c : Dev nD) (w : Fin cfg3.W) :
    B8 m ρ c (Proc.devRef .tc (Pipeline.arrRef spec3 w)) = (dat3 (VB7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev VB8 : (c : Dev nD) → (b : Ref sig .tc) → Buf (Elt F) ((c : Thread nD τ).loc b) := fun c b => B8 m ρ c b
theorem hF3 (c : Dev nD) (w : Fin cfg3.W) : (dat3 (VB7 m ρ) c).arrAt w cfg3.N = VB8 m ρ c (Pipeline.arrRef spec3 w) :=
  (B8_arr m ρ c w).symm
theorem hrest3 (c : Dev nD) : ∀ b, b ∉ Finset.univ.image (Pipeline.arrRef spec3) → VB8 m ρ c b = VB7 m ρ c b :=
  fun b hb => B8_of_ne m ρ c b fun w e => hb (Finset.mem_image.mpr ⟨w, Finset.mem_univ _, e⟩)
/-- After `hostOps4`. -/
abbrev B9 : Dev nD → Valuation τ sig (Elt F) := fun c => StableHlo.after hostOps4 (B8 m ρ c)
/-- Region 4's entry contents read at the TensorCore's references. -/
abbrev VB9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (VB9 m ρ) c).arrAt w cfg4.N
theorem B10_arr (c : Dev nD) (w : Fin cfg4.W) :
    B10 m ρ c (Proc.devRef .tc (Pipeline.arrRef spec4 w)) = (dat4 (VB9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev VB10 : (c : Dev nD) → (b : Ref sig .tc) → Buf (Elt F) ((c : Thread nD τ).loc b) := fun c b => B10 m ρ c b
theorem hF4 (c : Dev nD) (w : Fin cfg4.W) : (dat4 (VB9 m ρ) c).arrAt w cfg4.N = VB10 m ρ c (Pipeline.arrRef spec4 w) :=
  (B10_arr m ρ c w).symm
theorem hrest4 (c : Dev nD) : ∀ b, b ∉ Finset.univ.image (Pipeline.arrRef spec4) → VB10 m ρ c b = VB9 m ρ c b :=
  fun b hb => B10_of_ne m ρ c b fun w e => hb (Finset.mem_image.mpr ⟨w, Finset.mem_univ _, e⟩)
/-- After `hostOps5`. -/
abbrev B11 : Dev nD → Valuation τ sig (Elt F) := fun c => StableHlo.after hostOps5 (B10 m ρ c)
/-- Region 5's entry contents read at the TensorCore's references. -/
abbrev VB11 : (c : Dev nD) → (b : Ref sig .tc) → Buf (Elt F) ((c : Thread nD τ).loc b) := fun c b => B11 m ρ c b
/-- At region 5's exit: its arrays at what the pipeline leaves, every other buffer as entered. -/
def B12 (c : Dev nD) : Valuation τ sig (Elt F) :=
  Pipeline.withArrays spec5 c (B11 m ρ c) fun w => (dat5 (VB11 m ρ) c).arrAt w cfg5.N
theorem B12_arr (c : Dev nD) (w : Fin cfg5.W) :
    B12 m ρ c (Proc.devRef .tc (Pipeline.arrRef spec5 w)) = (dat5 (VB11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev VB12 : (c : Dev nD) → (b : Ref sig .tc) → Buf (Elt F) ((c : Thread nD τ).loc b) := fun c b => B12 m ρ c b
theorem hF5 (c : Dev nD) (w : Fin cfg5.W) : (dat5 (VB11 m ρ) c).arrAt w cfg5.N = VB12 m ρ c (Pipeline.arrRef spec5 w) :=
  (B12_arr m ρ c w).symm
theorem hrest5 (c : Dev nD) : ∀ b, b ∉ Finset.univ.image (Pipeline.arrRef spec5) → VB12 m ρ c b = VB11 m ρ c b :=
  fun b hb => B12_of_ne m ρ c b fun w e => hb (Finset.mem_image.mpr ⟨w, Finset.mem_univ _, e⟩)
/-- After `hostOps6`. -/
abbrev B13 : Dev nD → Valuation τ sig (Elt F) := fun c => StableHlo.after hostOps6 (B12 m ρ c)
/-- Region 6's entry contents read at the TensorCore's references. -/
abbrev VB13 : (c : Dev nD) → (b : Ref sig .tc) → Buf (Elt F) ((c : Thread nD τ).loc b) := fun c b => B13 m ρ c b
/-- At region 6's exit: its arrays at what the pipeline leaves, every other buffer as entered. -/
def B14 (c : Dev nD) : Valuation τ sig (Elt F) :=
  Pipeline.withArrays spec6 c (B13 m ρ c) fun w => (dat6 (VB13 m ρ) c).arrAt w cfg6.N
theorem B14_arr (c : Dev nD) (w : Fin cfg6.W) :
    B14 m ρ c (Proc.devRef .tc (Pipeline.arrRef spec6 w)) = (dat6 (VB13 m ρ) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb
abbrev VB14 : (c : Dev nD) → (b : Ref sig .tc) → Buf (Elt F) ((c : Thread nD τ).loc b) := fun c b => B14 m ρ c b
theorem hF6 (c : Dev nD) (w : Fin cfg6.W) : (dat6 (VB13 m ρ) c).arrAt w cfg6.N = VB14 m ρ c (Pipeline.arrRef spec6 w) :=
  (B14_arr m ρ c w).symm
theorem hrest6 (c : Dev nD) : ∀ b, b ∉ Finset.univ.image (Pipeline.arrRef spec6) → VB14 m ρ c b = VB13 m ρ c b :=
  fun b hb => B14_of_ne m ρ c b fun w e => hb (Finset.mem_image.mpr ⟨w, Finset.mem_univ _, e⟩)
/-- After `hostOps7`. -/
abbrev B15 : Dev nD → Valuation τ sig (Elt F) := fun c => StableHlo.after hostOps7 (B14 m ρ c)
/-- Region 7's entry contents read at the TensorCore's references. -/
abbrev VB15 : (c : Dev nD) → (b : Ref sig .tc) → Buf (Elt F) ((c : Thread nD τ).loc b) := fun c b => B15 m ρ c b
/-- At region 7's exit: its arrays at what the pipeline leaves, every other buffer as entered. -/
def B16 (c : Dev nD) : Valuation τ sig (Elt F) :=
  Pipeline.withArrays spec7 c (B15 m ρ c) fun w => (dat7 (VB15 m ρ) c).arrAt w cfg7.N
theorem B16_arr (c : Dev nD) (w : Fin cfg7.W) :
    B16 m ρ c (Proc.devRef .tc (Pipeline.arrRef spec7 w)) = (dat7 (VB15 m ρ) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb
abbrev VB16 : (c : Dev nD) → (b : Ref sig .tc) → Buf (Elt F) ((c : Thread nD τ).loc b) := fun c b => B16 m ρ c b
theorem hF7 (c : Dev nD) (w : Fin cfg7.W) : (dat7 (VB15 m ρ) c).arrAt w cfg7.N = VB16 m ρ c (Pipeline.arrRef spec7 w) :=
  (B16_arr m ρ c w).symm
theorem hrest7 (c : Dev nD) : ∀ b, b ∉ Finset.univ.image (Pipeline.arrRef spec7) → VB16 m ρ c b = VB15 m ρ c b :=
  fun b hb => B16_of_ne m ρ c b fun w e => hb (Finset.mem_image.mpr ⟨w, Finset.mem_univ _, e⟩)
/-- After `hostOps8`. -/
abbrev B17 : Dev nD → Valuation τ sig (Elt F) := fun c => StableHlo.after hostOps8 (B16 m ρ c)
/-- After `hostOps8_1`. -/
abbrev B18 : Dev nD → Valuation τ sig (Elt F) := fun c => StableHlo.after hostOps8_1 (B17 m ρ c)
/-- After `hostOps8_2`. -/
abbrev B19 : Dev nD → Valuation τ sig (Elt F) := fun c => StableHlo.after hostOps8_2 (B18 m ρ c)
/-- Region 8's entry contents read at the TensorCore's references. -/
abbrev VB19 : (c : Dev nD) → (b : Ref sig .tc) → Buf (Elt F) ((c : Thread nD τ).loc b) := fun c b => B19 m ρ c b
/-- At region 8's exit: its arrays at what the pipeline leaves, every other buffer as entered. -/
def B20 (c : Dev nD) : Valuation τ sig (Elt F) :=
  Pipeline.withArrays spec8 c (B19 m ρ c) fun w => (dat8 (VB19 m ρ) c).arrAt w cfg8.N
theorem B20_arr (c : Dev nD) (w : Fin cfg8.W) :
    B20 m ρ c (Proc.devRef .tc (Pipeline.arrRef spec8 w)) = (dat8 (VB19 m ρ) c).arrAt w cfg8.N := by
  unfold B20; exact Pipeline.withArrays_arr spec8 launch8.win.arr_inj c _ _ w
theorem B20_of_ne (c : Dev nD) (b : Ref sig .tc) (hb : ∀ w, Pipeline.arrRef spec8 w ≠ b) :
    B20 m ρ c (Proc.devRef .tc b) = B19 m ρ c (Proc.devRef .tc b) := by
  unfold B20; exact Pipeline.withArrays_of_ne spec8 c _ _ b hb
abbrev VB20 : (c : Dev nD) → (b : Ref sig .tc) → Buf (Elt F) ((c : Thread nD τ).loc b) := fun c b => B20 m ρ c b
theorem hF8 (c : Dev nD) (w : Fin cfg8.W) : (dat8 (VB19 m ρ) c).arrAt w cfg8.N = VB20 m ρ c (Pipeline.arrRef spec8 w) :=
  (B20_arr m ρ c w).symm
theorem hrest8 (c : Dev nD) : ∀ b, b ∉ Finset.univ.image (Pipeline.arrRef spec8) → VB20 m ρ c b = VB19 m ρ c b :=
  fun b hb => B20_of_ne m ρ c b fun w e => hb (Finset.mem_image.mpr ⟨w, Finset.mem_univ _, e⟩)
/-- After `hostOps9`. -/
abbrev B21 : Dev nD → Valuation τ sig (Elt F) := fun c => StableHlo.after hostOps9 (B20 m ρ c)

/-! ## The arguments end as launched: no host operation writes one, and no region stages one as an output -/

/-- The seven argument buffers. -/
abbrev argRefs : List (Ref sig .tc) := [main_arg0, main_arg1, main_arg2, main_arg3, main_arg4, main_arg5, main_arg6]

theorem keep_hostOps0 (V : Valuation τ sig (Elt F)) (b : Ref sig .tc) (hb : b ∈ argRefs) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr0 (b : Ref sig .tc) (hb : b ∈ argRefs) : ∀ w, Pipeline.arrRef spec0 w ≠ b :=
  fun w e => (by decide : ∀ w, Pipeline.arrRef spec0 w ∉ argRefs) w (by rw [e]; exact hb)

theorem keep_hostOps1 (V : Valuation τ sig (Elt F)) (b : Ref sig .tc) (hb : b ∈ argRefs) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr1 (b : Ref sig .tc) (hb : b ∈ argRefs) : ∀ w, Pipeline.arrRef spec1 w ≠ b :=
  fun w e => (by decide : ∀ w, Pipeline.arrRef spec1 w ∉ argRefs) w (by rw [e]; exact hb)

theorem keep_hostOps2 (V : Valuation τ sig (Elt F)) (b : Ref sig .tc) (hb : b ∈ argRefs) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr2 (b : Ref sig .tc) (hb : b ∈ argRefs) : ∀ w, Pipeline.arrRef spec2 w ≠ b :=
  fun w e => (by decide : ∀ w, Pipeline.arrRef spec2 w ∉ argRefs) w (by rw [e]; exact hb)

theorem keep_hostOps3 (V : Valuation τ sig (Elt F)) (b : Ref sig .tc) (hb : b ∈ argRefs) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr3 (b : Ref sig .tc) (hb : b ∈ argRefs) : ∀ w, Pipeline.arrRef spec3 w ≠ b :=
  fun w e => (by decide : ∀ w, Pipeline.arrRef spec3 w ∉ argRefs) w (by rw [e]; exact hb)

theorem keep_hostOps4 (V : Valuation τ sig (Elt F)) (b : Ref sig .tc) (hb : b ∈ argRefs) :
    StableHlo.after hostOps4 V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr4 (b : Ref sig .tc) (hb : b ∈ argRefs) : ∀ w, Pipeline.arrRef spec4 w ≠ b :=
  fun w e => (by decide : ∀ w, Pipeline.arrRef spec4 w ∉ argRefs) w (by rw [e]; exact hb)

theorem keep_hostOps5 (V : Valuation τ sig (Elt F)) (b : Ref sig .tc) (hb : b ∈ argRefs) :
    StableHlo.after hostOps5 V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr5 (b : Ref sig .tc) (hb : b ∈ argRefs) : ∀ w, Pipeline.arrRef spec5 w ≠ b :=
  fun w e => (by decide : ∀ w, Pipeline.arrRef spec5 w ∉ argRefs) w (by rw [e]; exact hb)

theorem keep_hostOps6 (V : Valuation τ sig (Elt F)) (b : Ref sig .tc) (hb : b ∈ argRefs) :
    StableHlo.after hostOps6 V (Proc.devRef .tc b) = V (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr6 (b : Ref sig .tc) (hb : b ∈ argRefs) : ∀ w, Pipeline.arrRef spec6 w ≠ b :=
  fun w e => (by decide : ∀ w, Pipeline.arrRef spec6 w ∉ argRefs) w (by rw [e]; exact hb)

theorem keep_hostOps7 (V : Valuation τ sig (Elt F)) (b : Ref sig .tc) (hb : b ∈ argRefs) :
    StableHlo.after hostOps7 V (Proc.devRef .tc b) = V (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr7 (b : Ref sig .tc) (hb : b ∈ argRefs) : ∀ w, Pipeline.arrRef spec7 w ≠ b :=
  fun w e => (by decide : ∀ w, Pipeline.arrRef spec7 w ∉ argRefs) w (by rw [e]; exact hb)

theorem keep_hostOps8 (V : Valuation τ sig (Elt F)) (b : Ref sig .tc) (hb : b ∈ argRefs) :
    StableHlo.after hostOps8 V (Proc.devRef .tc b) = V (Proc.devRef .tc b) :=
  StableHlo.after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem keep_hostOps8_1 (V : Valuation τ sig (Elt F)) (b : Ref sig .tc) (hb : b ∈ argRefs) :
    StableHlo.after hostOps8_1 V (Proc.devRef .tc b) = V (Proc.devRef .tc b) :=
  StableHlo.after_of_forall_not_mem (b := Proc.devRef .tc b) _ _ (List.forall_iff_forall_mem.mp (by
    simp only [hostOps8_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem keep_hostOps8_2 (V : Valuation τ sig (Elt F)) (b : Ref sig .tc) (hb : b ∈ argRefs) :
    StableHlo.after hostOps8_2 V (Proc.devRef .tc b) = V (Proc.devRef .tc b) :=
  StableHlo.after_of_forall_not_mem (b := Proc.devRef .tc b) _ _ (List.forall_iff_forall_mem.mp (by
    simp only [hostOps8_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem ne_arr8 (b : Ref sig .tc) (hb : b ∈ argRefs) : ∀ w, Pipeline.arrRef spec8 w ≠ b :=
  fun w e => (by decide : ∀ w, Pipeline.arrRef spec8 w ∉ argRefs) w (by rw [e]; exact hb)

theorem keep_hostOps9 (V : Valuation τ sig (Elt F)) (b : Ref sig .tc) (hb : b ∈ argRefs) :
    StableHlo.after hostOps9 V (Proc.devRef .tc b) = V (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

/-- An argument's buffer at the last boundary holds the launch contents. -/
theorem B21_arg (c : Dev nD) (b : Ref sig .tc) (hb : b ∈ argRefs) :
    B21 m ρ c (Proc.devRef .tc b) = m ((c : Thread nD τ).loc b) :=
  (keep_hostOps9 (B20 m ρ c) b hb).trans ((B20_of_ne m ρ c b (ne_arr8 b hb)).trans ((keep_hostOps8_2 (B18 m ρ c) b hb).trans ((keep_hostOps8_1 (B17 m ρ c) b hb).trans ((keep_hostOps8 (B16 m ρ c) b hb).trans ((B16_of_ne m ρ c b (ne_arr7 b hb)).trans ((keep_hostOps7 (B14 m ρ c) b hb).trans ((B14_of_ne m ρ c b (ne_arr6 b hb)).trans ((keep_hostOps6 (B12 m ρ c) b hb).trans ((B12_of_ne m ρ c b (ne_arr5 b hb)).trans ((keep_hostOps5 (B10 m ρ c) b hb).trans ((B10_of_ne m ρ c b (ne_arr4 b hb)).trans ((keep_hostOps4 (B8 m ρ c) b hb).trans ((B8_of_ne m ρ c b (ne_arr3 b hb)).trans ((keep_hostOps3 (B6 m ρ c) b hb).trans ((B6_of_ne m ρ c b (ne_arr2 b hb)).trans ((keep_hostOps2 (B4 m ρ c) b hb).trans ((B4_of_ne m ρ c b (ne_arr1 b hb)).trans ((keep_hostOps1 (B2 m ρ c) b hb).trans ((B2_of_ne m ρ c b (ne_arr0 b hb)).trans ((keep_hostOps0 (B0 m ρ c) b hb).trans (rfl)))))))))))))))))))))

end Cert.KernelIdeal.Hand

end
-- ==== Proof.KI.Run.lean ====
/-
  The run of @main: each stretch of host operations and each of the nine regions as a segment over the thread
  state "every unscoped buffer at the boundary's contents, the generator register at some state, nothing owed",
  the launch over the segments, and the frame read off the last boundary. Stated at any float instance.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import Idealize.ShloMosaic.Lib.Pipeline.RegionsLoop
import proofs.«156564_j46222438039786_1_alg».proof.Proof.KI.Fold

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (VB1 m ρ) c
  | ⟨1, _⟩ => fun c => dat1 (VB3 m ρ) c
  | ⟨2, _⟩ => fun c => dat2 (VB5 m ρ) c
  | ⟨3, _⟩ => fun c => dat3 (VB7 m ρ) c
  | ⟨4, _⟩ => fun c => dat4 (VB9 m ρ) c
  | ⟨5, _⟩ => fun c => dat5 (VB11 m ρ) c
  | ⟨6, _⟩ => fun c => dat6 (VB13 m ρ) c
  | ⟨7, _⟩ => fun c => dat7 (VB15 m ρ) c
  | ⟨8, _⟩ => fun c => dat8 (VB19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- No operation of `hostOps6` allocates a buffer. -/
theorem hostOps6_fresh : (hostOps6 : List (HloOp τ sig (Elt F))).Forall fun op => op.fresh = ∅ := by
  simp only [List.Forall]; repeat' constructor
/-- No operation of `hostOps7` allocates a buffer. -/
theorem hostOps7_fresh : (hostOps7 : List (HloOp τ sig (Elt F))).Forall fun op => op.fresh = ∅ := by
  simp only [List.Forall]; repeat' constructor
/-- No operation of `hostOps8` allocates a buffer. -/
theorem hostOps8_fresh : (hostOps8 : List (HloOp τ sig (Elt F))).Forall fun op => op.fresh = ∅ := by
  simp only [List.Forall]; repeat' constructor
/-- No operation of `hostOps8_1` allocates a buffer. -/
theorem hostOps8_1_fresh : (hostOps8_1 : List (HloOp τ sig (Elt F))).Forall fun op => op.fresh = ∅ := by
  simp only [List.Forall]; repeat' constructor
/-- No operation of `hostOps8_2` allocates a buffer. -/
theorem hostOps8_2_fresh : (hostOps8_2 : List (HloOp τ sig (Elt F))).Forall fun op => op.fresh = ∅ := by
  simp only [List.Forall]; repeat' constructor
/-- No operation of `hostOps9` allocates a buffer. -/
theorem hostOps9_fresh : (hostOps9 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B21 m ρ c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state: entered from every unscoped buffer at `B1`, left at `B2`. Its three arrays
    are split out of the unscoped buffers and put back at the exit contents; the generator register and the scoped
    buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VB1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (VB1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VB1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (VB1 m ρ) c).Φ 0 from rfl]
    iintro ⟨Hp, -, Hr⟩
    iapply (hin0 (VB1 m ρ) c)
    unfold Pipeline.ΦA
    isplitl [Hr]; · iexact Hr
    iexact Hp
  hout c := by
    rw [Pipeline.ownSems0_none, show (pdats m ρ 0 c).Φ (Fin.last _) = (dat0 (VB1 m ρ) c).Φ (Fin.last cfg0.N) from rfl]
    iintro H
    ihave H' := (hout0 (VB1 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VB1 m ρ c) (VB2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered from every unscoped buffer at `B3`, left at `B4`. Its three arrays
    are split out of the unscoped buffers and put back at the exit contents; the generator register and the scoped
    buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (VB3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (VB3 m ρ) c).Φ 0 from rfl]
    iintro ⟨Hp, -, Hr⟩
    iapply (hin1 (VB3 m ρ) c)
    unfold Pipeline.ΦA
    isplitl [Hr]; · iexact Hr
    iexact Hp
  hout c := by
    rw [Pipeline.ownSems0_none, show (pdats m ρ 1 c).Φ (Fin.last _) = (dat1 (VB3 m ρ) c).Φ (Fin.last cfg1.N) from rfl]
    iintro H
    ihave H' := (hout1 (VB3 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB3 m ρ c) (VB4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered from every unscoped buffer at `B5`, left at `B6`. Its three arrays
    are split out of the unscoped buffers and put back at the exit contents; the generator register and the scoped
    buffers go into the region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VB5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (VB5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VB5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (VB5 m ρ) c).Φ 0 from rfl]
    iintro ⟨Hp, -, Hr⟩
    iapply (hin2 (VB5 m ρ) c)
    unfold Pipeline.ΦA
    isplitl [Hr]; · iexact Hr
    iexact Hp
  hout c := by
    rw [Pipeline.ownSems0_none, show (pdats m ρ 2 c).Φ (Fin.last _) = (dat2 (VB5 m ρ) c).Φ (Fin.last cfg2.N) from rfl]
    iintro H
    ihave H' := (hout2 (VB5 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VB5 m ρ c) (VB6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 3 over the thread state: entered from every unscoped buffer at `B7`, left at `B8`. Its three arrays
    are split out of the unscoped buffers and put back at the exit contents; the generator register and the scoped
    buffers go into the region's invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VB7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (VB7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VB7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (VB7 m ρ) c).Φ 0 from rfl]
    iintro ⟨Hp, -, Hr⟩
    iapply (hin3 (VB7 m ρ) c)
    unfold Pipeline.ΦA
    isplitl [Hr]; · iexact Hr
    iexact Hp
  hout c := by
    rw [Pipeline.ownSems0_none, show (pdats m ρ 3 c).Φ (Fin.last _) = (dat3 (VB7 m ρ) c).Φ (Fin.last cfg3.N) from rfl]
    iintro H
    ihave H' := (hout3 (VB7 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VB7 m ρ c) (VB8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 4 over the thread state: entered from every unscoped buffer at `B9`, left at `B10`. Its three arrays
    are split out of the unscoped buffers and put back at the exit contents; the generator register and the scoped
    buffers go into the region's invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VB9 m ρ) c).loose
  hwaits := Pipeline.hwaits_of_owed_zero _ _ _ _ L lv 4 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec4 c (VB9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VB9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (VB9 m ρ) c).Φ 0 from rfl]
    iintro ⟨Hp, -, Hr⟩
    iapply (hin4 (VB9 m ρ) c)
    unfold Pipeline.ΦA
    isplitl [Hr]; · iexact Hr
    iexact Hp
  hout c := by
    rw [Pipeline.ownSems0_none, show (pdats m ρ 4 c).Φ (Fin.last _) = (dat4 (VB9 m ρ) c).Φ (Fin.last cfg4.N) from rfl]
    iintro H
    ihave H' := (hout4 (VB9 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (VB9 m ρ c) (VB10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 5 over the thread state: entered from every unscoped buffer at `B11`, left at `B12`. Its three arrays
    are split out of the unscoped buffers and put back at the exit contents; the generator register and the scoped
    buffers go into the region's invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VB11 m ρ) c).loose
  hwaits := Pipeline.hwaits_of_owed_zero _ _ _ _ L lv 5 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec5 c (VB11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (VB11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (VB11 m ρ) c).Φ 0 from rfl]
    iintro ⟨Hp, -, Hr⟩
    iapply (hin5 (VB11 m ρ) c)
    unfold Pipeline.ΦA
    isplitl [Hr]; · iexact Hr
    iexact Hp
  hout c := by
    rw [Pipeline.ownSems0_none, show (pdats m ρ 5 c).Φ (Fin.last _) = (dat5 (VB11 m ρ) c).Φ (Fin.last cfg5.N) from rfl]
    iintro H
    ihave H' := (hout5 (VB11 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (VB11 m ρ c) (VB12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 6 over the thread state: entered from every unscoped buffer at `B13`, left at `B14`. Its three arrays
    are split out of the unscoped buffers and put back at the exit contents; the generator register and the scoped
    buffers go into the region's invariant and come back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VB13 m ρ) c).loose
  hwaits := Pipeline.hwaits_of_owed_zero _ _ _ _ L lv 6 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec6 c (VB13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (VB13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (VB13 m ρ) c).Φ 0 from rfl]
    iintro ⟨Hp, -, Hr⟩
    iapply (hin6 (VB13 m ρ) c)
    unfold Pipeline.ΦA
    isplitl [Hr]; · iexact Hr
    iexact Hp
  hout c := by
    rw [Pipeline.ownSems0_none, show (pdats m ρ 6 c).Φ (Fin.last _) = (dat6 (VB13 m ρ) c).Φ (Fin.last cfg6.N) from rfl]
    iintro H
    ihave H' := (hout6 (VB13 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (VB13 m ρ c) (VB14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 7 over the thread state: entered from every unscoped buffer at `B15`, left at `B16`. Its three arrays
    are split out of the unscoped buffers and put back at the exit contents; the generator register and the scoped
    buffers go into the region's invariant and come back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VB15 m ρ) c).loose
  hwaits := Pipeline.hwaits_of_owed_zero _ _ _ _ L lv 7 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec7 c (VB15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (VB15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (VB15 m ρ) c).Φ 0 from rfl]
    iintro ⟨Hp, -, Hr⟩
    iapply (hin7 (VB15 m ρ) c)
    unfold Pipeline.ΦA
    isplitl [Hr]; · iexact Hr
    iexact Hp
  hout c := by
    rw [Pipeline.ownSems0_none, show (pdats m ρ 7 c).Φ (Fin.last _) = (dat7 (VB15 m ρ) c).Φ (Fin.last cfg7.N) from rfl]
    iintro H
    ihave H' := (hout7 (VB15 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (VB15 m ρ c) (VB16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 8 over the thread state: entered from every unscoped buffer at `B19`, left at `B20`. Its three arrays
    are split out of the unscoped buffers and put back at the exit contents; the generator register and the scoped
    buffers go into the region's invariant and come back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VB19 m ρ) c).loose
  hwaits := Pipeline.hwaits_of_owed_zero _ _ _ _ L lv 8 fun _ _ => rfl
  pre c := iprop(StableHlo.held (c : Thread nD τ) (Pipeline.ucRefs τ sig) (B19 m ρ c) ∗ R c)
  post c := iprop(StableHlo.held (c : Thread nD τ) (Pipeline.ucRefs τ sig) (B20 m ρ c) ∗ R c)
  X c := iprop(∃ r, prngReg c r)
  Y c := iprop(∃ r, prngReg c r)
  Z c := Pipeline.unscopedRest (Ix := Unit) (Name := ℕ) (U := UR sig nD τ) (Lvl := ℕ) spec8 c (VB19 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (VB19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (VB19 m ρ) c).Φ 0 from rfl]
    iintro ⟨Hp, -, Hr⟩
    iapply (hin8 (VB19 m ρ) c)
    unfold Pipeline.ΦA
    isplitl [Hr]; · iexact Hr
    iexact Hp
  hout c := by
    rw [Pipeline.ownSems0_none, show (pdats m ρ 8 c).Φ (Fin.last _) = (dat8 (VB19 m ρ) c).Φ (Fin.last cfg8.N) from rfl]
    iintro H
    ihave H' := (hout8 (VB19 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (VB19 m ρ c) (VB20 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 21 segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .region (reg7 m ρ),
    .host (hseg hostOps8 hostOps8_sub hostOps8_fresh (B16 m ρ)),
    .host (hseg hostOps8_1 hostOps8_1_sub hostOps8_1_fresh (B17 m ρ)),
    .host (hseg hostOps8_2 hostOps8_2_sub hostOps8_2_fresh (B18 m ρ)),
    .region (reg8 m ρ),
    .host (hseg hostOps9 hostOps9_sub hostOps9_fresh (B20 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer of each core holds the last boundary's contents `B21`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B21 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B21 m ρ c b)
    (hfin := fun c s' => by
      iintro ⟨⟨Hh, -⟩, HSI⟩
      unfold StableHlo.held
      imodintro
      iapply (pointsTo_read_all (Pipeline.ucRefs τ sig) (fun b => (((c : Thread nD τ)).1, b)) (B21 m ρ c) s')
      isplitl [Hh] <;> iassumption)
    (hQ := fun s h => h)

/-- THE FRAME, at any float instance: the run, read at the seven argument buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B21_arg m ρ c main_arg0 (by decide)),
     (h c _ (mem_uc main_arg1 (by decide))).trans (B21_arg m ρ c main_arg1 (by decide)),
     (h c _ (mem_uc main_arg2 (by decide))).trans (B21_arg m ρ c main_arg2 (by decide)),
     (h c _ (mem_uc main_arg3 (by decide))).trans (B21_arg m ρ c main_arg3 (by decide)),
     (h c _ (mem_uc main_arg4 (by decide))).trans (B21_arg m ρ c main_arg4 (by decide)),
     (h c _ (mem_uc main_arg5 (by decide))).trans (B21_arg m ρ c main_arg5 (by decide)),
     (h c _ (mem_uc main_arg6 (by decide))).trans (B21_arg m ρ c main_arg6 (by decide))⟩) (run_main m ρ)

end Cert.KernelIdeal.Hand

end
-- ==== Proof.Ref.Frame.lean ====
/-
  The reference program is host operations only; its frame is its run with the result dropped: every weakly fair
  execution terminates, nothing faults, and the argument buffers end as launched.
-/
import proofs.«156564_j46222438039786_1_alg».proof.Defs
import proofs.«156564_j46222438039786_1_alg».proof.Proof.Gen.ReferenceIdeal
import proofs.«156564_j46222438039786_1_alg».proof.Proof.Gen.Pre_finite_inputs
import proofs.«156564_j46222438039786_1_alg».proof.Proof.Gen.ReferenceIdeal.Run

noncomputable section

namespace Cert.ReferenceIdeal.Hand

open Idealize.ShloMosaic Idealize.ShloMosaic.TcCoe Idealize.SL.Sem

/-- The frame of the reference, from its run. -/
theorem frame : Cert.frame_ReferenceIdeal := fun m ρ _ =>
  (θ_run Cert.ReferenceIdeal.defs _ _).mono (fun _ h c => (h c).2) (Cert.ReferenceIdeal.Value.run (F := Ideal) m ρ)

end Cert.ReferenceIdeal.Hand

end
-- ==== Proof.Spec.lean ====
/-
  The mathematics the two programs share. Both run the same damped update on a pair of arrays (zr, zi):

    tr = ((o_r + D·zr) + zi) − o_r        ti = ((o_i + D·zi) − zr) − o_i
    yr = DR·tr − DI·ti                      yi = DR·ti + DI·tr

  where o_r, o_i are the off-diagonal products, which the two programs compute differently. Over the extended
  reals an addend cancels against its own subtraction exactly when it is a real number, so for real-valued
  arrays tr = D·zr + zi and ti = D·zi − zr whatever o_r and o_i are: this is the one law that joins the two
  programs, and it is where finiteness of the inputs is used. Everything is entry by entry over any shape.
-/
import Idealize.ShloMosaic.PureOps.Ideal
import Idealize.ShloMosaic.PureOps.Ideal.Laws

noncomputable section

namespace Cert.Spec

open Idealize.ShloMosaic

variable {S : Shape}

/-- Every entry is a real number (neither infinity). -/
def AllReal (x : FVec Ideal S .f32) : Prop := ∀ j, ∃ r : ℝ, x j = (r : EReal)

theorem AllReal.addf {x y : FVec Ideal S .f32} (hx : AllReal x) (hy : AllReal y) : AllReal (addf x y) := fun j => by
  obtain ⟨a, ha⟩ := hx j; obtain ⟨b, hb⟩ := hy j
  exact ⟨a + b, by simp only [Idealize.ShloMosaic.addf, Ideal.addf_def, ha, hb, EReal.coe_add]⟩

theorem AllReal.subf {x y : FVec Ideal S .f32} (hx : AllReal x) (hy : AllReal y) : AllReal (subf x y) := fun j => by
  obtain ⟨a, ha⟩ := hx j; obtain ⟨b, hb⟩ := hy j
  exact ⟨a - b, by simp only [Idealize.ShloMosaic.subf, Ideal.subf_def, ha, hb, EReal.coe_sub]⟩

theorem AllReal.mulf {x y : FVec Ideal S .f32} (hx : AllReal x) (hy : AllReal y) : AllReal (mulf x y) := fun j => by
  obtain ⟨a, ha⟩ := hx j; obtain ⟨b, hb⟩ := hy j
  exact ⟨a * b, by simp only [Idealize.ShloMosaic.mulf, Ideal.mulf_def, ha, hb, EReal.coe_mul]⟩

/-- The real part's numerator, with the off-diagonal product `o` added and taken away again. -/
def tr (D o zr zi : FVec Ideal S .f32) : FVec Ideal S .f32 := subf (addf (addf o (mulf D zr)) zi) o
/-- The imaginary part's numerator, likewise. -/
def ti (D o zr zi : FVec Ideal S .f32) : FVec Ideal S .f32 := subf (subf (addf o (mulf D zi)) zr) o

/-- A real addend cancels: `tr` does not depend on `o`. -/
theorem tr_eq {D o zr zi : FVec Ideal S .f32} (hD : AllReal D) (ho : AllReal o) (hzr : AllReal zr) (hzi : AllReal zi) :
    tr D o zr zi = addf (mulf D zr) zi := by
  funext j
  obtain ⟨d, hd⟩ := hD j; obtain ⟨r, hr⟩ := ho j; obtain ⟨a, ha⟩ := hzr j; obtain ⟨b, hb⟩ := hzi j
  simp only [tr, Idealize.ShloMosaic.subf, Idealize.ShloMosaic.addf, Idealize.ShloMosaic.mulf, Ideal.subf_def, Ideal.addf_def, Ideal.mulf_def, hd, hr, ha, hb]
  simp only [← EReal.coe_mul, ← EReal.coe_add, ← EReal.coe_sub]
  congr 1; ring

/-- A real addend cancels: `ti` does not depend on `o`. -/
theorem ti_eq {D o zr zi : FVec Ideal S .f32} (hD : AllReal D) (ho : AllReal o) (hzr : AllReal zr) (hzi : AllReal zi) :
    ti D o zr zi = subf (mulf D zi) zr := by
  funext j
  obtain ⟨d, hd⟩ := hD j; obtain ⟨r, hr⟩ := ho j; obtain ⟨a, ha⟩ := hzr j; obtain ⟨b, hb⟩ := hzi j
  simp only [ti, Idealize.ShloMosaic.subf, Idealize.ShloMosaic.addf, Idealize.ShloMosaic.mulf, Ideal.subf_def, Ideal.addf_def, Ideal.mulf_def, hd, hr, ha, hb]
  simp only [← EReal.coe_mul, ← EReal.coe_add, ← EReal.coe_sub]
  congr 1; ring

/-- Hence the two programs' numerators agree on real-valued data, whatever their off-diagonal products. -/
theorem tr_indep {D o o' zr zi : FVec Ideal S .f32} (hD : AllReal D) (ho : AllReal o) (ho' : AllReal o') (hzr : AllReal zr) (hzi : AllReal zi) :
    tr D o zr zi = tr D o' zr zi := (tr_eq hD ho hzr hzi).trans (tr_eq hD ho' hzr hzi).symm
theorem ti_indep {D o o' zr zi : FVec Ideal S .f32} (hD : AllReal D) (ho : AllReal o) (ho' : AllReal o') (hzr : AllReal zr) (hzi : AllReal zi) :
    ti D o zr zi = ti D o' zr zi := (ti_eq hD ho hzr hzi).trans (ti_eq hD ho' hzr hzi).symm

theorem tr_real {D o zr zi : FVec Ideal S .f32} (hD : AllReal D) (ho : AllReal o) (hzr : AllReal zr) (hzi : AllReal zi) :
    AllReal (tr D o zr zi) := (((ho.addf (hD.mulf hzr)).addf hzi).subf ho)
theorem ti_real {D o zr zi : FVec Ideal S .f32} (hD : AllReal D) (ho : AllReal o) (hzr : AllReal zr) (hzi : AllReal zi) :
    AllReal (ti D o zr zi) := (((ho.addf (hD.mulf hzi)).subf hzr).subf ho)

/-- The update's real and imaginary parts from the numerators. -/
def yr (DR DI t u : FVec Ideal S .f32) : FVec Ideal S .f32 := subf (mulf DR t) (mulf DI u)
def yi (DR DI t u : FVec Ideal S .f32) : FVec Ideal S .f32 := addf (mulf DR u) (mulf DI t)

theorem yr_real {DR DI t u : FVec Ideal S .f32} (hR : AllReal DR) (hI : AllReal DI) (ht : AllReal t) (hu : AllReal u) :
    AllReal (yr DR DI t u) := (hR.mulf ht).subf (hI.mulf hu)
theorem yi_real {DR DI t u : FVec Ideal S .f32} (hR : AllReal DR) (hI : AllReal DI) (ht : AllReal t) (hu : AllReal u) :
    AllReal (yi DR DI t u) := (hR.mulf hu).addf (hI.mulf ht)

end Cert.Spec

end
-- ==== Proof.Iterates.lean ====
/-
  The iteration both programs run, over plain arrays. With D, DR, DI the three columns spread over the
  4096 × 1024 grid, one step sends a pair (zr, zi) to

      t = D·zr + zi        u = D·zi − zr
      (DR·t − DI·u ,  DR·u + DI·t),

  the update with the off-diagonal products already cancelled (Spec.lean's law). `zs n` is the n-th
  iterate from (z0, zero). The nine iterates of each part are then laid side by side — each one is
  regrouped to 32 × 4096 × 32, given a unit axis, the nine are concatenated along it and the result is
  flattened to 131072 × 288 (`stack9`) — and the two stacks are multiplied by the two weight matrices
  and the products added (`refTail`).
-/
import proofs.«156564_j46222438039786_1_alg».proof.ReferenceIdeal
import proofs.«156564_j46222438039786_1_alg».proof.Proof.Spec

noncomputable section

namespace Cert.Spec

open Idealize.ShloMosaic Cert.ReferenceIdeal Cert.ReferenceIdeal.Facts₀

variable [Cert.ReferenceIdeal.Facts₀]

/-- A column of 4096 entries spread over the 4096 × 1024 grid: entry (i, j) is `v i`. -/
def col (v : FVec Ideal S4096 .f32) : FVec Ideal S4096x1024 .f32 :=
  broadcastInDim S4096x1024 ![0, 1] bcast_S4096x1_S4096x1024_0_1 (broadcastInDim S4096x1 ![0] bcast_S4096_S4096x1_0 v)

/-- One step of the iteration, the off-diagonal products cancelled. -/
def next (D DR DI : FVec Ideal S4096x1024 .f32) (z : FVec Ideal S4096x1024 .f32 × FVec Ideal S4096x1024 .f32) :
    FVec Ideal S4096x1024 .f32 × FVec Ideal S4096x1024 .f32 :=
  (Cert.Spec.yr DR DI (addf (mulf D z.1) z.2) (subf (mulf D z.2) z.1),
   Cert.Spec.yi DR DI (addf (mulf D z.1) z.2) (subf (mulf D z.2) z.1))

/-- The n-th iterate from (z0, zero). -/
def zs (D DR DI z0 zero : FVec Ideal S4096x1024 .f32) (n : Nat) :
    FVec Ideal S4096x1024 .f32 × FVec Ideal S4096x1024 .f32 :=
  (next D DR DI)^[n] (z0, zero)

theorem zs_zero (D DR DI z0 zero : FVec Ideal S4096x1024 .f32) : zs D DR DI z0 zero 0 = (z0, zero) := rfl

theorem zs_succ (D DR DI z0 zero : FVec Ideal S4096x1024 .f32) (n : Nat) :
    zs D DR DI z0 zero (n + 1) = next D DR DI (zs D DR DI z0 zero n) :=
  Function.iterate_succ_apply' _ _ _

/-- Real-valued data stay real-valued along the iteration. -/
theorem zs_real {D DR DI z0 zero : FVec Ideal S4096x1024 .f32} (hD : AllReal D) (hR : AllReal DR) (hI : AllReal DI)
    (h0 : AllReal z0) (hz : AllReal zero) (n : Nat) :
    AllReal (zs D DR DI z0 zero n).1 ∧ AllReal (zs D DR DI z0 zero n).2 := by
  induction n with
  | zero => exact ⟨h0, hz⟩
  | succ n ih =>
    rw [zs_succ]
    exact ⟨yr_real hR hI ((hD.mulf ih.1).addf ih.2) ((hD.mulf ih.2).subf ih.1),
           yi_real hR hI ((hD.mulf ih.1).addf ih.2) ((hD.mulf ih.2).subf ih.1)⟩

/-- One iterate regrouped to 32 × 4096 × 32 and given a unit axis: the slab it fills in the stack. -/
def slab (z : FVec Ideal S4096x1024 .f32) : FVec Ideal S32x4096x1x32 .f32 :=
  broadcastInDim S32x4096x1x32 ![0, 1, 3] bcast_S32x4096x32_S32x4096x1x32_0_1_3
    (transpose S32x4096x32 [1, 0, 2] (shapeCast _ z shapeCasts_S4096x1024_S4096x32x32) transposes_S4096x32x32_S32x4096x32_1_0_2)

/-- Nine arrays laid side by side along the unit axis and flattened to 131072 × 288. -/
def stack9' (u0 u1 u2 u3 u4 u5 u6 u7 u8 : FVec Ideal S4096x1024 .f32) : FVec Ideal S131072x288 .f32 :=
  shapeCast _ (concatenate S32x4096x9x32 2 [⟨S32x4096x1x32, slab u0⟩, ⟨S32x4096x1x32, slab u1⟩, ⟨S32x4096x1x32, slab u2⟩, ⟨S32x4096x1x32, slab u3⟩, ⟨S32x4096x1x32, slab u4⟩, ⟨S32x4096x1x32, slab u5⟩, ⟨S32x4096x1x32, slab u6⟩, ⟨S32x4096x1x32, slab u7⟩, ⟨S32x4096x1x32, slab u8⟩] concatenates_S32x4096x1x32_S32x4096x1x32_S32x4096x1x32_S32x4096x1x32_S32x4096x1x32_S32x4096x1x32_S32x4096x1x32_S32x4096x1x32_S32x4096x1x32_S32x4096x9x32_d2) shapeCasts_S32x4096x9x32_S131072x288

/-- The stack of a family of nine arrays. -/
def stack9 (z : Fin 9 → FVec Ideal S4096x1024 .f32) : FVec Ideal S131072x288 .f32 :=
  stack9' (z 0) (z 1) (z 2) (z 3) (z 4) (z 5) (z 6) (z 7) (z 8)

/-- The end of the reference: the two stacks times the two weight matrices, added. -/
def refTail (zr zi : Fin 9 → FVec Ideal S4096x1024 .f32) (wr wi : FVec Ideal S288x64 .f32) : FVec Ideal S131072x64 .f32 :=
  addf (Host.dotGeneral dot_S131072x288_S288x64_S131072x64_1_0_0_1_n_n none (stack9 zr) wr)
       (Host.dotGeneral dot_S131072x288_S288x64_S131072x64_1_0_0_1_n_n none (stack9 zi) wi)

end Cert.Spec

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«156564_j46222438039786_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.TailLaw.lean ====
/-
  The last product, in the two shapes the two programs give it.

  One program lays the real features beside the imaginary ones, [Fr | Fi] (576 columns), stacks the real weights on
  the imaginary ones, [Wr ; Wi] (576 rows), widens that to 128 columns with zeros, multiplies, and keeps the first 64
  columns of the product. The other adds the two products Fr·Wr and Fi·Wi. Entry by entry they agree:

      Σ_{k < 576} [Fr | Fi](p, k) · [Wr ; Wi](k, q)  =  Σ_{k < 288} Fr(p, k) · Wr(k, q)  +  Σ_{k < 288} Fi(p, k) · Wi(k, q),

  the sum over 576 = 288 + 288 positions split at 288; a column q below 64 never meets the widening. Over the extended
  reals a narrowing of the float format is the identity. Nothing here needs finiteness: only that a finite sum splits.
-/
import proofs.«156564_j46222438039786_1_alg».proof.KernelIdeal
import proofs.«156564_j46222438039786_1_alg».proof.ReferenceIdeal
import proofs.«156564_j46222438039786_1_alg».proof.Proof.LibConcatCols
import proofs.«156564_j46222438039786_1_alg».proof.Proof.LibDotNN
import Idealize.ShloMosaic.Lib.Pipeline.Value
import Idealize.ShloMosaic.Lib.KernelVsHost
import Idealize.ShloMosaic.Lib.ValueIdx
import Idealize.ShloMosaic.PureOps.Ideal.Laws

noncomputable section

namespace Cert.Spec

open Idealize.ShloMosaic Idealize.ShloMosaic.ValueIdx
open scoped BigOperators

/-- The product of a 131072 × 576 array by a 576 × 128 array, entry by entry. -/
def MM (A : (⟨2, ![131072, 576]⟩ : Shape).Idx → EReal) (Bm : (⟨2, ![576, 128]⟩ : Shape).Idx → EReal) :
    (⟨2, ![131072, 128]⟩ : Shape).Idx → EReal :=
  fun j => ∑ k : Fin 576, A (ix2 (n0 := 131072) (j 0) k) * Bm (ix2 (n1 := 128) k (j 1))

theorem MM_apply (A : (⟨2, ![131072, 576]⟩ : Shape).Idx → EReal) (Bm : (⟨2, ![576, 128]⟩ : Shape).Idx → EReal)
    (p : Fin 131072) (q : Fin 128) : MM A Bm (ix2 p q) = ∑ k : Fin 576, A (ix2 p k) * Bm (ix2 k q) := rfl

section Rows
variable {α : Type} {a b c N : ℕ}

/-- Two matrices with the same number of columns, one above the other, read at a row of the upper one. -/
theorem concatRows_upper (x₁ : (⟨2, ![a, N]⟩ : Shape).Idx → α) (x₂ : (⟨2, ![b, N]⟩ : Shape).Idx → α)
    (h : Shape.Concatenates [⟨2, ![a, N]⟩, ⟨2, ![b, N]⟩] ⟨2, ![c, N]⟩ 0)
    (j : Fin c) (q : Fin N) (k : Fin a) (hk : k.val = j.val) :
    concatenate ⟨2, ![c, N]⟩ 0 [⟨⟨2, ![a, N]⟩, x₁⟩, ⟨⟨2, ![b, N]⟩, x₂⟩] h (ix2 j q) = x₁ (ix2 k q) :=
  concatenate_pair_apply_left 0 x₁ x₂ h (ix2 j q) rfl (ix2 k q)
    (fun d => match d with | ⟨0, _⟩ => hk | ⟨1, _⟩ => rfl)

/-- … and at a row of the lower one: the row less the upper one's height. -/
theorem concatRows_lower (x₁ : (⟨2, ![a, N]⟩ : Shape).Idx → α) (x₂ : (⟨2, ![b, N]⟩ : Shape).Idx → α)
    (h : Shape.Concatenates [⟨2, ![a, N]⟩, ⟨2, ![b, N]⟩] ⟨2, ![c, N]⟩ 0)
    (j : Fin c) (q : Fin N) (k : Fin b) (hk : k.val + a = j.val) :
    concatenate ⟨2, ![c, N]⟩ 0 [⟨⟨2, ![a, N]⟩, x₁⟩, ⟨⟨2, ![b, N]⟩, x₂⟩] h (ix2 j q) = x₂ (ix2 k q) :=
  concatenate_pair_apply_right 0 x₁ x₂ h (ix2 j q) rfl rfl (ix2 k q)
    (fun d hd => match d, hd with
      | ⟨0, _⟩, hd => absurd rfl hd
      | ⟨1, _⟩, _ => rfl) hk

end Rows

section Law
variable [Cert.KernelIdeal.Facts₀] [Cert.ReferenceIdeal.Facts₀]
open Cert.KernelIdeal (S131072x288 S131072x576 S131072x128 S131072x64 S288x64 S576x64 S576x128 S_)
open Cert.KernelIdeal.Facts₀

/-- The dimension record of the two plain products is the plain one. -/
theorem dot_eq_plain :
    Cert.ReferenceIdeal.dot_S131072x288_S288x64_S131072x64_1_0_0_1_n_n = DotDims.plain 131072 288 64 := rfl

/-- The real features beside the imaginary ones, at a column of the left half and at a column of the right half. -/
theorem catF_left (Fr Fi : FVec Ideal S131072x288 .f32) (p : Fin 131072) (k : Fin 288) :
    (truncf .bf16 (concatenate S131072x576 1 [⟨S131072x288, Fr⟩, ⟨S131072x288, Fi⟩]
        concatenates_S131072x288_S131072x288_S131072x576_d1) bitsLt_bf16_f32 : FVec Ideal S131072x576 .bf16)
      (ix2 p (Fin.castAdd 288 k)) = Fr (ix2 p k) :=
  Cert.ConcatCols.left_apply Fr Fi concatenates_S131072x288_S131072x288_S131072x576_d1 p (Fin.castAdd 288 k) k rfl

theorem catF_right (Fr Fi : FVec Ideal S131072x288 .f32) (p : Fin 131072) (k : Fin 288) :
    (truncf .bf16 (concatenate S131072x576 1 [⟨S131072x288, Fr⟩, ⟨S131072x288, Fi⟩]
        concatenates_S131072x288_S131072x288_S131072x576_d1) bitsLt_bf16_f32 : FVec Ideal S131072x576 .bf16)
      (ix2 p (Fin.natAdd 288 k)) = Fi (ix2 p k) :=
  Cert.ConcatCols.right_apply Fr Fi concatenates_S131072x288_S131072x288_S131072x576_d1 p (Fin.natAdd 288 k) k
    (by show k.val + 288 = 288 + k.val; omega)

/-- The real weights above the imaginary ones, widened to 128 columns, at a column below 64: the widening is not met. -/
theorem catW_upper (wr wi : FVec Ideal S288x64 .f32) (k : Fin 288) (q : Fin 64) (q' : Fin 128) (hq : q'.val = q.val) :
    (truncf .bf16 (pad S576x128 ![0, 0] ![0, 64] ![0, 0]
        (concatenate S576x64 0 [⟨S288x64, wr⟩, ⟨S288x64, wi⟩] concatenates_S288x64_S288x64_S576x64_d0)
        (sitofp (F := Ideal) .f32 (constantI S_ 32 0#32)) pads_S576x64_S576x128_000_0640 h_S_) bitsLt_bf16_f32
        : FVec Ideal S576x128 .bf16)
      (ix2 (Fin.castAdd 288 k) q') = wr (ix2 k q) := by
  refine (pad_apply_of_inside _ _ _ _ _ pads_S576x64_S576x128_000_0640 h_S_ (ix2 (Fin.castAdd 288 k) q')
    (ix2 (Fin.castAdd 288 k) q) fun a => ?_).trans ?_
  · match a with
    | ⟨0, _⟩ => show (k.val : ℕ) = 0 + k.val * (0 + 1); omega
    | ⟨1, _⟩ => show q'.val = 0 + q.val * (0 + 1); omega
  · exact concatRows_upper wr wi concatenates_S288x64_S288x64_S576x64_d0 (Fin.castAdd 288 k) q k rfl

theorem catW_lower (wr wi : FVec Ideal S288x64 .f32) (k : Fin 288) (q : Fin 64) (q' : Fin 128) (hq : q'.val = q.val) :
    (truncf .bf16 (pad S576x128 ![0, 0] ![0, 64] ![0, 0]
        (concatenate S576x64 0 [⟨S288x64, wr⟩, ⟨S288x64, wi⟩] concatenates_S288x64_S288x64_S576x64_d0)
        (sitofp (F := Ideal) .f32 (constantI S_ 32 0#32)) pads_S576x64_S576x128_000_0640 h_S_) bitsLt_bf16_f32
        : FVec Ideal S576x128 .bf16)
      (ix2 (Fin.natAdd 288 k) q') = wi (ix2 k q) := by
  refine (pad_apply_of_inside _ _ _ _ _ pads_S576x64_S576x128_000_0640 h_S_ (ix2 (Fin.natAdd 288 k) q')
    (ix2 (Fin.natAdd 288 k) q) fun a => ?_).trans ?_
  · match a with
    | ⟨0, _⟩ => show (288 + k.val : ℕ) = 0 + (288 + k.val) * (0 + 1); omega
    | ⟨1, _⟩ => show q'.val = 0 + q.val * (0 + 1); omega
  · exact concatRows_lower wr wi concatenates_S288x64_S288x64_S576x64_d0 (Fin.natAdd 288 k) q k
      (by show k.val + 288 = 288 + k.val; omega)

/-- The first 64 columns of [Fr | Fi] · [Wr ; Wi | 0] are Fr · Wr + Fi · Wi. -/
theorem tail_law (Fr Fi : FVec Ideal S131072x288 .f32) (wr wi : FVec Ideal S288x64 .f32) :
    extractStridedSlice S131072x64 ![0, 0]
      (MM (truncf .bf16 (concatenate S131072x576 1 [⟨S131072x288, Fr⟩, ⟨S131072x288, Fi⟩]
              concatenates_S131072x288_S131072x288_S131072x576_d1) bitsLt_bf16_f32)
          (truncf .bf16 (pad S576x128 ![0, 0] ![0, 64] ![0, 0]
              (concatenate S576x64 0 [⟨S288x64, wr⟩, ⟨S288x64, wi⟩] concatenates_S288x64_S288x64_S576x64_d0)
              (sitofp (F := Ideal) .f32 (constantI S_ 32 0#32)) pads_S576x64_S576x128_000_0640 h_S_) bitsLt_bf16_f32))
      slices_S131072x128_S131072x64_0_0
    = addf (Host.dotGeneral (F := Ideal) Cert.ReferenceIdeal.dot_S131072x288_S288x64_S131072x64_1_0_0_1_n_n none Fr wr)
        (Host.dotGeneral (F := Ideal) Cert.ReferenceIdeal.dot_S131072x288_S288x64_S131072x64_1_0_0_1_n_n none Fi wi) := by
  funext j
  obtain ⟨p, q, rfl⟩ : ∃ (p : Fin 131072) (q : Fin 64), j = ix2 p q := ⟨j 0, j 1, eq_ix2 j⟩
  have hq : q.val < 128 := by have := q.isLt; omega
  refine (extractStridedSlice_apply _ _ slices_S131072x128_S131072x64_0_0 (ix2 p q) (ix2 p ⟨q.val, hq⟩) fun a => ?_).trans ?_
  · match a with
    | ⟨0, _⟩ => show p.val = 0 + p.val; omega
    | ⟨1, _⟩ => show q.val = 0 + q.val; omega
  rw [MM_apply]
  show _ = Host.dotGeneral (F := Ideal) _ none Fr wr (ix2 p q) + Host.dotGeneral (F := Ideal) _ none Fi wi (ix2 p q)
  rw [Cert.DotNN.dotGeneral_apply _ dot_eq_plain none Fr wr p q, Cert.DotNN.dotGeneral_apply _ dot_eq_plain none Fi wi p q]
  refine (Fin.sum_univ_add (a := 288) (b := 288) (fun k : Fin (288 + 288) =>
    (truncf .bf16 (concatenate S131072x576 1 [⟨S131072x288, Fr⟩, ⟨S131072x288, Fi⟩]
        concatenates_S131072x288_S131072x288_S131072x576_d1) bitsLt_bf16_f32 : FVec Ideal S131072x576 .bf16) (ix2 p k)
      * (truncf .bf16 (pad S576x128 ![0, 0] ![0, 64] ![0, 0]
        (concatenate S576x64 0 [⟨S288x64, wr⟩, ⟨S288x64, wi⟩] concatenates_S288x64_S288x64_S576x64_d0)
        (sitofp (F := Ideal) .f32 (constantI S_ 32 0#32)) pads_S576x64_S576x128_000_0640 h_S_) bitsLt_bf16_f32
        : FVec Ideal S576x128 .bf16) (ix2 k ⟨q.val, hq⟩))).trans ?_
  congr 1
  · refine Finset.sum_congr rfl fun k _ => ?_
    rw [catF_left Fr Fi p k, catW_upper wr wi k q ⟨q.val, hq⟩ rfl]
  · refine Finset.sum_congr rfl fun k _ => ?_
    rw [catF_right Fr Fi p k, catW_lower wr wi k q ⟨q.val, hq⟩ rfl]

end Law

end Cert.Spec

end
-- ==== Proof.KI.ValRegion8.lean ====
/-
  The value of region 8's output array over the extended reals, read off the region's proof data: every entry is
  the sum, over the contracted coordinate, of the products of the left array's row with the right array's column.
-/
import proofs.«156564_j46222438039786_1_alg».proof.Proof.KI.Region8
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common
open Idealize.ShloMosaic Idealize.ShloMosaic.TcCoe Idealize.ShloMosaic.ValueIdx
open Idealize.SL.Sem
open Idealize.ShloMosaic.Pipeline (Dat Cfg Window)

/-! ## The body's arithmetic at an index -/

/-- The block the accumulator is reset to is zero at every index. -/
theorem k8_pay1_apply (j : S4096x128.Idx) : (k8_pay1 (F := Ideal)) j = 0 := by
  unfold k8_pay1
  rw [shapeCast_self]
  exact Ideal.ofBits_zero_f32

/-- The body's payload at an index: what it started from there, plus the row of the left block times the column of
    the right block. -/
theorem k8_pay2_apply (z : FVec Ideal S4096x128 .f32) (x0 : FVec Ideal S4096x576 .bf16) (x1 : FVec Ideal S576x128 .bf16)
    (a : Fin 4096) (b : Fin 128) :
    k8_pay2 z x0 x1 (ix2 a b) = z (ix2 a b) + ∑ k : Fin 576, x0 (ix2 a k) * x1 (ix2 k b) := by
  unfold k8_pay2
  simp only [shapeCast_self]
  rw [addf_apply]
  refine congrArg (z (ix2 a b) + ·) ?_
  simp only [matmul]
  rw [Ideal.matmul_constant_zero_apply,
    ← Equiv.sum_comp (contrEquiv1 dot_S4096x576_S576x128_S4096x128_1_0_0_1_n_n 576 rfl rfl).symm]
  refine Finset.sum_congr rfl fun k _ => ?_
  have ck := contrEquiv1_symm_val dot_S4096x576_S576x128_S4096x128_1_0_0_1_n_n 576 rfl rfl k
  have hl : dot_S4096x576_S576x128_S4096x128_1_0_0_1_n_n.lhsIdx (ix2 a b)
      ((contrEquiv1 dot_S4096x576_S576x128_S4096x128_1_0_0_1_n_n 576 rfl rfl).symm k) = ix2 a k := by
    funext ax; apply Fin.ext
    match ax with
    | ⟨0, _⟩ => simp [DotDims.lhsIdx, dot_S4096x576_S576x128_S4096x128_1_0_0_1_n_n]; rfl
    | ⟨1, _⟩ => simp [DotDims.lhsIdx, dot_S4096x576_S576x128_S4096x128_1_0_0_1_n_n]; exact ck
  have hr : dot_S4096x576_S576x128_S4096x128_1_0_0_1_n_n.rhsIdx (ix2 a b)
      ((contrEquiv1 dot_S4096x576_S576x128_S4096x128_1_0_0_1_n_n 576 rfl rfl).symm k) = ix2 k b := by
    funext ax; apply Fin.ext
    match ax with
    | ⟨0, _⟩ => simp [DotDims.rhsIdx, dot_S4096x576_S576x128_S4096x128_1_0_0_1_n_n]; exact ck
    | ⟨1, _⟩ => simp [DotDims.rhsIdx, dot_S4096x576_S576x128_S4096x128_1_0_0_1_n_n]; rfl
  rw [hl, hr]

/-! ## The blocks as parts of the arrays -/

section ValRegion8
variable (V : (c : Dev nD) → (b : Ref sig .tc) → Buf (Elt Ideal) ((c : Thread nD τ).loc b))

/-- The product of a left array by a right array, entry by entry. -/
def prod8 (A : S131072x576.Idx → EReal) (Bm : S576x128.Idx → EReal) : S131072x128.Idx → EReal :=
  fun j => ∑ k : Fin 576, A (ix2 (n0 := 131072) (j 0) k) * Bm (ix2 (n1 := 128) k (j 1))

/-- The block indices at every grid point: the left and the output windows move down their rows with the point,
    the right window stays on its one block. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The left block at point `t` is rows `4096 t … 4096 t + 4095` of the left array. -/
theorem iblk8_0_apply (c : Dev nD) (t : Fin cfg8.N) (y : Fin 4096) (k : Fin 576) (p : Fin 131072)
    (hp : p.val = t.val * 4096 + y.val) :
    (iblk8 V c 0 t : S4096x576.Idx → EReal) (ix2 y k)
      = (V c (Pipeline.arrRef spec8 0) : S131072x576.Idx → EReal) (ix2 p k) := by
  obtain ⟨e0, e1, -⟩ := idx8 t
  unfold iblk8
  rw [View.read_apply]
  show V c main_v333 _ = V c main_v333 _
  congr 1
  funext ax
  apply Fin.ext
  match ax with
  | ⟨0, _⟩ => show win8_0.index t 0 * 4096 + 1 * y.val = p.val; rw [e0, hp]; omega
  | ⟨1, _⟩ => show win8_0.index t 1 * 576 + 1 * k.val = k.val; rw [e1]; omega

/-- The right block at every point is the whole right array. -/
theorem iblk8_1_apply (c : Dev nD) (t : Fin cfg8.N) (k : Fin 576) (q : Fin 128) :
    (iblk8 V c 1 t : S576x128.Idx → EReal) (ix2 k q)
      = (V c (Pipeline.arrRef spec8 1) : S576x128.Idx → EReal) (ix2 k q) := by
  obtain ⟨-, -, e2, e3, -⟩ := idx8 t
  unfold iblk8
  rw [View.read_apply]
  show V c main_v336 _ = V c main_v336 _
  congr 1
  funext ax
  apply Fin.ext
  match ax with
  | ⟨0, _⟩ => show win8_1.index t 0 * 576 + 1 * k.val = k.val; rw [e2]; omega
  | ⟨1, _⟩ => show win8_1.index t 1 * 128 + 1 * q.val = q.val; rw [e3]; omega

/-! ## From the blocks to the array -/

/-- What point `t` writes back is its block of the product of the two arrays as the region finds them. -/
theorem flushed8_eq (c : Dev nD) (t : Fin cfg8.N) :
    (dat8 (F := Ideal) V c).flushed 2 t
      = ((cfg8.win 2).blk t).view.read (Elt Ideal)
          (prod8 (V c (Pipeline.arrRef spec8 0)) (V c (Pipeline.arrRef spec8 1))) := by
  show (cfg8.win 2).cut (grid8.coords t) ((dat8 V c).after 2 t) = _
  rw [after8_2]
  unfold acc8
  refine funext fun (y : S4096x128.Idx) => ?_
  obtain ⟨a, b, rfl⟩ : ∃ (a : Fin 4096) (b : Fin 128), y = ix2 a b := ⟨y 0, y 1, eq_ix2 y⟩
  obtain ⟨-, -, -, -, e4, e5⟩ := idx8 t
  have ha : a.val < 4096 := a.isLt
  have ht : t.val < 32 := lt_of_lt_of_eq t.isLt (N_8 : cfg8.N = 32)
  have hemb : ((cfg8.win 2).blk t).view.emb (ix2 a b)
      = (ix2 (⟨t.val * 4096 + a.val, by omega⟩ : Fin 131072) b : S131072x128.Idx) := by
    funext ax
    apply Fin.ext
    match ax with
    | ⟨0, _⟩ => show win8_2.index t 0 * 4096 + 1 * a.val = t.val * 4096 + a.val; rw [e4]; omega
    | ⟨1, _⟩ => show win8_2.index t 1 * 128 + 1 * b.val = b.val; rw [e5]; omega
  rw [View.read_apply, hemb]
  show k8_pay2 (k8_pay1 (F := Ideal)) (iblk8 V c 0 t) (iblk8 V c 1 t) (ix2 a b)
    = prod8 (V c (Pipeline.arrRef spec8 0)) (V c (Pipeline.arrRef spec8 1))
        (ix2 (⟨t.val * 4096 + a.val, by omega⟩ : Fin 131072) b)
  refine (k8_pay2_apply (k8_pay1 (F := Ideal)) (iblk8 V c 0 t) (iblk8 V c 1 t) a b).trans ?_
  rw [k8_pay1_apply, zero_add]
  unfold prod8
  refine Finset.sum_congr rfl fun k _ => ?_
  (rw [iblk8_0_apply V c t a k ⟨t.val * 4096 + a.val, by omega⟩ rfl, iblk8_1_apply V c t k b]) <;> rfl

/-- An index of the output array is in point `t`'s block iff each coordinate is in the block's range on its axis. -/
theorem mem_blk8 (t : Fin cfg8.N) (i : S131072x128.Idx) :
    i ∈ ((cfg8.win 2).blk t).view.set
      ↔ ∀ a : Fin 2, win8_2.index t a * S4096x128.size a ≤ (i a).val
          ∧ (i a).val < win8_2.index t a * S4096x128.size a + S4096x128.size a := by
  show i ∈ ((View.whole main_v337).slice (win8_2.rect t)).set ↔ _
  rw [View.set_slice_whole, Rect.mem_set_unit]
  exact Iff.rfl

/-- Every row of the output array is in the block of the point its row number over 4096 names. -/
theorem cover8 (i : S131072x128.Idx) :
    ∃ t : Fin cfg8.N, (cfg8.win 2).flush t = true ∧ i ∈ ((cfg8.win 2).blk t).view.set := by
  have hi0 : (i 0).val < 131072 := (i 0).isLt
  have hi1 : (i 1).val < 128 := (i 1).isLt
  have hN : cfg8.N = 32 := N_8
  let t : Fin cfg8.N := ⟨(i 0).val / 4096, by rw [hN]; omega⟩
  obtain ⟨-, -, -, -, e4, e5⟩ := idx8 t
  have e4' : win8_2.index t (0 : Fin 2) = (i 0).val / 4096 := e4
  refine ⟨t, flush8_2 t, ?_⟩
  rw [mem_blk8]
  intro a
  match a with
  | ⟨0, _⟩ =>
    show win8_2.index t (0 : Fin 2) * 4096 ≤ (i 0).val ∧ (i 0).val < win8_2.index t (0 : Fin 2) * 4096 + 4096
    omega
  | ⟨1, _⟩ =>
    show win8_2.index t (1 : Fin 2) * 128 ≤ (i 1).val ∧ (i 1).val < win8_2.index t (1 : Fin 2) * 128 + 128
    omega

/-- The output array after the region is the product of the two arrays as the region finds them. -/
theorem out8_eq (c : Dev nD) :
    (dat8 (F := Ideal) V c).arrAt 2 cfg8.N
      = prod8 (V c (Pipeline.arrRef spec8 0)) (V c (Pipeline.arrRef spec8 1)) :=
  (dat8 (F := Ideal) V c).arrAt_eq_of_cover 2 _ (fun t _ => flushed8_eq V c t) cover8

/-- The product at an entry, spelt out. -/
theorem prod8_apply (A : S131072x576.Idx → EReal) (Bm : S576x128.Idx → EReal) (p : Fin 131072) (q : Fin 128) :
    prod8 A Bm (ix2 p q) = ∑ k : Fin 576, A (ix2 p k) * Bm (ix2 k q) := rfl

/-- Entry `(p, q)` of the output array after the region: row `p` of the left array `A` times column `q` of the right
    array `Bm`, the two arrays as the region finds them. -/
theorem out8_apply (c : Dev nD) (A : S131072x576.Idx → EReal) (Bm : S576x128.Idx → EReal)
    (hA : A = V c (Pipeline.arrRef spec8 0)) (hB : Bm = V c (Pipeline.arrRef spec8 1)) (p : Fin 131072) (q : Fin 128) :
    @Eq EReal ((dat8 (F := Ideal) V c).arrAt 2 cfg8.N (ix2 p q)) (∑ k : Fin 576, A (ix2 p k) * Bm (ix2 k q)) := by
  subst hA hB
  rw [out8_eq V c]
  rfl

end ValRegion8

end Cert.KernelIdeal.Hand

end
-- ==== Proof.KI.TailOps.lean ====
/-
  The kernel's last stretch, buffer by buffer: what each host operation after the eighth matrix product leaves,
  in terms of the buffers before it.

  After the eighth product the host operations take one more step of the iteration (the ninth iterate), regroup
  each of the nine iterates of each part, lay the nine side by side and flatten them (two 131072 × 288 arrays),
  put the real stack beside the imaginary one and narrow it; they put the real weights above the imaginary ones,
  widen the result to 128 columns with zeros and narrow it; after the ninth product they keep its first 64 columns,
  double them and regroup. Each lemma reads ONE buffer after ONE stretch, from any contents `V` the stretch starts at.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.Value
import Idealize.ShloMosaic.Lib.StableHlo.Run
import proofs.«156564_j46222438039786_1_alg».proof.Proof.Common
import proofs.«156564_j46222438039786_1_alg».proof.Proof.Gen.ReferenceIdeal
import proofs.«156564_j46222438039786_1_alg».proof.Proof.Spec
import proofs.«156564_j46222438039786_1_alg».proof.Proof.Iterates

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL.Sem

section AnyFloat
variable {F : FTy → Type} [FloatOps F]
variable (V : Valuation τ sig (Elt F))

/-! ## The last host stretch: keep 64 columns, double, regroup -/

theorem ops9_v341 :
    StableHlo.after hostOps9 V (Proc.devRef .tc main_v341)
      = shapeCast _ (mulf (broadcastInDim S131072x64 ![] bcast_S_S131072x64 (constant S_ .f32 0x40000000#32))
          (extractStridedSlice S131072x64 ![0, 0] (V (Proc.devRef .tc main_v337)) slices_S131072x128_S131072x64_0_0))
          shapeCasts_S131072x64_S32x64x64x64 := by
  after_results; rfl

/-! ## The narrowing of the widened weights; the widening -/

theorem ops8_2_v336 :
    StableHlo.after hostOps8_2 V (Proc.devRef .tc main_v336) = truncf .bf16 (V (Proc.devRef .tc main_v335)) bitsLt_bf16_f32 := by
  after_results

theorem ops8_2_v333 :
    StableHlo.after hostOps8_2 V (Proc.devRef .tc main_v333) = V (Proc.devRef .tc main_v333) := by
  after_results

theorem ops8_1_v335 :
    StableHlo.after hostOps8_1 V (Proc.devRef .tc main_v335)
      = pad S576x128 ![0, 0] ![0, 64] ![0, 0] (V (Proc.devRef .tc main_v334))
          (sitofp .f32 (V (Proc.devRef .tc main_c_6))) pads_S576x64_S576x128_000_0640 h_S_ := by
  after_results; rfl

theorem ops8_1_v333 :
    StableHlo.after hostOps8_1 V (Proc.devRef .tc main_v333) = V (Proc.devRef .tc main_v333) := by
  after_results

/-- The padding value's integer zero. -/
theorem ops8_c6 :
    StableHlo.after hostOps8 V (Proc.devRef .tc main_c_6) = constantI S_ 32 0#32 := by
  after_results

end AnyFloat

/-! ## The ninth iterate, as the host operations spell it -/

section AtIdeal
variable (V : Valuation τ sig (Elt Ideal))

/-- The eighth step's real numerator as the host operations compute it: the off-diagonal product added and taken away. -/
def k8t : FVec Ideal S4096x1024 .f32 :=
  Cert.Spec.tr (Cert.Spec.col (V (Proc.devRef .tc main_arg3)))
    (extractStridedSlice S4096x1024 ![0, 0] (V (Proc.devRef .tc main_v245)) slices_S4096x2048_S4096x1024_0_0)
    (V (Proc.devRef .tc main_v235)) (V (Proc.devRef .tc main_v242))
/-- … and its imaginary numerator. -/
def k8u : FVec Ideal S4096x1024 .f32 :=
  Cert.Spec.ti (Cert.Spec.col (V (Proc.devRef .tc main_arg3)))
    (extractStridedSlice S4096x1024 ![0, 1024] (V (Proc.devRef .tc main_v245)) slices_S4096x2048_S4096x1024_0_1024)
    (V (Proc.devRef .tc main_v235)) (V (Proc.devRef .tc main_v242))
/-- The ninth iterate's real part. -/
def k8r : FVec Ideal S4096x1024 .f32 :=
  Cert.Spec.yr (Cert.Spec.col (V (Proc.devRef .tc main_v6))) (Cert.Spec.col (V (Proc.devRef .tc main_v8))) (k8t V) (k8u V)
/-- The ninth iterate's imaginary part. -/
def k8i : FVec Ideal S4096x1024 .f32 :=
  Cert.Spec.yi (Cert.Spec.col (V (Proc.devRef .tc main_v6))) (Cert.Spec.col (V (Proc.devRef .tc main_v8))) (k8t V) (k8u V)

/-! ## The long host stretch: the ninth iterate, the two stacks, the weights one above the other -/

set_option maxHeartbeats 4000000 in
theorem ops8_v334 :
    StableHlo.after hostOps8 V (Proc.devRef .tc main_v334)
      = concatenate S576x64 0 [⟨S288x64, V (Proc.devRef .tc main_arg1)⟩, ⟨S288x64, V (Proc.devRef .tc main_arg2)⟩] concatenates_S288x64_S288x64_S576x64_d0 := by
  simp only [hostOps8]
  after_results_simp
  all_goals rfl

set_option maxHeartbeats 8000000 in
theorem ops8_v333 :
    StableHlo.after hostOps8 V (Proc.devRef .tc main_v333)
      = truncf (F := Ideal) .bf16 (concatenate S131072x576 1
          [⟨S131072x288, Cert.Spec.stack9' (V (Proc.devRef .tc main_v2)) (V (Proc.devRef .tc main_v49)) (V (Proc.devRef .tc main_v80))
              (V (Proc.devRef .tc main_v111)) (V (Proc.devRef .tc main_v142)) (V (Proc.devRef .tc main_v173))
              (V (Proc.devRef .tc main_v204)) (V (Proc.devRef .tc main_v235)) (k8r V)⟩,
           ⟨S131072x288, Cert.Spec.stack9' (V (Proc.devRef .tc main_v25)) (V (Proc.devRef .tc main_v56)) (V (Proc.devRef .tc main_v87))
              (V (Proc.devRef .tc main_v118)) (V (Proc.devRef .tc main_v149)) (V (Proc.devRef .tc main_v180))
              (V (Proc.devRef .tc main_v211)) (V (Proc.devRef .tc main_v242)) (k8i V)⟩]
          concatenates_S131072x288_S131072x288_S131072x576_d1) bitsLt_bf16_f32 := by
  simp only [hostOps8]
  after_results_simp
  all_goals rfl

end AtIdeal

end Cert.KernelIdeal.Hand

end
-- ==== Proof.KI.Tail.lean ====
/-
  The kernel's last stretch, assembled: from the nine pairs of iterates to the result buffer.

  The buffers after the eighth matrix product hold the first eight pairs of iterates; the host operations take the
  ninth step (its off-diagonal products, being real, cancel against their own subtraction), stack the nine iterates of
  each part, and hand [real stack | imaginary stack] and [real weights ; imaginary weights | zeros] to the ninth
  product; of that product the first 64 columns are the sum of the two stacks' products with the two weight matrices;
  they are doubled and regrouped into the result.
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.Value
import Idealize.ShloMosaic.Lib.StableHlo.Run
import proofs.«156564_j46222438039786_1_alg».proof.Proof.Common
import proofs.«156564_j46222438039786_1_alg».proof.Proof.Gen.ReferenceIdeal
import proofs.«156564_j46222438039786_1_alg».proof.Proof.Spec
import proofs.«156564_j46222438039786_1_alg».proof.Proof.Iterates
import proofs.«156564_j46222438039786_1_alg».proof.Proof.TailLaw
import proofs.«156564_j46222438039786_1_alg».proof.Proof.KI.Fold
import proofs.«156564_j46222438039786_1_alg».proof.Proof.KI.ValRegion8
import proofs.«156564_j46222438039786_1_alg».proof.Proof.KI.TailOps

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL.Sem
open Idealize.ShloMosaic.Pipeline (Dat Cfg Window)

section Assembly
variable (m : (ℓ : Loc nD τ sig) → Buf (Elt Ideal) ℓ) (ρ : Dev nD → PrngReg)

/-- An argument's buffer still holds its launch contents when the eighth product is done. -/
theorem B16_arg (c : Dev nD) (b : Ref sig .tc) (hb : b ∈ argRefs) :
    B16 m ρ c (Proc.devRef .tc b) = m ((c : Thread nD τ).loc b) :=
  ((keep_hostOps9 (B20 m ρ c) b hb).trans ((B20_of_ne m ρ c b (ne_arr8 b hb)).trans ((keep_hostOps8_2 (B18 m ρ c) b hb).trans
    ((keep_hostOps8_1 (B17 m ρ c) b hb).trans (keep_hostOps8 (B16 m ρ c) b hb))))).symm.trans (B21_arg m ρ c b hb)

/-- A slice of a real-valued array is real-valued. -/
theorem allReal_slice {s t : Shape} (off : Fin s.rank → Nat) (x : FVec Ideal s .f32) (h : s.Slices off t)
    (hx : Cert.Spec.AllReal x) : Cert.Spec.AllReal (extractStridedSlice t off x h) := fun j => hx _

/-- The ninth iterate as the host operations compute it is one step of the iteration from the eighth: the
    off-diagonal products, being real, cancel. -/
theorem k8_eq (V : Valuation τ sig (Elt Ideal)) (D DR DI zr zi : FVec Ideal S4096x1024 .f32)
    (hD : Cert.Spec.col (V (Proc.devRef .tc main_arg3)) = D) (hDR : Cert.Spec.col (V (Proc.devRef .tc main_v6)) = DR)
    (hDI : Cert.Spec.col (V (Proc.devRef .tc main_v8)) = DI)
    (hr : V (Proc.devRef .tc main_v235) = zr) (hi : V (Proc.devRef .tc main_v242) = zi)
    (rD : Cert.Spec.AllReal D) (rr : Cert.Spec.AllReal zr) (ri : Cert.Spec.AllReal zi)
    (ro : Cert.Spec.AllReal (V (Proc.devRef .tc main_v245) : FVec Ideal S4096x2048 .f32)) :
    (k8r V, k8i V) = Cert.Spec.next D DR DI (zr, zi) := by
  have ht : k8t V = addf (mulf D zr) zi := by
    unfold k8t; rw [hD, hr, hi]
    exact Cert.Spec.tr_eq rD (allReal_slice _ _ _ ro) rr ri
  have hu : k8u V = subf (mulf D zi) zr := by
    unfold k8u; rw [hD, hr, hi]
    exact Cert.Spec.ti_eq rD (allReal_slice _ _ _ ro) rr ri
  unfold k8r k8i Cert.Spec.next
  rw [hDR, hDI, ht, hu]

end Assembly

section Final
variable (m : (ℓ : Loc nD τ sig) → Buf (Elt Ideal) ℓ) (ρ : Dev nD → PrngReg)

/-- The left operand of the last product: the real stack beside the imaginary one, narrowed. -/
theorem B19_v333 (c : Dev nD) (zr zi : Fin 9 → FVec Ideal S4096x1024 .f32)
    (hr0 : B16 m ρ c (Proc.devRef .tc main_v2) = zr 0) (hr1 : B16 m ρ c (Proc.devRef .tc main_v49) = zr 1)
    (hr2 : B16 m ρ c (Proc.devRef .tc main_v80) = zr 2) (hr3 : B16 m ρ c (Proc.devRef .tc main_v111) = zr 3)
    (hr4 : B16 m ρ c (Proc.devRef .tc main_v142) = zr 4) (hr5 : B16 m ρ c (Proc.devRef .tc main_v173) = zr 5)
    (hr6 : B16 m ρ c (Proc.devRef .tc main_v204) = zr 6) (hr7 : B16 m ρ c (Proc.devRef .tc main_v235) = zr 7)
    (hi0 : B16 m ρ c (Proc.devRef .tc main_v25) = zi 0) (hi1 : B16 m ρ c (Proc.devRef .tc main_v56) = zi 1)
    (hi2 : B16 m ρ c (Proc.devRef .tc main_v87) = zi 2) (hi3 : B16 m ρ c (Proc.devRef .tc main_v118) = zi 3)
    (hi4 : B16 m ρ c (Proc.devRef .tc main_v149) = zi 4) (hi5 : B16 m ρ c (Proc.devRef .tc main_v180) = zi 5)
    (hi6 : B16 m ρ c (Proc.devRef .tc main_v211) = zi 6) (hi7 : B16 m ρ c (Proc.devRef .tc main_v242) = zi 7)
    (hr8 : k8r (B16 m ρ c) = zr 8) (hi8 : k8i (B16 m ρ c) = zi 8) :
    B19 m ρ c (Proc.devRef .tc main_v333)
      = truncf (F := Ideal) .bf16 (concatenate S131072x576 1 [⟨S131072x288, Cert.Spec.stack9 zr⟩, ⟨S131072x288, Cert.Spec.stack9 zi⟩]
          concatenates_S131072x288_S131072x288_S131072x576_d1) bitsLt_bf16_f32 := by
  refine (ops8_2_v333 (B18 m ρ c)).trans ((ops8_1_v333 (B17 m ρ c)).trans ((ops8_v333 (B16 m ρ c)).trans ?_))
  rw [hr0, hr1, hr2, hr3, hr4, hr5, hr6, hr7, hi0, hi1, hi2, hi3, hi4, hi5, hi6, hi7, hr8, hi8]
  rfl

/-- The right operand of the last product: the real weights above the imaginary ones, widened with zeros, narrowed. -/
theorem B19_v336 (c : Dev nD) :
    B19 m ρ c (Proc.devRef .tc main_v336)
      = truncf (F := Ideal) .bf16 (pad S576x128 ![0, 0] ![0, 64] ![0, 0]
          (concatenate S576x64 0 [⟨S288x64, m ((c : Thread nD τ).loc main_arg1)⟩, ⟨S288x64, m ((c : Thread nD τ).loc main_arg2)⟩]
            concatenates_S288x64_S288x64_S576x64_d0)
          (sitofp (F := Ideal) .f32 (constantI S_ 32 0#32)) pads_S576x64_S576x128_000_0640 h_S_) bitsLt_bf16_f32 := by
  have h336 : B19 m ρ c (Proc.devRef .tc main_v336) = _ := ops8_2_v336 (B18 m ρ c)
  have h335 : B18 m ρ c (Proc.devRef .tc main_v335) = _ := ops8_1_v335 (B17 m ρ c)
  have h334 : B17 m ρ c (Proc.devRef .tc main_v334) = _ := ops8_v334 (B16 m ρ c)
  have hc6 : B17 m ρ c (Proc.devRef .tc main_c_6) = _ := ops8_c6 (B16 m ρ c)
  rw [h336, h335, h334, hc6, B16_arg m ρ c main_arg1 (by decide), B16_arg m ρ c main_arg2 (by decide)]

/-- The result buffer at the end of the run: twice the sum of the two stacks' products with the two weight matrices,
    regrouped — given the first eight pairs of iterates in their buffers after the eighth product, the ninth pair
    one step on, real-valued data, and the ninth region's output as the product of its two operands. -/
theorem B21_v341_of (c : Dev nD) (zr zi : Fin 9 → FVec Ideal S4096x1024 .f32) (D DR DI : FVec Ideal S4096x1024 .f32)
    (hD : Cert.Spec.col (B16 m ρ c (Proc.devRef .tc main_arg3)) = D)
    (hDR : Cert.Spec.col (B16 m ρ c (Proc.devRef .tc main_v6)) = DR)
    (hDI : Cert.Spec.col (B16 m ρ c (Proc.devRef .tc main_v8)) = DI)
    (hr0 : B16 m ρ c (Proc.devRef .tc main_v2) = zr 0) (hr1 : B16 m ρ c (Proc.devRef .tc main_v49) = zr 1)
    (hr2 : B16 m ρ c (Proc.devRef .tc main_v80) = zr 2) (hr3 : B16 m ρ c (Proc.devRef .tc main_v111) = zr 3)
    (hr4 : B16 m ρ c (Proc.devRef .tc main_v142) = zr 4) (hr5 : B16 m ρ c (Proc.devRef .tc main_v173) = zr 5)
    (hr6 : B16 m ρ c (Proc.devRef .tc main_v204) = zr 6) (hr7 : B16 m ρ c (Proc.devRef .tc main_v235) = zr 7)
    (hi0 : B16 m ρ c (Proc.devRef .tc main_v25) = zi 0) (hi1 : B16 m ρ c (Proc.devRef .tc main_v56) = zi 1)
    (hi2 : B16 m ρ c (Proc.devRef .tc main_v87) = zi 2) (hi3 : B16 m ρ c (Proc.devRef .tc main_v118) = zi 3)
    (hi4 : B16 m ρ c (Proc.devRef .tc main_v149) = zi 4) (hi5 : B16 m ρ c (Proc.devRef .tc main_v180) = zi 5)
    (hi6 : B16 m ρ c (Proc.devRef .tc main_v211) = zi 6) (hi7 : B16 m ρ c (Proc.devRef .tc main_v242) = zi 7)
    (h8 : (zr 8, zi 8) = Cert.Spec.next D DR DI (zr 7, zi 7))
    (rD : Cert.Spec.AllReal D) (rr : Cert.Spec.AllReal (zr 7)) (ri : Cert.Spec.AllReal (zi 7))
    (ro : Cert.Spec.AllReal (B16 m ρ c (Proc.devRef .tc main_v245) : FVec Ideal S4096x2048 .f32))
    (hout8 : (dat8 (F := Ideal) (VB19 m ρ) c).arrAt 2 cfg8.N
      = Cert.Spec.MM (VB19 m ρ c (Pipeline.arrRef spec8 0)) (VB19 m ρ c (Pipeline.arrRef spec8 1))) :
    B21 m ρ c (Proc.devRef .tc main_v341)
      = shapeCast _ (mulf (F := Ideal) (broadcastInDim S131072x64 ![] bcast_S_S131072x64 (constant (F := Ideal) S_ .f32 0x40000000#32))
          (Cert.Spec.refTail zr zi (m ((c : Thread nD τ).loc main_arg1)) (m ((c : Thread nD τ).loc main_arg2))))
          shapeCasts_S131072x64_S32x64x64x64 := by
  have e8 : (k8r (B16 m ρ c), k8i (B16 m ρ c)) = (zr 8, zi 8) :=
    (k8_eq (B16 m ρ c) D DR DI (zr 7) (zi 7) hD hDR hDI hr7 hi7 rD rr ri ro).trans h8.symm
  have hA := B19_v333 m ρ c zr zi hr0 hr1 hr2 hr3 hr4 hr5 hr6 hr7 hi0 hi1 hi2 hi3 hi4 hi5 hi6 hi7
    (congrArg Prod.fst e8) (congrArg Prod.snd e8)
  have hB := B19_v336 m ρ c
  have hO : B20 m ρ c (Proc.devRef .tc main_v337) = Cert.Spec.MM _ _ :=
    (B20_arr m ρ c 2).trans (hout8.trans (congrArg₂ Cert.Spec.MM hA hB))
  refine (ops9_v341 (B20 m ρ c)).trans ?_
  rw [hO, Cert.Spec.tail_law]
  rfl

/-- The same with the ninth region's output read off the region itself. -/
theorem B21_v341 (c : Dev nD) (zr zi : Fin 9 → FVec Ideal S4096x1024 .f32) (D DR DI : FVec Ideal S4096x1024 .f32)
    (hD : Cert.Spec.col (B16 m ρ c (Proc.devRef .tc main_arg3)) = D)
    (hDR : Cert.Spec.col (B16 m ρ c (Proc.devRef .tc main_v6)) = DR)
    (hDI : Cert.Spec.col (B16 m ρ c (Proc.devRef .tc main_v8)) = DI)
    (hr0 : B16 m ρ c (Proc.devRef .tc main_v2) = zr 0) (hr1 : B16 m ρ c (Proc.devRef .tc main_v49) = zr 1)
    (hr2 : B16 m ρ c (Proc.devRef .tc main_v80) = zr 2) (hr3 : B16 m ρ c (Proc.devRef .tc main_v111) = zr 3)
    (hr4 : B16 m ρ c (Proc.devRef .tc main_v142) = zr 4) (hr5 : B16 m ρ c (Proc.devRef .tc main_v173) = zr 5)
    (hr6 : B16 m ρ c (Proc.devRef .tc main_v204) = zr 6) (hr7 : B16 m ρ c (Proc.devRef .tc main_v235) = zr 7)
    (hi0 : B16 m ρ c (Proc.devRef .tc main_v25) = zi 0) (hi1 : B16 m ρ c (Proc.devRef .tc main_v56) = zi 1)
    (hi2 : B16 m ρ c (Proc.devRef .tc main_v87) = zi 2) (hi3 : B16 m ρ c (Proc.devRef .tc main_v118) = zi 3)
    (hi4 : B16 m ρ c (Proc.devRef .tc main_v149) = zi 4) (hi5 : B16 m ρ c (Proc.devRef .tc main_v180) = zi 5)
    (hi6 : B16 m ρ c (Proc.devRef .tc main_v211) = zi 6) (hi7 : B16 m ρ c (Proc.devRef .tc main_v242) = zi 7)
    (h8 : (zr 8, zi 8) = Cert.Spec.next D DR DI (zr 7, zi 7))
    (rD : Cert.Spec.AllReal D) (rr : Cert.Spec.AllReal (zr 7)) (ri : Cert.Spec.AllReal (zi 7))
    (ro : Cert.Spec.AllReal (B16 m ρ c (Proc.devRef .tc main_v245) : FVec Ideal S4096x2048 .f32)) :
    B21 m ρ c (Proc.devRef .tc main_v341)
      = shapeCast _ (mulf (F := Ideal) (broadcastInDim S131072x64 ![] bcast_S_S131072x64 (constant (F := Ideal) S_ .f32 0x40000000#32))
          (Cert.Spec.refTail zr zi (m ((c : Thread nD τ).loc main_arg1)) (m ((c : Thread nD τ).loc main_arg2))))
          shapeCasts_S131072x64_S32x64x64x64 :=
  B21_v341_of m ρ c zr zi D DR DI hD hDR hDI hr0 hr1 hr2 hr3 hr4 hr5 hr6 hr7 hi0 hi1 hi2 hi3 hi4 hi5 hi6 hi7 h8 rD rr ri ro
    (out8_eq (VB19 m ρ) c)

end Final

end Cert.KernelIdeal.Hand

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.KI.Iter.lean ====
/-
  The kernel program's iterates, read off the buffer contents at the boundaries between the segments of @main.

  Each host stretch between two regions computes, from the pair (zr, zi) the stretch before it left and the two
  halves o_r, o_i of the region's matrix product,

    t = ((o_r + D·zr) + zi) − o_r      u = ((o_i + D·zi) − zr) − o_i
    zr' = DR·t − DI·u                   zi' = DR·u + DI·t

  with D, DR, DI the columns diag, diag/(diag²+1), −1/(diag²+1) repeated along each row's 1024 entries. When every
  entry involved is a real number the products o_r, o_i cancel, and the pair after step k is the k-th iterate of
  (zr, zi) ↦ (DR·(D·zr + zi) − DI·(D·zi − zr), DR·(D·zi − zr) + DI·(D·zr + zi)) from (z0, 0). No stretch and no
  region writes a buffer an earlier stretch left an iterate in, nor the columns' buffers, so each iterate is still
  in its buffer at every later boundary.
-/
import proofs.«156564_j46222438039786_1_alg».proof.Proof.KI.Fold
import proofs.«156564_j46222438039786_1_alg».proof.Proof.Spec
import proofs.«156564_j46222438039786_1_alg».proof.Proof.Iterates
import proofs.«156564_j46222438039786_1_alg».proof.Proof.Gen.ReferenceIdeal
import proofs.«156564_j46222438039786_1_alg».proof.Proof.LibRealEntries
import Idealize.ShloMosaic.Lib.StableHlo.Run
import Idealize.ShloMosaic.Lib.IdealHost
import Idealize.ShloMosaic.PureOps.Ideal
import Idealize.ShloMosaic.PureOps.Ideal.Laws

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.ShloMosaic.StableHlo
open Cert.Spec (AllReal)

/-! ## The pieces of one update -/

/-- The left half (columns 0 … 1023) of a [4096, 2048] array. -/
def halfL (o : FVec Ideal S4096x2048 .f32) : FVec Ideal S4096x1024 .f32 :=
  extractStridedSlice S4096x1024 ![0, 0] o slices_S4096x2048_S4096x1024_0_0
/-- The right half (columns 1024 … 2047). -/
def halfR (o : FVec Ideal S4096x2048 .f32) : FVec Ideal S4096x1024 .f32 :=
  extractStridedSlice S4096x1024 ![0, 1024] o slices_S4096x2048_S4096x1024_0_1024

/-- A column repeated along the rows reads each entry from the column. -/
theorem col_real {d : FVec Ideal S4096 .f32} (h : AllReal d) : AllReal (Cert.Spec.col d) := fun j => by
  unfold Cert.Spec.col broadcastInDim; exact h _
theorem halfL_real {o : FVec Ideal S4096x2048 .f32} (h : AllReal o) : AllReal (halfL o) := fun j => by
  unfold halfL extractStridedSlice; exact h _
theorem halfR_real {o : FVec Ideal S4096x2048 .f32} (h : AllReal o) : AllReal (halfR o) := fun j => by
  unfold halfR extractStridedSlice; exact h _

/-- What a stretch computes is one update, when every entry is a real number: the two halves of the product cancel. -/
theorem step_real {D DR DI zr zi : FVec Ideal S4096x1024 .f32} {o : FVec Ideal S4096x2048 .f32}
    (hD : AllReal D) (ho : AllReal o) (hzr : AllReal zr) (hzi : AllReal zi) :
    Spec.yr DR DI (Spec.tr D (halfL o) zr zi) (Spec.ti D (halfR o) zr zi) = (Cert.Spec.next D DR DI (zr, zi)).1
      ∧ Spec.yi DR DI (Spec.tr D (halfL o) zr zi) (Spec.ti D (halfR o) zr zi) = (Cert.Spec.next D DR DI (zr, zi)).2 := by
  rw [Spec.tr_eq hD (halfL_real ho) hzr hzi, Spec.ti_eq hD (halfR_real ho) hzr hzi]
  exact ⟨rfl, rfl⟩

/-! ## What each stretch leaves in its two result buffers, from any contents -/

theorem host1_zr (V : Valuation τ sig (Elt Ideal)) :
    StableHlo.after (hostOps1 (F := Ideal)) V (Proc.devRef .tc main_v49)
      = Spec.yr (Cert.Spec.col (V (Proc.devRef .tc main_v6))) (Cert.Spec.col (V (Proc.devRef .tc main_v8)))
          (Spec.tr (Cert.Spec.col (V (Proc.devRef .tc main_arg3))) (halfL (V (Proc.devRef .tc main_v28))) (V (Proc.devRef .tc main_v2)) (V (Proc.devRef .tc main_v25)))
          (Spec.ti (Cert.Spec.col (V (Proc.devRef .tc main_arg3))) (halfR (V (Proc.devRef .tc main_v28))) (V (Proc.devRef .tc main_v2)) (V (Proc.devRef .tc main_v25))) := by
  after_results_simp; rfl
theorem host1_zi (V : Valuation τ sig (Elt Ideal)) :
    StableHlo.after (hostOps1 (F := Ideal)) V (Proc.devRef .tc main_v56)
      = Spec.yi (Cert.Spec.col (V (Proc.devRef .tc main_v6))) (Cert.Spec.col (V (Proc.devRef .tc main_v8)))
          (Spec.tr (Cert.Spec.col (V (Proc.devRef .tc main_arg3))) (halfL (V (Proc.devRef .tc main_v28))) (V (Proc.devRef .tc main_v2)) (V (Proc.devRef .tc main_v25)))
          (Spec.ti (Cert.Spec.col (V (Proc.devRef .tc main_arg3))) (halfR (V (Proc.devRef .tc main_v28))) (V (Proc.devRef .tc main_v2)) (V (Proc.devRef .tc main_v25))) := by
  after_results_simp; rfl

theorem host2_zr (V : Valuation τ sig (Elt Ideal)) :
    StableHlo.after (hostOps2 (F := Ideal)) V (Proc.devRef .tc main_v80)
      = Spec.yr (Cert.Spec.col (V (Proc.devRef .tc main_v6))) (Cert.Spec.col (V (Proc.devRef .tc main_v8)))
          (Spec.tr (Cert.Spec.col (V (Proc.devRef .tc main_arg3))) (halfL (V (Proc.devRef .tc main_v59))) (V (Proc.devRef .tc main_v49)) (V (Proc.devRef .tc main_v56)))
          (Spec.ti (Cert.Spec.col (V (Proc.devRef .tc main_arg3))) (halfR (V (Proc.devRef .tc main_v59))) (V (Proc.devRef .tc main_v49)) (V (Proc.devRef .tc main_v56))) := by
  after_results_simp; rfl
theorem host2_zi (V : Valuation τ sig (Elt Ideal)) :
    StableHlo.after (hostOps2 (F := Ideal)) V (Proc.devRef .tc main_v87)
      = Spec.yi (Cert.Spec.col (V (Proc.devRef .tc main_v6))) (Cert.Spec.col (V (Proc.devRef .tc main_v8)))
          (Spec.tr (Cert.Spec.col (V (Proc.devRef .tc main_arg3))) (halfL (V (Proc.devRef .tc main_v59))) (V (Proc.devRef .tc main_v49)) (V (Proc.devRef .tc main_v56)))
          (Spec.ti (Cert.Spec.col (V (Proc.devRef .tc main_arg3))) (halfR (V (Proc.devRef .tc main_v59))) (V (Proc.devRef .tc main_v49)) (V (Proc.devRef .tc main_v56))) := by
  after_results_simp; rfl

theorem host3_zr (V : Valuation τ sig (Elt Ideal)) :
    StableHlo.after (hostOps3 (F := Ideal)) V (Proc.devRef .tc main_v111)
      = Spec.yr (Cert.Spec.col (V (Proc.devRef .tc main_v6))) (Cert.Spec.col (V (Proc.devRef .tc main_v8)))
          (Spec.tr (Cert.Spec.col (V (Proc.devRef .tc main_arg3))) (halfL (V (Proc.devRef .tc main_v90))) (V (Proc.devRef .tc main_v80)) (V (Proc.devRef .tc main_v87)))
          (Spec.ti (Cert.Spec.col (V (Proc.devRef .tc main_arg3))) (halfR (V (Proc.devRef .tc main_v90))) (V (Proc.devRef .tc main_v80)) (V (Proc.devRef .tc main_v87))) := by
  after_results_simp; rfl
theorem host3_zi (V : Valuation τ sig (Elt Ideal)) :
    StableHlo.after (hostOps3 (F := Ideal)) V (Proc.devRef .tc main_v118)
      = Spec.yi (Cert.Spec.col (V (Proc.devRef .tc main_v6))) (Cert.Spec.col (V (Proc.devRef .tc main_v8)))
          (Spec.tr (Cert.Spec.col (V (Proc.devRef .tc main_arg3))) (halfL (V (Proc.devRef .tc main_v90))) (V (Proc.devRef .tc main_v80)) (V (Proc.devRef .tc main_v87)))
          (Spec.ti (Cert.Spec.col (V (Proc.devRef .tc main_arg3))) (halfR (V (Proc.devRef .tc main_v90))) (V (Proc.devRef .tc main_v80)) (V (Proc.devRef .tc main_v87))) := by
  after_results_simp; rfl

theorem host4_zr (V : Valuation τ sig (Elt Ideal)) :
    StableHlo.after (hostOps4 (F := Ideal)) V (Proc.devRef .tc main_v142)
      = Spec.yr (Cert.Spec.col (V (Proc.devRef .tc main_v6))) (Cert.Spec.col (V (Proc.devRef .tc main_v8)))
          (Spec.tr (Cert.Spec.col (V (Proc.devRef .tc main_arg3))) (halfL (V (Proc.devRef .tc main_v121))) (V (Proc.devRef .tc main_v111)) (V (Proc.devRef .tc main_v118)))
          (Spec.ti (Cert.Spec.col (V (Proc.devRef .tc main_arg3))) (halfR (V (Proc.devRef .tc main_v121))) (V (Proc.devRef .tc main_v111)) (V (Proc.devRef .tc main_v118))) := by
  after_results_simp; rfl
theorem host4_zi (V : Valuation τ sig (Elt Ideal)) :
    StableHlo.after (hostOps4 (F := Ideal)) V (Proc.devRef .tc main_v149)
      = Spec.yi (Cert.Spec.col (V (Proc.devRef .tc main_v6))) (Cert.Spec.col (V (Proc.devRef .tc main_v8)))
          (Spec.tr (Cert.Spec.col (V (Proc.devRef .tc main_arg3))) (halfL (V (Proc.devRef .tc main_v121))) (V (Proc.devRef .tc main_v111)) (V (Proc.devRef .tc main_v118)))
          (Spec.ti (Cert.Spec.col (V (Proc.devRef .tc main_arg3))) (halfR (V (Proc.devRef .tc main_v121))) (V (Proc.devRef .tc main_v111)) (V (Proc.devRef .tc main_v118))) := by
  after_results_simp; rfl

theorem host5_zr (V : Valuation τ sig (Elt Ideal)) :
    StableHlo.after (hostOps5 (F := Ideal)) V (Proc.devRef .tc main_v173)
      = Spec.yr (Cert.Spec.col (V (Proc.devRef .tc main_v6))) (Cert.Spec.col (V (Proc.devRef .tc main_v8)))
          (Spec.tr (Cert.Spec.col (V (Proc.devRef .tc main_arg3))) (halfL (V (Proc.devRef .tc main_v152))) (V (Proc.devRef .tc main_v142)) (V (Proc.devRef .tc main_v149)))
          (Spec.ti (Cert.Spec.col (V (Proc.devRef .tc main_arg3))) (halfR (V (Proc.devRef .tc main_v152))) (V (Proc.devRef .tc main_v142)) (V (Proc.devRef .tc main_v149))) := by
  after_results_simp; rfl
theorem host5_zi (V : Valuation τ sig (Elt Ideal)) :
    StableHlo.after (hostOps5 (F := Ideal)) V (Proc.devRef .tc main_v180)
      = Spec.yi (Cert.Spec.col (V (Proc.devRef .tc main_v6))) (Cert.Spec.col (V (Proc.devRef .tc main_v8)))
          (Spec.tr (Cert.Spec.col (V (Proc.devRef .tc main_arg3))) (halfL (V (Proc.devRef .tc main_v152))) (V (Proc.devRef .tc main_v142)) (V (Proc.devRef .tc main_v149)))
          (Spec.ti (Cert.Spec.col (V (Proc.devRef .tc main_arg3))) (halfR (V (Proc.devRef .tc main_v152))) (V (Proc.devRef .tc main_v142)) (V (Proc.devRef .tc main_v149))) := by
  after_results_simp; rfl

theorem host6_zr (V : Valuation τ sig (Elt Ideal)) :
    StableHlo.after (hostOps6 (F := Ideal)) V (Proc.devRef .tc main_v204)
      = Spec.yr (Cert.Spec.col (V (Proc.devRef .tc main_v6))) (Cert.Spec.col (V (Proc.devRef .tc main_v8)))
          (Spec.tr (Cert.Spec.col (V (Proc.devRef .tc main_arg3))) (halfL (V (Proc.devRef .tc main_v183))) (V (Proc.devRef .tc main_v173)) (V (Proc.devRef .tc main_v180)))
          (Spec.ti (Cert.Spec.col (V (Proc.devRef .tc main_arg3))) (halfR (V (Proc.devRef .tc main_v183))) (V (Proc.devRef .tc main_v173)) (V (Proc.devRef .tc main_v180))) := by
  after_results_simp; rfl
theorem host6_zi (V : Valuation τ sig (Elt Ideal)) :
    StableHlo.after (hostOps6 (F := Ideal)) V (Proc.devRef .tc main_v211)
      = Spec.yi (Cert.Spec.col (V (Proc.devRef .tc main_v6))) (Cert.Spec.col (V (Proc.devRef .tc main_v8)))
          (Spec.tr (Cert.Spec.col (V (Proc.devRef .tc main_arg3))) (halfL (V (Proc.devRef .tc main_v183))) (V (Proc.devRef .tc main_v173)) (V (Proc.devRef .tc main_v180)))
          (Spec.ti (Cert.Spec.col (V (Proc.devRef .tc main_arg3))) (halfR (V (Proc.devRef .tc main_v183))) (V (Proc.devRef .tc main_v173)) (V (Proc.devRef .tc main_v180))) := by
  after_results_simp; rfl

theorem host7_zr (V : Valuation τ sig (Elt Ideal)) :
    StableHlo.after (hostOps7 (F := Ideal)) V (Proc.devRef .tc main_v235)
      = Spec.yr (Cert.Spec.col (V (Proc.devRef .tc main_v6))) (Cert.Spec.col (V (Proc.devRef .tc main_v8)))
          (Spec.tr (Cert.Spec.col (V (Proc.devRef .tc main_arg3))) (halfL (V (Proc.devRef .tc main_v214))) (V (Proc.devRef .tc main_v204)) (V (Proc.devRef .tc main_v211)))
          (Spec.ti (Cert.Spec.col (V (Proc.devRef .tc main_arg3))) (halfR (V (Proc.devRef .tc main_v214))) (V (Proc.devRef .tc main_v204)) (V (Proc.devRef .tc main_v211))) := by
  after_results_simp; rfl
theorem host7_zi (V : Valuation τ sig (Elt Ideal)) :
    StableHlo.after (hostOps7 (F := Ideal)) V (Proc.devRef .tc main_v242)
      = Spec.yi (Cert.Spec.col (V (Proc.devRef .tc main_v6))) (Cert.Spec.col (V (Proc.devRef .tc main_v8)))
          (Spec.tr (Cert.Spec.col (V (Proc.devRef .tc main_arg3))) (halfL (V (Proc.devRef .tc main_v214))) (V (Proc.devRef .tc main_v204)) (V (Proc.devRef .tc main_v211)))
          (Spec.ti (Cert.Spec.col (V (Proc.devRef .tc main_arg3))) (halfR (V (Proc.devRef .tc main_v214))) (V (Proc.devRef .tc main_v204)) (V (Proc.devRef .tc main_v211))) := by
  after_results_simp; rfl

/-! ## The columns and the starting pair, as the first stretch leaves them -/

section Boundaries

variable (m : (ℓ : Loc nD τ sig) → Buf (Elt Ideal) ℓ) (ρ : Dev nD → PrngReg) (c : Dev nD)

/-- The diagonal's column. -/
def D0 : FVec Ideal S4096x1024 .f32 := Cert.Spec.col (m ((c : Thread nD τ).loc main_arg3))
/-- The column diag/(diag²+1). -/
def DR0 : FVec Ideal S4096x1024 .f32 := Cert.Spec.col (B1 m ρ c (Proc.devRef .tc main_v6))
/-- The column −1/(diag²+1). -/
def DI0 : FVec Ideal S4096x1024 .f32 := Cert.Spec.col (B1 m ρ c (Proc.devRef .tc main_v8))
/-- The starting real part: the input laid out as [4096, 1024]. -/
def z00 : FVec Ideal S4096x1024 .f32 := B1 m ρ c (Proc.devRef .tc main_v2)
/-- The starting imaginary part: zeros. -/
def zero0 : FVec Ideal S4096x1024 .f32 := B1 m ρ c (Proc.devRef .tc main_v25)
/-- The iterates from them. -/
abbrev zsB (k : ℕ) : (FVec Ideal S4096x1024 .f32) × (FVec Ideal S4096x1024 .f32) := Cert.Spec.zs (D0 m c) (DR0 m ρ c) (DI0 m ρ c) (z00 m ρ c) (zero0 m ρ c) k

/-! ## No stretch and no region writes the columns' buffers or an earlier iterate's -/

/-- The buffers of the columns and of the starting pair. -/
abbrev keepL0 : List (Ref sig .tc) := [main_arg3, main_v6, main_v8, main_v2, main_v25]

theorem neI_arr0 (b : Ref sig .tc) (hb : b ∈ keepL0) : ∀ w, Pipeline.arrRef spec0 w ≠ b :=
  fun w e => (by decide : ∀ w, Pipeline.arrRef spec0 w ∉ keepL0) w (by rw [e]; exact hb)

theorem carry0 (b : Ref sig .tc) (hb : b ∈ keepL0) : B2 m ρ c (Proc.devRef .tc b) = B1 m ρ c (Proc.devRef .tc b) :=
  B2_of_ne m ρ c b (neI_arr0 b hb)

/-- The buffers of the columns and of the pairs before step 1. -/
abbrev keepL1 : List (Ref sig .tc) := [main_arg3, main_v6, main_v8, main_v2, main_v25]

theorem keepI_hostOps1 (V : Valuation τ sig (Elt Ideal)) (b : Ref sig .tc) (hb : b ∈ keepL1) :
    StableHlo.after (hostOps1 (F := Ideal)) V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem neI_arr1 (b : Ref sig .tc) (hb : b ∈ keepL1) : ∀ w, Pipeline.arrRef spec1 w ≠ b :=
  fun w e => (by decide : ∀ w, Pipeline.arrRef spec1 w ∉ keepL1) w (by rw [e]; exact hb)

/-- Step 1's stretch and region leave them as they were. -/
theorem carry1 (b : Ref sig .tc) (hb : b ∈ keepL1) : B4 m ρ c (Proc.devRef .tc b) = B2 m ρ c (Proc.devRef .tc b) :=
  (B4_of_ne m ρ c b (neI_arr1 b hb)).trans (keepI_hostOps1 (B2 m ρ c) b hb)

/-- The buffers of the columns and of the pairs before step 2. -/
abbrev keepL2 : List (Ref sig .tc) := [main_arg3, main_v6, main_v8, main_v2, main_v25, main_v49, main_v56]

theorem keepI_hostOps2 (V : Valuation τ sig (Elt Ideal)) (b : Ref sig .tc) (hb : b ∈ keepL2) :
    StableHlo.after (hostOps2 (F := Ideal)) V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem neI_arr2 (b : Ref sig .tc) (hb : b ∈ keepL2) : ∀ w, Pipeline.arrRef spec2 w ≠ b :=
  fun w e => (by decide : ∀ w, Pipeline.arrRef spec2 w ∉ keepL2) w (by rw [e]; exact hb)

/-- Step 2's stretch and region leave them as they were. -/
theorem carry2 (b : Ref sig .tc) (hb : b ∈ keepL2) : B6 m ρ c (Proc.devRef .tc b) = B4 m ρ c (Proc.devRef .tc b) :=
  (B6_of_ne m ρ c b (neI_arr2 b hb)).trans (keepI_hostOps2 (B4 m ρ c) b hb)

/-- The buffers of the columns and of the pairs before step 3. -/
abbrev keepL3 : List (Ref sig .tc) := [main_arg3, main_v6, main_v8, main_v2, main_v25, main_v49, main_v56, main_v80, main_v87]

theorem keepI_hostOps3 (V : Valuation τ sig (Elt Ideal)) (b : Ref sig .tc) (hb : b ∈ keepL3) :
    StableHlo.after (hostOps3 (F := Ideal)) V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem neI_arr3 (b : Ref sig .tc) (hb : b ∈ keepL3) : ∀ w, Pipeline.arrRef spec3 w ≠ b :=
  fun w e => (by decide : ∀ w, Pipeline.arrRef spec3 w ∉ keepL3) w (by rw [e]; exact hb)

/-- Step 3's stretch and region leave them as they were. -/
theorem carry3 (b : Ref sig .tc) (hb : b ∈ keepL3) : B8 m ρ c (Proc.devRef .tc b) = B6 m ρ c (Proc.devRef .tc b) :=
  (B8_of_ne m ρ c b (neI_arr3 b hb)).trans (keepI_hostOps3 (B6 m ρ c) b hb)

/-- The buffers of the columns and of the pairs before step 4. -/
abbrev keepL4 : List (Ref sig .tc) := [main_arg3, main_v6, main_v8, main_v2, main_v25, main_v49, main_v56, main_v80, main_v87, main_v111, main_v118]

theorem keepI_hostOps4 (V : Valuation τ sig (Elt Ideal)) (b : Ref sig .tc) (hb : b ∈ keepL4) :
    StableHlo.after (hostOps4 (F := Ideal)) V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem neI_arr4 (b : Ref sig .tc) (hb : b ∈ keepL4) : ∀ w, Pipeline.arrRef spec4 w ≠ b :=
  fun w e => (by decide : ∀ w, Pipeline.arrRef spec4 w ∉ keepL4) w (by rw [e]; exact hb)

/-- Step 4's stretch and region leave them as they were. -/
theorem carry4 (b : Ref sig .tc) (hb : b ∈ keepL4) : B10 m ρ c (Proc.devRef .tc b) = B8 m ρ c (Proc.devRef .tc b) :=
  (B10_of_ne m ρ c b (neI_arr4 b hb)).trans (keepI_hostOps4 (B8 m ρ c) b hb)

/-- The buffers of the columns and of the pairs before step 5. -/
abbrev keepL5 : List (Ref sig .tc) := [main_arg3, main_v6, main_v8, main_v2, main_v25, main_v49, main_v56, main_v80, main_v87, main_v111, main_v118, main_v142, main_v149]

theorem keepI_hostOps5 (V : Valuation τ sig (Elt Ideal)) (b : Ref sig .tc) (hb : b ∈ keepL5) :
    StableHlo.after (hostOps5 (F := Ideal)) V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem neI_arr5 (b : Ref sig .tc) (hb : b ∈ keepL5) : ∀ w, Pipeline.arrRef spec5 w ≠ b :=
  fun w e => (by decide : ∀ w, Pipeline.arrRef spec5 w ∉ keepL5) w (by rw [e]; exact hb)

/-- Step 5's stretch and region leave them as they were. -/
theorem carry5 (b : Ref sig .tc) (hb : b ∈ keepL5) : B12 m ρ c (Proc.devRef .tc b) = B10 m ρ c (Proc.devRef .tc b) :=
  (B12_of_ne m ρ c b (neI_arr5 b hb)).trans (keepI_hostOps5 (B10 m ρ c) b hb)

/-- The buffers of the columns and of the pairs before step 6. -/
abbrev keepL6 : List (Ref sig .tc) := [main_arg3, main_v6, main_v8, main_v2, main_v25, main_v49, main_v56, main_v80, main_v87, main_v111, main_v118, main_v142, main_v149, main_v173, main_v180]

theorem keepI_hostOps6 (V : Valuation τ sig (Elt Ideal)) (b : Ref sig .tc) (hb : b ∈ keepL6) :
    StableHlo.after (hostOps6 (F := Ideal)) V (Proc.devRef .tc b) = V (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem neI_arr6 (b : Ref sig .tc) (hb : b ∈ keepL6) : ∀ w, Pipeline.arrRef spec6 w ≠ b :=
  fun w e => (by decide : ∀ w, Pipeline.arrRef spec6 w ∉ keepL6) w (by rw [e]; exact hb)

/-- Step 6's stretch and region leave them as they were. -/
theorem carry6 (b : Ref sig .tc) (hb : b ∈ keepL6) : B14 m ρ c (Proc.devRef .tc b) = B12 m ρ c (Proc.devRef .tc b) :=
  (B14_of_ne m ρ c b (neI_arr6 b hb)).trans (keepI_hostOps6 (B12 m ρ c) b hb)

/-- The buffers of the columns and of the pairs before step 7. -/
abbrev keepL7 : List (Ref sig .tc) := [main_arg3, main_v6, main_v8, main_v2, main_v25, main_v49, main_v56, main_v80, main_v87, main_v111, main_v118, main_v142, main_v149, main_v173, main_v180, main_v204, main_v211]

theorem keepI_hostOps7 (V : Valuation τ sig (Elt Ideal)) (b : Ref sig .tc) (hb : b ∈ keepL7) :
    StableHlo.after (hostOps7 (F := Ideal)) V (Proc.devRef .tc b) = V (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => by have h := Proc.devRef_injective _ e; subst h; exact absurd hb (by decide)))

theorem neI_arr7 (b : Ref sig .tc) (hb : b ∈ keepL7) : ∀ w, Pipeline.arrRef spec7 w ≠ b :=
  fun w e => (by decide : ∀ w, Pipeline.arrRef spec7 w ∉ keepL7) w (by rw [e]; exact hb)

/-- Step 7's stretch and region leave them as they were. -/
theorem carry7 (b : Ref sig .tc) (hb : b ∈ keepL7) : B16 m ρ c (Proc.devRef .tc b) = B14 m ρ c (Proc.devRef .tc b) :=
  (B16_of_ne m ρ c b (neI_arr7 b hb)).trans (keepI_hostOps7 (B14 m ρ c) b hb)

/-! ## The columns' buffers at every boundary a step starts from -/

theorem D_at2 : B2 m ρ c (Proc.devRef .tc main_arg3) = m ((c : Thread nD τ).loc main_arg3) :=
  (carry0 m ρ c main_arg3 (by decide)).trans (keep_hostOps0 (B0 m ρ c) main_arg3 (by decide))
theorem DR_at2 : B2 m ρ c (Proc.devRef .tc main_v6) = B1 m ρ c (Proc.devRef .tc main_v6) := carry0 m ρ c main_v6 (by decide)
theorem DI_at2 : B2 m ρ c (Proc.devRef .tc main_v8) = B1 m ρ c (Proc.devRef .tc main_v8) := carry0 m ρ c main_v8 (by decide)
theorem D_at4 : B4 m ρ c (Proc.devRef .tc main_arg3) = m ((c : Thread nD τ).loc main_arg3) :=
  (carry1 m ρ c main_arg3 (by decide)).trans (D_at2 m ρ c)
theorem DR_at4 : B4 m ρ c (Proc.devRef .tc main_v6) = B1 m ρ c (Proc.devRef .tc main_v6) :=
  (carry1 m ρ c main_v6 (by decide)).trans (DR_at2 m ρ c)
theorem DI_at4 : B4 m ρ c (Proc.devRef .tc main_v8) = B1 m ρ c (Proc.devRef .tc main_v8) :=
  (carry1 m ρ c main_v8 (by decide)).trans (DI_at2 m ρ c)
theorem D_at6 : B6 m ρ c (Proc.devRef .tc main_arg3) = m ((c : Thread nD τ).loc main_arg3) :=
  (carry2 m ρ c main_arg3 (by decide)).trans (D_at4 m ρ c)
theorem DR_at6 : B6 m ρ c (Proc.devRef .tc main_v6) = B1 m ρ c (Proc.devRef .tc main_v6) :=
  (carry2 m ρ c main_v6 (by decide)).trans (DR_at4 m ρ c)
theorem DI_at6 : B6 m ρ c (Proc.devRef .tc main_v8) = B1 m ρ c (Proc.devRef .tc main_v8) :=
  (carry2 m ρ c main_v8 (by decide)).trans (DI_at4 m ρ c)
theorem D_at8 : B8 m ρ c (Proc.devRef .tc main_arg3) = m ((c : Thread nD τ).loc main_arg3) :=
  (carry3 m ρ c main_arg3 (by decide)).trans (D_at6 m ρ c)
theorem DR_at8 : B8 m ρ c (Proc.devRef .tc main_v6) = B1 m ρ c (Proc.devRef .tc main_v6) :=
  (carry3 m ρ c main_v6 (by decide)).trans (DR_at6 m ρ c)
theorem DI_at8 : B8 m ρ c (Proc.devRef .tc main_v8) = B1 m ρ c (Proc.devRef .tc main_v8) :=
  (carry3 m ρ c main_v8 (by decide)).trans (DI_at6 m ρ c)
theorem D_at10 : B10 m ρ c (Proc.devRef .tc main_arg3) = m ((c : Thread nD τ).loc main_arg3) :=
  (carry4 m ρ c main_arg3 (by decide)).trans (D_at8 m ρ c)
theorem DR_at10 : B10 m ρ c (Proc.devRef .tc main_v6) = B1 m ρ c (Proc.devRef .tc main_v6) :=
  (carry4 m ρ c main_v6 (by decide)).trans (DR_at8 m ρ c)
theorem DI_at10 : B10 m ρ c (Proc.devRef .tc main_v8) = B1 m ρ c (Proc.devRef .tc main_v8) :=
  (carry4 m ρ c main_v8 (by decide)).trans (DI_at8 m ρ c)
theorem D_at12 : B12 m ρ c (Proc.devRef .tc main_arg3) = m ((c : Thread nD τ).loc main_arg3) :=
  (carry5 m ρ c main_arg3 (by decide)).trans (D_at10 m ρ c)
theorem DR_at12 : B12 m ρ c (Proc.devRef .tc main_v6) = B1 m ρ c (Proc.devRef .tc main_v6) :=
  (carry5 m ρ c main_v6 (by decide)).trans (DR_at10 m ρ c)
theorem DI_at12 : B12 m ρ c (Proc.devRef .tc main_v8) = B1 m ρ c (Proc.devRef .tc main_v8) :=
  (carry5 m ρ c main_v8 (by decide)).trans (DI_at10 m ρ c)
theorem D_at14 : B14 m ρ c (Proc.devRef .tc main_arg3) = m ((c : Thread nD τ).loc main_arg3) :=
  (carry6 m ρ c main_arg3 (by decide)).trans (D_at12 m ρ c)
theorem DR_at14 : B14 m ρ c (Proc.devRef .tc main_v6) = B1 m ρ c (Proc.devRef .tc main_v6) :=
  (carry6 m ρ c main_v6 (by decide)).trans (DR_at12 m ρ c)
theorem DI_at14 : B14 m ρ c (Proc.devRef .tc main_v8) = B1 m ρ c (Proc.devRef .tc main_v8) :=
  (carry6 m ρ c main_v8 (by decide)).trans (DI_at12 m ρ c)
theorem D_at16 : B16 m ρ c (Proc.devRef .tc main_arg3) = m ((c : Thread nD τ).loc main_arg3) :=
  (carry7 m ρ c main_arg3 (by decide)).trans (D_at14 m ρ c)
theorem DR_at16 : B16 m ρ c (Proc.devRef .tc main_v6) = B1 m ρ c (Proc.devRef .tc main_v6) :=
  (carry7 m ρ c main_v6 (by decide)).trans (DR_at14 m ρ c)
theorem DI_at16 : B16 m ρ c (Proc.devRef .tc main_v8) = B1 m ρ c (Proc.devRef .tc main_v8) :=
  (carry7 m ρ c main_v8 (by decide)).trans (DI_at14 m ρ c)

/-! ## The first stretch's results are real-valued when the input and the diagonal are -/

/-- diag² + 1 at an entry where diag is the real number a. -/
theorem den_apply {d : FVec Ideal S4096 .f32} (j : S4096.Idx) {a : ℝ} (ha : d j = (a : EReal)) :
    addf (mulf d d) (broadcastInDim S4096 ![] bcast_S_S4096 (constant (F := Ideal) S_ .f32 0x3F800000#32)) j = ((a * a + 1 : ℝ) : EReal) := by
  show (d j * d j : EReal) + Ideal.ofBits .f32 0x3F800000#32 = _
  rw [ha, Ideal.ofBits_one_f32, ← EReal.coe_mul, ← EReal.coe_one, ← EReal.coe_add]

/-- A real number over diag² + 1 is a real number: the divisor is at least one. -/
theorem div_den_real {n d : FVec Ideal S4096 .f32} (hn : AllReal n) (hd : AllReal d) :
    AllReal (Host.divf n (addf (mulf d d) (broadcastInDim S4096 ![] bcast_S_S4096 (constant (F := Ideal) S_ .f32 0x3F800000#32)))) := fun j => by
  obtain ⟨a, ha⟩ := hd j
  obtain ⟨b, hb⟩ := hn j
  have hne : a * a + 1 ≠ 0 := by nlinarith [mul_self_nonneg a]
  refine ⟨b * (1 / (a * a + 1)), ?_⟩
  rw [ValueIdx.hostDivf_apply, den_apply j ha, Ideal.div_coe hne, hb, ← EReal.coe_mul]

theorem host0_v6 (V : Valuation τ sig (Elt Ideal)) :
    StableHlo.after (hostOps0 (F := Ideal)) V (Proc.devRef .tc main_v6)
      = Host.divf (V (Proc.devRef .tc main_arg3)) (addf (mulf (V (Proc.devRef .tc main_arg3)) (V (Proc.devRef .tc main_arg3))) (broadcastInDim S4096 ![] bcast_S_S4096 (constant (F := Ideal) S_ .f32 0x3F800000#32))) := by
  after_results_simp
theorem host0_v8 (V : Valuation τ sig (Elt Ideal)) :
    StableHlo.after (hostOps0 (F := Ideal)) V (Proc.devRef .tc main_v8)
      = Host.divf (broadcastInDim S4096 ![] bcast_S_S4096 (constant (F := Ideal) S_ .f32 0xBF800000#32)) (addf (mulf (V (Proc.devRef .tc main_arg3)) (V (Proc.devRef .tc main_arg3))) (broadcastInDim S4096 ![] bcast_S_S4096 (constant (F := Ideal) S_ .f32 0x3F800000#32))) := by
  after_results_simp
theorem host0_v25 (V : Valuation τ sig (Elt Ideal)) :
    StableHlo.after (hostOps0 (F := Ideal)) V (Proc.devRef .tc main_v25)
      = broadcastInDim S4096x1024 ![] bcast_S_S4096x1024 (constant (F := Ideal) S_ .f32 0x00000000#32) := by
  after_results_simp

theorem D0_real (hd : AllReal (S := S4096) (m ((c : Thread nD τ).loc main_arg3))) : AllReal (D0 m c) := col_real hd
theorem DR0_real (hd : AllReal (S := S4096) (m ((c : Thread nD τ).loc main_arg3))) : AllReal (DR0 m ρ c) := by
  unfold DR0; rw [show B1 m ρ c (Proc.devRef .tc main_v6) = _ from host0_v6 (B0 m ρ c)]
  exact col_real (div_den_real hd hd)
theorem DI0_real (hd : AllReal (S := S4096) (m ((c : Thread nD τ).loc main_arg3))) : AllReal (DI0 m ρ c) := by
  unfold DI0; rw [show B1 m ρ c (Proc.devRef .tc main_v8) = _ from host0_v8 (B0 m ρ c)]
  exact col_real (div_den_real (fun j => Cert.RealEntries.isR_ofBits_f32 0xBF800000#32 (by decide)) hd)
theorem zero0_real : AllReal (zero0 m ρ c) := by
  unfold zero0; rw [show B1 m ρ c (Proc.devRef .tc main_v25) = _ from host0_v25 (B0 m ρ c)]
  exact fun j => ⟨0, Ideal.ofBits_zero_f32⟩
theorem z00_real (hx : AllReal (S := S32x32x64x64) (m ((c : Thread nD τ).loc main_arg0))) : AllReal (z00 m ρ c) := fun j => by
  show ∃ r : ℝ, StableHlo.after (hostOps0 (F := Ideal)) (B0 m ρ c) (Proc.devRef .tc main_v2) j = (r : EReal)
  after_results_simp
  exact hx _

/-! ## The iterates in their buffers -/

/-- The starting pair at the first region's exit. -/
theorem iter0 : B2 m ρ c (Proc.devRef .tc main_v2) = (zsB m ρ c 0).1 ∧ B2 m ρ c (Proc.devRef .tc main_v25) = (zsB m ρ c 0).2 :=
  ⟨carry0 m ρ c main_v2 (by decide), carry0 m ρ c main_v25 (by decide)⟩

/-- Step 1: the stretch after region 0 leaves the 1st iterate, and region 1 does not touch it. -/
theorem iter1 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) :
    B4 m ρ c (Proc.devRef .tc main_v49) = (zsB m ρ c 1).1 ∧ B4 m ρ c (Proc.devRef .tc main_v56) = (zsB m ρ c 1).2 := by
  obtain ⟨hr, hi⟩ := iter0 m ρ c
  obtain ⟨hzr, hzi⟩ := Cert.Spec.zs_real (D0_real m c hd) (DR0_real m ρ c hd) (DI0_real m ρ c hd) (z00_real m ρ c hx) (zero0_real m ρ c) 0
  have hs := step_real (DR := DR0 m ρ c) (DI := DI0 m ρ c) (D0_real m c hd) ho0 hzr hzi
  rw [show zsB m ρ c 1 = Cert.Spec.next (D0 m c) (DR0 m ρ c) (DI0 m ρ c) (zsB m ρ c 0) from Cert.Spec.zs_succ _ _ _ _ _ 0]
  constructor
  · refine (B4_of_ne m ρ c main_v49 (by decide)).trans ((host1_zr (B2 m ρ c)).trans ?_)
    rw [D_at2 m ρ c, DR_at2 m ρ c, DI_at2 m ρ c, hr, hi]
    exact hs.1
  · refine (B4_of_ne m ρ c main_v56 (by decide)).trans ((host1_zi (B2 m ρ c)).trans ?_)
    rw [D_at2 m ρ c, DR_at2 m ρ c, DI_at2 m ρ c, hr, hi]
    exact hs.2

/-- Step 2: the stretch after region 1 leaves the 2nd iterate, and region 2 does not touch it. -/
theorem iter2 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) :
    B6 m ρ c (Proc.devRef .tc main_v80) = (zsB m ρ c 2).1 ∧ B6 m ρ c (Proc.devRef .tc main_v87) = (zsB m ρ c 2).2 := by
  obtain ⟨hr, hi⟩ := iter1 m ρ c hx hd ho0
  obtain ⟨hzr, hzi⟩ := Cert.Spec.zs_real (D0_real m c hd) (DR0_real m ρ c hd) (DI0_real m ρ c hd) (z00_real m ρ c hx) (zero0_real m ρ c) 1
  have hs := step_real (DR := DR0 m ρ c) (DI := DI0 m ρ c) (D0_real m c hd) ho1 hzr hzi
  rw [show zsB m ρ c 2 = Cert.Spec.next (D0 m c) (DR0 m ρ c) (DI0 m ρ c) (zsB m ρ c 1) from Cert.Spec.zs_succ _ _ _ _ _ 1]
  constructor
  · refine (B6_of_ne m ρ c main_v80 (by decide)).trans ((host2_zr (B4 m ρ c)).trans ?_)
    rw [D_at4 m ρ c, DR_at4 m ρ c, DI_at4 m ρ c, hr, hi]
    exact hs.1
  · refine (B6_of_ne m ρ c main_v87 (by decide)).trans ((host2_zi (B4 m ρ c)).trans ?_)
    rw [D_at4 m ρ c, DR_at4 m ρ c, DI_at4 m ρ c, hr, hi]
    exact hs.2

/-- Step 3: the stretch after region 2 leaves the 3rd iterate, and region 3 does not touch it. -/
theorem iter3 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) :
    B8 m ρ c (Proc.devRef .tc main_v111) = (zsB m ρ c 3).1 ∧ B8 m ρ c (Proc.devRef .tc main_v118) = (zsB m ρ c 3).2 := by
  obtain ⟨hr, hi⟩ := iter2 m ρ c hx hd ho0 ho1
  obtain ⟨hzr, hzi⟩ := Cert.Spec.zs_real (D0_real m c hd) (DR0_real m ρ c hd) (DI0_real m ρ c hd) (z00_real m ρ c hx) (zero0_real m ρ c) 2
  have hs := step_real (DR := DR0 m ρ c) (DI := DI0 m ρ c) (D0_real m c hd) ho2 hzr hzi
  rw [show zsB m ρ c 3 = Cert.Spec.next (D0 m c) (DR0 m ρ c) (DI0 m ρ c) (zsB m ρ c 2) from Cert.Spec.zs_succ _ _ _ _ _ 2]
  constructor
  · refine (B8_of_ne m ρ c main_v111 (by decide)).trans ((host3_zr (B6 m ρ c)).trans ?_)
    rw [D_at6 m ρ c, DR_at6 m ρ c, DI_at6 m ρ c, hr, hi]
    exact hs.1
  · refine (B8_of_ne m ρ c main_v118 (by decide)).trans ((host3_zi (B6 m ρ c)).trans ?_)
    rw [D_at6 m ρ c, DR_at6 m ρ c, DI_at6 m ρ c, hr, hi]
    exact hs.2

/-- Step 4: the stretch after region 3 leaves the 4th iterate, and region 4 does not touch it. -/
theorem iter4 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) :
    B10 m ρ c (Proc.devRef .tc main_v142) = (zsB m ρ c 4).1 ∧ B10 m ρ c (Proc.devRef .tc main_v149) = (zsB m ρ c 4).2 := by
  obtain ⟨hr, hi⟩ := iter3 m ρ c hx hd ho0 ho1 ho2
  obtain ⟨hzr, hzi⟩ := Cert.Spec.zs_real (D0_real m c hd) (DR0_real m ρ c hd) (DI0_real m ρ c hd) (z00_real m ρ c hx) (zero0_real m ρ c) 3
  have hs := step_real (DR := DR0 m ρ c) (DI := DI0 m ρ c) (D0_real m c hd) ho3 hzr hzi
  rw [show zsB m ρ c 4 = Cert.Spec.next (D0 m c) (DR0 m ρ c) (DI0 m ρ c) (zsB m ρ c 3) from Cert.Spec.zs_succ _ _ _ _ _ 3]
  constructor
  · refine (B10_of_ne m ρ c main_v142 (by decide)).trans ((host4_zr (B8 m ρ c)).trans ?_)
    rw [D_at8 m ρ c, DR_at8 m ρ c, DI_at8 m ρ c, hr, hi]
    exact hs.1
  · refine (B10_of_ne m ρ c main_v149 (by decide)).trans ((host4_zi (B8 m ρ c)).trans ?_)
    rw [D_at8 m ρ c, DR_at8 m ρ c, DI_at8 m ρ c, hr, hi]
    exact hs.2

/-- Step 5: the stretch after region 4 leaves the 5th iterate, and region 5 does not touch it. -/
theorem iter5 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) :
    B12 m ρ c (Proc.devRef .tc main_v173) = (zsB m ρ c 5).1 ∧ B12 m ρ c (Proc.devRef .tc main_v180) = (zsB m ρ c 5).2 := by
  obtain ⟨hr, hi⟩ := iter4 m ρ c hx hd ho0 ho1 ho2 ho3
  obtain ⟨hzr, hzi⟩ := Cert.Spec.zs_real (D0_real m c hd) (DR0_real m ρ c hd) (DI0_real m ρ c hd) (z00_real m ρ c hx) (zero0_real m ρ c) 4
  have hs := step_real (DR := DR0 m ρ c) (DI := DI0 m ρ c) (D0_real m c hd) ho4 hzr hzi
  rw [show zsB m ρ c 5 = Cert.Spec.next (D0 m c) (DR0 m ρ c) (DI0 m ρ c) (zsB m ρ c 4) from Cert.Spec.zs_succ _ _ _ _ _ 4]
  constructor
  · refine (B12_of_ne m ρ c main_v173 (by decide)).trans ((host5_zr (B10 m ρ c)).trans ?_)
    rw [D_at10 m ρ c, DR_at10 m ρ c, DI_at10 m ρ c, hr, hi]
    exact hs.1
  · refine (B12_of_ne m ρ c main_v180 (by decide)).trans ((host5_zi (B10 m ρ c)).trans ?_)
    rw [D_at10 m ρ c, DR_at10 m ρ c, DI_at10 m ρ c, hr, hi]
    exact hs.2

/-- Step 6: the stretch after region 5 leaves the 6th iterate, and region 6 does not touch it. -/
theorem iter6 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) :
    B14 m ρ c (Proc.devRef .tc main_v204) = (zsB m ρ c 6).1 ∧ B14 m ρ c (Proc.devRef .tc main_v211) = (zsB m ρ c 6).2 := by
  obtain ⟨hr, hi⟩ := iter5 m ρ c hx hd ho0 ho1 ho2 ho3 ho4
  obtain ⟨hzr, hzi⟩ := Cert.Spec.zs_real (D0_real m c hd) (DR0_real m ρ c hd) (DI0_real m ρ c hd) (z00_real m ρ c hx) (zero0_real m ρ c) 5
  have hs := step_real (DR := DR0 m ρ c) (DI := DI0 m ρ c) (D0_real m c hd) ho5 hzr hzi
  rw [show zsB m ρ c 6 = Cert.Spec.next (D0 m c) (DR0 m ρ c) (DI0 m ρ c) (zsB m ρ c 5) from Cert.Spec.zs_succ _ _ _ _ _ 5]
  constructor
  · refine (B14_of_ne m ρ c main_v204 (by decide)).trans ((host6_zr (B12 m ρ c)).trans ?_)
    rw [D_at12 m ρ c, DR_at12 m ρ c, DI_at12 m ρ c, hr, hi]
    exact hs.1
  · refine (B14_of_ne m ρ c main_v211 (by decide)).trans ((host6_zi (B12 m ρ c)).trans ?_)
    rw [D_at12 m ρ c, DR_at12 m ρ c, DI_at12 m ρ c, hr, hi]
    exact hs.2

/-- Step 7: the stretch after region 6 leaves the 7th iterate, and region 7 does not touch it. -/
theorem iter7 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) (ho6 : AllReal (S := S4096x2048) (B14 m ρ c (Proc.devRef .tc main_v214))) :
    B16 m ρ c (Proc.devRef .tc main_v235) = (zsB m ρ c 7).1 ∧ B16 m ρ c (Proc.devRef .tc main_v242) = (zsB m ρ c 7).2 := by
  obtain ⟨hr, hi⟩ := iter6 m ρ c hx hd ho0 ho1 ho2 ho3 ho4 ho5
  obtain ⟨hzr, hzi⟩ := Cert.Spec.zs_real (D0_real m c hd) (DR0_real m ρ c hd) (DI0_real m ρ c hd) (z00_real m ρ c hx) (zero0_real m ρ c) 6
  have hs := step_real (DR := DR0 m ρ c) (DI := DI0 m ρ c) (D0_real m c hd) ho6 hzr hzi
  rw [show zsB m ρ c 7 = Cert.Spec.next (D0 m c) (DR0 m ρ c) (DI0 m ρ c) (zsB m ρ c 6) from Cert.Spec.zs_succ _ _ _ _ _ 6]
  constructor
  · refine (B16_of_ne m ρ c main_v235 (by decide)).trans ((host7_zr (B14 m ρ c)).trans ?_)
    rw [D_at14 m ρ c, DR_at14 m ρ c, DI_at14 m ρ c, hr, hi]
    exact hs.1
  · refine (B16_of_ne m ρ c main_v242 (by decide)).trans ((host7_zi (B14 m ρ c)).trans ?_)
    rw [D_at14 m ρ c, DR_at14 m ρ c, DI_at14 m ρ c, hr, hi]
    exact hs.2

/-! ## Every iterate is still in its buffer when the last of these regions ends -/
theorem iter0_at16  :
    B16 m ρ c (Proc.devRef .tc main_v2) = (zsB m ρ c 0).1 ∧ B16 m ρ c (Proc.devRef .tc main_v25) = (zsB m ρ c 0).2 :=
  ⟨(carry7 m ρ c main_v2 (by decide)).trans ((carry6 m ρ c main_v2 (by decide)).trans ((carry5 m ρ c main_v2 (by decide)).trans ((carry4 m ρ c main_v2 (by decide)).trans ((carry3 m ρ c main_v2 (by decide)).trans ((carry2 m ρ c main_v2 (by decide)).trans ((carry1 m ρ c main_v2 (by decide)).trans ((iter0 m ρ c ).1))))))), (carry7 m ρ c main_v25 (by decide)).trans ((carry6 m ρ c main_v25 (by decide)).trans ((carry5 m ρ c main_v25 (by decide)).trans ((carry4 m ρ c main_v25 (by decide)).trans ((carry3 m ρ c main_v25 (by decide)).trans ((carry2 m ρ c main_v25 (by decide)).trans ((carry1 m ρ c main_v25 (by decide)).trans ((iter0 m ρ c ).2)))))))⟩
theorem iter1_at16 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) :
    B16 m ρ c (Proc.devRef .tc main_v49) = (zsB m ρ c 1).1 ∧ B16 m ρ c (Proc.devRef .tc main_v56) = (zsB m ρ c 1).2 :=
  ⟨(carry7 m ρ c main_v49 (by decide)).trans ((carry6 m ρ c main_v49 (by decide)).trans ((carry5 m ρ c main_v49 (by decide)).trans ((carry4 m ρ c main_v49 (by decide)).trans ((carry3 m ρ c main_v49 (by decide)).trans ((carry2 m ρ c main_v49 (by decide)).trans ((iter1 m ρ c hx hd ho0).1)))))), (carry7 m ρ c main_v56 (by decide)).trans ((carry6 m ρ c main_v56 (by decide)).trans ((carry5 m ρ c main_v56 (by decide)).trans ((carry4 m ρ c main_v56 (by decide)).trans ((carry3 m ρ c main_v56 (by decide)).trans ((carry2 m ρ c main_v56 (by decide)).trans ((iter1 m ρ c hx hd ho0).2))))))⟩
theorem iter2_at16 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) :
    B16 m ρ c (Proc.devRef .tc main_v80) = (zsB m ρ c 2).1 ∧ B16 m ρ c (Proc.devRef .tc main_v87) = (zsB m ρ c 2).2 :=
  ⟨(carry7 m ρ c main_v80 (by decide)).trans ((carry6 m ρ c main_v80 (by decide)).trans ((carry5 m ρ c main_v80 (by decide)).trans ((carry4 m ρ c main_v80 (by decide)).trans ((carry3 m ρ c main_v80 (by decide)).trans ((iter2 m ρ c hx hd ho0 ho1).1))))), (carry7 m ρ c main_v87 (by decide)).trans ((carry6 m ρ c main_v87 (by decide)).trans ((carry5 m ρ c main_v87 (by decide)).trans ((carry4 m ρ c main_v87 (by decide)).trans ((carry3 m ρ c main_v87 (by decide)).trans ((iter2 m ρ c hx hd ho0 ho1).2)))))⟩
theorem iter3_at16 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) :
    B16 m ρ c (Proc.devRef .tc main_v111) = (zsB m ρ c 3).1 ∧ B16 m ρ c (Proc.devRef .tc main_v118) = (zsB m ρ c 3).2 :=
  ⟨(carry7 m ρ c main_v111 (by decide)).trans ((carry6 m ρ c main_v111 (by decide)).trans ((carry5 m ρ c main_v111 (by decide)).trans ((carry4 m ρ c main_v111 (by decide)).trans ((iter3 m ρ c hx hd ho0 ho1 ho2).1)))), (carry7 m ρ c main_v118 (by decide)).trans ((carry6 m ρ c main_v118 (by decide)).trans ((carry5 m ρ c main_v118 (by decide)).trans ((carry4 m ρ c main_v118 (by decide)).trans ((iter3 m ρ c hx hd ho0 ho1 ho2).2))))⟩
theorem iter4_at16 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) :
    B16 m ρ c (Proc.devRef .tc main_v142) = (zsB m ρ c 4).1 ∧ B16 m ρ c (Proc.devRef .tc main_v149) = (zsB m ρ c 4).2 :=
  ⟨(carry7 m ρ c main_v142 (by decide)).trans ((carry6 m ρ c main_v142 (by decide)).trans ((carry5 m ρ c main_v142 (by decide)).trans ((iter4 m ρ c hx hd ho0 ho1 ho2 ho3).1))), (carry7 m ρ c main_v149 (by decide)).trans ((carry6 m ρ c main_v149 (by decide)).trans ((carry5 m ρ c main_v149 (by decide)).trans ((iter4 m ρ c hx hd ho0 ho1 ho2 ho3).2)))⟩
theorem iter5_at16 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) :
    B16 m ρ c (Proc.devRef .tc main_v173) = (zsB m ρ c 5).1 ∧ B16 m ρ c (Proc.devRef .tc main_v180) = (zsB m ρ c 5).2 :=
  ⟨(carry7 m ρ c main_v173 (by decide)).trans ((carry6 m ρ c main_v173 (by decide)).trans ((iter5 m ρ c hx hd ho0 ho1 ho2 ho3 ho4).1)), (carry7 m ρ c main_v180 (by decide)).trans ((carry6 m ρ c main_v180 (by decide)).trans ((iter5 m ρ c hx hd ho0 ho1 ho2 ho3 ho4).2))⟩
theorem iter6_at16 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) :
    B16 m ρ c (Proc.devRef .tc main_v204) = (zsB m ρ c 6).1 ∧ B16 m ρ c (Proc.devRef .tc main_v211) = (zsB m ρ c 6).2 :=
  ⟨(carry7 m ρ c main_v204 (by decide)).trans ((iter6 m ρ c hx hd ho0 ho1 ho2 ho3 ho4 ho5).1), (carry7 m ρ c main_v211 (by decide)).trans ((iter6 m ρ c hx hd ho0 ho1 ho2 ho3 ho4 ho5).2)⟩
theorem iter7_at16 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) (ho6 : AllReal (S := S4096x2048) (B14 m ρ c (Proc.devRef .tc main_v214))) :
    B16 m ρ c (Proc.devRef .tc main_v235) = (zsB m ρ c 7).1 ∧ B16 m ρ c (Proc.devRef .tc main_v242) = (zsB m ρ c 7).2 := iter7 m ρ c hx hd ho0 ho1 ho2 ho3 ho4 ho5 ho6

end Boundaries

end Cert.KernelIdeal.Hand

end
-- ==== Proof.KI.IterReal.lean ====
/-
  The pair of iterates each region is entered with. Region k's right operand is the k-th pair laid side by side;
  a region writes neither buffer of the pair, so what the pair's buffers hold at the region's entry is what they
  hold at its exit: the k-th iterate, real-valued when the input and the diagonal are.
-/
import proofs.«156564_j46222438039786_1_alg».proof.Proof.KI.Iter

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Cert.Spec (AllReal)

section Boundaries

variable (m : (ℓ : Loc nD τ sig) → Buf (Elt Ideal) ℓ) (ρ : Dev nD → PrngReg) (c : Dev nD)

/-- Region 0 is entered with the starting pair. -/
theorem entry0 : B1 m ρ c (Proc.devRef .tc main_v2) = (zsB m ρ c 0).1 ∧ B1 m ρ c (Proc.devRef .tc main_v25) = (zsB m ρ c 0).2 := ⟨rfl, rfl⟩
theorem entry0_real (hx : AllReal (S := S32x32x64x64) (m ((c : Thread nD τ).loc main_arg0))) :
    AllReal (S := S4096x1024) (B1 m ρ c (Proc.devRef .tc main_v2)) ∧ AllReal (S := S4096x1024) (B1 m ρ c (Proc.devRef .tc main_v25)) :=
  ⟨z00_real m ρ c hx, zero0_real m ρ c⟩

/-- Region 1 is entered with the pair after step 1. -/
theorem entry1 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) :
    B3 m ρ c (Proc.devRef .tc main_v49) = (zsB m ρ c 1).1 ∧ B3 m ρ c (Proc.devRef .tc main_v56) = (zsB m ρ c 1).2 :=
  ⟨(B4_of_ne m ρ c main_v49 (by decide)).symm.trans (iter1 m ρ c hx hd ho0).1,
   (B4_of_ne m ρ c main_v56 (by decide)).symm.trans (iter1 m ρ c hx hd ho0).2⟩
theorem entry1_real (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) :
    AllReal (S := S4096x1024) (B3 m ρ c (Proc.devRef .tc main_v49)) ∧ AllReal (S := S4096x1024) (B3 m ρ c (Proc.devRef .tc main_v56)) := by
  obtain ⟨hr, hi⟩ := entry1 m ρ c hx hd ho0
  obtain ⟨hzr, hzi⟩ := Cert.Spec.zs_real (D0_real m c hd) (DR0_real m ρ c hd) (DI0_real m ρ c hd) (z00_real m ρ c hx) (zero0_real m ρ c) 1
  rw [hr, hi]; exact ⟨hzr, hzi⟩

/-- Region 2 is entered with the pair after step 2. -/
theorem entry2 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) :
    B5 m ρ c (Proc.devRef .tc main_v80) = (zsB m ρ c 2).1 ∧ B5 m ρ c (Proc.devRef .tc main_v87) = (zsB m ρ c 2).2 :=
  ⟨(B6_of_ne m ρ c main_v80 (by decide)).symm.trans (iter2 m ρ c hx hd ho0 ho1).1,
   (B6_of_ne m ρ c main_v87 (by decide)).symm.trans (iter2 m ρ c hx hd ho0 ho1).2⟩
theorem entry2_real (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) :
    AllReal (S := S4096x1024) (B5 m ρ c (Proc.devRef .tc main_v80)) ∧ AllReal (S := S4096x1024) (B5 m ρ c (Proc.devRef .tc main_v87)) := by
  obtain ⟨hr, hi⟩ := entry2 m ρ c hx hd ho0 ho1
  obtain ⟨hzr, hzi⟩ := Cert.Spec.zs_real (D0_real m c hd) (DR0_real m ρ c hd) (DI0_real m ρ c hd) (z00_real m ρ c hx) (zero0_real m ρ c) 2
  rw [hr, hi]; exact ⟨hzr, hzi⟩

/-- Region 3 is entered with the pair after step 3. -/
theorem entry3 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) :
    B7 m ρ c (Proc.devRef .tc main_v111) = (zsB m ρ c 3).1 ∧ B7 m ρ c (Proc.devRef .tc main_v118) = (zsB m ρ c 3).2 :=
  ⟨(B8_of_ne m ρ c main_v111 (by decide)).symm.trans (iter3 m ρ c hx hd ho0 ho1 ho2).1,
   (B8_of_ne m ρ c main_v118 (by decide)).symm.trans (iter3 m ρ c hx hd ho0 ho1 ho2).2⟩
theorem entry3_real (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) :
    AllReal (S := S4096x1024) (B7 m ρ c (Proc.devRef .tc main_v111)) ∧ AllReal (S := S4096x1024) (B7 m ρ c (Proc.devRef .tc main_v118)) := by
  obtain ⟨hr, hi⟩ := entry3 m ρ c hx hd ho0 ho1 ho2
  obtain ⟨hzr, hzi⟩ := Cert.Spec.zs_real (D0_real m c hd) (DR0_real m ρ c hd) (DI0_real m ρ c hd) (z00_real m ρ c hx) (zero0_real m ρ c) 3
  rw [hr, hi]; exact ⟨hzr, hzi⟩

/-- Region 4 is entered with the pair after step 4. -/
theorem entry4 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) :
    B9 m ρ c (Proc.devRef .tc main_v142) = (zsB m ρ c 4).1 ∧ B9 m ρ c (Proc.devRef .tc main_v149) = (zsB m ρ c 4).2 :=
  ⟨(B10_of_ne m ρ c main_v142 (by decide)).symm.trans (iter4 m ρ c hx hd ho0 ho1 ho2 ho3).1,
   (B10_of_ne m ρ c main_v149 (by decide)).symm.trans (iter4 m ρ c hx hd ho0 ho1 ho2 ho3).2⟩
theorem entry4_real (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) :
    AllReal (S := S4096x1024) (B9 m ρ c (Proc.devRef .tc main_v142)) ∧ AllReal (S := S4096x1024) (B9 m ρ c (Proc.devRef .tc main_v149)) := by
  obtain ⟨hr, hi⟩ := entry4 m ρ c hx hd ho0 ho1 ho2 ho3
  obtain ⟨hzr, hzi⟩ := Cert.Spec.zs_real (D0_real m c hd) (DR0_real m ρ c hd) (DI0_real m ρ c hd) (z00_real m ρ c hx) (zero0_real m ρ c) 4
  rw [hr, hi]; exact ⟨hzr, hzi⟩

/-- Region 5 is entered with the pair after step 5. -/
theorem entry5 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) :
    B11 m ρ c (Proc.devRef .tc main_v173) = (zsB m ρ c 5).1 ∧ B11 m ρ c (Proc.devRef .tc main_v180) = (zsB m ρ c 5).2 :=
  ⟨(B12_of_ne m ρ c main_v173 (by decide)).symm.trans (iter5 m ρ c hx hd ho0 ho1 ho2 ho3 ho4).1,
   (B12_of_ne m ρ c main_v180 (by decide)).symm.trans (iter5 m ρ c hx hd ho0 ho1 ho2 ho3 ho4).2⟩
theorem entry5_real (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) :
    AllReal (S := S4096x1024) (B11 m ρ c (Proc.devRef .tc main_v173)) ∧ AllReal (S := S4096x1024) (B11 m ρ c (Proc.devRef .tc main_v180)) := by
  obtain ⟨hr, hi⟩ := entry5 m ρ c hx hd ho0 ho1 ho2 ho3 ho4
  obtain ⟨hzr, hzi⟩ := Cert.Spec.zs_real (D0_real m c hd) (DR0_real m ρ c hd) (DI0_real m ρ c hd) (z00_real m ρ c hx) (zero0_real m ρ c) 5
  rw [hr, hi]; exact ⟨hzr, hzi⟩

/-- Region 6 is entered with the pair after step 6. -/
theorem entry6 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) :
    B13 m ρ c (Proc.devRef .tc main_v204) = (zsB m ρ c 6).1 ∧ B13 m ρ c (Proc.devRef .tc main_v211) = (zsB m ρ c 6).2 :=
  ⟨(B14_of_ne m ρ c main_v204 (by decide)).symm.trans (iter6 m ρ c hx hd ho0 ho1 ho2 ho3 ho4 ho5).1,
   (B14_of_ne m ρ c main_v211 (by decide)).symm.trans (iter6 m ρ c hx hd ho0 ho1 ho2 ho3 ho4 ho5).2⟩
theorem entry6_real (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) :
    AllReal (S := S4096x1024) (B13 m ρ c (Proc.devRef .tc main_v204)) ∧ AllReal (S := S4096x1024) (B13 m ρ c (Proc.devRef .tc main_v211)) := by
  obtain ⟨hr, hi⟩ := entry6 m ρ c hx hd ho0 ho1 ho2 ho3 ho4 ho5
  obtain ⟨hzr, hzi⟩ := Cert.Spec.zs_real (D0_real m c hd) (DR0_real m ρ c hd) (DI0_real m ρ c hd) (z00_real m ρ c hx) (zero0_real m ρ c) 6
  rw [hr, hi]; exact ⟨hzr, hzi⟩

/-- Region 7 is entered with the pair after step 7. -/
theorem entry7 (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) (ho6 : AllReal (S := S4096x2048) (B14 m ρ c (Proc.devRef .tc main_v214))) :
    B15 m ρ c (Proc.devRef .tc main_v235) = (zsB m ρ c 7).1 ∧ B15 m ρ c (Proc.devRef .tc main_v242) = (zsB m ρ c 7).2 :=
  ⟨(B16_of_ne m ρ c main_v235 (by decide)).symm.trans (iter7 m ρ c hx hd ho0 ho1 ho2 ho3 ho4 ho5 ho6).1,
   (B16_of_ne m ρ c main_v242 (by decide)).symm.trans (iter7 m ρ c hx hd ho0 ho1 ho2 ho3 ho4 ho5 ho6).2⟩
theorem entry7_real (hx : AllReal (S := S32x32x64x64) (m ((c : Thread nD τ).loc main_arg0))) (hd : AllReal (S := S4096) (m ((c : Thread nD τ).loc main_arg3)))
    (ho0 : AllReal (S := S4096x2048) (B2 m ρ c (Proc.devRef .tc main_v28))) (ho1 : AllReal (S := S4096x2048) (B4 m ρ c (Proc.devRef .tc main_v59))) (ho2 : AllReal (S := S4096x2048) (B6 m ρ c (Proc.devRef .tc main_v90))) (ho3 : AllReal (S := S4096x2048) (B8 m ρ c (Proc.devRef .tc main_v121))) (ho4 : AllReal (S := S4096x2048) (B10 m ρ c (Proc.devRef .tc main_v152))) (ho5 : AllReal (S := S4096x2048) (B12 m ρ c (Proc.devRef .tc main_v183))) (ho6 : AllReal (S := S4096x2048) (B14 m ρ c (Proc.devRef .tc main_v214))) :
    AllReal (S := S4096x1024) (B15 m ρ c (Proc.devRef .tc main_v235)) ∧ AllReal (S := S4096x1024) (B15 m ρ c (Proc.devRef .tc main_v242)) := by
  obtain ⟨hr, hi⟩ := entry7 m ρ c hx hd ho0 ho1 ho2 ho3 ho4 ho5 ho6
  obtain ⟨hzr, hzi⟩ := Cert.Spec.zs_real (D0_real m c hd) (DR0_real m ρ c hd) (DI0_real m ρ c hd) (z00_real m ρ c hx) (zero0_real m ρ c) 7
  rw [hr, hi]; exact ⟨hzr, hzi⟩

end Boundaries

end Cert.KernelIdeal.Hand

end
-- ==== Proof.LibRealBlocks.lean ====
/-
  Real-valued extended reals. An extended real is real-valued when it is a real number (neither infinity). Zero is;
  sums, products, and finite sums of products of real-valued numbers are; so a matrix product accumulated into
  zeros, and an elementwise sum, of real-valued vectors are real-valued at every index.
-/
import Idealize.ShloMosaic.PureOps.Ideal.Laws
import Idealize.ShloMosaic.Lib.ValueIdx
import Idealize.ShloMosaic.Lib.Pipeline.Value

noncomputable section

namespace Cert.RealBlocks

open Idealize.ShloMosaic Idealize.ShloMosaic.ValueIdx

/-- An extended real that is a real number. -/
def IsR (x : EReal) : Prop := ∃ r : ℝ, x = (r : EReal)

theorem IsR.zero : IsR 0 := ⟨0, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- A finite sum of real-valued numbers is real-valued. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- A finite sum of products of real-valued numbers is real-valued. -/
theorem IsR.sum_mul {ι : Type*} (s : Finset ι) (f g : ι → EReal) (hf : ∀ i ∈ s, IsR (f i)) (hg : ∀ i ∈ s, IsR (g i)) :
    IsR (∑ i ∈ s, f i * g i) :=
  IsR.sum s _ fun i hi => (hf i hi).mul (hg i hi)

/-- The zero word of the 32-bit format is the real number zero. -/
theorem IsR.ofBits_zero_f32 : IsR (Ideal.ofBits .f32 0x00000000#32) := by
  rw [Ideal.ofBits_zero_f32]; exact IsR.zero

/-- A matrix product accumulated into zeros, of real-valued operands, is real-valued at every index. -/
theorem IsR.matmul_zero {sl sr so : Shape} {φ₁ φ₂ : FTy} (d : DotDims sl sr so) (prec : Option ContractPrecision)
    (lhs : FVec Ideal sl φ₁) (rhs : FVec Ideal sr φ₂) (hl : ∀ i, IsR (lhs i)) (hr : ∀ i, IsR (rhs i)) (j : so.Idx) :
    IsR (FloatOps.matmul d prec lhs rhs (constant so .f32 0x00000000#32) j) := by
  rw [Ideal.matmul_constant_zero_apply]
  exact IsR.sum_mul _ _ _ (fun k _ => hl _) (fun k _ => hr _)

/-- An elementwise sum of real-valued vectors is real-valued at every index. -/
theorem IsR.addf {s : Shape} {φ : FTy} (a b : FVec Ideal s φ) (ha : ∀ i, IsR (a i)) (hb : ∀ i, IsR (b i)) (j : s.Idx) :
    IsR (Idealize.ShloMosaic.addf a b j) := by
  rw [addf_apply]; exact (ha j).add (hb j)

/-- A splat of the zero word is real-valued at every index. -/
theorem IsR.broadcast_zero {s : Shape} (j : s.Idx) :
    IsR (broadcast s (Scalar.ofBits (F := Ideal) .f32 0x00000000#32) j) :=
  IsR.ofBits_zero_f32

end Cert.RealBlocks

end
-- ==== Proof.KI.Operands.lean ====
/-
  The operand arrays of the eight blocked products are real-valued: the host operations that build them —
  an accumulating scatter of real updates into zeros, the narrowing to the 16-bit format (the identity on the
  extended reals), concatenation and slicing along the columns — keep real values, and the left operand, once
  built, is the same array at the entry of every one of the eight regions.
-/
import proofs.«156564_j46222438039786_1_alg».proof.Proof.KI.Fold
import proofs.«156564_j46222438039786_1_alg».proof.Proof.LibRealBlocks
import proofs.«156564_j46222438039786_1_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks Cert.Spec
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## Real-valued arrays, in the two spellings -/

/-- An array is real-valued when each of its entries is. -/
theorem allReal_iff {S : Shape} (x : FVec Ideal S .f32) : AllReal x ↔ ∀ j, IsR (x j) := Iff.rfl

/-! ## Host operations that keep real values, at any shapes -/

/-- An accumulating scatter over the extended reals leaves at each entry the operand's entry plus the sum of the updates
    that land there: real-valued when the operand and the updates are, wherever the integer indices send them. -/
theorem IsR.scatterAdd {s si u : Shape} {w : Nat} {φ : FTy} (d : ScatterDims s si u) (x : FVec Ideal s φ) (idx : IVec si w)
    (upd : FVec Ideal u φ) (hx : ∀ i, IsR (x i)) (hu : ∀ j, IsR (upd j)) (i : s.Idx) :
    IsR (Host.scatterAdd d x idx upd i) := by
  unfold Host.scatterAdd
  rw [Ideal.hostScatterAdd_def]
  unfold Ideal.hostScatterAdd
  exact (hx i).add (IsR.sum _ _ fun j _ => hu j)

/-- Narrowing to a shorter format changes nothing over the extended reals. -/
theorem truncf_ideal {s : Shape} {φ ψ : FTy} (a : FVec Ideal s φ) (h : ψ.bits < φ.bits) :
    (truncf ψ a h : FVec Ideal s ψ) = a := rfl

/-- Every entry of a concatenation is an entry of one of the pieces. -/
theorem IsR.concatenate {t : Shape} (a : Fin t.rank) (xs : List ((s : Shape) × (s.Idx → EReal)))
    (h : Shape.Concatenates (xs.map (·.1)) t a) (hx : ∀ p ∈ xs, ∀ i, IsR (p.2 i)) (j : t.Idx) :
    IsR (concatenate t a xs h j) := by
  unfold Idealize.ShloMosaic.concatenate
  exact hx _ (List.getElem_mem _) _

/-- Every entry of a slice is an entry of the array. -/
theorem IsR.extractStridedSlice {s t : Shape} (off : Fin s.rank → Nat) (x : s.Idx → EReal) (h : s.Slices off t)
    (hx : ∀ i, IsR (x i)) (j : t.Idx) : IsR (extractStridedSlice t off x h j) := by
  unfold Idealize.ShloMosaic.extractStridedSlice
  exact hx _

/-- Every entry of a broadcast is an entry of the operand. -/
theorem IsR.broadcastInDim {s t : Shape} (dims : Fin s.rank → Fin t.rank) (h : s.BroadcastsInDim t dims) (x : s.Idx → EReal)
    (hx : ∀ i, IsR (x i)) (j : t.Idx) : IsR (broadcastInDim t dims h x j) := by
  unfold Idealize.ShloMosaic.broadcastInDim
  exact hx _

/-! ## The same at the program's literal shapes -/

theorem allReal_scatterAdd (x : FVec Ideal S4096x4096 .f32) (i : IVec S16638x2 32) (u : FVec Ideal S16638 .f32)
    (hx : AllReal x) (hu : AllReal u) : AllReal (Host.scatterAdd scatter_S4096x4096_S16638x2_S16638_n_01_01_1 x i u) :=
  fun j => IsR.scatterAdd scatter_S4096x4096_S16638x2_S16638_n_01_01_1 x i u hx hu j

theorem allReal_truncf {S : Shape} (x : FVec Ideal S .f32) (hx : AllReal x) :
    AllReal (S := S) (truncf .bf16 x bitsLt_bf16_f32) := hx

theorem allReal_concat_cols (a b : FVec Ideal S4096x1024 .f32) (ha : AllReal a) (hb : AllReal b) :
    AllReal (S := S4096x2048) (concatenate S4096x2048 1 [⟨S4096x1024, a⟩, ⟨S4096x1024, b⟩] concatenates_S4096x1024_S4096x1024_S4096x2048_d1) :=
  fun j => IsR.concatenate 1 [⟨S4096x1024, a⟩, ⟨S4096x1024, b⟩] concatenates_S4096x1024_S4096x1024_S4096x2048_d1
    (fun p hp => by
      rcases List.mem_cons.mp hp with rfl | hp
      · exact ha
      · rcases List.mem_cons.mp hp with rfl | hp
        · exact hb
        · exact absurd hp List.not_mem_nil) j

theorem allReal_slice_left (x : FVec Ideal S4096x2048 .f32) (hx : AllReal x) :
    AllReal (S := S4096x1024) (extractStridedSlice S4096x1024 ![0, 0] x slices_S4096x2048_S4096x1024_0_0) :=
  fun j => IsR.extractStridedSlice (s := S4096x2048) (t := S4096x1024) ![0, 0] x slices_S4096x2048_S4096x1024_0_0 hx j

theorem allReal_slice_right (x : FVec Ideal S4096x2048 .f32) (hx : AllReal x) :
    AllReal (S := S4096x1024) (extractStridedSlice S4096x1024 ![0, 1024] x slices_S4096x2048_S4096x1024_0_1024) :=
  fun j => IsR.extractStridedSlice (s := S4096x2048) (t := S4096x1024) ![0, 1024] x slices_S4096x2048_S4096x1024_0_1024 hx j

/-- The zero array a scatter accumulates into is real-valued. -/
theorem allReal_zeros : AllReal (S := S4096x4096) (broadcastInDim S4096x4096 ![] bcast_S_S4096x4096 (constant (F := Ideal) S_ .f32 0x00000000#32)) :=
  fun j => IsR.broadcastInDim (s := S_) (t := S4096x4096) ![] bcast_S_S4096x4096
    (constant (F := Ideal) S_ .f32 0x00000000#32) (fun _ => IsR.ofBits_zero_f32) j

/-! ## The left operand of the eight products -/

section AnyFloat
variable {F : FTy → Type} [FloatOps F]
variable (m : (ℓ : Loc nD τ sig) → Buf (Elt F) ℓ) (ρ : Dev nD → PrngReg)

/-! No later stretch of host operations writes the left operand. -/

theorem keepLeft_hostOps1 (V : Valuation τ sig (Elt F)) :
    StableHlo.after hostOps1 V (Proc.devRef .tc main_v24) = V (Proc.devRef .tc main_v24) :=
  StableHlo.after_of_forall_not_mem (b := Proc.devRef .tc main_v24) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => absurd (Proc.devRef_injective _ e) (by decide)))

theorem keepLeft_hostOps2 (V : Valuation τ sig (Elt F)) :
    StableHlo.after hostOps2 V (Proc.devRef .tc main_v24) = V (Proc.devRef .tc main_v24) :=
  StableHlo.after_of_forall_not_mem (b := Proc.devRef .tc main_v24) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => absurd (Proc.devRef_injective _ e) (by decide)))

theorem keepLeft_hostOps3 (V : Valuation τ sig (Elt F)) :
    StableHlo.after hostOps3 V (Proc.devRef .tc main_v24) = V (Proc.devRef .tc main_v24) :=
  StableHlo.after_of_forall_not_mem (b := Proc.devRef .tc main_v24) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => absurd (Proc.devRef_injective _ e) (by decide)))

theorem keepLeft_hostOps4 (V : Valuation τ sig (Elt F)) :
    StableHlo.after hostOps4 V (Proc.devRef .tc main_v24) = V (Proc.devRef .tc main_v24) :=
  StableHlo.after_of_forall_not_mem (b := Proc.devRef .tc main_v24) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => absurd (Proc.devRef_injective _ e) (by decide)))

theorem keepLeft_hostOps5 (V : Valuation τ sig (Elt F)) :
    StableHlo.after hostOps5 V (Proc.devRef .tc main_v24) = V (Proc.devRef .tc main_v24) :=
  StableHlo.after_of_forall_not_mem (b := Proc.devRef .tc main_v24) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => absurd (Proc.devRef_injective _ e) (by decide)))

theorem keepLeft_hostOps6 (V : Valuation τ sig (Elt F)) :
    StableHlo.after hostOps6 V (Proc.devRef .tc main_v24) = V (Proc.devRef .tc main_v24) :=
  StableHlo.after_of_forall_not_mem (b := Proc.devRef .tc main_v24) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => absurd (Proc.devRef_injective _ e) (by decide)))

theorem keepLeft_hostOps7 (V : Valuation τ sig (Elt F)) :
    StableHlo.after hostOps7 V (Proc.devRef .tc main_v24) = V (Proc.devRef .tc main_v24) :=
  StableHlo.after_of_forall_not_mem (b := Proc.devRef .tc main_v24) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact fun e => absurd (Proc.devRef_injective _ e) (by decide)))

/-- Region 0 only reads its left operand: no grid point writes that window back, so its array leaves the region as it
    entered. -/
theorem noFlush0_0 : ∀ t : Fin cfg0.N, (cfg0.win 0).flush t = false :=
  (by decide +kernel : ∀ t : Fin grid0.N, win0_0.flush t = false)
theorem arrAt0_left (V : (c : Dev nD) → (b : Ref sig .tc) → Buf (Elt F) ((c : Thread nD τ).loc b)) (c : Dev nD) :
    (dat0 V c).arrAt 0 cfg0.N = V c (Pipeline.arrRef spec0 0) := by
  funext i
  rw [(dat0 V c).arrAt_apply_of_forall_not_mem 0 cfg0.N i
    (fun t _ hf => absurd hf (by rw [noFlush0_0 t]; exact Bool.false_ne_true))]
  exact congrFun (A_eq0 V c 0) i

/-- Region 1 only reads its left operand: no grid point writes that window back, so its array leaves the region as it
    entered. -/
theorem noFlush1_0 : ∀ t : Fin cfg1.N, (cfg1.win 0).flush t = false :=
  (by decide +kernel : ∀ t : Fin grid1.N, win1_0.flush t = false)
theorem arrAt1_left (V : (c : Dev nD) → (b : Ref sig .tc) → Buf (Elt F) ((c : Thread nD τ).loc b)) (c : Dev nD) :
    (dat1 V c).arrAt 0 cfg1.N = V c (Pipeline.arrRef spec1 0) := by
  funext i
  rw [(dat1 V c).arrAt_apply_of_forall_not_mem 0 cfg1.N i
    (fun t _ hf => absurd hf (by rw [noFlush1_0 t]; exact Bool.false_ne_true))]
  exact congrFun (A_eq1 V c 0) i

/-- Region 2 only reads its left operand: no grid point writes that window back, so its array leaves the region as it
    entered. -/
theorem noFlush2_0 : ∀ t : Fin cfg2.N, (cfg2.win 0).flush t = false :=
  (by decide +kernel : ∀ t : Fin grid2.N, win2_0.flush t = false)
theorem arrAt2_left (V : (c : Dev nD) → (b : Ref sig .tc) → Buf (Elt F) ((c : Thread nD τ).loc b)) (c : Dev nD) :
    (dat2 V c).arrAt 0 cfg2.N = V c (Pipeline.arrRef spec2 0) := by
  funext i
  rw [(dat2 V c).arrAt_apply_of_forall_not_mem 0 cfg2.N i
    (fun t _ hf => absurd hf (by rw [noFlush2_0 t]; exact Bool.false_ne_true))]
  exact congrFun (A_eq2 V c 0) i

/-- Region 3 only reads its left operand: no grid point writes that window back, so its array leaves the region as it
    entered. -/
theorem noFlush3_0 : ∀ t : Fin cfg3.N, (cfg3.win 0).flush t = false :=
  (by decide +kernel : ∀ t : Fin grid3.N, win3_0.flush t = false)
theorem arrAt3_left (V : (c : Dev nD) → (b : Ref sig .tc) → Buf (Elt F) ((c : Thread nD τ).loc b)) (c : Dev nD) :
    (dat3 V c).arrAt 0 cfg3.N = V c (Pipeline.arrRef spec3 0) := by
  funext i
  rw [(dat3 V c).arrAt_apply_of_forall_not_mem 0 cfg3.N i
    (fun t _ hf => absurd hf (by rw [noFlush3_0 t]; exact Bool.false_ne_true))]
  exact congrFun (A_eq3 V c 0) i

/-- Region 4 only reads its left operand: no grid point writes that window back, so its array leaves the region as it
    entered. -/
theorem noFlush4_0 : ∀ t : Fin cfg4.N, (cfg4.win 0).flush t = false :=
  (by decide +kernel : ∀ t : Fin grid4.N, win4_0.flush t = false)
theorem arrAt4_left (V : (c : Dev nD) → (b : Ref sig .tc) → Buf (Elt F) ((c : Thread nD τ).loc b)) (c : Dev nD) :
    (dat4 V c).arrAt 0 cfg4.N = V c (Pipeline.arrRef spec4 0) := by
  funext i
  rw [(dat4 V c).arrAt_apply_of_forall_not_mem 0 cfg4.N i
    (fun t _ hf => absurd hf (by rw [noFlush4_0 t]; exact Bool.false_ne_true))]
  exact congrFun (A_eq4 V c 0) i

/-- Region 5 only reads its left operand: no grid point writes that window back, so its array leaves the region as it
    entered. -/
theorem noFlush5_0 : ∀ t : Fin cfg5.N, (cfg5.win 0).flush t = false :=
  (by decide +kernel : ∀ t : Fin grid5.N, win5_0.flush t = false)
theorem arrAt5_left (V : (c : Dev nD) → (b : Ref sig .tc) → Buf (Elt F) ((c : Thread nD τ).loc b)) (c : Dev nD) :
    (dat5 V c).arrAt 0 cfg5.N = V c (Pipeline.arrRef spec5 0) := by
  funext i
  rw [(dat5 V c).arrAt_apply_of_forall_not_mem 0 cfg5.N i
    (fun t _ hf => absurd hf (by rw [noFlush5_0 t]; exact Bool.false_ne_true))]
  exact congrFun (A_eq5 V c 0) i

/-- Region 6 only reads its left operand: no grid point writes that window back, so its array leaves the region as it
    entered. -/
theorem noFlush6_0 : ∀ t : Fin cfg6.N, (cfg6.win 0).flush t = false :=
  (by decide +kernel : ∀ t : Fin grid6.N, win6_0.flush t = false)
theorem arrAt6_left (V : (c : Dev nD) → (b : Ref sig .tc) → Buf (Elt F) ((c : Thread nD τ).loc b)) (c : Dev nD) :
    (dat6 V c).arrAt 0 cfg6.N = V c (Pipeline.arrRef spec6 0) := by
  funext i
  rw [(dat6 V c).arrAt_apply_of_forall_not_mem 0 cfg6.N i
    (fun t _ hf => absurd hf (by rw [noFlush6_0 t]; exact Bool.false_ne_true))]
  exact congrFun (A_eq6 V c 0) i

/-- The left operand at region 1's entry is the left operand at region 0's entry. -/
theorem B3_left (c : Dev nD) : B3 m ρ c (Proc.devRef .tc main_v24) = B1 m ρ c (Proc.devRef .tc main_v24) :=
  (keepLeft_hostOps1 (B2 m ρ c)).trans ((B2_arr m ρ c 0).trans (arrAt0_left (VB1 m ρ) c))

/-- The left operand at region 2's entry is the left operand at region 1's entry. -/
theorem B5_left (c : Dev nD) : B5 m ρ c (Proc.devRef .tc main_v24) = B3 m ρ c (Proc.devRef .tc main_v24) :=
  (keepLeft_hostOps2 (B4 m ρ c)).trans ((B4_arr m ρ c 0).trans (arrAt1_left (VB3 m ρ) c))

/-- The left operand at region 3's entry is the left operand at region 2's entry. -/
theorem B7_left (c : Dev nD) : B7 m ρ c (Proc.devRef .tc main_v24) = B5 m ρ c (Proc.devRef .tc main_v24) :=
  (keepLeft_hostOps3 (B6 m ρ c)).trans ((B6_arr m ρ c 0).trans (arrAt2_left (VB5 m ρ) c))

/-- The left operand at region 4's entry is the left operand at region 3's entry. -/
theorem B9_left (c : Dev nD) : B9 m ρ c (Proc.devRef .tc main_v24) = B7 m ρ c (Proc.devRef .tc main_v24) :=
  (keepLeft_hostOps4 (B8 m ρ c)).trans ((B8_arr m ρ c 0).trans (arrAt3_left (VB7 m ρ) c))

/-- The left operand at region 5's entry is the left operand at region 4's entry. -/
theorem B11_left (c : Dev nD) : B11 m ρ c (Proc.devRef .tc main_v24) = B9 m ρ c (Proc.devRef .tc main_v24) :=
  (keepLeft_hostOps5 (B10 m ρ c)).trans ((B10_arr m ρ c 0).trans (arrAt4_left (VB9 m ρ) c))

/-- The left operand at region 6's entry is the left operand at region 5's entry. -/
theorem B13_left (c : Dev nD) : B13 m ρ c (Proc.devRef .tc main_v24) = B11 m ρ c (Proc.devRef .tc main_v24) :=
  (keepLeft_hostOps6 (B12 m ρ c)).trans ((B12_arr m ρ c 0).trans (arrAt5_left (VB11 m ρ) c))

/-- The left operand at region 7's entry is the left operand at region 6's entry. -/
theorem B15_left (c : Dev nD) : B15 m ρ c (Proc.devRef .tc main_v24) = B13 m ρ c (Proc.devRef .tc main_v24) :=
  (keepLeft_hostOps7 (B14 m ρ c)).trans ((B14_arr m ρ c 0).trans (arrAt6_left (VB13 m ρ) c))

end AnyFloat

/-! ## Over the extended reals the left operand is real-valued at every region's entry -/

section AtIdeal
variable (m : (ℓ : Loc nD τ sig) → Buf (Elt Ideal) ℓ) (ρ : Dev nD → PrngReg)

/-- The left operand as the first stretch of host operations leaves it — the updates scattered, with accumulation, into
    zeros, then narrowed — is real-valued when the updates are. -/
theorem B1_left_real (c : Dev nD) (h : AllReal (S := S16638) (m ((c : Thread nD τ).loc main_arg4))) :
    AllReal (S := S4096x4096) (B1 m ρ c (Proc.devRef .tc main_v24)) := by
  show AllReal (S := S4096x4096) (StableHlo.after hostOps0 (B0 m ρ c) (Proc.devRef .tc main_v24))
  after_results_simp
  exact allReal_truncf _ (allReal_scatterAdd _ _ _ allReal_zeros h)

theorem B3_left_real (c : Dev nD) (h : AllReal (S := S16638) (m ((c : Thread nD τ).loc main_arg4))) :
    AllReal (S := S4096x4096) (B3 m ρ c (Proc.devRef .tc main_v24)) := by
  rw [B3_left m ρ c]; exact B1_left_real m ρ c h
theorem B5_left_real (c : Dev nD) (h : AllReal (S := S16638) (m ((c : Thread nD τ).loc main_arg4))) :
    AllReal (S := S4096x4096) (B5 m ρ c (Proc.devRef .tc main_v24)) := by
  rw [B5_left m ρ c]; exact B3_left_real m ρ c h
theorem B7_left_real (c : Dev nD) (h : AllReal (S := S16638) (m ((c : Thread nD τ).loc main_arg4))) :
    AllReal (S := S4096x4096) (B7 m ρ c (Proc.devRef .tc main_v24)) := by
  rw [B7_left m ρ c]; exact B5_left_real m ρ c h
theorem B9_left_real (c : Dev nD) (h : AllReal (S := S16638) (m ((c : Thread nD τ).loc main_arg4))) :
    AllReal (S := S4096x4096) (B9 m ρ c (Proc.devRef .tc main_v24)) := by
  rw [B9_left m ρ c]; exact B7_left_real m ρ c h
theorem B11_left_real (c : Dev nD) (h : AllReal (S := S16638) (m ((c : Thread nD τ).loc main_arg4))) :
    AllReal (S := S4096x4096) (B11 m ρ c (Proc.devRef .tc main_v24)) := by
  rw [B11_left m ρ c]; exact B9_left_real m ρ c h
theorem B13_left_real (c : Dev nD) (h : AllReal (S := S16638) (m ((c : Thread nD τ).loc main_arg4))) :
    AllReal (S := S4096x4096) (B13 m ρ c (Proc.devRef .tc main_v24)) := by
  rw [B13_left m ρ c]; exact B11_left_real m ρ c h
theorem B15_left_real (c : Dev nD) (h : AllReal (S := S16638) (m ((c : Thread nD τ).loc main_arg4))) :
    AllReal (S := S4096x4096) (B15 m ρ c (Proc.devRef .tc main_v24)) := by
  rw [B15_left m ρ c]; exact B13_left_real m ρ c h

end AtIdeal

end Cert.KernelIdeal.Hand

end
-- ==== Proof.KI.ValRegion0.lean ====
/-
  Region 0's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region0
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k0_pay1_real (j : S1024x2048.Idx) : IsR ((k0_pay1 (F := Ideal)) j) := by
  unfold k0_pay1
  rw [shapeCast_self]
  exact IsR.ofBits_zero_f32

/-- The body's payload — what it started from plus the product of the two blocks — is real-valued when the three are. -/
theorem k0_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k0_pay2 (F := Ideal) z xl xr j) := by
  unfold k0_pay2
  simp only [shapeCast_self]
  exact IsR.addf z _ hz (IsR.matmul_zero _ none xl xr hk hr) j

section ValRegion0
variable (V : (c : Dev nD) → (b : Ref sig .tc) → Buf (Elt Ideal) ((c : Thread nD τ).loc b))

/-! ## Every block of a real-valued array is real-valued: each of its entries is an entry of the array -/

theorem iblk0_0_real (c : Dev nD) (hA : ∀ j, IsR (V c (Pipeline.arrRef spec0 0) j)) (t : Fin cfg0.N) (y : S1024x1024.Idx) :
    IsR (iblk0 V c 0 t y) := by
  unfold iblk0
  rw [View.read_apply]
  exact hA _

theorem iblk0_1_real (c : Dev nD) (hB : ∀ j, IsR (V c (Pipeline.arrRef spec0 1) j)) (t : Fin cfg0.N) (y : S1024x2048.Idx) :
    IsR (iblk0 V c 1 t y) := by
  unfold iblk0
  rw [View.read_apply]
  exact hB _

/-! ## The accumulator is real-valued at every grid point -/

theorem acc0_real (c : Dev nD) (hA : ∀ j, IsR (V c (Pipeline.arrRef spec0 0) j)) (hB : ∀ j, IsR (V c (Pipeline.arrRef spec0 1) j)) :
    ∀ (n : ℕ) (hn : n < cfg0.N) (j : S1024x2048.Idx), IsR (acc0 V c n hn j) := by
  intro n
  induction n with
  | zero =>
    intro hn j
    show IsR (k0_pay2 (k0_pay1 (F := Ideal)) (iblk0 V c 0 ⟨0, hn⟩) (iblk0 V c 1 ⟨0, hn⟩) j)
    exact k0_pay2_real (k0_pay1 (F := Ideal)) (iblk0 V c 0 ⟨0, hn⟩) (iblk0 V c 1 ⟨0, hn⟩) k0_pay1_real
      (iblk0_0_real V c hA ⟨0, hn⟩) (iblk0_1_real V c hB ⟨0, hn⟩) j
  | succ n ih =>
    intro hn j
    by_cases hk : (n + 1) % 4 = 0
    · have e : acc0 V c (n + 1) hn
          = k0_pay2 (k0_pay1 (F := Ideal)) (iblk0 V c 0 ⟨n + 1, hn⟩) (iblk0 V c 1 ⟨n + 1, hn⟩) :=
        acc0_first V c ⟨n + 1, hn⟩ hk
      rw [e]
      exact k0_pay2_real (k0_pay1 (F := Ideal)) (iblk0 V c 0 ⟨n + 1, hn⟩) (iblk0 V c 1 ⟨n + 1, hn⟩) k0_pay1_real
        (iblk0_0_real V c hA ⟨n + 1, hn⟩) (iblk0_1_real V c hB ⟨n + 1, hn⟩) j
    · have e : acc0 V c (n + 1) hn
          = k0_pay2 (acc0 V c n (Nat.lt_of_succ_lt hn)) (iblk0 V c 0 ⟨n + 1, hn⟩) (iblk0 V c 1 ⟨n + 1, hn⟩) :=
        acc0_next V c ⟨n + 1, hn⟩ hk
      rw [e]
      exact k0_pay2_real (acc0 V c n (Nat.lt_of_succ_lt hn)) (iblk0 V c 0 ⟨n + 1, hn⟩) (iblk0 V c 1 ⟨n + 1, hn⟩)
        (ih (Nat.lt_of_succ_lt hn)) (iblk0_0_real V c hA ⟨n + 1, hn⟩) (iblk0_1_real V c hB ⟨n + 1, hn⟩) j

/-! ## From the blocks to the array -/

/-- The output window's block index at every grid point: the point's row-block number, and the one column block. -/
theorem idx0 : ∀ t : Fin cfg0.N, win0_2.index t (0 : Fin 2) = t.val / 4 ∧ win0_2.index t (1 : Fin 2) = 0 :=
  (by decide +kernel : ∀ t : Fin grid0.N, _)

/-- An index of the output array is in point `t`'s block iff each coordinate is in the block's range on its axis. -/
theorem mem_blk0 (t : Fin cfg0.N) (i : S4096x2048.Idx) :
    i ∈ ((cfg0.win 2).blk t).view.set
      ↔ ∀ a : Fin 2, win0_2.index t a * S1024x2048.size a ≤ (i a).val
          ∧ (i a).val < win0_2.index t a * S1024x2048.size a + S1024x2048.size a := by
  show i ∈ ((View.whole (Pipeline.arrRef spec0 2)).slice (win0_2.rect t)).set ↔ _
  rw [View.set_slice_whole, Rect.mem_set_unit]
  exact Iff.rfl

/-- Every row of the output array is in the block written back at the last point of its row block's run. -/
theorem cover0 (i : S4096x2048.Idx) :
    ∃ t : Fin cfg0.N, (cfg0.win 2).flush t = true ∧ i ∈ ((cfg0.win 2).blk t).view.set := by
  have hir : (i 0).val < 4096 := (i 0).isLt
  have hic : (i 1).val < 2048 := (i 1).isLt
  have hN : cfg0.N = 16 := N_0
  let t : Fin cfg0.N := ⟨(i 0).val / 1024 * 4 + 3, by rw [hN]; omega⟩
  obtain ⟨er, ec⟩ := idx0 t
  have er' : win0_2.index t (0 : Fin 2) = ((i 0).val / 1024 * 4 + 3) / 4 := er
  have hf : (cfg0.win 2).flush t = true :=
    (flush0_2 t).mpr (show ((i 0).val / 1024 * 4 + 3) % 4 = 3 by omega)
  refine ⟨t, hf, ?_⟩
  rw [mem_blk0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- The output array after the region is real-valued when the two operand arrays, as the region finds them, are. -/
theorem out0_real (c : Dev nD) (hA : ∀ j, IsR (V c (Pipeline.arrRef spec0 0) j)) (hB : ∀ j, IsR (V c (Pipeline.arrRef spec0 1) j)) :
    ∀ j, IsR ((dat0 (F := Ideal) V c).arrAt 2 cfg0.N j) :=
  (dat0 (F := Ideal) V c).arrAt_forall_of_cover 2 (fun _ v => IsR v)
    (fun t _ y => by
      show IsR ((cfg0.win 2).cut (grid0.coords t) ((dat0 (F := Ideal) V c).after 2 t) y)
      rw [after0_2]
      exact acc0_real V c hA hB t.val t.isLt _)
    cover0

end ValRegion0

end Cert.KernelIdeal.Hand

end
-- ==== Proof.KI.ValRegion1.lean ====
/-
  Region 1's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region1
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k1_pay1_real (j : S1024x2048.Idx) : IsR ((k1_pay1 (F := Ideal)) j) := by
  unfold k1_pay1
  rw [shapeCast_self]
  exact IsR.ofBits_zero_f32

/-- The body's payload — what it started from plus the product of the two blocks — is real-valued when the three are. -/
theorem k1_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k1_pay2 (F := Ideal) z xl xr j) := by
  unfold k1_pay2
  simp only [shapeCast_self]
  exact IsR.addf z _ hz (IsR.matmul_zero _ none xl xr hk hr) j

section ValRegion1
variable (V : (c : Dev nD) → (b : Ref sig .tc) → Buf (Elt Ideal) ((c : Thread nD τ).loc b))

/-! ## Every block of a real-valued array is real-valued: each of its entries is an entry of the array -/

theorem iblk1_0_real (c : Dev nD) (hA : ∀ j, IsR (V c (Pipeline.arrRef spec1 0) j)) (t : Fin cfg1.N) (y : S1024x1024.Idx) :
    IsR (iblk1 V c 0 t y) := by
  unfold iblk1
  rw [View.read_apply]
  exact hA _

theorem iblk1_1_real (c : Dev nD) (hB : ∀ j, IsR (V c (Pipeline.arrRef spec1 1) j)) (t : Fin cfg1.N) (y : S1024x2048.Idx) :
    IsR (iblk1 V c 1 t y) := by
  unfold iblk1
  rw [View.read_apply]
  exact hB _

/-! ## The accumulator is real-valued at every grid point -/

theorem acc1_real (c : Dev nD) (hA : ∀ j, IsR (V c (Pipeline.arrRef spec1 0) j)) (hB : ∀ j, IsR (V c (Pipeline.arrRef spec1 1) j)) :
    ∀ (n : ℕ) (hn : n < cfg1.N) (j : S1024x2048.Idx), IsR (acc1 V c n hn j) := by
  intro n
  induction n with
  | zero =>
    intro hn j
    show IsR (k1_pay2 (k1_pay1 (F := Ideal)) (iblk1 V c 0 ⟨0, hn⟩) (iblk1 V c 1 ⟨0, hn⟩) j)
    exact k1_pay2_real (k1_pay1 (F := Ideal)) (iblk1 V c 0 ⟨0, hn⟩) (iblk1 V c 1 ⟨0, hn⟩) k1_pay1_real
      (iblk1_0_real V c hA ⟨0, hn⟩) (iblk1_1_real V c hB ⟨0, hn⟩) j
  | succ n ih =>
    intro hn j
    by_cases hk : (n + 1) % 4 = 0
    · have e : acc1 V c (n + 1) hn
          = k1_pay2 (k1_pay1 (F := Ideal)) (iblk1 V c 0 ⟨n + 1, hn⟩) (iblk1 V c 1 ⟨n + 1, hn⟩) :=
        acc1_first V c ⟨n + 1, hn⟩ hk
      rw [e]
      exact k1_pay2_real (k1_pay1 (F := Ideal)) (iblk1 V c 0 ⟨n + 1, hn⟩) (iblk1 V c 1 ⟨n + 1, hn⟩) k1_pay1_real
        (iblk1_0_real V c hA ⟨n + 1, hn⟩) (iblk1_1_real V c hB ⟨n + 1, hn⟩) j
    · have e : acc1 V c (n + 1) hn
          = k1_pay2 (acc1 V c n (Nat.lt_of_succ_lt hn)) (iblk1 V c 0 ⟨n + 1, hn⟩) (iblk1 V c 1 ⟨n + 1, hn⟩) :=
        acc1_next V c ⟨n + 1, hn⟩ hk
      rw [e]
      exact k1_pay2_real (acc1 V c n (Nat.lt_of_succ_lt hn)) (iblk1 V c 0 ⟨n + 1, hn⟩) (iblk1 V c 1 ⟨n + 1, hn⟩)
        (ih (Nat.lt_of_succ_lt hn)) (iblk1_0_real V c hA ⟨n + 1, hn⟩) (iblk1_1_real V c hB ⟨n + 1, hn⟩) j

/-! ## From the blocks to the array -/

/-- The output window's block index at every grid point: the point's row-block number, and the one column block. -/
theorem idx1 : ∀ t : Fin cfg1.N, win1_2.index t (0 : Fin 2) = t.val / 4 ∧ win1_2.index t (1 : Fin 2) = 0 :=
  (by decide +kernel : ∀ t : Fin grid1.N, _)

/-- An index of the output array is in point `t`'s block iff each coordinate is in the block's range on its axis. -/
theorem mem_blk1 (t : Fin cfg1.N) (i : S4096x2048.Idx) :
    i ∈ ((cfg1.win 2).blk t).view.set
      ↔ ∀ a : Fin 2, win1_2.index t a * S1024x2048.size a ≤ (i a).val
          ∧ (i a).val < win1_2.index t a * S1024x2048.size a + S1024x2048.size a := by
  show i ∈ ((View.whole (Pipeline.arrRef spec1 2)).slice (win1_2.rect t)).set ↔ _
  rw [View.set_slice_whole, Rect.mem_set_unit]
  exact Iff.rfl

/-- Every row of the output array is in the block written back at the last point of its row block's run. -/
theorem cover1 (i : S4096x2048.Idx) :
    ∃ t : Fin cfg1.N, (cfg1.win 2).flush t = true ∧ i ∈ ((cfg1.win 2).blk t).view.set := by
  have hir : (i 0).val < 4096 := (i 0).isLt
  have hic : (i 1).val < 2048 := (i 1).isLt
  have hN : cfg1.N = 16 := N_1
  let t : Fin cfg1.N := ⟨(i 0).val / 1024 * 4 + 3, by rw [hN]; omega⟩
  obtain ⟨er, ec⟩ := idx1 t
  have er' : win1_2.index t (0 : Fin 2) = ((i 0).val / 1024 * 4 + 3) / 4 := er
  have hf : (cfg1.win 2).flush t = true :=
    (flush1_2 t).mpr (show ((i 0).val / 1024 * 4 + 3) % 4 = 3 by omega)
  refine ⟨t, hf, ?_⟩
  rw [mem_blk1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

/-- The output array after the region is real-valued when the two operand arrays, as the region finds them, are. -/
theorem out1_real (c : Dev nD) (hA : ∀ j, IsR (V c (Pipeline.arrRef spec1 0) j)) (hB : ∀ j, IsR (V c (Pipeline.arrRef spec1 1) j)) :
    ∀ j, IsR ((dat1 (F := Ideal) V c).arrAt 2 cfg1.N j) :=
  (dat1 (F := Ideal) V c).arrAt_forall_of_cover 2 (fun _ v => IsR v)
    (fun t _ y => by
      show IsR ((cfg1.win 2).cut (grid1.coords t) ((dat1 (F := Ideal) V c).after 2 t) y)
      rw [after1_2]
      exact acc1_real V c hA hB t.val t.isLt _)
    cover1

end ValRegion1

end Cert.KernelIdeal.Hand

end
-- ==== Proof.KI.ValRegion2.lean ====
/-
  Region 2's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region2
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k2_pay1_real (j : S1024x2048.Idx) : IsR ((k2_pay1 (F := Ideal)) j) := by
  unfold k2_pay1
  rw [shapeCast_self]
  exact IsR.ofBits_zero_f32

/-- The body's payload — what it started from plus the product of the two blocks — is real-valued when the three are. -/
theorem k2_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k2_pay2 (F := Ideal) z xl xr j) := by
  unfold k2_pay2
  simp only [shapeCast_self]
  exact IsR.addf z _ hz (IsR.matmul_zero _ none xl xr hk hr) j

section ValRegion2
variable (V : (c : Dev nD) → (b : Ref sig .tc) → Buf (Elt Ideal) ((c : Thread nD τ).loc b))

/-! ## Every block of a real-valued array is real-valued: each of its entries is an entry of the array -/

theorem iblk2_0_real (c : Dev nD) (hA : ∀ j, IsR (V c (Pipeline.arrRef spec2 0) j)) (t : Fin cfg2.N) (y : S1024x1024.Idx) :
    IsR (iblk2 V c 0 t y) := by
  unfold iblk2
  rw [View.read_apply]
  exact hA _

theorem iblk2_1_real (c : Dev nD) (hB : ∀ j, IsR (V c (Pipeline.arrRef spec2 1) j)) (t : Fin cfg2.N) (y : S1024x2048.Idx) :
    IsR (iblk2 V c 1 t y) := by
  unfold iblk2
  rw [View.read_apply]
  exact hB _

/-! ## The accumulator is real-valued at every grid point -/

theorem acc2_real (c : Dev nD) (hA : ∀ j, IsR (V c (Pipeline.arrRef spec2 0) j)) (hB : ∀ j, IsR (V c (Pipeline.arrRef spec2 1) j)) :
    ∀ (n : ℕ) (hn : n < cfg2.N) (j : S1024x2048.Idx), IsR (acc2 V c n hn j) := by
  intro n
  induction n with
  | zero =>
    intro hn j
    show IsR (k2_pay2 (k2_pay1 (F := Ideal)) (iblk2 V c 0 ⟨0, hn⟩) (iblk2 V c 1 ⟨0, hn⟩) j)
    exact k2_pay2_real (k2_pay1 (F := Ideal)) (iblk2 V c 0 ⟨0, hn⟩) (iblk2 V c 1 ⟨0, hn⟩) k2_pay1_real
      (iblk2_0_real V c hA ⟨0, hn⟩) (iblk2_1_real V c hB ⟨0, hn⟩) j
  | succ n ih =>
    intro hn j
    by_cases hk : (n + 1) % 4 = 0
    · have e : acc2 V c (n + 1) hn
          = k2_pay2 (k2_pay1 (F := Ideal)) (iblk2 V c 0 ⟨n + 1, hn⟩) (iblk2 V c 1 ⟨n + 1, hn⟩) :=
        acc2_first V c ⟨n + 1, hn⟩ hk
      rw [e]
      exact k2_pay2_real (k2_pay1 (F := Ideal)) (iblk2 V c 0 ⟨n + 1, hn⟩) (iblk2 V c 1 ⟨n + 1, hn⟩) k2_pay1_real
        (iblk2_0_real V c hA ⟨n + 1, hn⟩) (iblk2_1_real V c hB ⟨n + 1, hn⟩) j
    · have e : acc2 V c (n + 1) hn
          = k2_pay2 (acc2 V c n (Nat.lt_of_succ_lt hn)) (iblk2 V c 0 ⟨n + 1, hn⟩) (iblk2 V c 1 ⟨n + 1, hn⟩) :=
        acc2_next V c ⟨n + 1, hn⟩ hk
      rw [e]
      exact k2_pay2_real (acc2 V c n (Nat.lt_of_succ_lt hn)) (iblk2 V c 0 ⟨n + 1, hn⟩) (iblk2 V c 1 ⟨n + 1, hn⟩)
        (ih (Nat.lt_of_succ_lt hn)) (iblk2_0_real V c hA ⟨n + 1, hn⟩) (iblk2_1_real V c hB ⟨n + 1, hn⟩) j

/-! ## From the blocks to the array -/

/-- The output window's block index at every grid point: the point's row-block number, and the one column block. -/
theorem idx2 : ∀ t : Fin cfg2.N, win2_2.index t (0 : Fin 2) = t.val / 4 ∧ win2_2.index t (1 : Fin 2) = 0 :=
  (by decide +kernel : ∀ t : Fin grid2.N, _)

/-- An index of the output array is in point `t`'s block iff each coordinate is in the block's range on its axis. -/
theorem mem_blk2 (t : Fin cfg2.N) (i : S4096x2048.Idx) :
    i ∈ ((cfg2.win 2).blk t).view.set
      ↔ ∀ a : Fin 2, win2_2.index t a * S1024x2048.size a ≤ (i a).val
          ∧ (i a).val < win2_2.index t a * S1024x2048.size a + S1024x2048.size a := by
  show i ∈ ((View.whole (Pipeline.arrRef spec2 2)).slice (win2_2.rect t)).set ↔ _
  rw [View.set_slice_whole, Rect.mem_set_unit]
  exact Iff.rfl

/-- Every row of the output array is in the block written back at the last point of its row block's run. -/
theorem cover2 (i : S4096x2048.Idx) :
    ∃ t : Fin cfg2.N, (cfg2.win 2).flush t = true ∧ i ∈ ((cfg2.win 2).blk t).view.set := by
  have hir : (i 0).val < 4096 := (i 0).isLt
  have hic : (i 1).val < 2048 := (i 1).isLt
  have hN : cfg2.N = 16 := N_2
  let t : Fin cfg2.N := ⟨(i 0).val / 1024 * 4 + 3, by rw [hN]; omega⟩
  obtain ⟨er, ec⟩ := idx2 t
  have er' : win2_2.index t (0 : Fin 2) = ((i 0).val / 1024 * 4 + 3) / 4 := er
  have hf : (cfg2.win 2).flush t = true :=
    (flush2_2 t).mpr (show ((i 0).val / 1024 * 4 + 3) % 4 = 3 by omega)
  refine ⟨t, hf, ?_⟩
  rw [mem_blk2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 2048 ≤ (i 1).val ∧ (i 1).val < win2_2.index t (1 : Fin 2) * 2048 + 2048
    omega

/-- The output array after the region is real-valued when the two operand arrays, as the region finds them, are. -/
theorem out2_real (c : Dev nD) (hA : ∀ j, IsR (V c (Pipeline.arrRef spec2 0) j)) (hB : ∀ j, IsR (V c (Pipeline.arrRef spec2 1) j)) :
    ∀ j, IsR ((dat2 (F := Ideal) V c).arrAt 2 cfg2.N j) :=
  (dat2 (F := Ideal) V c).arrAt_forall_of_cover 2 (fun _ v => IsR v)
    (fun t _ y => by
      show IsR ((cfg2.win 2).cut (grid2.coords t) ((dat2 (F := Ideal) V c).after 2 t) y)
      rw [after2_2]
      exact acc2_real V c hA hB t.val t.isLt _)
    cover2

end ValRegion2

end Cert.KernelIdeal.Hand

end
-- ==== Proof.KI.ValRegion3.lean ====
/-
  Region 3's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region3
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k3_pay1_real (j : S1024x2048.Idx) : IsR ((k3_pay1 (F := Ideal)) j) := by
  unfold k3_pay1
  rw [shapeCast_self]
  exact IsR.ofBits_zero_f32

/-- The body's payload — what it started from plus the product of the two blocks — is real-valued when the three are. -/
theorem k3_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k3_pay2 (F := Ideal) z xl xr j) := by
  unfold k3_pay2
  simp only [shapeCast_self]
  exact IsR.addf z _ hz (IsR.matmul_zero _ none xl xr hk hr) j

section ValRegion3
variable (V : (c : Dev nD) → (b : Ref sig .tc) → Buf (Elt Ideal) ((c : Thread nD τ).loc b))

/-! ## Every block of a real-valued array is real-valued: each of its entries is an entry of the array -/

theorem iblk3_0_real (c : Dev nD) (hA : ∀ j, IsR (V c (Pipeline.arrRef spec3 0) j)) (t : Fin cfg3.N) (y : S1024x1024.Idx) :
    IsR (iblk3 V c 0 t y) := by
  unfold iblk3
  rw [View.read_apply]
  exact hA _

theorem iblk3_1_real (c : Dev nD) (hB : ∀ j, IsR (V c (Pipeline.arrRef spec3 1) j)) (t : Fin cfg3.N) (y : S1024x2048.Idx) :
    IsR (iblk3 V c 1 t y) := by
  unfold iblk3
  rw [View.read_apply]
  exact hB _

/-! ## The accumulator is real-valued at every grid point -/

theorem acc3_real (c : Dev nD) (hA : ∀ j, IsR (V c (Pipeline.arrRef spec3 0) j)) (hB : ∀ j, IsR (V c (Pipeline.arrRef spec3 1) j)) :
    ∀ (n : ℕ) (hn : n < cfg3.N) (j : S1024x2048.Idx), IsR (acc3 V c n hn j) := by
  intro n
  induction n with
  | zero =>
    intro hn j
    show IsR (k3_pay2 (k3_pay1 (F := Ideal)) (iblk3 V c 0 ⟨0, hn⟩) (iblk3 V c 1 ⟨0, hn⟩) j)
    exact k3_pay2_real (k3_pay1 (F := Ideal)) (iblk3 V c 0 ⟨0, hn⟩) (iblk3 V c 1 ⟨0, hn⟩) k3_pay1_real
      (iblk3_0_real V c hA ⟨0, hn⟩) (iblk3_1_real V c hB ⟨0, hn⟩) j
  | succ n ih =>
    intro hn j
    by_cases hk : (n + 1) % 4 = 0
    · have e : acc3 V c (n + 1) hn
          = k3_pay2 (k3_pay1 (F := Ideal)) (iblk3 V c 0 ⟨n + 1, hn⟩) (iblk3 V c 1 ⟨n + 1, hn⟩) :=
        acc3_first V c ⟨n + 1, hn⟩ hk
      rw [e]
      exact k3_pay2_real (k3_pay1 (F := Ideal)) (iblk3 V c 0 ⟨n + 1, hn⟩) (iblk3 V c 1 ⟨n + 1, hn⟩) k3_pay1_real
        (iblk3_0_real V c hA ⟨n + 1, hn⟩) (iblk3_1_real V c hB ⟨n + 1, hn⟩) j
    · have e : acc3 V c (n + 1) hn
          = k3_pay2 (acc3 V c n (Nat.lt_of_succ_lt hn)) (iblk3 V c 0 ⟨n + 1, hn⟩) (iblk3 V c 1 ⟨n + 1, hn⟩) :=
        acc3_next V c ⟨n + 1, hn⟩ hk
      rw [e]
      exact k3_pay2_real (acc3 V c n (Nat.lt_of_succ_lt hn)) (iblk3 V c 0 ⟨n + 1, hn⟩) (iblk3 V c 1 ⟨n + 1, hn⟩)
        (ih (Nat.lt_of_succ_lt hn)) (iblk3_0_real V c hA ⟨n + 1, hn⟩) (iblk3_1_real V c hB ⟨n + 1, hn⟩) j

/-! ## From the blocks to the array -/

/-- The output window's block index at every grid point: the point's row-block number, and the one column block. -/
theorem idx3 : ∀ t : Fin cfg3.N, win3_2.index t (0 : Fin 2) = t.val / 4 ∧ win3_2.index t (1 : Fin 2) = 0 :=
  (by decide +kernel : ∀ t : Fin grid3.N, _)

/-- An index of the output array is in point `t`'s block iff each coordinate is in the block's range on its axis. -/
theorem mem_blk3 (t : Fin cfg3.N) (i : S4096x2048.Idx) :
    i ∈ ((cfg3.win 2).blk t).view.set
      ↔ ∀ a : Fin 2, win3_2.index t a * S1024x2048.size a ≤ (i a).val
          ∧ (i a).val < win3_2.index t a * S1024x2048.size a + S1024x2048.size a := by
  show i ∈ ((View.whole (Pipeline.arrRef spec3 2)).slice (win3_2.rect t)).set ↔ _
  rw [View.set_slice_whole, Rect.mem_set_unit]
  exact Iff.rfl

/-- Every row of the output array is in the block written back at the last point of its row block's run. -/
theorem cover3 (i : S4096x2048.Idx) :
    ∃ t : Fin cfg3.N, (cfg3.win 2).flush t = true ∧ i ∈ ((cfg3.win 2).blk t).view.set := by
  have hir : (i 0).val < 4096 := (i 0).isLt
  have hic : (i 1).val < 2048 := (i 1).isLt
  have hN : cfg3.N = 16 := N_3
  let t : Fin cfg3.N := ⟨(i 0).val / 1024 * 4 + 3, by rw [hN]; omega⟩
  obtain ⟨er, ec⟩ := idx3 t
  have er' : win3_2.index t (0 : Fin 2) = ((i 0).val / 1024 * 4 + 3) / 4 := er
  have hf : (cfg3.win 2).flush t = true :=
    (flush3_2 t).mpr (show ((i 0).val / 1024 * 4 + 3) % 4 = 3 by omega)
  refine ⟨t, hf, ?_⟩
  rw [mem_blk3]
  intro a
  match a with
  | ⟨0, _⟩ =>
    show win3_2.index t (0 : Fin 2) * 1024 ≤ (i 0).val ∧ (i 0).val < win3_2.index t (0 : Fin 2) * 1024 + 1024
    omega
  | ⟨1, _⟩ =>
    show win3_2.index t (1 : Fin 2) * 2048 ≤ (i 1).val ∧ (i 1).val < win3_2.index t (1 : Fin 2) * 2048 + 2048
    omega

/-- The output array after the region is real-valued when the two operand arrays, as the region finds them, are. -/
theorem out3_real (c : Dev nD) (hA : ∀ j, IsR (V c (Pipeline.arrRef spec3 0) j)) (hB : ∀ j, IsR (V c (Pipeline.arrRef spec3 1) j)) :
    ∀ j, IsR ((dat3 (F := Ideal) V c).arrAt 2 cfg3.N j) :=
  (dat3 (F := Ideal) V c).arrAt_forall_of_cover 2 (fun _ v => IsR v)
    (fun t _ y => by
      show IsR ((cfg3.win 2).cut (grid3.coords t) ((dat3 (F := Ideal) V c).after 2 t) y)
      rw [after3_2]
      exact acc3_real V c hA hB t.val t.isLt _)
    cover3

end ValRegion3

end Cert.KernelIdeal.Hand

end
-- ==== Proof.KI.ValRegion4.lean ====
/-
  Region 4's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region4
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k4_pay1_real (j : S1024x2048.Idx) : IsR ((k4_pay1 (F := Ideal)) j) := by
  unfold k4_pay1
  rw [shapeCast_self]
  exact IsR.ofBits_zero_f32

/-- The body's payload — what it started from plus the product of the two blocks — is real-valued when the three are. -/
theorem k4_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k4_pay2 (F := Ideal) z xl xr j) := by
  unfold k4_pay2
  simp only [shapeCast_self]
  exact IsR.addf z _ hz (IsR.matmul_zero _ none xl xr hk hr) j

section ValRegion4
variable (V : (c : Dev nD) → (b : Ref sig .tc) → Buf (Elt Ideal) ((c : Thread nD τ).loc b))

/-! ## Every block of a real-valued array is real-valued: each of its entries is an entry of the array -/

theorem iblk4_0_real (c : Dev nD) (hA : ∀ j, IsR (V c (Pipeline.arrRef spec4 0) j)) (t : Fin cfg4.N) (y : S1024x1024.Idx) :
    IsR (iblk4 V c 0 t y) := by
  unfold iblk4
  rw [View.read_apply]
  exact hA _

theorem iblk4_1_real (c : Dev nD) (hB : ∀ j, IsR (V c (Pipeline.arrRef spec4 1) j)) (t : Fin cfg4.N) (y : S1024x2048.Idx) :
    IsR (iblk4 V c 1 t y) := by
  unfold iblk4
  rw [View.read_apply]
  exact hB _

/-! ## The accumulator is real-valued at every grid point -/

theorem acc4_real (c : Dev nD) (hA : ∀ j, IsR (V c (Pipeline.arrRef spec4 0) j)) (hB : ∀ j, IsR (V c (Pipeline.arrRef spec4 1) j)) :
    ∀ (n : ℕ) (hn : n < cfg4.N) (j : S1024x2048.Idx), IsR (acc4 V c n hn j) := by
  intro n
  induction n with
  | zero =>
    intro hn j
    show IsR (k4_pay2 (k4_pay1 (F := Ideal)) (iblk4 V c 0 ⟨0, hn⟩) (iblk4 V c 1 ⟨0, hn⟩) j)
    exact k4_pay2_real (k4_pay1 (F := Ideal)) (iblk4 V c 0 ⟨0, hn⟩) (iblk4 V c 1 ⟨0, hn⟩) k4_pay1_real
      (iblk4_0_real V c hA ⟨0, hn⟩) (iblk4_1_real V c hB ⟨0, hn⟩) j
  | succ n ih =>
    intro hn j
    by_cases hk : (n + 1) % 4 = 0
    · have e : acc4 V c (n + 1) hn
          = k4_pay2 (k4_pay1 (F := Ideal)) (iblk4 V c 0 ⟨n + 1, hn⟩) (iblk4 V c 1 ⟨n + 1, hn⟩) :=
        acc4_first V c ⟨n + 1, hn⟩ hk
      rw [e]
      exact k4_pay2_real (k4_pay1 (F := Ideal)) (iblk4 V c 0 ⟨n + 1, hn⟩) (iblk4 V c 1 ⟨n + 1, hn⟩) k4_pay1_real
        (iblk4_0_real V c hA ⟨n + 1, hn⟩) (iblk4_1_real V c hB ⟨n + 1, hn⟩) j
    · have e : acc4 V c (n + 1) hn
          = k4_pay2 (acc4 V c n (Nat.lt_of_succ_lt hn)) (iblk4 V c 0 ⟨n + 1, hn⟩) (iblk4 V c 1 ⟨n + 1, hn⟩) :=
        acc4_next V c ⟨n + 1, hn⟩ hk
      rw [e]
      exact k4_pay2_real (acc4 V c n (Nat.lt_of_succ_lt hn)) (iblk4 V c 0 ⟨n + 1, hn⟩) (iblk4 V c 1 ⟨n + 1, hn⟩)
        (ih (Nat.lt_of_succ_lt hn)) (iblk4_0_real V c hA ⟨n + 1, hn⟩) (iblk4_1_real V c hB ⟨n + 1, hn⟩) j

/-! ## From the blocks to the array -/

/-- The output window's block index at every grid point: the point's row-block number, and the one column block. -/
theorem idx4 : ∀ t : Fin cfg4.N, win4_2.index t (0 : Fin 2) = t.val / 4 ∧ win4_2.index t (1 : Fin 2) = 0 :=
  (by decide +kernel : ∀ t : Fin grid4.N, _)

/-- An index of the output array is in point `t`'s block iff each coordinate is in the block's range on its axis. -/
theorem mem_blk4 (t : Fin cfg4.N) (i : S4096x2048.Idx) :
    i ∈ ((cfg4.win 2).blk t).view.set
      ↔ ∀ a : Fin 2, win4_2.index t a * S1024x2048.size a ≤ (i a).val
          ∧ (i a).val < win4_2.index t a * S1024x2048.size a + S1024x2048.size a := by
  show i ∈ ((View.whole (Pipeline.arrRef spec4 2)).slice (win4_2.rect t)).set ↔ _
  rw [View.set_slice_whole, Rect.mem_set_unit]
  exact Iff.rfl

/-- Every row of the output array is in the block written back at the last point of its row block's run. -/
theorem cover4 (i : S4096x2048.Idx) :
    ∃ t : Fin cfg4.N, (cfg4.win 2).flush t = true ∧ i ∈ ((cfg4.win 2).blk t).view.set := by
  have hir : (i 0).val < 4096 := (i 0).isLt
  have hic : (i 1).val < 2048 := (i 1).isLt
  have hN : cfg4.N = 16 := N_4
  let t : Fin cfg4.N := ⟨(i 0).val / 1024 * 4 + 3, by rw [hN]; omega⟩
  obtain ⟨er, ec⟩ := idx4 t
  have er' : win4_2.index t (0 : Fin 2) = ((i 0).val / 1024 * 4 + 3) / 4 := er
  have hf : (cfg4.win 2).flush t = true :=
    (flush4_2 t).mpr (show ((i 0).val / 1024 * 4 + 3) % 4 = 3 by omega)
  refine ⟨t, hf, ?_⟩
  rw [mem_blk4]
  intro a
  match a with
  | ⟨0, _⟩ =>
    show win4_2.index t (0 : Fin 2) * 1024 ≤ (i 0).val ∧ (i 0).val < win4_2.index t (0 : Fin 2) * 1024 + 1024
    omega
  | ⟨1, _⟩ =>
    show win4_2.index t (1 : Fin 2) * 2048 ≤ (i 1).val ∧ (i 1).val < win4_2.index t (1 : Fin 2) * 2048 + 2048
    omega

/-- The output array after the region is real-valued when the two operand arrays, as the region finds them, are. -/
theorem out4_real (c : Dev nD) (hA : ∀ j, IsR (V c (Pipeline.arrRef spec4 0) j)) (hB : ∀ j, IsR (V c (Pipeline.arrRef spec4 1) j)) :
    ∀ j, IsR ((dat4 (F := Ideal) V c).arrAt 2 cfg4.N j) :=
  (dat4 (F := Ideal) V c).arrAt_forall_of_cover 2 (fun _ v => IsR v)
    (fun t _ y => by
      show IsR ((cfg4.win 2).cut (grid4.coords t) ((dat4 (F := Ideal) V c).after 2 t) y)
      rw [after4_2]
      exact acc4_real V c hA hB t.val t.isLt _)
    cover4

end ValRegion4

end Cert.KernelIdeal.Hand

end
-- ==== Proof.KI.ValRegion5.lean ====
/-
  Region 5's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region5
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k5_pay1_real (j : S1024x2048.Idx) : IsR ((k5_pay1 (F := Ideal)) j) := by
  unfold k5_pay1
  rw [shapeCast_self]
  exact IsR.ofBits_zero_f32

/-- The body's payload — what it started from plus the product of the two blocks — is real-valued when the three are. -/
theorem k5_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k5_pay2 (F := Ideal) z xl xr j) := by
  unfold k5_pay2
  simp only [shapeCast_self]
  exact IsR.addf z _ hz (IsR.matmul_zero _ none xl xr hk hr) j

section ValRegion5
variable (V : (c : Dev nD) → (b : Ref sig .tc) → Buf (Elt Ideal) ((c : Thread nD τ).loc b))

/-! ## Every block of a real-valued array is real-valued: each of its entries is an entry of the array -/

theorem iblk5_0_real (c : Dev nD) (hA : ∀ j, IsR (V c (Pipeline.arrRef spec5 0) j)) (t : Fin cfg5.N) (y : S1024x1024.Idx) :
    IsR (iblk5 V c 0 t y) := by
  unfold iblk5
  rw [View.read_apply]
  exact hA _

theorem iblk5_1_real (c : Dev nD) (hB : ∀ j, IsR (V c (Pipeline.arrRef spec5 1) j)) (t : Fin cfg5.N) (y : S1024x2048.Idx) :
    IsR (iblk5 V c 1 t y) := by
  unfold iblk5
  rw [View.read_apply]
  exact hB _

/-! ## The accumulator is real-valued at every grid point -/

theorem acc5_real (c : Dev nD) (hA : ∀ j, IsR (V c (Pipeline.arrRef spec5 0) j)) (hB : ∀ j, IsR (V c (Pipeline.arrRef spec5 1) j)) :
    ∀ (n : ℕ) (hn : n < cfg5.N) (j : S1024x2048.Idx), IsR (acc5 V c n hn j) := by
  intro n
  induction n with
  | zero =>
    intro hn j
    show IsR (k5_pay2 (k5_pay1 (F := Ideal)) (iblk5 V c 0 ⟨0, hn⟩) (iblk5 V c 1 ⟨0, hn⟩) j)
    exact k5_pay2_real (k5_pay1 (F := Ideal)) (iblk5 V c 0 ⟨0, hn⟩) (iblk5 V c 1 ⟨0, hn⟩) k5_pay1_real
      (iblk5_0_real V c hA ⟨0, hn⟩) (iblk5_1_real V c hB ⟨0, hn⟩) j
  | succ n ih =>
    intro hn j
    by_cases hk : (n + 1) % 4 = 0
    · have e : acc5 V c (n + 1) hn
          = k5_pay2 (k5_pay1 (F := Ideal)) (iblk5 V c 0 ⟨n + 1, hn⟩) (iblk5 V c 1 ⟨n + 1, hn⟩) :=
        acc5_first V c ⟨n + 1, hn⟩ hk
      rw [e]
      exact k5_pay2_real (k5_pay1 (F := Ideal)) (iblk5 V c 0 ⟨n + 1, hn⟩) (iblk5 V c 1 ⟨n + 1, hn⟩) k5_pay1_real
        (iblk5_0_real V c hA ⟨n + 1, hn⟩) (iblk5_1_real V c hB ⟨n + 1, hn⟩) j
    · have e : acc5 V c (n + 1) hn
          = k5_pay2 (acc5 V c n (Nat.lt_of_succ_lt hn)) (iblk5 V c 0 ⟨n + 1, hn⟩) (iblk5 V c 1 ⟨n + 1, hn⟩) :=
        acc5_next V c ⟨n + 1, hn⟩ hk
      rw [e]
      exact k5_pay2_real (acc5 V c n (Nat.lt_of_succ_lt hn)) (iblk5 V c 0 ⟨n + 1, hn⟩) (iblk5 V c 1 ⟨n + 1, hn⟩)
        (ih (Nat.lt_of_succ_lt hn)) (iblk5_0_real V c hA ⟨n + 1, hn⟩) (iblk5_1_real V c hB ⟨n + 1, hn⟩) j

/-! ## From the blocks to the array -/

/-- The output window's block index at every grid point: the point's row-block number, and the one column block. -/
theorem idx5 : ∀ t : Fin cfg5.N, win5_2.index t (0 : Fin 2) = t.val / 4 ∧ win5_2.index t (1 : Fin 2) = 0 :=
  (by decide +kernel : ∀ t : Fin grid5.N, _)

/-- An index of the output array is in point `t`'s block iff each coordinate is in the block's range on its axis. -/
theorem mem_blk5 (t : Fin cfg5.N) (i : S4096x2048.Idx) :
    i ∈ ((cfg5.win 2).blk t).view.set
      ↔ ∀ a : Fin 2, win5_2.index t a * S1024x2048.size a ≤ (i a).val
          ∧ (i a).val < win5_2.index t a * S1024x2048.size a + S1024x2048.size a := by
  show i ∈ ((View.whole (Pipeline.arrRef spec5 2)).slice (win5_2.rect t)).set ↔ _
  rw [View.set_slice_whole, Rect.mem_set_unit]
  exact Iff.rfl

/-- Every row of the output array is in the block written back at the last point of its row block's run. -/
theorem cover5 (i : S4096x2048.Idx) :
    ∃ t : Fin cfg5.N, (cfg5.win 2).flush t = true ∧ i ∈ ((cfg5.win 2).blk t).view.set := by
  have hir : (i 0).val < 4096 := (i 0).isLt
  have hic : (i 1).val < 2048 := (i 1).isLt
  have hN : cfg5.N = 16 := N_5
  let t : Fin cfg5.N := ⟨(i 0).val / 1024 * 4 + 3, by rw [hN]; omega⟩
  obtain ⟨er, ec⟩ := idx5 t
  have er' : win5_2.index t (0 : Fin 2) = ((i 0).val / 1024 * 4 + 3) / 4 := er
  have hf : (cfg5.win 2).flush t = true :=
    (flush5_2 t).mpr (show ((i 0).val / 1024 * 4 + 3) % 4 = 3 by omega)
  refine ⟨t, hf, ?_⟩
  rw [mem_blk5]
  intro a
  match a with
  | ⟨0, _⟩ =>
    show win5_2.index t (0 : Fin 2) * 1024 ≤ (i 0).val ∧ (i 0).val < win5_2.index t (0 : Fin 2) * 1024 + 1024
    omega
  | ⟨1, _⟩ =>
    show win5_2.index t (1 : Fin 2) * 2048 ≤ (i 1).val ∧ (i 1).val < win5_2.index t (1 : Fin 2) * 2048 + 2048
    omega

/-- The output array after the region is real-valued when the two operand arrays, as the region finds them, are. -/
theorem out5_real (c : Dev nD) (hA : ∀ j, IsR (V c (Pipeline.arrRef spec5 0) j)) (hB : ∀ j, IsR (V c (Pipeline.arrRef spec5 1) j)) :
    ∀ j, IsR ((dat5 (F := Ideal) V c).arrAt 2 cfg5.N j) :=
  (dat5 (F := Ideal) V c).arrAt_forall_of_cover 2 (fun _ v => IsR v)
    (fun t _ y => by
      show IsR ((cfg5.win 2).cut (grid5.coords t) ((dat5 (F := Ideal) V c).after 2 t) y)
      rw [after5_2]
      exact acc5_real V c hA hB t.val t.isLt _)
    cover5

end ValRegion5

end Cert.KernelIdeal.Hand

end
-- ==== Proof.KI.ValRegion6.lean ====
/-
  Region 6's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region6
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k6_pay1_real (j : S1024x2048.Idx) : IsR ((k6_pay1 (F := Ideal)) j) := by
  unfold k6_pay1
  rw [shapeCast_self]
  exact IsR.ofBits_zero_f32

/-- The body's payload — what it started from plus the product of the two blocks — is real-valued when the three are. -/
theorem k6_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k6_pay2 (F := Ideal) z xl xr j) := by
  unfold k6_pay2
  simp only [shapeCast_self]
  exact IsR.addf z _ hz (IsR.matmul_zero _ none xl xr hk hr) j

section ValRegion6
variable (V : (c : Dev nD) → (b : Ref sig .tc) → Buf (Elt Ideal) ((c : Thread nD τ).loc b))

/-! ## Every block of a real-valued array is real-valued: each of its entries is an entry of the array -/

theorem iblk6_0_real (c : Dev nD) (hA : ∀ j, IsR (V c (Pipeline.arrRef spec6 0) j)) (t : Fin cfg6.N) (y : S1024x1024.Idx) :
    IsR (iblk6 V c 0 t y) := by
  unfold iblk6
  rw [View.read_apply]
  exact hA _

theorem iblk6_1_real (c : Dev nD) (hB : ∀ j, IsR (V c (Pipeline.arrRef spec6 1) j)) (t : Fin cfg6.N) (y : S1024x2048.Idx) :
    IsR (iblk6 V c 1 t y) := by
  unfold iblk6
  rw [View.read_apply]
  exact hB _

/-! ## The accumulator is real-valued at every grid point -/

theorem acc6_real (c : Dev nD) (hA : ∀ j, IsR (V c (Pipeline.arrRef spec6 0) j)) (hB : ∀ j, IsR (V c (Pipeline.arrRef spec6 1) j)) :
    ∀ (n : ℕ) (hn : n < cfg6.N) (j : S1024x2048.Idx), IsR (acc6 V c n hn j) := by
  intro n
  induction n with
  | zero =>
    intro hn j
    show IsR (k6_pay2 (k6_pay1 (F := Ideal)) (iblk6 V c 0 ⟨0, hn⟩) (iblk6 V c 1 ⟨0, hn⟩) j)
    exact k6_pay2_real (k6_pay1 (F := Ideal)) (iblk6 V c 0 ⟨0, hn⟩) (iblk6 V c 1 ⟨0, hn⟩) k6_pay1_real
      (iblk6_0_real V c hA ⟨0, hn⟩) (iblk6_1_real V c hB ⟨0, hn⟩) j
  | succ n ih =>
    intro hn j
    by_cases hk : (n + 1) % 4 = 0
    · have e : acc6 V c (n + 1) hn
          = k6_pay2 (k6_pay1 (F := Ideal)) (iblk6 V c 0 ⟨n + 1, hn⟩) (iblk6 V c 1 ⟨n + 1, hn⟩) :=
        acc6_first V c ⟨n + 1, hn⟩ hk
      rw [e]
      exact k6_pay2_real (k6_pay1 (F := Ideal)) (iblk6 V c 0 ⟨n + 1, hn⟩) (iblk6 V c 1 ⟨n + 1, hn⟩) k6_pay1_real
        (iblk6_0_real V c hA ⟨n + 1, hn⟩) (iblk6_1_real V c hB ⟨n + 1, hn⟩) j
    · have e : acc6 V c (n + 1) hn
          = k6_pay2 (acc6 V c n (Nat.lt_of_succ_lt hn)) (iblk6 V c 0 ⟨n + 1, hn⟩) (iblk6 V c 1 ⟨n + 1, hn⟩) :=
        acc6_next V c ⟨n + 1, hn⟩ hk
      rw [e]
      exact k6_pay2_real (acc6 V c n (Nat.lt_of_succ_lt hn)) (iblk6 V c 0 ⟨n + 1, hn⟩) (iblk6 V c 1 ⟨n + 1, hn⟩)
        (ih (Nat.lt_of_succ_lt hn)) (iblk6_0_real V c hA ⟨n + 1, hn⟩) (iblk6_1_real V c hB ⟨n + 1, hn⟩) j

/-! ## From the blocks to the array -/

/-- The output window's block index at every grid point: the point's row-block number, and the one column block. -/
theorem idx6 : ∀ t : Fin cfg6.N, win6_2.index t (0 : Fin 2) = t.val / 4 ∧ win6_2.index t (1 : Fin 2) = 0 :=
  (by decide +kernel : ∀ t : Fin grid6.N, _)

/-- An index of the output array is in point `t`'s block iff each coordinate is in the block's range on its axis. -/
theorem mem_blk6 (t : Fin cfg6.N) (i : S4096x2048.Idx) :
    i ∈ ((cfg6.win 2).blk t).view.set
      ↔ ∀ a : Fin 2, win6_2.index t a * S1024x2048.size a ≤ (i a).val
          ∧ (i a).val < win6_2.index t a * S1024x2048.size a + S1024x2048.size a := by
  show i ∈ ((View.whole (Pipeline.arrRef spec6 2)).slice (win6_2.rect t)).set ↔ _
  rw [View.set_slice_whole, Rect.mem_set_unit]
  exact Iff.rfl

/-- Every row of the output array is in the block written back at the last point of its row block's run. -/
theorem cover6 (i : S4096x2048.Idx) :
    ∃ t : Fin cfg6.N, (cfg6.win 2).flush t = true ∧ i ∈ ((cfg6.win 2).blk t).view.set := by
  have hir : (i 0).val < 4096 := (i 0).isLt
  have hic : (i 1).val < 2048 := (i 1).isLt
  have hN : cfg6.N = 16 := N_6
  let t : Fin cfg6.N := ⟨(i 0).val / 1024 * 4 + 3, by rw [hN]; omega⟩
  obtain ⟨er, ec⟩ := idx6 t
  have er' : win6_2.index t (0 : Fin 2) = ((i 0).val / 1024 * 4 + 3) / 4 := er
  have hf : (cfg6.win 2).flush t = true :=
    (flush6_2 t).mpr (show ((i 0).val / 1024 * 4 + 3) % 4 = 3 by omega)
  refine ⟨t, hf, ?_⟩
  rw [mem_blk6]
  intro a
  match a with
  | ⟨0, _⟩ =>
    show win6_2.index t (0 : Fin 2) * 1024 ≤ (i 0).val ∧ (i 0).val < win6_2.index t (0 : Fin 2) * 1024 + 1024
    omega
  | ⟨1, _⟩ =>
    show win6_2.index t (1 : Fin 2) * 2048 ≤ (i 1).val ∧ (i 1).val < win6_2.index t (1 : Fin 2) * 2048 + 2048
    omega

/-- The output array after the region is real-valued when the two operand arrays, as the region finds them, are. -/
theorem out6_real (c : Dev nD) (hA : ∀ j, IsR (V c (Pipeline.arrRef spec6 0) j)) (hB : ∀ j, IsR (V c (Pipeline.arrRef spec6 1) j)) :
    ∀ j, IsR ((dat6 (F := Ideal) V c).arrAt 2 cfg6.N j) :=
  (dat6 (F := Ideal) V c).arrAt_forall_of_cover 2 (fun _ v => IsR v)
    (fun t _ y => by
      show IsR ((cfg6.win 2).cut (grid6.coords t) ((dat6 (F := Ideal) V c).after 2 t) y)
      rw [after6_2]
      exact acc6_real V c hA hB t.val t.isLt _)
    cover6

end ValRegion6

end Cert.KernelIdeal.Hand

end
-- ==== Proof.KI.ValRegion7.lean ====
/-
  Region 7's output array is real-valued when its two operand arrays are: every block of a real-valued array is
  real-valued, the body's arithmetic keeps real values, so the accumulator is real-valued at every grid point, and
  every entry of the output array is written back from the accumulator at some point.
-/
import proofs.«156564_j46222438039786_1_alg».proof.Proof.KI.Region7
import proofs.«156564_j46222438039786_1_alg».proof.Proof.LibRealBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Common Cert.RealBlocks
open Idealize.ShloMosaic Idealize.ShloMosaic.TcCoe Idealize.ShloMosaic.ValueIdx
open Idealize.SL.Sem
open Idealize.ShloMosaic.Pipeline (Dat Cfg Window)

/-! ## The body's arithmetic keeps real values -/

/-- The block the accumulator is reset to is zero, a real number, at every index. -/
theorem k7_pay1_real (j : S1024x2048.Idx) : IsR ((k7_pay1 (F := Ideal)) j) := by
  unfold k7_pay1
  rw [shapeCast_self]
  exact IsR.ofBits_zero_f32

/-- The body's payload — what it started from plus the product of the two blocks — is real-valued when the three are. -/
theorem k7_pay2_real (z : FVec Ideal S1024x2048 .f32) (xl : FVec Ideal S1024x1024 .bf16) (xr : FVec Ideal S1024x2048 .bf16)
    (hz : ∀ j, IsR (z j)) (hk : ∀ j, IsR (xl j)) (hr : ∀ j, IsR (xr j)) (j : S1024x2048.Idx) :
    IsR (k7_pay2 (F := Ideal) z xl xr j) := by
  unfold k7_pay2
  simp only [shapeCast_self]
  exact IsR.addf z _ hz (IsR.matmul_zero _ none xl xr hk hr) j

section ValRegion7
variable (V : (c : Dev nD) → (b : Ref sig .tc) → Buf (Elt Ideal) ((c : Thread nD τ).loc b))

/-! ## Every block of a real-valued array is real-valued: each of its entries is an entry of the array -/

theorem iblk7_0_real (c : Dev nD) (hA : ∀ j, IsR (V c (Pipeline.arrRef spec7 0) j)) (t : Fin cfg7.N) (y : S1024x1024.Idx) :
    IsR (iblk7 V c 0 t y) := by
  unfold iblk7
  rw [View.read_apply]
  exact hA _

theorem iblk7_1_real (c : Dev nD) (hB : ∀ j, IsR (V c (Pipeline.arrRef spec7 1) j)) (t : Fin cfg7.N) (y : S1024x2048.Idx) :
    IsR (iblk7 V c 1 t y) := by
  unfold iblk7
  rw [View.read_apply]
  exact hB _

/-! ## The accumulator is real-valued at every grid point -/

theorem acc7_real (c : Dev nD) (hA : ∀ j, IsR (V c (Pipeline.arrRef spec7 0) j)) (hB : ∀ j, IsR (V c (Pipeline.arrRef spec7 1) j)) :
    ∀ (n : ℕ) (hn : n < cfg7.N) (j : S1024x2048.Idx), IsR (acc7 V c n hn j) := by
  intro n
  induction n with
  | zero =>
    intro hn j
    show IsR (k7_pay2 (k7_pay1 (F := Ideal)) (iblk7 V c 0 ⟨0, hn⟩) (iblk7 V c 1 ⟨0, hn⟩) j)
    exact k7_pay2_real (k7_pay1 (F := Ideal)) (iblk7 V c 0 ⟨0, hn⟩) (iblk7 V c 1 ⟨0, hn⟩) k7_pay1_real
      (iblk7_0_real V c hA ⟨0, hn⟩) (iblk7_1_real V c hB ⟨0, hn⟩) j
  | succ n ih =>
    intro hn j
    by_cases hk : (n + 1) % 4 = 0
    · have e : acc7 V c (n + 1) hn
          = k7_pay2 (k7_pay1 (F := Ideal)) (iblk7 V c 0 ⟨n + 1, hn⟩) (iblk7 V c 1 ⟨n + 1, hn⟩) :=
        acc7_first V c ⟨n + 1, hn⟩ hk
      rw [e]
      exact k7_pay2_real (k7_pay1 (F := Ideal)) (iblk7 V c 0 ⟨n + 1, hn⟩) (iblk7 V c 1 ⟨n + 1, hn⟩) k7_pay1_real
        (iblk7_0_real V c hA ⟨n + 1, hn⟩) (iblk7_1_real V c hB ⟨n + 1, hn⟩) j
    · have e : acc7 V c (n + 1) hn
          = k7_pay2 (acc7 V c n (Nat.lt_of_succ_lt hn)) (iblk7 V c 0 ⟨n + 1, hn⟩) (iblk7 V c 1 ⟨n + 1, hn⟩) :=
        acc7_next V c ⟨n + 1, hn⟩ hk
      rw [e]
      exact k7_pay2_real (acc7 V c n (Nat.lt_of_succ_lt hn)) (iblk7 V c 0 ⟨n + 1, hn⟩) (iblk7 V c 1 ⟨n + 1, hn⟩)
        (ih (Nat.lt_of_succ_lt hn)) (iblk7_0_real V c hA ⟨n + 1, hn⟩) (iblk7_1_real V c hB ⟨n + 1, hn⟩) j

/-! ## From the blocks to the array -/

/-- The output window's block index at every grid point: the point's row-block number, and the one column block. -/
theorem idx7 : ∀ t : Fin cfg7.N, win7_2.index t (0 : Fin 2) = t.val / 4 ∧ win7_2.index t (1 : Fin 2) = 0 :=
  (by decide +kernel : ∀ t : Fin grid7.N, _)

/-- An index of the output array is in point `t`'s block iff each coordinate is in the block's range on its axis. -/
theorem mem_blk7 (t : Fin cfg7.N) (i : S4096x2048.Idx) :
    i ∈ ((cfg7.win 2).blk t).view.set
      ↔ ∀ a : Fin 2, win7_2.index t a * S1024x2048.size a ≤ (i a).val
          ∧ (i a).val < win7_2.index t a * S1024x2048.size a + S1024x2048.size a := by
  show i ∈ ((View.whole (Pipeline.arrRef spec7 2)).slice (win7_2.rect t)).set ↔ _
  rw [View.set_slice_whole, Rect.mem_set_unit]
  exact Iff.rfl

/-- Every row of the output array is in the block written back at the last point of its row block's run. -/
theorem cover7 (i : S4096x2048.Idx) :
    ∃ t : Fin cfg7.N, (cfg7.win 2).flush t = true ∧ i ∈ ((cfg7.win 2).blk t).view.set := by
  have hir : (i 0).val < 4096 := (i 0).isLt
  have hic : (i 1).val < 2048 := (i 1).isLt
  have hN : cfg7.N = 16 := N_7
  let t : Fin cfg7.N := ⟨(i 0).val / 1024 * 4 + 3, by rw [hN]; omega⟩
  obtain ⟨er, ec⟩ := idx7 t
  have er' : win7_2.index t (0 : Fin 2) = ((i 0).val / 1024 * 4 + 3) / 4 := er
  have hf : (cfg7.win 2).flush t = true :=
    (flush7_2 t).mpr (show ((i 0).val / 1024 * 4 + 3) % 4 = 3 by omega)
  refine ⟨t, hf, ?_⟩
  rw [mem_blk7]
  intro a
  match a with
  | ⟨0, _⟩ =>
    show win7_2.index t (0 : Fin 2) * 1024 ≤ (i 0).val ∧ (i 0).val < win7_2.index t (0 : Fin 2) * 1024 + 1024
    omega
  | ⟨1, _⟩ =>
    show win7_2.index t (1 : Fin 2) * 2048 ≤ (i 1).val ∧ (i 1).val < win7_2.index t (1 : Fin 2) * 2048 + 2048
    omega

/-- The output array after the region is real-valued when the two operand arrays, as the region finds them, are. -/
theorem out7_real (c : Dev nD) (hA : ∀ j, IsR (V c (Pipeline.arrRef spec7 0) j)) (hB : ∀ j, IsR (V c (Pipeline.arrRef spec7 1) j)) :
    ∀ j, IsR ((dat7 (F := Ideal) V c).arrAt 2 cfg7.N j) :=
  (dat7 (F := Ideal) V c).arrAt_forall_of_cover 2 (fun _ v => IsR v)
    (fun t _ y => by
      show IsR ((cfg7.win 2).cut (grid7.coords t) ((dat7 (F := Ideal) V c).after 2 t) y)
      rw [after7_2]
      exact acc7_real V c hA hB t.val t.isLt _)
    cover7

end ValRegion7

end Cert.KernelIdeal.Hand

end
-- ==== Proof.KI.OffReal.lean ====
/-
  Every one of the eight blocked products leaves a real-valued output array: its left operand is the scattered
  matrix, real-valued at every region's entry, and its right operand is the two real-valued halves of the iterate set
  side by side; a product of real-valued arrays accumulated over the blocks is real-valued.
-/
import proofs.«156564_j46222438039786_1_alg».proof.Proof.KI.Operands
import proofs.«156564_j46222438039786_1_alg».proof.Proof.KI.ValRegion0
import proofs.«156564_j46222438039786_1_alg».proof.Proof.KI.ValRegion1
import proofs.«156564_j46222438039786_1_alg».proof.Proof.KI.ValRegion2
import proofs.«156564_j46222438039786_1_alg».proof.Proof.KI.ValRegion3
import proofs.«156564_j46222438039786_1_alg».proof.Proof.KI.ValRegion4
import proofs.«156564_j46222438039786_1_alg».proof.Proof.KI.ValRegion5
import proofs.«156564_j46222438039786_1_alg».proof.Proof.KI.ValRegion6
import proofs.«156564_j46222438039786_1_alg».proof.Proof.KI.ValRegion7
import Idealize.ShloMosaic.Lib.StableHlo.Run

set_option maxRecDepth 16384

noncomputable section

namespace Cert.KernelIdeal.Hand

open Cert.KernelIdeal Cert.KernelIdeal.Gen Cert.Common Cert.RealBlocks Cert.Spec
open Idealize.ShloMosaic Idealize.ShloMosaic.TcCoe Idealize.ShloMosaic.Tactic Idealize.ShloMosaic.ValueIdx
open Idealize.SL Idealize.SL.Sem
open Idealize.ShloMosaic.Pipeline (Dat Cfg Window)

/-- Running two stretches of host operations one after the other is running their concatenation. -/
theorem after_append' {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

variable (m : (ℓ : Loc nD τ sig) → Buf (Elt Ideal) ℓ) (ρ : Dev nD → PrngReg)

/-- Region 0's right operand at its entry — the real and imaginary halves set side by side, then narrowed — is
    real-valued when the two halves are. -/
theorem rightReal_0 (c : Dev nD)
    (hr : AllReal (S := S4096x1024) (B1 m ρ c (Proc.devRef .tc main_v2)))
    (hi : AllReal (S := S4096x1024) (B1 m ρ c (Proc.devRef .tc main_v25))) :
    AllReal (S := S4096x2048) (B1 m ρ c (Proc.devRef .tc main_v27)) := by
  have hr' : AllReal (S := S4096x1024) (StableHlo.after hostOps0 (B0 m ρ c) (Proc.devRef .tc main_v2)) := hr
  have hi' : AllReal (S := S4096x1024) (StableHlo.after hostOps0 (B0 m ρ c) (Proc.devRef .tc main_v25)) := hi
  show AllReal (S := S4096x2048) (StableHlo.after hostOps0 (B0 m ρ c) (Proc.devRef .tc main_v27))
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 0's output array at its exit is real-valued when the scattered updates and the two halves of its right
    operand are. -/
theorem offReal_0 (c : Dev nD) (hv : AllReal (S := S16638) (m ((c : Thread nD τ).loc main_arg4)))
    (hr : AllReal (S := S4096x1024) (B1 m ρ c (Proc.devRef .tc main_v2)))
    (hi : AllReal (S := S4096x1024) (B1 m ρ c (Proc.devRef .tc main_v25))) :
    AllReal (S := S4096x2048) (B2 m ρ c (Proc.devRef .tc main_v28)) := by
  have hA := B1_left_real m ρ c hv
  have hB := rightReal_0 m ρ c hr hi
  intro j
  show IsR (B2 m ρ c (Proc.devRef .tc (Pipeline.arrRef spec0 2)) j)
  rw [show B2 m ρ c (Proc.devRef .tc (Pipeline.arrRef spec0 2)) j = (dat0 (VB1 m ρ) c).arrAt 2 cfg0.N j from
    congrFun (B2_arr m ρ c 2) j]
  exact out0_real (VB1 m ρ) c (fun i => hA i) (fun i => hB i) j

/-- Region 1's right operand at its entry — the real and imaginary halves set side by side, then narrowed, by the
    last two operations of the stretch before it — is real-valued when the two halves are. -/
theorem rightReal_1 (c : Dev nD)
    (hr : AllReal (S := S4096x1024) (B3 m ρ c (Proc.devRef .tc main_v49)))
    (hi : AllReal (S := S4096x1024) (B3 m ρ c (Proc.devRef .tc main_v56))) :
    AllReal (S := S4096x2048) (B3 m ρ c (Proc.devRef .tc main_v58)) := by
  have hd : List.drop 28 (hostOps1 : List (HloOp τ sig (Elt Ideal)))
      = [StableHlo.binary main_v49 main_v56 main_v57 ((fun a b => concatenate S4096x2048 1 [⟨S4096x1024, a⟩, ⟨S4096x1024, b⟩] concatenates_S4096x1024_S4096x1024_S4096x2048_d1) : (⟨S4096x1024, .f32⟩ : BufTy).Contents (Elt Ideal) → (⟨S4096x1024, .f32⟩ : BufTy).Contents (Elt Ideal) → (⟨S4096x2048, .f32⟩ : BufTy).Contents (Elt Ideal)),
         StableHlo.unary main_v57 main_v58 ((fun x => truncf (F := Ideal) .bf16 x bitsLt_bf16_f32) : (⟨S4096x2048, .f32⟩ : BufTy).Contents (Elt Ideal) → (⟨S4096x2048, .bf16⟩ : BufTy).Contents (Elt Ideal))] := rfl
  have key : StableHlo.after hostOps1 (B2 m ρ c)
      = StableHlo.after (List.drop 28 (hostOps1 : List (HloOp τ sig (Elt Ideal))))
          (StableHlo.after (List.take 28 (hostOps1 : List (HloOp τ sig (Elt Ideal)))) (B2 m ρ c)) :=
    (congrArg (fun l => StableHlo.after l (B2 m ρ c)) (List.take_append_drop 28 (hostOps1 : List (HloOp τ sig (Elt Ideal)))).symm).trans
      (after_append' _ _ _)
  rw [hd] at key
  have hr' : AllReal (S := S4096x1024) (StableHlo.after hostOps1 (B2 m ρ c) (Proc.devRef .tc main_v49)) := hr
  have hi' : AllReal (S := S4096x1024) (StableHlo.after hostOps1 (B2 m ρ c) (Proc.devRef .tc main_v56)) := hi
  show AllReal (S := S4096x2048) (StableHlo.after hostOps1 (B2 m ρ c) (Proc.devRef .tc main_v58))
  rw [key] at hr' hi' ⊢
  generalize StableHlo.after (List.take 28 (hostOps1 : List (HloOp τ sig (Elt Ideal)))) (B2 m ρ c) = S at hr' hi' ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 1's output array at its exit is real-valued when the scattered updates and the two halves of its right
    operand are. -/
theorem offReal_1 (c : Dev nD) (hv : AllReal (S := S16638) (m ((c : Thread nD τ).loc main_arg4)))
    (hr : AllReal (S := S4096x1024) (B3 m ρ c (Proc.devRef .tc main_v49)))
    (hi : AllReal (S := S4096x1024) (B3 m ρ c (Proc.devRef .tc main_v56))) :
    AllReal (S := S4096x2048) (B4 m ρ c (Proc.devRef .tc main_v59)) := by
  have hA := B3_left_real m ρ c hv
  have hB := rightReal_1 m ρ c hr hi
  intro j
  show IsR (B4 m ρ c (Proc.devRef .tc (Pipeline.arrRef spec1 2)) j)
  rw [show B4 m ρ c (Proc.devRef .tc (Pipeline.arrRef spec1 2)) j = (dat1 (VB3 m ρ) c).arrAt 2 cfg1.N j from
    congrFun (B4_arr m ρ c 2) j]
  exact out1_real (VB3 m ρ) c (fun i => hA i) (fun i => hB i) j

/-- Region 2's right operand at its entry — the real and imaginary halves set side by side, then narrowed, by the
    last two operations of the stretch before it — is real-valued when the two halves are. -/
theorem rightReal_2 (c : Dev nD)
    (hr : AllReal (S := S4096x1024) (B5 m ρ c (Proc.devRef .tc main_v80)))
    (hi : AllReal (S := S4096x1024) (B5 m ρ c (Proc.devRef .tc main_v87))) :
    AllReal (S := S4096x2048) (B5 m ρ c (Proc.devRef .tc main_v89)) := by
  have hd : List.drop 28 (hostOps2 : List (HloOp τ sig (Elt Ideal)))
      = [StableHlo.binary main_v80 main_v87 main_v88 ((fun a b => concatenate S4096x2048 1 [⟨S4096x1024, a⟩, ⟨S4096x1024, b⟩] concatenates_S4096x1024_S4096x1024_S4096x2048_d1) : (⟨S4096x1024, .f32⟩ : BufTy).Contents (Elt Ideal) → (⟨S4096x1024, .f32⟩ : BufTy).Contents (Elt Ideal) → (⟨S4096x2048, .f32⟩ : BufTy).Contents (Elt Ideal)),
         StableHlo.unary main_v88 main_v89 ((fun x => truncf (F := Ideal) .bf16 x bitsLt_bf16_f32) : (⟨S4096x2048, .f32⟩ : BufTy).Contents (Elt Ideal) → (⟨S4096x2048, .bf16⟩ : BufTy).Contents (Elt Ideal))] := rfl
  have key : StableHlo.after hostOps2 (B4 m ρ c)
      = StableHlo.after (List.drop 28 (hostOps2 : List (HloOp τ sig (Elt Ideal))))
          (StableHlo.after (List.take 28 (hostOps2 : List (HloOp τ sig (Elt Ideal)))) (B4 m ρ c)) :=
    (congrArg (fun l => StableHlo.after l (B4 m ρ c)) (List.take_append_drop 28 (hostOps2 : List (HloOp τ sig (Elt Ideal)))).symm).trans
      (after_append' _ _ _)
  rw [hd] at key
  have hr' : AllReal (S := S4096x1024) (StableHlo.after hostOps2 (B4 m ρ c) (Proc.devRef .tc main_v80)) := hr
  have hi' : AllReal (S := S4096x1024) (StableHlo.after hostOps2 (B4 m ρ c) (Proc.devRef .tc main_v87)) := hi
  show AllReal (S := S4096x2048) (StableHlo.after hostOps2 (B4 m ρ c) (Proc.devRef .tc main_v89))
  rw [key] at hr' hi' ⊢
  generalize StableHlo.after (List.take 28 (hostOps2 : List (HloOp τ sig (Elt Ideal)))) (B4 m ρ c) = S at hr' hi' ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 2's output array at its exit is real-valued when the scattered updates and the two halves of its right
    operand are. -/
theorem offReal_2 (c : Dev nD) (hv : AllReal (S := S16638) (m ((c : Thread nD τ).loc main_arg4)))
    (hr : AllReal (S := S4096x1024) (B5 m ρ c (Proc.devRef .tc main_v80)))
    (hi : AllReal (S := S4096x1024) (B5 m ρ c (Proc.devRef .tc main_v87))) :
    AllReal (S := S4096x2048) (B6 m ρ c (Proc.devRef .tc main_v90)) := by
  have hA := B5_left_real m ρ c hv
  have hB := rightReal_2 m ρ c hr hi
  intro j
  show IsR (B6 m ρ c (Proc.devRef .tc (Pipeline.arrRef spec2 2)) j)
  rw [show B6 m ρ c (Proc.devRef .tc (Pipeline.arrRef spec2 2)) j = (dat2 (VB5 m ρ) c).arrAt 2 cfg2.N j from
    congrFun (B6_arr m ρ c 2) j]
  exact out2_real (VB5 m ρ) c (fun i => hA i) (fun i => hB i) j

/-- Region 3's right operand at its entry — the real and imaginary halves set side by side, then narrowed, by the
    last two operations of the stretch before it — is real-valued when the two halves are. -/
theorem rightReal_3 (c : Dev nD)
    (hr : AllReal (S := S4096x1024) (B7 m ρ c (Proc.devRef .tc main_v111)))
    (hi : AllReal (S := S4096x1024) (B7 m ρ c (Proc.devRef .tc main_v118))) :
    AllReal (S := S4096x2048) (B7 m ρ c (Proc.devRef .tc main_v120)) := by
  have hd : List.drop 28 (hostOps3 : List (HloOp τ sig (Elt Ideal)))
      = [StableHlo.binary main_v111 main_v118 main_v119 ((fun a b => concatenate S4096x2048 1 [⟨S4096x1024, a⟩, ⟨S4096x1024, b⟩] concatenates_S4096x1024_S4096x1024_S4096x2048_d1) : (⟨S4096x1024, .f32⟩ : BufTy).Contents (Elt Ideal) → (⟨S4096x1024, .f32⟩ : BufTy).Contents (Elt Ideal) → (⟨S4096x2048, .f32⟩ : BufTy).Contents (Elt Ideal)),
         StableHlo.unary main_v119 main_v120 ((fun x => truncf (F := Ideal) .bf16 x bitsLt_bf16_f32) : (⟨S4096x2048, .f32⟩ : BufTy).Contents (Elt Ideal) → (⟨S4096x2048, .bf16⟩ : BufTy).Contents (Elt Ideal))] := rfl
  have key : StableHlo.after hostOps3 (B6 m ρ c)
      = StableHlo.after (List.drop 28 (hostOps3 : List (HloOp τ sig (Elt Ideal))))
          (StableHlo.after (List.take 28 (hostOps3 : List (HloOp τ sig (Elt Ideal)))) (B6 m ρ c)) :=
    (congrArg (fun l => StableHlo.after l (B6 m ρ c)) (List.take_append_drop 28 (hostOps3 : List (HloOp τ sig (Elt Ideal)))).symm).trans
      (after_append' _ _ _)
  rw [hd] at key
  have hr' : AllReal (S := S4096x1024) (StableHlo.after hostOps3 (B6 m ρ c) (Proc.devRef .tc main_v111)) := hr
  have hi' : AllReal (S := S4096x1024) (StableHlo.after hostOps3 (B6 m ρ c) (Proc.devRef .tc main_v118)) := hi
  show AllReal (S := S4096x2048) (StableHlo.after hostOps3 (B6 m ρ c) (Proc.devRef .tc main_v120))
  rw [key] at hr' hi' ⊢
  generalize StableHlo.after (List.take 28 (hostOps3 : List (HloOp τ sig (Elt Ideal)))) (B6 m ρ c) = S at hr' hi' ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 3's output array at its exit is real-valued when the scattered updates and the two halves of its right
    operand are. -/
theorem offReal_3 (c : Dev nD) (hv : AllReal (S := S16638) (m ((c : Thread nD τ).loc main_arg4)))
    (hr : AllReal (S := S4096x1024) (B7 m ρ c (Proc.devRef .tc main_v111)))
    (hi : AllReal (S := S4096x1024) (B7 m ρ c (Proc.devRef .tc main_v118))) :
    AllReal (S := S4096x2048) (B8 m ρ c (Proc.devRef .tc main_v121)) := by
  have hA := B7_left_real m ρ c hv
  have hB := rightReal_3 m ρ c hr hi
  intro j
  show IsR (B8 m ρ c (Proc.devRef .tc (Pipeline.arrRef spec3 2)) j)
  rw [show B8 m ρ c (Proc.devRef .tc (Pipeline.arrRef spec3 2)) j = (dat3 (VB7 m ρ) c).arrAt 2 cfg3.N j from
    congrFun (B8_arr m ρ c 2) j]
  exact out3_real (VB7 m ρ) c (fun i => hA i) (fun i => hB i) j

/-- Region 4's right operand at its entry — the real and imaginary halves set side by side, then narrowed, by the
    last two operations of the stretch before it — is real-valued when the two halves are. -/
theorem rightReal_4 (c : Dev nD)
    (hr : AllReal (S := S4096x1024) (B9 m ρ c (Proc.devRef .tc main_v142)))
    (hi : AllReal (S := S4096x1024) (B9 m ρ c (Proc.devRef .tc main_v149))) :
    AllReal (S := S4096x2048) (B9 m ρ c (Proc.devRef .tc main_v151)) := by
  have hd : List.drop 28 (hostOps4 : List (HloOp τ sig (Elt Ideal)))
      = [StableHlo.binary main_v142 main_v149 main_v150 ((fun a b => concatenate S4096x2048 1 [⟨S4096x1024, a⟩, ⟨S4096x1024, b⟩] concatenates_S4096x1024_S4096x1024_S4096x2048_d1) : (⟨S4096x1024, .f32⟩ : BufTy).Contents (Elt Ideal) → (⟨S4096x1024, .f32⟩ : BufTy).Contents (Elt Ideal) → (⟨S4096x2048, .f32⟩ : BufTy).Contents (Elt Ideal)),
         StableHlo.unary main_v150 main_v151 ((fun x => truncf (F := Ideal) .bf16 x bitsLt_bf16_f32) : (⟨S4096x2048, .f32⟩ : BufTy).Contents (Elt Ideal) → (⟨S4096x2048, .bf16⟩ : BufTy).Contents (Elt Ideal))] := rfl
  have key : StableHlo.after hostOps4 (B8 m ρ c)
      = StableHlo.after (List.drop 28 (hostOps4 : List (HloOp τ sig (Elt Ideal))))
          (StableHlo.after (List.take 28 (hostOps4 : List (HloOp τ sig (Elt Ideal)))) (B8 m ρ c)) :=
    (congrArg (fun l => StableHlo.after l (B8 m ρ c)) (List.take_append_drop 28 (hostOps4 : List (HloOp τ sig (Elt Ideal)))).symm).trans
      (after_append' _ _ _)
  rw [hd] at key
  have hr' : AllReal (S := S4096x1024) (StableHlo.after hostOps4 (B8 m ρ c) (Proc.devRef .tc main_v142)) := hr
  have hi' : AllReal (S := S4096x1024) (StableHlo.after hostOps4 (B8 m ρ c) (Proc.devRef .tc main_v149)) := hi
  show AllReal (S := S4096x2048) (StableHlo.after hostOps4 (B8 m ρ c) (Proc.devRef .tc main_v151))
  rw [key] at hr' hi' ⊢
  generalize StableHlo.after (List.take 28 (hostOps4 : List (HloOp τ sig (Elt Ideal)))) (B8 m ρ c) = S at hr' hi' ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 4's output array at its exit is real-valued when the scattered updates and the two halves of its right
    operand are. -/
theorem offReal_4 (c : Dev nD) (hv : AllReal (S := S16638) (m ((c : Thread nD τ).loc main_arg4)))
    (hr : AllReal (S := S4096x1024) (B9 m ρ c (Proc.devRef .tc main_v142)))
    (hi : AllReal (S := S4096x1024) (B9 m ρ c (Proc.devRef .tc main_v149))) :
    AllReal (S := S4096x2048) (B10 m ρ c (Proc.devRef .tc main_v152)) := by
  have hA := B9_left_real m ρ c hv
  have hB := rightReal_4 m ρ c hr hi
  intro j
  show IsR (B10 m ρ c (Proc.devRef .tc (Pipeline.arrRef spec4 2)) j)
  rw [show B10 m ρ c (Proc.devRef .tc (Pipeline.arrRef spec4 2)) j = (dat4 (VB9 m ρ) c).arrAt 2 cfg4.N j from
    congrFun (B10_arr m ρ c 2) j]
  exact out4_real (VB9 m ρ) c (fun i => hA i) (fun i => hB i) j

/-- Region 5's right operand at its entry — the real and imaginary halves set side by side, then narrowed, by the
    last two operations of the stretch before it — is real-valued when the two halves are. -/
theorem rightReal_5 (c : Dev nD)
    (hr : AllReal (S := S4096x1024) (B11 m ρ c (Proc.devRef .tc main_v173)))
    (hi : AllReal (S := S4096x1024) (B11 m ρ c (Proc.devRef .tc main_v180))) :
    AllReal (S := S4096x2048) (B11 m ρ c (Proc.devRef .tc main_v182)) := by
  have hd : List.drop 28 (hostOps5 : List (HloOp τ sig (Elt Ideal)))
      = [StableHlo.binary main_v173 main_v180 main_v181 ((fun a b => concatenate S4096x2048 1 [⟨S4096x1024, a⟩, ⟨S4096x1024, b⟩] concatenates_S4096x1024_S4096x1024_S4096x2048_d1) : (⟨S4096x1024, .f32⟩ : BufTy).Contents (Elt Ideal) → (⟨S4096x1024, .f32⟩ : BufTy).Contents (Elt Ideal) → (⟨S4096x2048, .f32⟩ : BufTy).Contents (Elt Ideal)),
         StableHlo.unary main_v181 main_v182 ((fun x => truncf (F := Ideal) .bf16 x bitsLt_bf16_f32) : (⟨S4096x2048, .f32⟩ : BufTy).Contents (Elt Ideal) → (⟨S4096x2048, .bf16⟩ : BufTy).Contents (Elt Ideal))] := rfl
  have key : StableHlo.after hostOps5 (B10 m ρ c)
      = StableHlo.after (List.drop 28 (hostOps5 : List (HloOp τ sig (Elt Ideal))))
          (StableHlo.after (List.take 28 (hostOps5 : List (HloOp τ sig (Elt Ideal)))) (B10 m ρ c)) :=
    (congrArg (fun l => StableHlo.after l (B10 m ρ c)) (List.take_append_drop 28 (hostOps5 : List (HloOp τ sig (Elt Ideal)))).symm).trans
      (after_append' _ _ _)
  rw [hd] at key
  have hr' : AllReal (S := S4096x1024) (StableHlo.after hostOps5 (B10 m ρ c) (Proc.devRef .tc main_v173)) := hr
  have hi' : AllReal (S := S4096x1024) (StableHlo.after hostOps5 (B10 m ρ c) (Proc.devRef .tc main_v180)) := hi
  show AllReal (S := S4096x2048) (StableHlo.after hostOps5 (B10 m ρ c) (Proc.devRef .tc main_v182))
  rw [key] at hr' hi' ⊢
  generalize StableHlo.after (List.take 28 (hostOps5 : List (HloOp τ sig (Elt Ideal)))) (B10 m ρ c) = S at hr' hi' ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 5's output array at its exit is real-valued when the scattered updates and the two halves of its right
    operand are. -/
theorem offReal_5 (c : Dev nD) (hv : AllReal (S := S16638) (m ((c : Thread nD τ).loc main_arg4)))
    (hr : AllReal (S := S4096x1024) (B11 m ρ c (Proc.devRef .tc main_v173)))
    (hi : AllReal (S := S4096x1024) (B11 m ρ c (Proc.devRef .tc main_v180))) :
    AllReal (S := S4096x2048) (B12 m ρ c (Proc.devRef .tc main_v183)) := by
  have hA := B11_left_real m ρ c hv
  have hB := rightReal_5 m ρ c hr hi
  intro j
  show IsR (B12 m ρ c (Proc.devRef .tc (Pipeline.arrRef spec5 2)) j)
  rw [show B12 m ρ c (Proc.devRef .tc (Pipeline.arrRef spec5 2)) j = (dat5 (VB11 m ρ) c).arrAt 2 cfg5.N j from
    congrFun (B12_arr m ρ c 2) j]
  exact out5_real (VB11 m ρ) c (fun i => hA i) (fun i => hB i) j

/-- Region 6's right operand at its entry — the real and imaginary halves set side by side, then narrowed, by the
    last two operations of the stretch before it — is real-valued when the two halves are. -/
theorem rightReal_6 (c : Dev nD)
    (hr : AllReal (S := S4096x1024) (B13 m ρ c (Proc.devRef .tc main_v204)))
    (hi : AllReal (S := S4096x1024) (B13 m ρ c (Proc.devRef .tc main_v211))) :
    AllReal (S := S4096x2048) (B13 m ρ c (Proc.devRef .tc main_v213)) := by
  have hd : List.drop 28 (hostOps6 : List (HloOp τ sig (Elt Ideal)))
      = [StableHlo.binary main_v204 main_v211 main_v212 ((fun a b => concatenate S4096x2048 1 [⟨S4096x1024, a⟩, ⟨S4096x1024, b⟩] concatenates_S4096x1024_S4096x1024_S4096x2048_d1) : (⟨S4096x1024, .f32⟩ : BufTy).Contents (Elt Ideal) → (⟨S4096x1024, .f32⟩ : BufTy).Contents (Elt Ideal) → (⟨S4096x2048, .f32⟩ : BufTy).Contents (Elt Ideal)),
         StableHlo.unary main_v212 main_v213 ((fun x => truncf (F := Ideal) .bf16 x bitsLt_bf16_f32) : (⟨S4096x2048, .f32⟩ : BufTy).Contents (Elt Ideal) → (⟨S4096x2048, .bf16⟩ : BufTy).Contents (Elt Ideal))] := rfl
  have key : StableHlo.after hostOps6 (B12 m ρ c)
      = StableHlo.after (List.drop 28 (hostOps6 : List (HloOp τ sig (Elt Ideal))))
          (StableHlo.after (List.take 28 (hostOps6 : List (HloOp τ sig (Elt Ideal)))) (B12 m ρ c)) :=
    (congrArg (fun l => StableHlo.after l (B12 m ρ c)) (List.take_append_drop 28 (hostOps6 : List (HloOp τ sig (Elt Ideal)))).symm).trans
      (after_append' _ _ _)
  rw [hd] at key
  have hr' : AllReal (S := S4096x1024) (StableHlo.after hostOps6 (B12 m ρ c) (Proc.devRef .tc main_v204)) := hr
  have hi' : AllReal (S := S4096x1024) (StableHlo.after hostOps6 (B12 m ρ c) (Proc.devRef .tc main_v211)) := hi
  show AllReal (S := S4096x2048) (StableHlo.after hostOps6 (B12 m ρ c) (Proc.devRef .tc main_v213))
  rw [key] at hr' hi' ⊢
  generalize StableHlo.after (List.take 28 (hostOps6 : List (HloOp τ sig (Elt Ideal)))) (B12 m ρ c) = S at hr' hi' ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 6's output array at its exit is real-valued when the scattered updates and the two halves of its right
    operand are. -/
theorem offReal_6 (c : Dev nD) (hv : AllReal (S := S16638) (m ((c : Thread nD τ).loc main_arg4)))
    (hr : AllReal (S := S4096x1024) (B13 m ρ c (Proc.devRef .tc main_v204)))
    (hi : AllReal (S := S4096x1024) (B13 m ρ c (Proc.devRef .tc main_v211))) :
    AllReal (S := S4096x2048) (B14 m ρ c (Proc.devRef .tc main_v214)) := by
  have hA := B13_left_real m ρ c hv
  have hB := rightReal_6 m ρ c hr hi
  intro j
  show IsR (B14 m ρ c (Proc.devRef .tc (Pipeline.arrRef spec6 2)) j)
  rw [show B14 m ρ c (Proc.devRef .tc (Pipeline.arrRef spec6 2)) j = (dat6 (VB13 m ρ) c).arrAt 2 cfg6.N j from
    congrFun (B14_arr m ρ c 2) j]
  exact out6_real (VB13 m ρ) c (fun i => hA i) (fun i => hB i) j

/-- Region 7's right operand at its entry — the real and imaginary halves set side by side, then narrowed, by the
    last two operations of the stretch before it — is real-valued when the two halves are. -/
theorem rightReal_7 (c : Dev nD)
    (hr : AllReal (S := S4096x1024) (B15 m ρ c (Proc.devRef .tc main_v235)))
    (hi : AllReal (S := S4096x1024) (B15 m ρ c (Proc.devRef .tc main_v242))) :
    AllReal (S := S4096x2048) (B15 m ρ c (Proc.devRef .tc main_v244)) := by
  have hd : List.drop 28 (hostOps7 : List (HloOp τ sig (Elt Ideal)))
      = [StableHlo.binary main_v235 main_v242 main_v243 ((fun a b => concatenate S4096x2048 1 [⟨S4096x1024, a⟩, ⟨S4096x1024, b⟩] concatenates_S4096x1024_S4096x1024_S4096x2048_d1) : (⟨S4096x1024, .f32⟩ : BufTy).Contents (Elt Ideal) → (⟨S4096x1024, .f32⟩ : BufTy).Contents (Elt Ideal) → (⟨S4096x2048, .f32⟩ : BufTy).Contents (Elt Ideal)),
         StableHlo.unary main_v243 main_v244 ((fun x => truncf (F := Ideal) .bf16 x bitsLt_bf16_f32) : (⟨S4096x2048, .f32⟩ : BufTy).Contents (Elt Ideal) → (⟨S4096x2048, .bf16⟩ : BufTy).Contents (Elt Ideal))] := rfl
  have key : StableHlo.after hostOps7 (B14 m ρ c)
      = StableHlo.after (List.drop 28 (hostOps7 : List (HloOp τ sig (Elt Ideal))))
          (StableHlo.after (List.take 28 (hostOps7 : List (HloOp τ sig (Elt Ideal)))) (B14 m ρ c)) :=
    (congrArg (fun l => StableHlo.after l (B14 m ρ c)) (List.take_append_drop 28 (hostOps7 : List (HloOp τ sig (Elt Ideal)))).symm).trans
      (after_append' _ _ _)
  rw [hd] at key
  have hr' : AllReal (S := S4096x1024) (StableHlo.after hostOps7 (B14 m ρ c) (Proc.devRef .tc main_v235)) := hr
  have hi' : AllReal (S := S4096x1024) (StableHlo.after hostOps7 (B14 m ρ c) (Proc.devRef .tc main_v242)) := hi
  show AllReal (S := S4096x2048) (StableHlo.after hostOps7 (B14 m ρ c) (Proc.devRef .tc main_v244))
  rw [key] at hr' hi' ⊢
  generalize StableHlo.after (List.take 28 (hostOps7 : List (HloOp τ sig (Elt Ideal)))) (B14 m ρ c) = S at hr' hi' ⊢
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'] at hr' hi' ⊢
  exact allReal_truncf _ (allReal_concat_cols _ _ hr' hi')

/-- Region 7's output array at its exit is real-valued when the scattered updates and the two halves of its right
    operand are. -/
theorem offReal_7 (c : Dev nD) (hv : AllReal (S := S16638) (m ((c : Thread nD τ).loc main_arg4)))
    (hr : AllReal (S := S4096x1024) (B15 m ρ c (Proc.devRef .tc main_v235)))
    (hi : AllReal (S := S4096x1024) (B15 m ρ c (Proc.devRef .tc main_v242))) :
    AllReal (S := S4096x2048) (B16 m ρ c (Proc.devRef .tc main_v245)) := by
  have hA := B15_left_real m ρ c hv
  have hB := rightReal_7 m ρ c hr hi
  intro j
  show IsR (B16 m ρ c (Proc.devRef .tc (Pipeline.arrRef spec7 2)) j)
  rw [show B16 m ρ c (Proc.devRef .tc (Pipeline.arrRef spec7 2)) j = (dat7 (VB15 m ρ) c).arrAt 2 cfg7.N j from
    congrFun (B16_arr m ρ c 2) j]
  exact out7_real (VB15 m ρ) c (fun i => hA i) (fun i => hB i) j

end Cert.KernelIdeal.Hand

end
-- ==== Proof.KI.Cascade.lean ====
/-
  Everything about the kernel program's iterates from three hypotheses only: the input, the diagonal and the edge
  weights are real-valued.

  The product of region k is real-valued when its two operands are; its right operand is the k-th pair of iterates,
  real-valued when the products before it are. So, product by product: the starting pair is real-valued, hence the
  first product, hence the first step cancels it and the next pair is the first iterate, real-valued, hence the
  second product, … down to the eighth. With every product real-valued each pair is the iterate of its step, and
  every pair is still in its buffers when the eighth region ends.
-/
import proofs.«156564_j46222438039786_1_alg».proof.Proof.KI.IterReal
import proofs.«156564_j46222438039786_1_alg».proof.Proof.KI.OffReal

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Cert.Spec (AllReal)

section Boundaries

variable (m : (ℓ : Loc nD τ sig) → Buf (Elt Ideal) ℓ) (ρ : Dev nD → PrngReg) (c : Dev nD)

/-! ## Every product is real-valued -/

/-- The first product: its right operand is the starting pair. -/
theorem off0_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B2 m ρ c (Proc.devRef .tc main_v28)) :=
  offReal_0 m ρ c hv (entry0_real m ρ c hx).1 (entry0_real m ρ c hx).2
/-- Product 1: its right operand is the pair after step 1, which the products before it make an iterate. -/
theorem off1_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B4 m ρ c (Proc.devRef .tc main_v59)) :=
  offReal_1 m ρ c hv (entry1_real m ρ c hx hd (off0_real m ρ c hx hd hv)).1 (entry1_real m ρ c hx hd (off0_real m ρ c hx hd hv)).2
/-- Product 2: its right operand is the pair after step 2, which the products before it make an iterate. -/
theorem off2_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B6 m ρ c (Proc.devRef .tc main_v90)) :=
  offReal_2 m ρ c hv (entry2_real m ρ c hx hd (off0_real m ρ c hx hd hv) (off1_real m ρ c hx hd hv)).1 (entry2_real m ρ c hx hd (off0_real m ρ c hx hd hv) (off1_real m ρ c hx hd hv)).2
/-- Product 3: its right operand is the pair after step 3, which the products before it make an iterate. -/
theorem off3_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B8 m ρ c (Proc.devRef .tc main_v121)) :=
  offReal_3 m ρ c hv (entry3_real m ρ c hx hd (off0_real m ρ c hx hd hv) (off1_real m ρ c hx hd hv) (off2_real m ρ c hx hd hv)).1 (entry3_real m ρ c hx hd (off0_real m ρ c hx hd hv) (off1_real m ρ c hx hd hv) (off2_real m ρ c hx hd hv)).2
/-- Product 4: its right operand is the pair after step 4, which the products before it make an iterate. -/
theorem off4_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B10 m ρ c (Proc.devRef .tc main_v152)) :=
  offReal_4 m ρ c hv (entry4_real m ρ c hx hd (off0_real m ρ c hx hd hv) (off1_real m ρ c hx hd hv) (off2_real m ρ c hx hd hv) (off3_real m ρ c hx hd hv)).1 (entry4_real m ρ c hx hd (off0_real m ρ c hx hd hv) (off1_real m ρ c hx hd hv) (off2_real m ρ c hx hd hv) (off3_real m ρ c hx hd hv)).2
/-- Product 5: its right operand is the pair after step 5, which the products before it make an iterate. -/
theorem off5_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B12 m ρ c (Proc.devRef .tc main_v183)) :=
  offReal_5 m ρ c hv (entry5_real m ρ c hx hd (off0_real m ρ c hx hd hv) (off1_real m ρ c hx hd hv) (off2_real m ρ c hx hd hv) (off3_real m ρ c hx hd hv) (off4_real m ρ c hx hd hv)).1 (entry5_real m ρ c hx hd (off0_real m ρ c hx hd hv) (off1_real m ρ c hx hd hv) (off2_real m ρ c hx hd hv) (off3_real m ρ c hx hd hv) (off4_real m ρ c hx hd hv)).2
/-- Product 6: its right operand is the pair after step 6, which the products before it make an iterate. -/
theorem off6_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B14 m ρ c (Proc.devRef .tc main_v214)) :=
  offReal_6 m ρ c hv (entry6_real m ρ c hx hd (off0_real m ρ c hx hd hv) (off1_real m ρ c hx hd hv) (off2_real m ρ c hx hd hv) (off3_real m ρ c hx hd hv) (off4_real m ρ c hx hd hv) (off5_real m ρ c hx hd hv)).1 (entry6_real m ρ c hx hd (off0_real m ρ c hx hd hv) (off1_real m ρ c hx hd hv) (off2_real m ρ c hx hd hv) (off3_real m ρ c hx hd hv) (off4_real m ρ c hx hd hv) (off5_real m ρ c hx hd hv)).2
/-- Product 7: its right operand is the pair after step 7, which the products before it make an iterate. -/
theorem off7_real (hx : AllReal (S := S32x32x64x64) (m ((c : Thread nD τ).loc main_arg0))) (hd : AllReal (S := S4096) (m ((c : Thread nD τ).loc main_arg3))) (hv : AllReal (S := S16638) (m ((c : Thread nD τ).loc main_arg4))) :
    AllReal (S := S4096x2048) (B16 m ρ c (Proc.devRef .tc main_v245)) :=
  offReal_7 m ρ c hv (entry7_real m ρ c hx hd (off0_real m ρ c hx hd hv) (off1_real m ρ c hx hd hv) (off2_real m ρ c hx hd hv) (off3_real m ρ c hx hd hv) (off4_real m ρ c hx hd hv) (off5_real m ρ c hx hd hv) (off6_real m ρ c hx hd hv)).1 (entry7_real m ρ c hx hd (off0_real m ρ c hx hd hv) (off1_real m ρ c hx hd hv) (off2_real m ρ c hx hd hv) (off3_real m ρ c hx hd hv) (off4_real m ρ c hx hd hv) (off5_real m ρ c hx hd hv) (off6_real m ρ c hx hd hv)).2

/-! ## Every pair is the iterate of its step, and is in its buffers when the eighth region ends -/
theorem iter0_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v2) = (zsB m ρ c 0).1 ∧ B16 m ρ c (Proc.devRef .tc main_v25) = (zsB m ρ c 0).2 :=
  iter0_at16 m ρ c
theorem iter1_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v49) = (zsB m ρ c 1).1 ∧ B16 m ρ c (Proc.devRef .tc main_v56) = (zsB m ρ c 1).2 :=
  iter1_at16 m ρ c hx hd (off0_real m ρ c hx hd hv)
theorem iter2_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v80) = (zsB m ρ c 2).1 ∧ B16 m ρ c (Proc.devRef .tc main_v87) = (zsB m ρ c 2).2 :=
  iter2_at16 m ρ c hx hd (off0_real m ρ c hx hd hv) (off1_real m ρ c hx hd hv)
theorem iter3_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v111) = (zsB m ρ c 3).1 ∧ B16 m ρ c (Proc.devRef .tc main_v118) = (zsB m ρ c 3).2 :=
  iter3_at16 m ρ c hx hd (off0_real m ρ c hx hd hv) (off1_real m ρ c hx hd hv) (off2_real m ρ c hx hd hv)
theorem iter4_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v142) = (zsB m ρ c 4).1 ∧ B16 m ρ c (Proc.devRef .tc main_v149) = (zsB m ρ c 4).2 :=
  iter4_at16 m ρ c hx hd (off0_real m ρ c hx hd hv) (off1_real m ρ c hx hd hv) (off2_real m ρ c hx hd hv) (off3_real m ρ c hx hd hv)
theorem iter5_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v173) = (zsB m ρ c 5).1 ∧ B16 m ρ c (Proc.devRef .tc main_v180) = (zsB m ρ c 5).2 :=
  iter5_at16 m ρ c hx hd (off0_real m ρ c hx hd hv) (off1_real m ρ c hx hd hv) (off2_real m ρ c hx hd hv) (off3_real m ρ c hx hd hv) (off4_real m ρ c hx hd hv)
theorem iter6_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v204) = (zsB m ρ c 6).1 ∧ B16 m ρ c (Proc.devRef .tc main_v211) = (zsB m ρ c 6).2 :=
  iter6_at16 m ρ c hx hd (off0_real m ρ c hx hd hv) (off1_real m ρ c hx hd hv) (off2_real m ρ c hx hd hv) (off3_real m ρ c hx hd hv) (off4_real m ρ c hx hd hv) (off5_real m ρ c hx hd hv)
theorem iter7_final (hx : AllReal (S := S32x32x64x64) (m ((c : Thread nD τ).loc main_arg0))) (hd : AllReal (S := S4096) (m ((c : Thread nD τ).loc main_arg3))) (hv : AllReal (S := S16638) (m ((c : Thread nD τ).loc main_arg4))) :
    B16 m ρ c (Proc.devRef .tc main_v235) = (zsB m ρ c 7).1 ∧ B16 m ρ c (Proc.devRef .tc main_v242) = (zsB m ρ c 7).2 :=
  iter7_at16 m ρ c hx hd (off0_real m ρ c hx hd hv) (off1_real m ρ c hx hd hv) (off2_real m ρ c hx hd hv) (off3_real m ρ c hx hd hv) (off4_real m ρ c hx hd hv) (off5_real m ρ c hx hd hv) (off6_real m ρ c hx hd hv)

/-- All eight pairs at once. -/
theorem iterates_at16 (hx : AllReal (S := S32x32x64x64) (m ((c : Thread nD τ).loc main_arg0))) (hd : AllReal (S := S4096) (m ((c : Thread nD τ).loc main_arg3))) (hv : AllReal (S := S16638) (m ((c : Thread nD τ).loc main_arg4))) :
    (B16 m ρ c (Proc.devRef .tc main_v2) = (zsB m ρ c 0).1 ∧ B16 m ρ c (Proc.devRef .tc main_v25) = (zsB m ρ c 0).2)
    ∧ (B16 m ρ c (Proc.devRef .tc main_v49) = (zsB m ρ c 1).1 ∧ B16 m ρ c (Proc.devRef .tc main_v56) = (zsB m ρ c 1).2)
    ∧ (B16 m ρ c (Proc.devRef .tc main_v80) = (zsB m ρ c 2).1 ∧ B16 m ρ c (Proc.devRef .tc main_v87) = (zsB m ρ c 2).2)
    ∧ (B16 m ρ c (Proc.devRef .tc main_v111) = (zsB m ρ c 3).1 ∧ B16 m ρ c (Proc.devRef .tc main_v118) = (zsB m ρ c 3).2)
    ∧ (B16 m ρ c (Proc.devRef .tc main_v142) = (zsB m ρ c 4).1 ∧ B16 m ρ c (Proc.devRef .tc main_v149) = (zsB m ρ c 4).2)
    ∧ (B16 m ρ c (Proc.devRef .tc main_v173) = (zsB m ρ c 5).1 ∧ B16 m ρ c (Proc.devRef .tc main_v180) = (zsB m ρ c 5).2)
    ∧ (B16 m ρ c (Proc.devRef .tc main_v204) = (zsB m ρ c 6).1 ∧ B16 m ρ c (Proc.devRef .tc main_v211) = (zsB m ρ c 6).2)
    ∧ (B16 m ρ c (Proc.devRef .tc main_v235) = (zsB m ρ c 7).1 ∧ B16 m ρ c (Proc.devRef .tc main_v242) = (zsB m ρ c 7).2) :=
  ⟨iter0_final m ρ c hx hd hv, iter1_final m ρ c hx hd hv, iter2_final m ρ c hx hd hv, iter3_final m ρ c hx hd hv, iter4_final m ρ c hx hd hv, iter5_final m ρ c hx hd hv, iter6_final m ρ c hx hd hv, iter7_final m ρ c hx hd hv⟩

/-- The columns' buffers when the eighth region ends: the diagonal as launched, the two quotients as the first stretch left them. -/
theorem D_final : B16 m ρ c (Proc.devRef .tc main_arg3) = m ((c : Thread nD τ).loc main_arg3) := D_at16 m ρ c
theorem DR_final : B16 m ρ c (Proc.devRef .tc main_v6) = B1 m ρ c (Proc.devRef .tc main_v6) := DR_at16 m ρ c
theorem DI_final : B16 m ρ c (Proc.devRef .tc main_v8) = B1 m ρ c (Proc.devRef .tc main_v8) := DI_at16 m ρ c
/-- The same as the three columns of the iteration. -/
theorem colD_final : Cert.Spec.col (B16 m ρ c (Proc.devRef .tc main_arg3)) = D0 m c := by rw [D_at16 m ρ c]; rfl
theorem colDR_final : Cert.Spec.col (B16 m ρ c (Proc.devRef .tc main_v6)) = DR0 m ρ c := by rw [DR_at16 m ρ c]; rfl
theorem colDI_final : Cert.Spec.col (B16 m ρ c (Proc.devRef .tc main_v8)) = DI0 m ρ c := by rw [DI_at16 m ρ c]; rfl

end Boundaries

end Cert.KernelIdeal.Hand

end
-- ==== Proof.KI.KernelValue.lean ====
/-
  The value the kernel program ends with, from real-valued inputs.

  The nine pairs of iterates of (zr, zi) ↦ (DR·(D·zr + zi) − DI·(D·zi − zr), DR·(D·zi − zr) + DI·(D·zr + zi)) from
  (z0, 0) are stacked, the real stack is multiplied by the real weights and the imaginary stack by the imaginary
  weights, the two products are added, doubled and regrouped: that is what the result buffer holds at the end.
  The first eight pairs sit in their buffers after the eighth matrix product; the ninth is one step on; the last
  product of [real stack | imaginary stack] by [real weights ; imaginary weights | zeros] gives, in its first 64
  columns, the sum of the two products.
-/
import proofs.«156564_j46222438039786_1_alg».proof.Proof.KI.Tail
import proofs.«156564_j46222438039786_1_alg».proof.Proof.KI.Cascade

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL.Sem
open Cert.Spec (AllReal)

variable (m : (ℓ : Loc nD τ sig) → Buf (Elt Ideal) ℓ) (ρ : Dev nD → PrngReg) (c : Dev nD)

/-- The result buffer at the end of the run, when the input, the diagonal and the off-diagonal values are real-valued. -/
theorem kernel_value (hx : AllReal (S := S32x32x64x64) (m ((c : Thread nD τ).loc main_arg0)))
    (hd : AllReal (S := S4096) (m ((c : Thread nD τ).loc main_arg3)))
    (hv : AllReal (S := S16638) (m ((c : Thread nD τ).loc main_arg4))) :
    B21 m ρ c (Proc.devRef .tc main_v341)
      = shapeCast _ (mulf (F := Ideal) (broadcastInDim S131072x64 ![] bcast_S_S131072x64 (constant (F := Ideal) S_ .f32 0x40000000#32))
          (Cert.Spec.refTail (fun n => (zsB m ρ c n).1) (fun n => (zsB m ρ c n).2)
            (m ((c : Thread nD τ).loc main_arg1)) (m ((c : Thread nD τ).loc main_arg2))))
          shapeCasts_S131072x64_S32x64x64x64 :=
  B21_v341 m ρ c (fun n => (zsB m ρ c n).1) (fun n => (zsB m ρ c n).2) (D0 m c) (DR0 m ρ c) (DI0 m ρ c)
    (colD_final m ρ c) (colDR_final m ρ c) (colDI_final m ρ c)
    (iter0_final m ρ c hx hd hv).1 (iter1_final m ρ c hx hd hv).1 (iter2_final m ρ c hx hd hv).1 (iter3_final m ρ c hx hd hv).1
    (iter4_final m ρ c hx hd hv).1 (iter5_final m ρ c hx hd hv).1 (iter6_final m ρ c hx hd hv).1 (iter7_final m ρ c hx hd hv).1
    (iter0_final m ρ c hx hd hv).2 (iter1_final m ρ c hx hd hv).2 (iter2_final m ρ c hx hd hv).2 (iter3_final m ρ c hx hd hv).2
    (iter4_final m ρ c hx hd hv).2 (iter5_final m ρ c hx hd hv).2 (iter6_final m ρ c hx hd hv).2 (iter7_final m ρ c hx hd hv).2
    (Cert.Spec.zs_succ (D0 m c) (DR0 m ρ c) (DI0 m ρ c) (z00 m ρ c) (zero0 m ρ c) 7)
    (D0_real m c hd)
    (Cert.Spec.zs_real (D0_real m c hd) (DR0_real m ρ c hd) (DI0_real m ρ c hd) (z00_real m ρ c hx) (zero0_real m ρ c) 7).1
    (Cert.Spec.zs_real (D0_real m c hd) (DR0_real m ρ c hd) (DI0_real m ρ c hd) (z00_real m ρ c hx) (zero0_real m ρ c) 7).2
    (off7_real m ρ c hx hd hv)

end Cert.KernelIdeal.Hand

end
-- ==== Proof.KI.Entry.lean ====
/-
  What the first stretch of host operations leaves in the buffers the iteration starts from, read as pure terms of
  the launch contents: the re-laid input z0, the zero array, and the two columns d / (d² + 1) and −1 / (d² + 1).
-/
import proofs.«156564_j46222438039786_1_alg».proof.Proof.Gen.KernelIdeal.Launch
import proofs.«156564_j46222438039786_1_alg».proof.Proof.Gen.KernelIdeal.Skeleton
import proofs.«156564_j46222438039786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«156564_j46222438039786_1_alg».proof.Proof.Common
import Idealize.ShloMosaic.Lib.StableHlo.Run
import proofs.«156564_j46222438039786_1_alg».proof.Proof.KI.Fold

set_option maxRecDepth 16384

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- z0: the input with its two spatial axes flattened and moved in front. -/
theorem B1_v2 (c : Dev nD) :
    B1 m ρ c (Proc.devRef .tc main_v2)
      = shapeCast _ (transpose S4096x32x32 [2, 0, 1] (shapeCast _ (m ((c : Thread nD τ).loc main_arg0)) shapeCasts_S32x32x64x64_S32x32x4096) transposes_S32x32x4096_S4096x32x32_2_0_1) shapeCasts_S4096x32x32_S4096x1024 := by
  show StableHlo.after hostOps0 (B0 m ρ c) (Proc.devRef .tc main_v2) = _
  after_results; rfl

/-- d² + 1. -/
theorem B1_v5 (c : Dev nD) :
    B1 m ρ c (Proc.devRef .tc main_v5)
      = addf (mulf (m ((c : Thread nD τ).loc main_arg3)) (m ((c : Thread nD τ).loc main_arg3))) (broadcastInDim S4096 ![] bcast_S_S4096 (constant S_ .f32 0x3F800000#32)) := by
  show StableHlo.after hostOps0 (B0 m ρ c) (Proc.devRef .tc main_v5) = _
  after_results

/-- d / (d² + 1). -/
theorem B1_v6 (c : Dev nD) :
    B1 m ρ c (Proc.devRef .tc main_v6)
      = Host.divf (m ((c : Thread nD τ).loc main_arg3)) (addf (mulf (m ((c : Thread nD τ).loc main_arg3)) (m ((c : Thread nD τ).loc main_arg3))) (broadcastInDim S4096 ![] bcast_S_S4096 (constant S_ .f32 0x3F800000#32))) := by
  show StableHlo.after hostOps0 (B0 m ρ c) (Proc.devRef .tc main_v6) = _
  after_results

/-- −1 / (d² + 1). -/
theorem B1_v8 (c : Dev nD) :
    B1 m ρ c (Proc.devRef .tc main_v8)
      = Host.divf (broadcastInDim S4096 ![] bcast_S_S4096 (constant S_ .f32 0xBF800000#32)) (addf (mulf (m ((c : Thread nD τ).loc main_arg3)) (m ((c : Thread nD τ).loc main_arg3))) (broadcastInDim S4096 ![] bcast_S_S4096 (constant S_ .f32 0x3F800000#32))) := by
  show StableHlo.after hostOps0 (B0 m ρ c) (Proc.devRef .tc main_v8) = _
  after_results

/-- The zero array the imaginary part starts from. -/
theorem B1_v25 (c : Dev nD) :
    B1 m ρ c (Proc.devRef .tc main_v25) = broadcastInDim S4096x1024 ![] bcast_S_S4096x1024 (constant S_ .f32 0x00000000#32) := by
  show StableHlo.after hostOps0 (B0 m ρ c) (Proc.devRef .tc main_v25) = _
  after_results

end Cert.KernelIdeal.Hand

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«156564_j46222438039786_1_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.Ref.Real.lean ====
/-
  Real-valued arrays through the reference's operations. An operation that only moves entries (a broadcast, a
  reshape, a transpose, a gather) keeps every entry an entry of its operand; a quotient by a nonzero real is real;
  a scatter-add into a real-valued array of real-valued updates adds to each entry a finite sum of reals. The
  precondition "every float input is finite" says that the five float arguments are real-valued.
-/
import proofs.«156564_j46222438039786_1_alg».proof.Proof.Spec
import proofs.«156564_j46222438039786_1_alg».proof.Proof.LibFiniteInputs
import proofs.«156564_j46222438039786_1_alg».proof.Pre_finite_inputs
import Idealize.ShloMosaic.Lib.Affine

noncomputable section

namespace Cert.Spec

open Idealize.ShloMosaic

variable {s t : Shape}

/-- The two ways of saying "every entry is a real number" agree. -/
theorem AllReal.of_entries {x : FVec Ideal s .f32} (h : Cert.RealEntries.AllReal x) : AllReal x := h

theorem AllReal.bcast {x : FVec Ideal s .f32} (hx : AllReal x) (dims : Fin s.rank → Fin t.rank)
    (h : s.BroadcastsInDim t dims) : AllReal (broadcastInDim t dims h x) := fun _ => hx _

theorem AllReal.cast {x : FVec Ideal s .f32} (hx : AllReal x) (h : s.ShapeCasts t) : AllReal (shapeCast t x h) :=
  fun _ => hx _

theorem AllReal.transp {x : FVec Ideal s .f32} (hx : AllReal x) (perm : List (Fin s.rank)) (h : s.Transposes perm t) :
    AllReal (transpose t perm x h) := fun _ => hx _

theorem AllReal.gather {si : Shape} {w : Nat} (d : GatherDims s si t) {x : FVec Ideal s .f32} (hx : AllReal x)
    (idx : IVec si w) : AllReal (Host.gather d x idx) := fun _ => hx _

/-- Each entry of a scatter-add is the operand's entry plus a finite sum of update entries. -/
theorem AllReal.scatterAdd {si u : Shape} {w : Nat} (d : ScatterDims s si u) {x : FVec Ideal s .f32}
    {upd : FVec Ideal u .f32} (hx : AllReal x) (hu : AllReal upd) (idx : IVec si w) :
    AllReal (Host.scatterAdd d x idx upd) := fun i =>
  Cert.RealEntries.IsR.add (hx i) (Cert.RealEntries.IsR.sum _ _ (fun j _ => hu j))

/-- A quotient by an array of nonzero reals. -/
theorem AllReal.hostDivf {x y : FVec Ideal s .f32} (hx : AllReal x)
    (hy : ∀ j, ∃ r : ℝ, r ≠ 0 ∧ y j = (r : EReal)) : AllReal (Host.divf x y) := fun j => by
  obtain ⟨b, hb0, hb⟩ := hy j
  exact Cert.RealEntries.IsR.div (hx j) hb hb0

/-- The patterns of 1 and −1. -/
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num

/-- A splat of a real constant. -/
theorem AllReal.splat (hb : (⟨0, ![]⟩ : Shape).BroadcastsInDim s (![] : Fin 0 → Fin s.rank)) (b : BitVec 32) (r : ℝ)
    (h : Ideal.ofBits .f32 b = (r : EReal)) :
    AllReal (broadcastInDim s ![] hb (constant (F := Ideal) ⟨0, ![]⟩ .f32 b)) := fun _ => ⟨r, h⟩

/-- d² + 1 is a nonzero real at every entry. -/
theorem sq_add_one_ne {d : FVec Ideal s .f32} (hd : AllReal d)
    (hb : (⟨0, ![]⟩ : Shape).BroadcastsInDim s (![] : Fin 0 → Fin s.rank)) :
    ∀ j, ∃ r : ℝ, r ≠ 0 ∧
      addf (mulf d d) (broadcastInDim s ![] hb (constant (F := Ideal) ⟨0, ![]⟩ .f32 0x3F800000#32)) j = (r : EReal) := fun j => by
  obtain ⟨a, ha⟩ := hd j
  refine ⟨a * a + 1, (by have := mul_self_nonneg a; linarith : (0 : ℝ) < a * a + 1).ne', ?_⟩
  have h1 : broadcastInDim s ![] hb (constant (F := Ideal) ⟨0, ![]⟩ .f32 0x3F800000#32) j = ((1 : ℝ) : EReal) := ofBits_one
  simp only [Idealize.ShloMosaic.addf, Idealize.ShloMosaic.mulf, Ideal.addf_def, Ideal.mulf_def, ha, h1]
  simp only [← EReal.coe_mul, ← EReal.coe_add]

section Pre
variable [Cert.Pre_finite_inputs.Facts]
open Cert.Pre_finite_inputs Cert.Pre_finite_inputs.Facts

instance : Subsingleton Cert.Pre_finite_inputs.S_.Idx := ⟨fun _ _ => funext fun d => d.elim0⟩

/-- "Every float input is finite": each of the five float arguments is real-valued. -/
theorem fn_real {a0 : FVec Ideal Cert.Pre_finite_inputs.S32x32x64x64 .f32} {a1 a2 : FVec Ideal Cert.Pre_finite_inputs.S288x64 .f32}
    {a3 : FVec Ideal Cert.Pre_finite_inputs.S4096 .f32} {a4 : FVec Ideal Cert.Pre_finite_inputs.S16638 .f32}
    {a5 a6 : IVec Cert.Pre_finite_inputs.S16638 32}
    (h : Cert.Pre_finite_inputs.fn (F := Ideal) a0 a1 a2 a3 a4 a5 a6 = fun _ => 1#1) :
    AllReal a0 ∧ AllReal a1 ∧ AllReal a2 ∧ AllReal a3 ∧ AllReal a4 := by
  have h0 := congrFun h ValueIdx.ix0
  dsimp only [Cert.Pre_finite_inputs.fn, Cert.Pre_finite_inputs.fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨Cert.RealEntries.allReal_of_all_finite a0 _ _ _ _ _ h0',
         Cert.RealEntries.allReal_of_all_finite a1 _ _ _ _ _ h1,
         Cert.RealEntries.allReal_of_all_finite a2 _ _ _ _ _ h2,
         Cert.RealEntries.allReal_of_all_finite a3 _ _ _ _ _ h3,
         Cert.RealEntries.allReal_of_all_finite a4 _ _ _ _ _ h4⟩

end Pre

end Cert.Spec

end
-- ==== Proof.Ref.Value.lean ====
/-
  The reference's value. Its run ends at a chain of named terms; here that chain is read as the iteration of
  Iterates.lean. Each of the eight rounds computes two sparse products o_r, o_i of the current pair (a gather of rows,
  a product with the edge weights, a scatter-add into zeros), the numerators
  ((o_r + D·zr) + zi) − o_r and ((o_i + D·zi) − zr) − o_i, and the update from them. On real-valued inputs every
  array of the chain is real-valued, so each sparse product cancels against its own subtraction and the round is one
  step of the iteration; the end of the program stacks the nine pairs and multiplies by the two weight matrices.
-/
import proofs.«156564_j46222438039786_1_alg».proof.Defs
import proofs.«156564_j46222438039786_1_alg».proof.Proof.Gen.ReferenceIdeal.Run
import proofs.«156564_j46222438039786_1_alg».proof.Proof.Iterates
import proofs.«156564_j46222438039786_1_alg».proof.Proof.Ref.Real

set_option maxRecDepth 8192

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value Cert.Spec

variable (V0 : Valuation τ sig (Elt Ideal))

/-- The sparse product as the reference computes it: gather the rows the column indices name (a negative index
    wrapped once), scale each by its edge weight, and add each into the row its row index names, from zeros. -/
def spmm (z : FVec Ideal S4096x1024 .f32) : FVec Ideal S4096x1024 .f32 :=
  Host.scatterAdd scatter_S4096x1024_S16638x1_S16638x1024_1_0_0_1 (broadcastInDim S4096x1024 ![] bcast_S_S4096x1024 (constant (F := Ideal) S_ .f32 0x00000000#32)) (broadcastInDim S16638x1 ![0] bcast_S16638_S16638x1_0 (V0 (Proc.devRef .tc main_arg5))) (mulf (broadcastInDim S16638x1024 ![0, 1] bcast_S16638x1_S16638x1024_0_1 (broadcastInDim S16638x1 ![0] bcast_S16638_S16638x1_0 (V0 (Proc.devRef .tc main_arg4)))) (Host.gather gather_S4096x1024_S16638x1_S16638x1024_1_0_n_n_0_1_11024 z (broadcastInDim S16638x1 ![0] bcast_S16638_S16638x1_0 (select (cmpi .slt (V0 (Proc.devRef .tc main_arg6)) (broadcastInDim S16638 ![] bcast_S_S16638 (constantI S_ 32 0#32))) (addi (V0 (Proc.devRef .tc main_arg6)) (broadcastInDim S16638 ![] bcast_S_S16638 (constantI S_ 32 4096#32))) (V0 (Proc.devRef .tc main_arg6))))))

/-- The three columns spread over the grid, and the iterates from the relaid input and zeros. -/
def Dm : FVec Ideal S4096x1024 .f32 := col (V0 (Proc.devRef .tc main_arg3))
def DRm : FVec Ideal S4096x1024 .f32 := col (res_main_v6 V0)
def DIm : FVec Ideal S4096x1024 .f32 := col (res_main_v8 V0)
def zsV (n : Nat) : FVec Ideal S4096x1024 .f32 × FVec Ideal S4096x1024 .f32 :=
  zs (Dm V0) (DRm V0) (DIm V0) (res_main_v2 V0) (res_main_v9 V0) n

section
variable (h0 : AllReal (S := S32x32x64x64) (V0 (Proc.devRef .tc main_arg0)))
  (h3 : AllReal (S := S4096) (V0 (Proc.devRef .tc main_arg3)))
  (h4 : AllReal (S := S16638) (V0 (Proc.devRef .tc main_arg4)))
include h0 h3 h4

theorem Dm_real : AllReal (Dm V0) :=
  (h3.bcast ![0] bcast_S4096_S4096x1_0).bcast ![0, 1] bcast_S4096x1_S4096x1024_0_1

theorem DRm_real : AllReal (DRm V0) :=
  ((AllReal.hostDivf h3 (sq_add_one_ne h3 bcast_S_S4096)).bcast ![0] bcast_S4096_S4096x1_0).bcast ![0, 1] bcast_S4096x1_S4096x1024_0_1

theorem DIm_real : AllReal (DIm V0) :=
  ((AllReal.hostDivf (AllReal.splat bcast_S_S4096 _ (-1) ofBits_neg_one) (sq_add_one_ne h3 bcast_S_S4096)).bcast ![0] bcast_S4096_S4096x1_0).bcast
    ![0, 1] bcast_S4096x1_S4096x1024_0_1

theorem z0_real : AllReal (res_main_v2 V0) :=
  ((h0.cast shapeCasts_S32x32x64x64_S32x32x4096).transp [2, 0, 1] transposes_S32x32x4096_S4096x32x32_2_0_1).cast shapeCasts_S4096x32x32_S4096x1024

theorem zero_real : AllReal (res_main_v9 V0) :=
  AllReal.splat bcast_S_S4096x1024 _ 0 (by rw [Ideal.ofBits_zero_f32, EReal.coe_zero])

/-- The sparse product of a real-valued array is real-valued. -/
theorem spmm_real {z : FVec Ideal S4096x1024 .f32} (hz : AllReal z) : AllReal (spmm V0 z) :=
  AllReal.scatterAdd _ (AllReal.splat bcast_S_S4096x1024 _ 0 (by rw [Ideal.ofBits_zero_f32, EReal.coe_zero]))
    (((h4.bcast ![0] bcast_S16638_S16638x1_0).bcast ![0, 1] bcast_S16638x1_S16638x1024_0_1).mulf (AllReal.gather _ hz _)) _

theorem zsV_real (n : Nat) : AllReal (zsV V0 n).1 ∧ AllReal (zsV V0 n).2 :=
  zs_real (Dm_real V0 h0 h3 h4) (DRm_real V0 h0 h3 h4) (DIm_real V0 h0 h3 h4) (z0_real V0 h0 h3 h4) (zero_real V0 h0 h3 h4) n

/-- One round of the reference is one step of the iteration. -/
theorem step_zs (n : Nat) {zr zi t u a b : FVec Ideal S4096x1024 .f32}
    (e : zr = (zsV V0 n).1 ∧ zi = (zsV V0 n).2)
    (ht : t = tr (Dm V0) (spmm V0 zr) zr zi) (hu : u = ti (Dm V0) (spmm V0 zi) zr zi)
    (ha : a = yr (DRm V0) (DIm V0) t u) (hb : b = yi (DRm V0) (DIm V0) t u) :
    a = (zsV V0 (n + 1)).1 ∧ b = (zsV V0 (n + 1)).2 := by
  obtain ⟨rfl, rfl⟩ := e
  subst ht hu ha hb
  have r := zsV_real V0 h0 h3 h4 n
  have hD := Dm_real V0 h0 h3 h4
  rw [tr_eq hD (spmm_real V0 h0 h3 h4 r.1) r.1 r.2, ti_eq hD (spmm_real V0 h0 h3 h4 r.2) r.1 r.2]
  exact ⟨(congrArg Prod.fst (zs_succ _ _ _ _ _ n)).symm, (congrArg Prod.snd (zs_succ _ _ _ _ _ n)).symm⟩

theorem it1 : res_main_v58 V0 = (zsV V0 1).1 ∧ res_main_v65 V0 = (zsV V0 1).2 :=
  step_zs V0 h0 h3 h4 0 (zr := res_main_v2 V0) (zi := res_main_v9 V0) (t := res_main_v45 V0) (u := res_main_v51 V0) ⟨rfl, rfl⟩ rfl rfl rfl rfl

theorem it2 : res_main_v114 V0 = (zsV V0 2).1 ∧ res_main_v121 V0 = (zsV V0 2).2 :=
  step_zs V0 h0 h3 h4 1 (zr := res_main_v58 V0) (zi := res_main_v65 V0) (t := res_main_v101 V0) (u := res_main_v107 V0) (it1 V0 h0 h3 h4) rfl rfl rfl rfl

theorem it3 : res_main_v170 V0 = (zsV V0 3).1 ∧ res_main_v177 V0 = (zsV V0 3).2 :=
  step_zs V0 h0 h3 h4 2 (zr := res_main_v114 V0) (zi := res_main_v121 V0) (t := res_main_v157 V0) (u := res_main_v163 V0) (it2 V0 h0 h3 h4) rfl rfl rfl rfl

theorem it4 : res_main_v226 V0 = (zsV V0 4).1 ∧ res_main_v233 V0 = (zsV V0 4).2 :=
  step_zs V0 h0 h3 h4 3 (zr := res_main_v170 V0) (zi := res_main_v177 V0) (t := res_main_v213 V0) (u := res_main_v219 V0) (it3 V0 h0 h3 h4) rfl rfl rfl rfl

theorem it5 : res_main_v282 V0 = (zsV V0 5).1 ∧ res_main_v289 V0 = (zsV V0 5).2 :=
  step_zs V0 h0 h3 h4 4 (zr := res_main_v226 V0) (zi := res_main_v233 V0) (t := res_main_v269 V0) (u := res_main_v275 V0) (it4 V0 h0 h3 h4) rfl rfl rfl rfl

theorem it6 : res_main_v338 V0 = (zsV V0 6).1 ∧ res_main_v345 V0 = (zsV V0 6).2 :=
  step_zs V0 h0 h3 h4 5 (zr := res_main_v282 V0) (zi := res_main_v289 V0) (t := res_main_v325 V0) (u := res_main_v331 V0) (it5 V0 h0 h3 h4) rfl rfl rfl rfl

theorem it7 : res_main_v394 V0 = (zsV V0 7).1 ∧ res_main_v401 V0 = (zsV V0 7).2 :=
  step_zs V0 h0 h3 h4 6 (zr := res_main_v338 V0) (zi := res_main_v345 V0) (t := res_main_v381 V0) (u := res_main_v387 V0) (it6 V0 h0 h3 h4) rfl rfl rfl rfl

theorem it8 : yr (DRm V0) (DIm V0) (res_main_v437 V0) (res_main_v443 V0) = (zsV V0 8).1
    ∧ yi (DRm V0) (DIm V0) (res_main_v437 V0) (res_main_v443 V0) = (zsV V0 8).2 :=
  step_zs V0 h0 h3 h4 7 (zr := res_main_v394 V0) (zi := res_main_v401 V0) (t := res_main_v437 V0) (u := res_main_v443 V0)
    (it7 V0 h0 h3 h4) rfl rfl rfl rfl

end

/-- The end of the chain over its eighteen arrays, by unfolding alone. -/
theorem v486_tail : res_main_v486 V0 =
    addf (Host.dotGeneral (φ₂ := .f32) dot_S131072x288_S288x64_S131072x64_1_0_0_1_n_n none
            (stack9' (res_main_v2 V0) (res_main_v58 V0) (res_main_v114 V0) (res_main_v170 V0) (res_main_v226 V0)
              (res_main_v282 V0) (res_main_v338 V0) (res_main_v394 V0)
              (yr (DRm V0) (DIm V0) (res_main_v437 V0) (res_main_v443 V0))) (V0 (Proc.devRef .tc main_arg1) : FVec Ideal S288x64 .f32))
         (Host.dotGeneral (φ₂ := .f32) dot_S131072x288_S288x64_S131072x64_1_0_0_1_n_n none
            (stack9' (res_main_v9 V0) (res_main_v65 V0) (res_main_v121 V0) (res_main_v177 V0) (res_main_v233 V0)
              (res_main_v289 V0) (res_main_v345 V0) (res_main_v401 V0)
              (yi (DRm V0) (DIm V0) (res_main_v437 V0) (res_main_v443 V0))) (V0 (Proc.devRef .tc main_arg2) : FVec Ideal S288x64 .f32)) := rfl

/-- The reference's value: the tail of Iterates.lean over the nine iterates. -/
theorem v486_eq (h0 : AllReal (S := S32x32x64x64) (V0 (Proc.devRef .tc main_arg0)))
    (h3 : AllReal (S := S4096) (V0 (Proc.devRef .tc main_arg3)))
    (h4 : AllReal (S := S16638) (V0 (Proc.devRef .tc main_arg4))) :
    res_main_v486 V0 = refTail (fun n : Fin 9 => (zs (col (V0 (Proc.devRef .tc main_arg3))) (col (res_main_v6 V0)) (col (res_main_v8 V0)) (res_main_v2 V0) (res_main_v9 V0) n).1)
      (fun n : Fin 9 => (zs (col (V0 (Proc.devRef .tc main_arg3))) (col (res_main_v6 V0)) (col (res_main_v8 V0)) (res_main_v2 V0) (res_main_v9 V0) n).2)
      (V0 (Proc.devRef .tc main_arg1)) (V0 (Proc.devRef .tc main_arg2)) := by
  rw [v486_tail, (it8 V0 h0 h3 h4).1, (it8 V0 h0 h3 h4).2, (it1 V0 h0 h3 h4).1, (it1 V0 h0 h3 h4).2,
    (it2 V0 h0 h3 h4).1, (it2 V0 h0 h3 h4).2, (it3 V0 h0 h3 h4).1, (it3 V0 h0 h3 h4).2, (it4 V0 h0 h3 h4).1, (it4 V0 h0 h3 h4).2,
    (it5 V0 h0 h3 h4).1, (it5 V0 h0 h3 h4).2, (it6 V0 h0 h3 h4).1, (it6 V0 h0 h3 h4).2, (it7 V0 h0 h3 h4).1, (it7 V0 h0 h3 h4).2]
  rfl

/-- "Every float input is finite" on the reference's launch memory: the five float arguments are real-valued. -/
theorem pre_real [Cert.Pre_finite_inputs.Facts] (m : (ℓ : Loc nD τ sig) → Buf (Elt Ideal) ℓ) (h : Cert.Pre_ReferenceIdeal m) (c : Dev nD) :
    AllReal (S := S32x32x64x64) (launchContents m c (Proc.devRef .tc main_arg0))
    ∧ AllReal (S := S288x64) (launchContents m c (Proc.devRef .tc main_arg1))
    ∧ AllReal (S := S288x64) (launchContents m c (Proc.devRef .tc main_arg2))
    ∧ AllReal (S := S4096) (launchContents m c (Proc.devRef .tc main_arg3))
    ∧ AllReal (S := S16638) (launchContents m c (Proc.devRef .tc main_arg4)) :=
  fn_real (h c)

end Cert.ReferenceIdeal.Hand

end
-- ==== Proof.lean ====
/-
  The certificate's five claims. The kernel program is nine regions among stretches of host operations; its
  frame, at the word level and at the extended reals, is one run over those segments (Proof/K/Run.lean,
  Proof/KI/Run.lean) read at the argument buffers. The reference is host operations only; its frame is its run.
  The idealization rewrote nothing, so there is nothing to preserve. The two idealized programs compute the same
  array because the off-diagonal products, which they form differently, enter each step as an addend that is
  subtracted again, and a real addend cancels (Proof/Spec.lean); the kernel's one wide product of the stacked
  iterates is the reference's sum of two narrow ones.
-/
import proofs.«156564_j46222438039786_1_alg».proof.Defs
import proofs.«156564_j46222438039786_1_alg».proof.Proof.Gen.Kernel
import proofs.«156564_j46222438039786_1_alg».proof.Proof.Gen.KernelIdeal
import proofs.«156564_j46222438039786_1_alg».proof.Proof.Gen.ReferenceIdeal
import proofs.«156564_j46222438039786_1_alg».proof.Proof.Gen.Pre_finite_inputs
import proofs.«156564_j46222438039786_1_alg».proof.Proof.K.Run
import proofs.«156564_j46222438039786_1_alg».proof.Proof.KI.Run
import proofs.«156564_j46222438039786_1_alg».proof.Proof.Ref.Frame
import proofs.«156564_j46222438039786_1_alg».proof.Proof.KI.KernelValue
import proofs.«156564_j46222438039786_1_alg».proof.Proof.KI.Entry
import proofs.«156564_j46222438039786_1_alg».proof.Proof.Ref.Value
import proofs.«156564_j46222438039786_1_alg».proof.Proof.Ref.Real
import proofs.«156564_j46222438039786_1_alg».proof.Proof.Iterates

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.ReferenceIdeal.Hand.frame
theorem preserves : Cert.preserves_Kernel_KernelIdeal := trivial

open Cert.Spec in
/-- The result as a function of the seven quantities both programs hand to the shared iteration and tail: the column
    d, the two columns built from it, the re-laid input, the zero array and the two weight matrices. -/
def resultOf [Cert.ReferenceIdeal.Facts₀] (d dr di : FVec Ideal Cert.ReferenceIdeal.S4096 .f32) (z0 zero : FVec Ideal Cert.ReferenceIdeal.S4096x1024 .f32)
    (wr wi : FVec Ideal Cert.ReferenceIdeal.S288x64 .f32) : FVec Ideal Cert.ReferenceIdeal.S32x64x64x64 .f32 :=
  shapeCast _ (mulf (broadcastInDim Cert.ReferenceIdeal.S131072x64 ![] Cert.ReferenceIdeal.Facts₀.bcast_S_S131072x64 (constant Cert.ReferenceIdeal.S_ .f32 0x40000000#32))
    (refTail (fun n : Fin 9 => (zs (col d) (col dr) (col di) z0 zero n).1) (fun n : Fin 9 => (zs (col d) (col dr) (col di) z0 zero n).2) wr wi))
    Cert.ReferenceIdeal.Facts₀.shapeCasts_S131072x64_S32x64x64x64

/-- The kernel's last boundary holds, in the result buffer, the reference's own term: both are `resultOf` of the same
    seven quantities — the kernel's read off its first stretch of host operations, the reference's by unfolding its
    named intermediate results — once the arguments agree. Finiteness of the inputs enters through both sides' use of
    the cancellation law. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.KernelIdeal.Hand.B21 m ρ c (Proc.devRef .tc Cert.KernelIdeal.main_v341)
      = shapeCast _ (mulf (broadcastInDim Cert.ReferenceIdeal.S131072x64 ![] Cert.ReferenceIdeal.Facts₀.bcast_S_S131072x64 (constant Cert.ReferenceIdeal.S_ .f32 0x40000000#32))
          (Cert.ReferenceIdeal.Value.res_main_v486 (StableHlo.launchContents m' c))) Cert.ReferenceIdeal.Facts₀.shapeCasts_S131072x64_S32x64x64x64 := by
  obtain ⟨hx, -, -, hd, hv⟩ := Cert.Spec.fn_real (hpre c)
  obtain ⟨e0, e1, e2, e3, e4, -, -⟩ := hagree c
  -- the kernel's side as `resultOf` of its seven quantities
  have hK : Cert.KernelIdeal.Hand.B21 m ρ c (Proc.devRef .tc Cert.KernelIdeal.main_v341)
      = resultOf (m ((c.tc : Thread Cert.KernelIdeal.nD Cert.KernelIdeal.τ).loc Cert.KernelIdeal.main_arg3))
          (Cert.KernelIdeal.Hand.B1 m ρ c (Proc.devRef .tc Cert.KernelIdeal.main_v6)) (Cert.KernelIdeal.Hand.B1 m ρ c (Proc.devRef .tc Cert.KernelIdeal.main_v8))
          (Cert.KernelIdeal.Hand.B1 m ρ c (Proc.devRef .tc Cert.KernelIdeal.main_v2)) (Cert.KernelIdeal.Hand.B1 m ρ c (Proc.devRef .tc Cert.KernelIdeal.main_v25))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    Cert.KernelIdeal.Hand.kernel_value m ρ c hx hd hv
  -- the reference's side likewise
  have hR : Cert.ReferenceIdeal.Value.res_main_v486 (StableHlo.launchContents m' c)
      = Cert.Spec.refTail
          (fun n : Fin 9 => (Cert.Spec.zs (Cert.Spec.col (StableHlo.launchContents m' c (Proc.devRef .tc Cert.ReferenceIdeal.main_arg3))) (Cert.Spec.col (Cert.ReferenceIdeal.Value.res_main_v6 (StableHlo.launchContents m' c))) (Cert.Spec.col (Cert.ReferenceIdeal.Value.res_main_v8 (StableHlo.launchContents m' c))) (Cert.ReferenceIdeal.Value.res_main_v2 (StableHlo.launchContents m' c)) (Cert.ReferenceIdeal.Value.res_main_v9 (StableHlo.launchContents m' c)) n).1)
          (fun n : Fin 9 => (Cert.Spec.zs (Cert.Spec.col (StableHlo.launchContents m' c (Proc.devRef .tc Cert.ReferenceIdeal.main_arg3))) (Cert.Spec.col (Cert.ReferenceIdeal.Value.res_main_v6 (StableHlo.launchContents m' c))) (Cert.Spec.col (Cert.ReferenceIdeal.Value.res_main_v8 (StableHlo.launchContents m' c))) (Cert.ReferenceIdeal.Value.res_main_v2 (StableHlo.launchContents m' c)) (Cert.ReferenceIdeal.Value.res_main_v9 (StableHlo.launchContents m' c)) n).2)
          (StableHlo.launchContents m' c (Proc.devRef .tc Cert.ReferenceIdeal.main_arg1)) (StableHlo.launchContents m' c (Proc.devRef .tc Cert.ReferenceIdeal.main_arg2)) :=
    Cert.ReferenceIdeal.Hand.v486_eq (StableHlo.launchContents m' c) (by rw [show StableHlo.launchContents m' c (Proc.devRef .tc Cert.ReferenceIdeal.main_arg0) = m' ((c.tc : Thread Cert.ReferenceIdeal.nD Cert.ReferenceIdeal.τ).loc Cert.ReferenceIdeal.main_arg0) from rfl, e0]; exact hx)
      (by rw [show StableHlo.launchContents m' c (Proc.devRef .tc Cert.ReferenceIdeal.main_arg3) = m' ((c.tc : Thread Cert.ReferenceIdeal.nD Cert.ReferenceIdeal.τ).loc Cert.ReferenceIdeal.main_arg3) from rfl, e3]; exact hd)
      (by rw [show StableHlo.launchContents m' c (Proc.devRef .tc Cert.ReferenceIdeal.main_arg4) = m' ((c.tc : Thread Cert.ReferenceIdeal.nD Cert.ReferenceIdeal.τ).loc Cert.ReferenceIdeal.main_arg4) from rfl, e4]; exact hv)
  -- the seven quantities agree
  have q3 : StableHlo.launchContents m' c (Proc.devRef .tc Cert.ReferenceIdeal.main_arg3) = m ((c.tc : Thread Cert.KernelIdeal.nD Cert.KernelIdeal.τ).loc Cert.KernelIdeal.main_arg3) := e3
  have q1 : StableHlo.launchContents m' c (Proc.devRef .tc Cert.ReferenceIdeal.main_arg1) = m ((c.tc : Thread Cert.KernelIdeal.nD Cert.KernelIdeal.τ).loc Cert.KernelIdeal.main_arg1) := e1
  have q2 : StableHlo.launchContents m' c (Proc.devRef .tc Cert.ReferenceIdeal.main_arg2) = m ((c.tc : Thread Cert.KernelIdeal.nD Cert.KernelIdeal.τ).loc Cert.KernelIdeal.main_arg2) := e2
  have q0 : StableHlo.launchContents m' c (Proc.devRef .tc Cert.ReferenceIdeal.main_arg0) = m ((c.tc : Thread Cert.KernelIdeal.nD Cert.KernelIdeal.τ).loc Cert.KernelIdeal.main_arg0) := e0
  have qDR : Cert.ReferenceIdeal.Value.res_main_v6 (StableHlo.launchContents m' c) = Cert.KernelIdeal.Hand.B1 m ρ c (Proc.devRef .tc Cert.KernelIdeal.main_v6) := by
    rw [Cert.KernelIdeal.Hand.B1_v6]; unfold Cert.ReferenceIdeal.Value.res_main_v6 Cert.ReferenceIdeal.Value.res_main_v5; rw [q3]
  have qDI : Cert.ReferenceIdeal.Value.res_main_v8 (StableHlo.launchContents m' c) = Cert.KernelIdeal.Hand.B1 m ρ c (Proc.devRef .tc Cert.KernelIdeal.main_v8) := by
    rw [Cert.KernelIdeal.Hand.B1_v8]; unfold Cert.ReferenceIdeal.Value.res_main_v8 Cert.ReferenceIdeal.Value.res_main_v5; rw [q3]
  have qz : Cert.ReferenceIdeal.Value.res_main_v2 (StableHlo.launchContents m' c) = Cert.KernelIdeal.Hand.B1 m ρ c (Proc.devRef .tc Cert.KernelIdeal.main_v2) := by
    rw [Cert.KernelIdeal.Hand.B1_v2]; unfold Cert.ReferenceIdeal.Value.res_main_v2; rw [q0]; rfl
  have qzero : Cert.ReferenceIdeal.Value.res_main_v9 (StableHlo.launchContents m' c) = Cert.KernelIdeal.Hand.B1 m ρ c (Proc.devRef .tc Cert.KernelIdeal.main_v25) := by
    rw [Cert.KernelIdeal.Hand.B1_v25]; unfold Cert.ReferenceIdeal.Value.res_main_v9; rfl
  rw [hK, hR, q3, q1, q2, qDR, qDI, qz, qzero]
  rfl

theorem algebraic : Cert.algebraic_KernelIdeal_ReferenceIdeal := by
  intro m ρ m' ρ' hpre hagree
  refine ⟨_, ?kernel, Cert.ReferenceIdeal.Value.run (F := Ideal) m' ρ'⟩
  refine (θ_run Cert.KernelIdeal.defs _ _).mono (fun r h c => ⟨?_, ?_⟩) (Cert.KernelIdeal.Hand.run_main (F := Ideal) m ρ)
  · exact (h c _ (Cert.KernelIdeal.Hand.mem_uc Cert.KernelIdeal.main_v341 (by decide))).trans (value_eq m ρ m' hpre hagree c)
  · exact ⟨(h c _ (Cert.KernelIdeal.Hand.mem_uc Cert.KernelIdeal.main_arg0 (by decide))).trans (Cert.KernelIdeal.Hand.B21_arg m ρ c Cert.KernelIdeal.main_arg0 (by decide)),
      (h c _ (Cert.KernelIdeal.Hand.mem_uc Cert.KernelIdeal.main_arg1 (by decide))).trans (Cert.KernelIdeal.Hand.B21_arg m ρ c Cert.KernelIdeal.main_arg1 (by decide)),
      (h c _ (Cert.KernelIdeal.Hand.mem_uc Cert.KernelIdeal.main_arg2 (by decide))).trans (Cert.KernelIdeal.Hand.B21_arg m ρ c Cert.KernelIdeal.main_arg2 (by decide)),
      (h c _ (Cert.KernelIdeal.Hand.mem_uc Cert.KernelIdeal.main_arg3 (by decide))).trans (Cert.KernelIdeal.Hand.B21_arg m ρ c Cert.KernelIdeal.main_arg3 (by decide)),
      (h c _ (Cert.KernelIdeal.Hand.mem_uc Cert.KernelIdeal.main_arg4 (by decide))).trans (Cert.KernelIdeal.Hand.B21_arg m ρ c Cert.KernelIdeal.main_arg4 (by decide)),
      (h c _ (Cert.KernelIdeal.Hand.mem_uc Cert.KernelIdeal.main_arg5 (by decide))).trans (Cert.KernelIdeal.Hand.B21_arg m ρ c Cert.KernelIdeal.main_arg5 (by decide)),
      (h c _ (Cert.KernelIdeal.Hand.mem_uc Cert.KernelIdeal.main_arg6 (by decide))).trans (Cert.KernelIdeal.Hand.B21_arg m ρ c Cert.KernelIdeal.main_arg6 (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
